-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v10_1)) (v1 : (c : Dev Cert.KernelIdeal.nD) → Buf (Elt Ideal) ((c.tc : Thread Cert.KernelIdeal.nD Cert.KernelIdeal.τ).loc Cert.KernelIdeal.main_v14)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v10_1) = v0 c
          ∧ r.2.mem ((c.tc : Thread Cert.KernelIdeal.nD Cert.KernelIdeal.τ).loc Cert.KernelIdeal.main_v14) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v20) = v0 c
          ∧ r.2.mem ((c.tc : Thread Cert.ReferenceIdeal.nD Cert.ReferenceIdeal.τ).loc Cert.ReferenceIdeal.main_v26) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S16x64x64 : Shape := ⟨3, ![16, 64, 64]⟩
abbrev S4096x1024 : Shape := ⟨2, ![4096, 1024]⟩
abbrev S1024x3072 : Shape := ⟨2, ![1024, 3072]⟩
abbrev S3072 : Shape := ⟨1, ![3072]⟩
abbrev S1024x1024 : Shape := ⟨2, ![1024, 1024]⟩
abbrev S1024 : Shape := ⟨1, ![1024]⟩
abbrev S_ : Shape := ⟨0, ![]⟩

class Facts : Prop where
  bcast_S_S16x64x64 : S_.BroadcastsInDim S16x64x64 (![] : Fin 0 → Fin S16x64x64.rank)
  reducesTo_S16x64x64_S_d0_1_2 : S16x64x64.ReducesTo [0, 1, 2] S_
  h_S_ : 0 < S_.numel
  bcast_S_S4096x1024 : S_.BroadcastsInDim S4096x1024 (![] : Fin 0 → Fin S4096x1024.rank)
  reducesTo_S4096x1024_S_d0_1 : S4096x1024.ReducesTo [0, 1] S_
  bcast_S_S1024x3072 : S_.BroadcastsInDim S1024x3072 (![] : Fin 0 → Fin S1024x3072.rank)
  reducesTo_S1024x3072_S_d0_1 : S1024x3072.ReducesTo [0, 1] S_
  bcast_S_S3072 : S_.BroadcastsInDim S3072 (![] : Fin 0 → Fin S3072.rank)
  reducesTo_S3072_S_d0 : S3072.ReducesTo [0] S_
  bcast_S_S1024x1024 : S_.BroadcastsInDim S1024x1024 (![] : Fin 0 → Fin S1024x1024.rank)
  reducesTo_S1024x1024_S_d0_1 : S1024x1024.ReducesTo [0, 1] S_
  bcast_S_S1024 : S_.BroadcastsInDim S1024 (![] : Fin 0 → Fin S1024.rank)
  reducesTo_S1024_S_d0 : S1024.ReducesTo [0] S_

variable [Facts]

def fn_part1 {F : FTy → Type} [FloatOps F] (main_arg4 : FVec F S1024x1024 .f32) (main_arg5 : FVec F S1024 .f32) (main_v13 : IVec S_ 1) (main_v16 : IVec S3072 1) : IVec S_ 1 :=
  let main_c_5 : IVec S_ 1 := constantI S_ 1 1#1
  let main_v17 : IVec S_ 1 := (fun x v => Host.reduce IntOp.andi x v reducesTo_S3072_S_d0 h_S_) main_v16 main_c_5
  let main_v18 : IVec S_ 1 := andi main_v13 main_v17
  let main_v19 : FVec F S1024x1024 .f32 := Host.absf main_arg4
  let main_cst_6 : FVec F S_ .f32 := constant S_ .f32 0x7F800000#32
  let main_v20 : FVec F S1024x1024 .f32 := broadcastInDim S1024x1024 ![] bcast_S_S1024x1024 main_cst_6
  let main_v21 : IVec S1024x1024 1 := cmpf .olt main_v19 main_v20
  let main_c_7 : IVec S_ 1 := constantI S_ 1 1#1
  let main_v22 : IVec S_ 1 := (fun x v => Host.reduce IntOp.andi x v reducesTo_S1024x1024_S_d0_1 h_S_) main_v21 main_c_7
  let main_v23 : IVec S_ 1 := andi main_v18 main_v22
  let main_v24 : FVec F S1024 .f32 := Host.absf main_arg5
  let main_cst_8 : FVec F S_ .f32 := constant S_ .f32 0x7F800000#32
  let main_v25 : FVec F S1024 .f32 := broadcastInDim S1024 ![] bcast_S_S1024 main_cst_8
  let main_v26 : IVec S1024 1 := cmpf .olt main_v24 main_v25
  let main_c_9 : IVec S_ 1 := constantI S_ 1 1#1
  let main_v27 : IVec S_ 1 := (fun x v => Host.reduce IntOp.andi x v reducesTo_S1024_S_d0 h_S_) main_v26 main_c_9
  let main_v28 : IVec S_ 1 := andi main_v23 main_v27
  main_v28

def fn {F : FTy → Type} [FloatOps F] (main_arg0 : FVec F S16x64x64 .f32) (main_arg1 : FVec F S4096x1024 .f32) (main_arg2 : FVec F S1024x3072 .f32) (main_arg3 : FVec F S3072 .f32) (main_arg4 : FVec F S1024x1024 .f32) (main_arg5 : FVec F S1024 .f32) : IVec S_ 1 :=
  let main_v0 : FVec F S16x64x64 .f32 := Host.absf main_arg0
  let main_cst : FVec F S_ .f32 := constant S_ .f32 0x7F800000#32
  let main_v1 : FVec F S16x64x64 .f32 := broadcastInDim S16x64x64 ![] bcast_S_S16x64x64 main_cst
  let main_v2 : IVec S16x64x64 1 := cmpf .olt main_v0 main_v1
  let main_c : IVec S_ 1 := constantI S_ 1 1#1
  let main_v3 : IVec S_ 1 := (fun x v => Host.reduce IntOp.andi x v reducesTo_S16x64x64_S_d0_1_2 h_S_) main_v2 main_c
  let main_v4 : FVec F S4096x1024 .f32 := Host.absf main_arg1
  let main_cst_0 : FVec F S_ .f32 := constant S_ .f32 0x7F800000#32
  let main_v5 : FVec F S4096x1024 .f32 := broadcastInDim S4096x1024 ![] bcast_S_S4096x1024 main_cst_0
  let main_v6 : IVec S4096x1024 1 := cmpf .olt main_v4 main_v5
  let main_c_1 : IVec S_ 1 := constantI S_ 1 1#1
  let main_v7 : IVec S_ 1 := (fun x v => Host.reduce IntOp.andi x v reducesTo_S4096x1024_S_d0_1 h_S_) main_v6 main_c_1
  let main_v8 : IVec S_ 1 := andi main_v3 main_v7
  let main_v9 : FVec F S1024x3072 .f32 := Host.absf main_arg2
  let main_cst_2 : FVec F S_ .f32 := constant S_ .f32 0x7F800000#32
  let main_v10 : FVec F S1024x3072 .f32 := broadcastInDim S1024x3072 ![] bcast_S_S1024x3072 main_cst_2
  let main_v11 : IVec S1024x3072 1 := cmpf .olt main_v9 main_v10
  let main_c_3 : IVec S_ 1 := constantI S_ 1 1#1
  let main_v12 : IVec S_ 1 := (fun x v => Host.reduce IntOp.andi x v reducesTo_S1024x3072_S_d0_1 h_S_) main_v11 main_c_3
  let main_v13 : IVec S_ 1 := andi main_v8 main_v12
  let main_v14 : FVec F S3072 .f32 := Host.absf main_arg3
  let main_cst_4 : FVec F S_ .f32 := constant S_ .f32 0x7F800000#32
  let main_v15 : FVec F S3072 .f32 := broadcastInDim S3072 ![] bcast_S_S3072 main_cst_4
  let main_v16 : IVec S3072 1 := cmpf .olt main_v14 main_v15
  fn_part1 (F := F) main_arg4 main_arg5 main_v13 main_v16
-- ==== Kernel.lean ====
abbrev S16x64x64 : Shape := ⟨3, ![16, 64, 64]⟩
abbrev S4096x1024 : Shape := ⟨2, ![4096, 1024]⟩
abbrev S1024x3072 : Shape := ⟨2, ![1024, 3072]⟩
abbrev S3072 : Shape := ⟨1, ![3072]⟩
abbrev S1024x1024 : Shape := ⟨2, ![1024, 1024]⟩
abbrev S1024 : Shape := ⟨1, ![1024]⟩
abbrev S1x3072 : Shape := ⟨2, ![1, 3072]⟩
abbrev S4096x3072 : Shape := ⟨2, ![4096, 3072]⟩
abbrev S1x1024 : Shape := ⟨2, ![1, 1024]⟩
abbrev S4096x3x16x64 : Shape := ⟨4, ![4096, 3, 16, 64]⟩
abbrev S3x16x4096x64 : Shape := ⟨4, ![3, 16, 4096, 64]⟩
abbrev S1x16x4096x64 : Shape := ⟨4, ![1, 16, 4096, 64]⟩
abbrev S16x4096x64 : Shape := ⟨3, ![16, 4096, 64]⟩
abbrev S1x1024x64 : Shape := ⟨3, ![1, 1024, 64]⟩
abbrev S1x64x64 : Shape := ⟨3, ![1, 64, 64]⟩
abbrev S1024x64 : Shape := ⟨2, ![1024, 64]⟩
abbrev S64x64 : Shape := ⟨2, ![64, 64]⟩
abbrev S64x1024 : Shape := ⟨2, ![64, 1024]⟩
abbrev S4096x16x64 : Shape := ⟨3, ![4096, 16, 64]⟩

abbrev nBuf : Space → Nat
  | .hbm => 22
  | .vmem => 28
  | .smem => 0
  | _ => 0

abbrev bufTy : (tb : Table) → Fin (tcTables nBuf tb) → BufTy
  | .hbm, ⟨0, _⟩ => ⟨S16x64x64, .f32⟩
  | .hbm, ⟨1, _⟩ => ⟨S4096x1024, .f32⟩
  | .hbm, ⟨2, _⟩ => ⟨S1024x3072, .f32⟩
  | .hbm, ⟨3, _⟩ => ⟨S3072, .f32⟩
  | .hbm, ⟨4, _⟩ => ⟨S1024x1024, .f32⟩
  | .hbm, ⟨5, _⟩ => ⟨S1024, .f32⟩
  | .hbm, ⟨6, _⟩ => ⟨S1x3072, .f32⟩
  | .hbm, ⟨7, _⟩ => ⟨S4096x3072, .bf16⟩
  | .hbm, ⟨8, _⟩ => ⟨S4096x3x16x64, .bf16⟩
  | .hbm, ⟨9, _⟩ => ⟨S3x16x4096x64, .bf16⟩
  | .hbm, ⟨10, _⟩ => ⟨S1x16x4096x64, .bf16⟩
  | .hbm, ⟨11, _⟩ => ⟨S16x4096x64, .bf16⟩
  | .hbm, ⟨12, _⟩ => ⟨S1x16x4096x64, .bf16⟩
  | .hbm, ⟨13, _⟩ => ⟨S16x4096x64, .bf16⟩
  | .hbm, ⟨14, _⟩ => ⟨S1x16x4096x64, .bf16⟩
  | .hbm, ⟨15, _⟩ => ⟨S16x4096x64, .bf16⟩
  | .hbm, ⟨16, _⟩ => ⟨S16x4096x64, .f32⟩
  | .hbm, ⟨17, _⟩ => ⟨S16x64x64, .f32⟩
  | .hbm, ⟨18, _⟩ => ⟨S4096x16x64, .f32⟩
  | .hbm, ⟨19, _⟩ => ⟨S4096x1024, .f32⟩
  | .hbm, ⟨20, _⟩ => ⟨S1x1024, .f32⟩
  | .hbm, ⟨21, _⟩ => ⟨S4096x1024, .f32⟩
  | .local _ .vmem, ⟨0, _⟩ => ⟨S1024x1024, .f32⟩
  | .local _ .vmem, ⟨1, _⟩ => ⟨S1024x1024, .f32⟩
  | .local _ .vmem, ⟨2, _⟩ => ⟨S1024x1024, .f32⟩
  | .local _ .vmem, ⟨3, _⟩ => ⟨S1024x1024, .f32⟩
  | .local _ .vmem, ⟨4, _⟩ => ⟨S1x1024, .f32⟩
  | .local _ .vmem, ⟨5, _⟩ => ⟨S1x1024, .f32⟩
  | .local _ .vmem, ⟨6, _⟩ => ⟨S1024x1024, .bf16⟩
  | .local _ .vmem, ⟨7, _⟩ => ⟨S1024x1024, .bf16⟩
  | .local _ .vmem, ⟨8, _⟩ => ⟨S1x1024x64, .bf16⟩
  | .local _ .vmem, ⟨9, _⟩ => ⟨S1x1024x64, .bf16⟩
  | .local _ .vmem, ⟨10, _⟩ => ⟨S1x1024x64, .bf16⟩
  | .local _ .vmem, ⟨11, _⟩ => ⟨S1x1024x64, .bf16⟩
  | .local _ .vmem, ⟨12, _⟩ => ⟨S1x1024x64, .bf16⟩
  | .local _ .vmem, ⟨13, _⟩ => ⟨S1x1024x64, .bf16⟩
  | .local _ .vmem, ⟨14, _⟩ => ⟨S1x64x64, .f32⟩
  | .local _ .vmem, ⟨15, _⟩ => ⟨S1x64x64, .f32⟩
  | .local _ .vmem, ⟨16, _⟩ => ⟨S1x1024x64, .f32⟩
  | .local _ .vmem, ⟨17, _⟩ => ⟨S1x1024x64, .f32⟩
  | .local _ .vmem, ⟨18, _⟩ => ⟨S1x64x64, .f32⟩
  | .local _ .vmem, ⟨19, _⟩ => ⟨S1x64x64, .f32⟩
  | .local _ .vmem, ⟨20, _⟩ => ⟨S1024x64, .f32⟩
  | .local _ .vmem, ⟨21, _⟩ => ⟨S64x64, .f32⟩
  | .local _ .vmem, ⟨22, _⟩ => ⟨S1024x1024, .f32⟩
  | .local _ .vmem, ⟨23, _⟩ => ⟨S1024x1024, .f32⟩
  | .local _ .vmem, ⟨24, _⟩ => ⟨S1024x1024, .f32⟩
  | .local _ .vmem, ⟨25, _⟩ => ⟨S1x1024, .f32⟩
  | .local _ .vmem, ⟨26, _⟩ => ⟨S1024x1024, .f32⟩
  | .local _ .vmem, ⟨27, _⟩ => ⟨S1024x1024, .f32⟩
  | _, _ => ⟨S16x64x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | _, _ => false

abbrev semScoped : Fin 0 → Bool
  | ⟨_, h⟩ => absurd h (Nat.not_lt_zero _)

abbrev dmaSemScoped : Fin 26 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | _ => false

abbrev sig : RefSig :=
  ofTc nBuf bufTy 0 26 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10_0 : Ref sig .tc := ⟨.hbm, 16, rfl⟩
abbrev main_v10_1 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc1_stg0_0 : Ref sig .tc := ⟨.vmem, 8, rfl⟩
abbrev cc1_stg0_1 : Ref sig .tc := ⟨.vmem, 9, rfl⟩
abbrev cc1_stg1_0 : Ref sig .tc := ⟨.vmem, 10, rfl⟩
abbrev cc1_stg1_1 : Ref sig .tc := ⟨.vmem, 11, rfl⟩
abbrev cc1_stg2_0 : Ref sig .tc := ⟨.vmem, 12, rfl⟩
abbrev cc1_stg2_1 : Ref sig .tc := ⟨.vmem, 13, rfl⟩
abbrev cc1_stg3_0 : Ref sig .tc := ⟨.vmem, 14, rfl⟩
abbrev cc1_stg3_1 : Ref sig .tc := ⟨.vmem, 15, rfl⟩
abbrev cc1_stg4_0 : Ref sig .tc := ⟨.vmem, 16, rfl⟩
abbrev cc1_stg4_1 : Ref sig .tc := ⟨.vmem, 17, rfl⟩
abbrev cc1_stg5_0 : Ref sig .tc := ⟨.vmem, 18, rfl⟩
abbrev cc1_stg5_1 : Ref sig .tc := ⟨.vmem, 19, rfl⟩
abbrev cc1_scratch0 : Ref sig .tc := ⟨.vmem, 20, rfl⟩
abbrev cc1_scratch1 : Ref sig .tc := ⟨.vmem, 21, rfl⟩
abbrev cc2_stg0_0 : Ref sig .tc := ⟨.vmem, 22, rfl⟩
abbrev cc2_stg0_1 : Ref sig .tc := ⟨.vmem, 23, rfl⟩
abbrev cc2_stg1_0 : Ref sig .tc := ⟨.vmem, 24, rfl⟩
abbrev cc2_stg2_0 : Ref sig .tc := ⟨.vmem, 25, rfl⟩
abbrev cc2_stg3_0 : Ref sig .tc := ⟨.vmem, 26, rfl⟩
abbrev cc2_stg3_1 : Ref sig .tc := ⟨.vmem, 27, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc1_sem0_0 : DmaSem sig := 8
abbrev cc1_sem0_1 : DmaSem sig := 9
abbrev cc1_sem1_0 : DmaSem sig := 10
abbrev cc1_sem1_1 : DmaSem sig := 11
abbrev cc1_sem2_0 : DmaSem sig := 12
abbrev cc1_sem2_1 : DmaSem sig := 13
abbrev cc1_sem3_0 : DmaSem sig := 14
abbrev cc1_sem3_1 : DmaSem sig := 15
abbrev cc1_sem4_0 : DmaSem sig := 16
abbrev cc1_sem4_1 : DmaSem sig := 17
abbrev cc1_sem5_0 : DmaSem sig := 18
abbrev cc1_sem5_1 : DmaSem sig := 19
abbrev cc2_sem0_0 : DmaSem sig := 20
abbrev cc2_sem0_1 : DmaSem sig := 21
abbrev cc2_sem1_0 : DmaSem sig := 22
abbrev cc2_sem2_0 : DmaSem sig := 23
abbrev cc2_sem3_0 : DmaSem sig := 24
abbrev cc2_sem3_1 : DmaSem sig := 25

abbrev nD : Nat := 1
abbrev τ : Topo := Topo.v7x

variable {F : FTy → Type} [FloatOps F]

abbrev grid0 : Pipeline.Grid := ⟨2, ![4, 3], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1024x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S1024x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev grid1 : Pipeline.Grid := ⟨3, ![16, 4, 4], ![false, false, false]⟩

def k1_cond5 (i : grid1.Coords) : BitVec 1 :=
  let arg2 : BitVec 32 := BitVec.ofNat 32 (i 2).val
  let c3_i32 : BitVec 32 := 3#32
  let v14 : BitVec 1 := Scalar.cmpi .eq arg2 c3_i32
  let v15 : BitVec 32 := Scalar.extui v14
  let c0_i32_7 : BitVec 32 := 0#32
  let v16 : BitVec 1 := Scalar.cmpi .ne v15 c0_i32_7
  v16

def k1_cond6 (i : grid1.Coords) : BitVec 1 :=
  let arg1 : BitVec 32 := BitVec.ofNat 32 (i 1).val
  let c3_i32_8 : BitVec 32 := 3#32
  let v17 : BitVec 1 := Scalar.cmpi .eq arg1 c3_i32_8
  let arg2 : BitVec 32 := BitVec.ofNat 32 (i 2).val
  let c3_i32_9 : BitVec 32 := 3#32
  let v18 : BitVec 1 := Scalar.cmpi .eq arg2 c3_i32_9
  let v19 : BitVec 1 := Scalar.andi v17 v18
  let v20 : BitVec 32 := Scalar.extui v19
  let c0_i32_10 : BitVec 32 := 0#32
  let v21 : BitVec 1 := Scalar.cmpi .ne v20 c0_i32_10
  v21

def cc1_transform_0 (i : grid1.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, c0_i32.toNat]

def cc1_transform_1 (i : grid1.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg2.toNat, c0_i32.toNat]

def cc1_transform_2 (i : grid1.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg2.toNat, c0_i32.toNat]

def cc1_transform_3 (i : grid1.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, c0_i32.toNat, c0_i32_0.toNat]

def cc1_transform_4 (i : grid1.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, c0_i32.toNat]

def cc1_transform_5 (i : grid1.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, c0_i32.toNat, c0_i32_0.toNat]

abbrev stage1_0 : Fin 2 → Memref sig .tc .vmem S1x1024x64 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, true, false]

abbrev stage1_1 : Fin 2 → Memref sig .tc .vmem S1x1024x64 .bf16 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true, false, true]

abbrev stage1_2 : Fin 2 → Memref sig .tc .vmem S1x1024x64 .bf16 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, false, true]

abbrev stage1_3 : Fin 2 → Memref sig .tc .vmem S1x64x64 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true, false, false]

abbrev stage1_4 : Fin 2 → Memref sig .tc .vmem S1x1024x64 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true, true, false]

abbrev stage1_5 : Fin 2 → Memref sig .tc .vmem S1x64x64 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true, false, false]

abbrev grid2 : Pipeline.Grid := ⟨1, ![4], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S1024x1024 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S1024x1024 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 1 → Memref sig .tc .vmem S1x1024 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 2 → Memref sig .tc .vmem S1024x1024 .f32 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true]

class Facts₀ : Prop where
  shapeCasts_S3072_S1x3072 : S3072.ShapeCasts S1x3072
  inb_S1024x1024_S1024x1024_0_0 : ∀ a, (![0, 0] : Fin 2 → Nat) a + S1024x1024.size a ≤ S1024x1024.size a
  h_S1024x1024 : 0 < S1024x1024.numel
  bitsLt_bf16_f32 : FTy.bits .bf16 < FTy.bits .f32
  inb_S1x1024_S1x1024_0_0 : ∀ a, (![0, 0] : Fin 2 → Nat) a + S1x1024.size a ≤ S1x1024.size a
  h_S1x1024 : 0 < S1x1024.numel
  shapeCasts_S1x1024_S1x1024 : S1x1024.ShapeCasts S1x1024
  broadcasts_S1x1024_S1024x1024 : S1x1024.Broadcasts S1024x1024
  packedbf16_S1024x1024_S1024x1024_0_0 : (Rect.unit (s := S1024x1024) ![0, 0] S1024x1024.size inb_S1024x1024_S1024x1024_0_0).PackedRows (EltTy.packing .bf16)
  shapeCasts_S4096x3072_S4096x3x16x64 : S4096x3072.ShapeCasts S4096x3x16x64
  transposes_S4096x3x16x64_S3x16x4096x64_1_2_0_3 : S4096x3x16x64.Transposes [1, 2, 0, 3] S3x16x4096x64
  slices_S3x16x4096x64_S1x16x4096x64_0_0_0_0 : S3x16x4096x64.Slices ![0, 0, 0, 0] S1x16x4096x64
  shapeCasts_S1x16x4096x64_S16x4096x64 : S1x16x4096x64.ShapeCasts S16x4096x64
  slices_S3x16x4096x64_S1x16x4096x64_1_0_0_0 : S3x16x4096x64.Slices ![1, 0, 0, 0] S1x16x4096x64
  slices_S3x16x4096x64_S1x16x4096x64_2_0_0_0 : S3x16x4096x64.Slices ![2, 0, 0, 0] S1x16x4096x64
  inb_S1x64x64_S1x64x64_0_0_0 : ∀ a, (![0, 0, 0] : Fin 3 → Nat) a + S1x64x64.size a ≤ S1x64x64.size a
  h_S1x64x64 : 0 < S1x64x64.numel
  shapeCasts_S1x64x64_S64x64 : S1x64x64.ShapeCasts S64x64
  inb_S64x64_S64x64_0_0 : ∀ a, (![0, 0] : Fin 2 → Nat) a + S64x64.size a ≤ S64x64.size a
  h_S64x64 : 0 < S64x64.numel
  shapeCasts_S64x64_S64x64 : S64x64.ShapeCasts S64x64
  inb_S1x1024x64_S1x1024x64_0_0_0 : ∀ a, (![0, 0, 0] : Fin 3 → Nat) a + S1x1024x64.size a ≤ S1x1024x64.size a
  h_S1x1024x64 : 0 < S1x1024x64.numel
  shapeCasts_S1x1024x64_S1024x64 : S1x1024x64.ShapeCasts S1024x64
  inb_S1024x64_S1024x64_0_0 : ∀ a, (![0, 0] : Fin 2 → Nat) a + S1024x64.size a ≤ S1024x64.size a
  h_S1024x64 : 0 < S1024x64.numel
  shapeCasts_S1024x64_S1024x64 : S1024x64.ShapeCasts S1024x64
  transposes_S1024x64_p1_0_S64x1024 : S1024x64.Transposes [1, 0] S64x1024
  iota_S1024x1024_d0_w32 : S1024x1024.Iotas .tc 32 [0]
  iota_S1024x1024_d1_w32 : S1024x1024.Iotas .tc 32 [1]
  shapeCasts_S1024x64_S1x1024x64 : S1024x64.ShapeCasts S1x1024x64
  shapeCasts_S64x64_S1x64x64 : S64x64.ShapeCasts S1x64x64
  transposes_S16x4096x64_S4096x16x64_1_0_2 : S16x4096x64.Transposes [1, 0, 2] S4096x16x64
  shapeCasts_S4096x16x64_S4096x1024 : S4096x16x64.ShapeCasts S4096x1024
  shapeCasts_S1024_S1x1024 : S1024.ShapeCasts S1x1024
  shapeCasts_S1024x1024_S1024x1024 : S1024x1024.ShapeCasts S1024x1024
  dot_S1024x1024_S1024x1024_S1024x1024_1_0_0_1_n_n_wf : DotDims.WF S1024x1024 S1024x1024 S1024x1024 [1] [0] [0] [1] [] []
  dot_S1024x64_S64x64_S1024x64_1_0_0_1_n_n_wf : DotDims.WF S1024x64 S64x64 S1024x64 [1] [0] [0] [1] [] []
  dot_S1024x64_S64x1024_S1024x1024_1_0_0_1_n_n_wf : DotDims.WF S1024x64 S64x1024 S1024x1024 [1] [0] [0] [1] [] []
  dot_S1024x1024_S1024x64_S1024x64_1_0_0_1_n_n_wf : DotDims.WF S1024x1024 S1024x64 S1024x64 [1] [0] [0] [1] [] []
  dot_S64x1024_S1024x64_S64x64_1_0_0_1_n_n_wf : DotDims.WF S64x1024 S1024x64 S64x64 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x1024.size a ≤ S4096x1024.size a
  hwx0_0 : ∀ i : grid0.Coords, EltTy.bits .f32 = 32 ∨ (Rect.block (s := S4096x1024) S1024x1024.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1024x1024.size a ≤ S1024x3072.size a
  hwx0_1 : ∀ i : grid0.Coords, EltTy.bits .f32 = 32 ∨ (Rect.block (s := S1024x3072) S1024x1024.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x1024.size a ≤ S1x3072.size a
  hwx0_2 : ∀ i : grid0.Coords, EltTy.bits .f32 = 32 ∨ (Rect.block (s := S1x3072) S1x1024.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1024x1024.size a ≤ S4096x3072.size a
  hwx0_3 : ∀ i : grid0.Coords, EltTy.bits .bf16 = 32 ∨ (Rect.block (s := S4096x3072) S1024x1024.size (cc0_transform_3 i) (hinb0_3 i)).WholeWords (EltTy.packing .bf16)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S1x1024x64.size a ≤ S16x4096x64.size a
  hwx1_0 : ∀ i : grid1.Coords, EltTy.bits .bf16 = 32 ∨ (Rect.block (s := S16x4096x64) S1x1024x64.size (cc1_transform_0 i) (hinb1_0 i)).WholeWords (EltTy.packing .bf16)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S1x1024x64.size a ≤ S16x4096x64.size a
  hwx1_1 : ∀ i : grid1.Coords, EltTy.bits .bf16 = 32 ∨ (Rect.block (s := S16x4096x64) S1x1024x64.size (cc1_transform_1 i) (hinb1_1 i)).WholeWords (EltTy.packing .bf16)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S1x1024x64.size a ≤ S16x4096x64.size a
  hwx1_2 : ∀ i : grid1.Coords, EltTy.bits .bf16 = 32 ∨ (Rect.block (s := S16x4096x64) S1x1024x64.size (cc1_transform_2 i) (hinb1_2 i)).WholeWords (EltTy.packing .bf16)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S1x64x64.size a ≤ S16x64x64.size a
  hwx1_3 : ∀ i : grid1.Coords, EltTy.bits .f32 = 32 ∨ (Rect.block (s := S16x64x64) S1x64x64.size (cc1_transform_3 i) (hinb1_3 i)).WholeWords (EltTy.packing .f32)
  hstage1_4 : ∀ j, (stage1_4 j).IsWhole
  nbuf1_4 : grid1.bufCount reads1_4 false = 2
  hreads1_4 : ∀ i i' : grid1.Coords, (∀ a, reads1_4 a = true → i a = i' a) → cc1_transform_4 i = cc1_transform_4 i'
  hinb1_4 : ∀ (i : grid1.Coords) a, (cc1_transform_4 i a + 1) * S1x1024x64.size a ≤ S16x4096x64.size a
  hwx1_4 : ∀ i : grid1.Coords, EltTy.bits .f32 = 32 ∨ (Rect.block (s := S16x4096x64) S1x1024x64.size (cc1_transform_4 i) (hinb1_4 i)).WholeWords (EltTy.packing .f32)
  hstage1_5 : ∀ j, (stage1_5 j).IsWhole
  nbuf1_5 : grid1.bufCount reads1_5 false = 2
  hreads1_5 : ∀ i i' : grid1.Coords, (∀ a, reads1_5 a = true → i a = i' a) → cc1_transform_5 i = cc1_transform_5 i'
  hinb1_5 : ∀ (i : grid1.Coords) a, (cc1_transform_5 i a + 1) * S1x64x64.size a ≤ S16x64x64.size a
  hwx1_5 : ∀ i : grid1.Coords, EltTy.bits .f32 = 32 ∨ (Rect.block (s := S16x64x64) S1x64x64.size (cc1_transform_5 i) (hinb1_5 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S1024x1024.size a ≤ S4096x1024.size a
  hwx2_0 : ∀ i : grid2.Coords, EltTy.bits .f32 = 32 ∨ (Rect.block (s := S4096x1024) S1024x1024.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S1024x1024.size a ≤ S1024x1024.size a
  hwx2_1 : ∀ i : grid2.Coords, EltTy.bits .f32 = 32 ∨ (Rect.block (s := S1024x1024) S1024x1024.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S1x1024.size a ≤ S1x1024.size a
  hwx2_2 : ∀ i : grid2.Coords, EltTy.bits .f32 = 32 ∨ (Rect.block (s := S1x1024) S1x1024.size (cc2_transform_2 i) (hinb2_2 i)).WholeWords (EltTy.packing .f32)
  hstage2_3 : ∀ j, (stage2_3 j).IsWhole
  nbuf2_3 : grid2.bufCount reads2_3 false = 2
  hreads2_3 : ∀ i i' : grid2.Coords, (∀ a, reads2_3 a = true → i a = i' a) → cc2_transform_3 i = cc2_transform_3 i'
  hinb2_3 : ∀ (i : grid2.Coords) a, (cc2_transform_3 i a + 1) * S1024x1024.size a ≤ S4096x1024.size a
  hwx2_3 : ∀ i : grid2.Coords, EltTy.bits .f32 = 32 ∨ (Rect.block (s := S4096x1024) S1024x1024.size (cc2_transform_3 i) (hinb2_3 i)).WholeWords (EltTy.packing .f32)

variable [Facts₀]

def dot_S1024x1024_S1024x1024_S1024x1024_1_0_0_1_n_n : DotDims S1024x1024 S1024x1024 S1024x1024 where
  lhsContracting := [1]
  rhsContracting := [0]
  lhsNonContracting := [0]
  rhsNonContracting := [1]
  lhsBatch := []
  rhsBatch := []
  wf := dot_S1024x1024_S1024x1024_S1024x1024_1_0_0_1_n_n_wf
def dot_S1024x64_S64x64_S1024x64_1_0_0_1_n_n : DotDims S1024x64 S64x64 S1024x64 where
  lhsContracting := [1]
  rhsContracting := [0]
  lhsNonContracting := [0]
  rhsNonContracting := [1]
  lhsBatch := []
  rhsBatch := []
  wf := dot_S1024x64_S64x64_S1024x64_1_0_0_1_n_n_wf
def dot_S1024x64_S64x1024_S1024x1024_1_0_0_1_n_n : DotDims S1024x64 S64x1024 S1024x1024 where
  lhsContracting := [1]
  rhsContracting := [0]
  lhsNonContracting := [0]
  rhsNonContracting := [1]
  lhsBatch := []
  rhsBatch := []
  wf := dot_S1024x64_S64x1024_S1024x1024_1_0_0_1_n_n_wf
def dot_S1024x1024_S1024x64_S1024x64_1_0_0_1_n_n : DotDims S1024x1024 S1024x64 S1024x64 where
  lhsContracting := [1]
  rhsContracting := [0]
  lhsNonContracting := [0]
  rhsNonContracting := [1]
  lhsBatch := []
  rhsBatch := []
  wf := dot_S1024x1024_S1024x64_S1024x64_1_0_0_1_n_n_wf
def dot_S64x1024_S1024x64_S64x64_1_0_0_1_n_n : DotDims S64x1024 S1024x64 S64x64 where
  lhsContracting := [1]
  rhsContracting := [0]
  lhsNonContracting := [0]
  rhsNonContracting := [1]
  lhsBatch := []
  rhsBatch := []
  wf := dot_S64x1024_S1024x64_S64x64_1_0_0_1_n_n_wf

abbrev win0_0 : Pipeline.Window sig grid0 :=
  Pipeline.Window.ofSpec (Memref.whole main_arg1) S1024x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S1024x1024.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v0) S1x1024.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v1) S1024x1024.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev win1_0 : Pipeline.Window sig grid1 :=
  Pipeline.Window.ofSpec (Memref.whole main_v5) S1x1024x64.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v7) S1x1024x64.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v9) S1x1024x64.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_arg0) S1x64x64.size cc1_transform_3 reads1_3 false false 2 stage1_3 sem1_3
    hrank1 hreads1_3 hinb1_3 nbuf1_3 (Memref.isWhole_whole _) hwx1_3 hstage1_3

abbrev win1_4 : Pipeline.Window sig grid1 :=
  Pipeline.Window.ofSpec (Memref.whole main_v10_0) S1x1024x64.size cc1_transform_4 reads1_4 true false 2 stage1_4 sem1_4
    hrank1 hreads1_4 hinb1_4 nbuf1_4 (Memref.isWhole_whole _) hwx1_4 hstage1_4

abbrev win1_5 : Pipeline.Window sig grid1 :=
  Pipeline.Window.ofSpec (Memref.whole main_v10_1) S1x64x64.size cc1_transform_5 reads1_5 true false 2 stage1_5 sem1_5
    hrank1 hreads1_5 hinb1_5 nbuf1_5 (Memref.isWhole_whole _) hwx1_5 hstage1_5

abbrev win1 : Fin 6 → Pipeline.Window sig grid1 := fun | 0 => win1_0 | 1 => win1_1 | 2 => win1_2 | 3 => win1_3 | 4 => win1_4 | 5 => win1_5 | ⟨_ + 6, h⟩ => absurd h (Nat.not_lt.2 (Nat.le_add_left _ _))
abbrev spec1 : Fin 6 → Pipeline.WinSpec sig grid1.rank := fun w => (win1 w).toWinSpec

abbrev idle1 : Fin 6 → grid1.Coords → Bool := fun | 0 => fun _ => false | 1 => fun _ => false | 2 => fun _ => false | 3 => fun _ => false | 4 => fun i => !(k1_cond5 i == 1#1) | 5 => fun i => !(k1_cond6 i == 1#1) | ⟨_ + 6, h⟩ => absurd h (Nat.not_lt.2 (Nat.le_add_left _ _))

abbrev win2_0 : Pipeline.Window sig grid2 :=
  Pipeline.Window.ofSpec (Memref.whole main_v12) S1024x1024.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_arg4) S1024x1024.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v13) S1x1024.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v14) S1024x1024.size cc2_transform_3 reads2_3 true false 2 stage2_3 sem2_3
    hrank2 hreads2_3 hinb2_3 nbuf2_3 (Memref.isWhole_whole _) hwx2_3 hstage2_3

abbrev win2 : Fin 4 → Pipeline.Window sig grid2 := fun | 0 => win2_0 | 1 => win2_1 | 2 => win2_2 | 3 => win2_3 | ⟨_ + 4, h⟩ => absurd h (Nat.not_lt.2 (Nat.le_add_left _ _))
abbrev spec2 : Fin 4 → Pipeline.WinSpec sig grid2.rank := fun w => (win2 w).toWinSpec

class Facts : Prop extends Facts₀ where

variable [Facts]
-- ==== ReferenceIdeal.lean ====
abbrev S16x64x64 : Shape := ⟨3, ![16, 64, 64]⟩
abbrev S4096x1024 : Shape := ⟨2, ![4096, 1024]⟩
abbrev S1024x3072 : Shape := ⟨2, ![1024, 3072]⟩
abbrev S3072 : Shape := ⟨1, ![3072]⟩
abbrev S1024x1024 : Shape := ⟨2, ![1024, 1024]⟩
abbrev S1024 : Shape := ⟨1, ![1024]⟩
abbrev S4096x3072 : Shape := ⟨2, ![4096, 3072]⟩
abbrev S1x3072 : Shape := ⟨2, ![1, 3072]⟩
abbrev S4096x3x16x64 : Shape := ⟨4, ![4096, 3, 16, 64]⟩
abbrev S3x16x4096x64 : Shape := ⟨4, ![3, 16, 4096, 64]⟩
abbrev S1x16x4096x64 : Shape := ⟨4, ![1, 16, 4096, 64]⟩
abbrev S16x4096x64 : Shape := ⟨3, ![16, 4096, 64]⟩
abbrev S_ : Shape := ⟨0, ![]⟩
abbrev S4096x4096 : Shape := ⟨2, ![4096, 4096]⟩
abbrev S16x4096x4096 : Shape := ⟨3, ![16, 4096, 4096]⟩
abbrev S4096x16x64 : Shape := ⟨3, ![4096, 16, 64]⟩
abbrev S1x1024 : Shape := ⟨2, ![1, 1024]⟩

abbrev nBuf : Space → Nat
  | .hbm => 46
  | .vmem => 0
  | .smem => 0
  | _ => 0

abbrev bufTy : (tb : Table) → Fin (tcTables nBuf tb) → BufTy
  | .hbm, ⟨0, _⟩ => ⟨S16x64x64, .f32⟩
  | .hbm, ⟨1, _⟩ => ⟨S4096x1024, .f32⟩
  | .hbm, ⟨2, _⟩ => ⟨S1024x3072, .f32⟩
  | .hbm, ⟨3, _⟩ => ⟨S3072, .f32⟩
  | .hbm, ⟨4, _⟩ => ⟨S1024x1024, .f32⟩
  | .hbm, ⟨5, _⟩ => ⟨S1024, .f32⟩
  | .hbm, ⟨6, _⟩ => ⟨S4096x3072, .f32⟩
  | .hbm, ⟨7, _⟩ => ⟨S1x3072, .f32⟩
  | .hbm, ⟨8, _⟩ => ⟨S4096x3072, .f32⟩
  | .hbm, ⟨9, _⟩ => ⟨S4096x3072, .f32⟩
  | .hbm, ⟨10, _⟩ => ⟨S4096x3x16x64, .f32⟩
  | .hbm, ⟨11, _⟩ => ⟨S3x16x4096x64, .f32⟩
  | .hbm, ⟨12, _⟩ => ⟨S1x16x4096x64, .f32⟩
  | .hbm, ⟨13, _⟩ => ⟨S16x4096x64, .f32⟩
  | .hbm, ⟨14, _⟩ => ⟨S1x16x4096x64, .f32⟩
  | .hbm, ⟨15, _⟩ => ⟨S16x4096x64, .f32⟩
  | .hbm, ⟨16, _⟩ => ⟨S1x16x4096x64, .f32⟩
  | .hbm, ⟨17, _⟩ => ⟨S16x4096x64, .f32⟩
  | .hbm, ⟨18, _⟩ => ⟨S_, .i1⟩
  | .hbm, ⟨19, _⟩ => ⟨S4096x4096, .i1⟩
  | .hbm, ⟨20, _⟩ => ⟨S4096x4096, .i32⟩
  | .hbm, ⟨21, _⟩ => ⟨S_, .i32⟩
  | .hbm, ⟨22, _⟩ => ⟨S4096x4096, .i32⟩
  | .hbm, ⟨23, _⟩ => ⟨S4096x4096, .i32⟩
  | .hbm, ⟨24, _⟩ => ⟨S4096x4096, .i32⟩
  | .hbm, ⟨25, _⟩ => ⟨S4096x4096, .i1⟩
  | .hbm, ⟨26, _⟩ => ⟨S_, .i1⟩
  | .hbm, ⟨27, _⟩ => ⟨S4096x4096, .i1⟩
  | .hbm, ⟨28, _⟩ => ⟨S4096x4096, .i1⟩
  | .hbm, ⟨29, _⟩ => ⟨S16x4096x4096, .f32⟩
  | .hbm, ⟨30, _⟩ => ⟨S_, .f32⟩
  | .hbm, ⟨31, _⟩ => ⟨S_, .f32⟩
  | .hbm, ⟨32, _⟩ => ⟨S16x4096x4096, .i1⟩
  | .hbm, ⟨33, _⟩ => ⟨S16x4096x4096, .f32⟩
  | .hbm, ⟨34, _⟩ => ⟨S16x4096x4096, .f32⟩
  | .hbm, ⟨35, _⟩ => ⟨S16x4096x64, .f32⟩
  | .hbm, ⟨36, _⟩ => ⟨S16x4096x64, .f32⟩
  | .hbm, ⟨37, _⟩ => ⟨S16x4096x64, .f32⟩
  | .hbm, ⟨38, _⟩ => ⟨S16x64x64, .f32⟩
  | .hbm, ⟨39, _⟩ => ⟨S16x64x64, .f32⟩
  | .hbm, ⟨40, _⟩ => ⟨S4096x16x64, .f32⟩
  | .hbm, ⟨41, _⟩ => ⟨S4096x1024, .f32⟩
  | .hbm, ⟨42, _⟩ => ⟨S4096x1024, .f32⟩
  | .hbm, ⟨43, _⟩ => ⟨S1x1024, .f32⟩
  | .hbm, ⟨44, _⟩ => ⟨S4096x1024, .f32⟩
  | .hbm, ⟨45, _⟩ => ⟨S4096x1024, .f32⟩
  | _, _ => ⟨S16x64x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_c : Ref sig .tc := ⟨.hbm, 18, rfl⟩
abbrev main_v12 : Ref sig .tc := ⟨.hbm, 19, rfl⟩
abbrev main_call0_v0 : Ref sig .tc := ⟨.hbm, 20, rfl⟩
abbrev main_call0_c : Ref sig .tc := ⟨.hbm, 21, rfl⟩
abbrev main_call0_v1 : Ref sig .tc := ⟨.hbm, 22, rfl⟩
abbrev main_call0_v2 : Ref sig .tc := ⟨.hbm, 23, rfl⟩
abbrev main_call0_v3 : Ref sig .tc := ⟨.hbm, 24, rfl⟩
abbrev main_call0_v4 : Ref sig .tc := ⟨.hbm, 25, rfl⟩
abbrev main_call0_c_0 : Ref sig .tc := ⟨.hbm, 26, rfl⟩
abbrev main_call0_v5 : Ref sig .tc := ⟨.hbm, 27, rfl⟩
abbrev main_v13 : Ref sig .tc := ⟨.hbm, 28, rfl⟩
abbrev main_v14 : Ref sig .tc := ⟨.hbm, 29, rfl⟩
abbrev main_cst : Ref sig .tc := ⟨.hbm, 30, rfl⟩
abbrev main_call1_v0 : Ref sig .tc := ⟨.hbm, 31, rfl⟩
abbrev main_call1_v1 : Ref sig .tc := ⟨.hbm, 32, rfl⟩
abbrev main_call1_v2 : Ref sig .tc := ⟨.hbm, 33, rfl⟩
abbrev main_v15 : Ref sig .tc := ⟨.hbm, 34, rfl⟩
abbrev main_v16 : Ref sig .tc := ⟨.hbm, 35, rfl⟩
abbrev main_v17 : Ref sig .tc := ⟨.hbm, 36, rfl⟩
abbrev main_v18 : Ref sig .tc := ⟨.hbm, 37, rfl⟩
abbrev main_v19 : Ref sig .tc := ⟨.hbm, 38, rfl⟩
abbrev main_v20 : Ref sig .tc := ⟨.hbm, 39, rfl⟩
abbrev main_v21 : Ref sig .tc := ⟨.hbm, 40, rfl⟩
abbrev main_v22 : Ref sig .tc := ⟨.hbm, 41, rfl⟩
abbrev main_v23 : Ref sig .tc := ⟨.hbm, 42, rfl⟩
abbrev main_v24 : Ref sig .tc := ⟨.hbm, 43, rfl⟩
abbrev main_v25 : Ref sig .tc := ⟨.hbm, 44, rfl⟩
abbrev main_v26 : Ref sig .tc := ⟨.hbm, 45, rfl⟩

abbrev nD : Nat := 1
abbrev τ : Topo := Topo.v7x

variable {F : FTy → Type} [FloatOps F]

class Facts₀ : Prop where
  bcast_S3072_S1x3072_1 : S3072.BroadcastsInDim S1x3072 (![1] : Fin 1 → Fin S1x3072.rank)
  bcast_S1x3072_S4096x3072_0_1 : S1x3072.BroadcastsInDim S4096x3072 (![0, 1] : Fin 2 → Fin S4096x3072.rank)
  shapeCasts_S4096x3072_S4096x3x16x64 : S4096x3072.ShapeCasts S4096x3x16x64
  transposes_S4096x3x16x64_S3x16x4096x64_1_2_0_3 : S4096x3x16x64.Transposes [1, 2, 0, 3] S3x16x4096x64
  slices_S3x16x4096x64_S1x16x4096x64_0_0_0_0 : S3x16x4096x64.Slices ![0, 0, 0, 0] S1x16x4096x64
  shapeCasts_S1x16x4096x64_S16x4096x64 : S1x16x4096x64.ShapeCasts S16x4096x64
  slices_S3x16x4096x64_S1x16x4096x64_1_0_0_0 : S3x16x4096x64.Slices ![1, 0, 0, 0] S1x16x4096x64
  slices_S3x16x4096x64_S1x16x4096x64_2_0_0_0 : S3x16x4096x64.Slices ![2, 0, 0, 0] S1x16x4096x64
  bcast_S_S4096x4096 : S_.BroadcastsInDim S4096x4096 (![] : Fin 0 → Fin S4096x4096.rank)
  bcast_S4096x4096_S16x4096x4096_1_2 : S4096x4096.BroadcastsInDim S16x4096x4096 (![1, 2] : Fin 2 → Fin S16x4096x4096.rank)
  bcast_S_S16x4096x4096 : S_.BroadcastsInDim S16x4096x4096 (![] : Fin 0 → Fin S16x4096x4096.rank)
  transposes_S16x4096x64_S4096x16x64_1_0_2 : S16x4096x64.Transposes [1, 0, 2] S4096x16x64
  shapeCasts_S4096x16x64_S4096x1024 : S4096x16x64.ShapeCasts S4096x1024
  bcast_S1024_S1x1024_1 : S1024.BroadcastsInDim S1x1024 (![1] : Fin 1 → Fin S1x1024.rank)
  bcast_S1x1024_S4096x1024_0_1 : S1x1024.BroadcastsInDim S4096x1024 (![0, 1] : Fin 2 → Fin S4096x1024.rank)
  dot_S4096x1024_S1024x3072_S4096x3072_1_0_0_1_n_n_wf : DotDims.WF S4096x1024 S1024x3072 S4096x3072 [1] [0] [0] [1] [] []
  dot_S16x4096x64_S16x4096x64_S16x4096x4096_2_2_1_1_0_0_wf : DotDims.WF S16x4096x64 S16x4096x64 S16x4096x4096 [2] [2] [1] [1] [0] [0]
  dot_S16x4096x4096_S16x4096x64_S16x4096x64_2_1_1_2_0_0_wf : DotDims.WF S16x4096x4096 S16x4096x64 S16x4096x64 [2] [1] [1] [2] [0] [0]
  dot_S16x4096x64_S16x64x64_S16x4096x64_2_1_1_2_0_0_wf : DotDims.WF S16x4096x64 S16x64x64 S16x4096x64 [2] [1] [1] [2] [0] [0]
  dot_S16x4096x64_S16x4096x64_S16x64x64_1_1_2_2_0_0_wf : DotDims.WF S16x4096x64 S16x4096x64 S16x64x64 [1] [1] [2] [2] [0] [0]
  dot_S4096x1024_S1024x1024_S4096x1024_1_0_0_1_n_n_wf : DotDims.WF S4096x1024 S1024x1024 S4096x1024 [1] [0] [0] [1] [] []

variable [Facts₀]

def dot_S4096x1024_S1024x3072_S4096x3072_1_0_0_1_n_n : DotDims S4096x1024 S1024x3072 S4096x3072 where
  lhsContracting := [1]
  rhsContracting := [0]
  lhsNonContracting := [0]
  rhsNonContracting := [1]
  lhsBatch := []
  rhsBatch := []
  wf := dot_S4096x1024_S1024x3072_S4096x3072_1_0_0_1_n_n_wf
def dot_S16x4096x64_S16x4096x64_S16x4096x4096_2_2_1_1_0_0 : DotDims S16x4096x64 S16x4096x64 S16x4096x4096 where
  lhsContracting := [2]
  rhsContracting := [2]
  lhsNonContracting := [1]
  rhsNonContracting := [1]
  lhsBatch := [0]
  rhsBatch := [0]
  wf := dot_S16x4096x64_S16x4096x64_S16x4096x4096_2_2_1_1_0_0_wf
def dot_S16x4096x4096_S16x4096x64_S16x4096x64_2_1_1_2_0_0 : DotDims S16x4096x4096 S16x4096x64 S16x4096x64 where
  lhsContracting := [2]
  rhsContracting := [1]
  lhsNonContracting := [1]
  rhsNonContracting := [2]
  lhsBatch := [0]
  rhsBatch := [0]
  wf := dot_S16x4096x4096_S16x4096x64_S16x4096x64_2_1_1_2_0_0_wf
def dot_S16x4096x64_S16x64x64_S16x4096x64_2_1_1_2_0_0 : DotDims S16x4096x64 S16x64x64 S16x4096x64 where
  lhsContracting := [2]
  rhsContracting := [1]
  lhsNonContracting := [1]
  rhsNonContracting := [2]
  lhsBatch := [0]
  rhsBatch := [0]
  wf := dot_S16x4096x64_S16x64x64_S16x4096x64_2_1_1_2_0_0_wf
def dot_S16x4096x64_S16x4096x64_S16x64x64_1_1_2_2_0_0 : DotDims S16x4096x64 S16x4096x64 S16x64x64 where
  lhsContracting := [1]
  rhsContracting := [1]
  lhsNonContracting := [2]
  rhsNonContracting := [2]
  lhsBatch := [0]
  rhsBatch := [0]
  wf := dot_S16x4096x64_S16x4096x64_S16x64x64_1_1_2_2_0_0_wf
def dot_S4096x1024_S1024x1024_S4096x1024_1_0_0_1_n_n : DotDims S4096x1024 S1024x1024 S4096x1024 where
  lhsContracting := [1]
  rhsContracting := [0]
  lhsNonContracting := [0]
  rhsNonContracting := [1]
  lhsBatch := []
  rhsBatch := []
  wf := dot_S4096x1024_S1024x1024_S4096x1024_1_0_0_1_n_n_wf

class Facts : Prop extends Facts₀ where

variable [Facts]
-- ==== Proof.Bits.RegionQkv.lean ====
/-
  The projection region (the first kernel launch): one grid point multiplies a 1024-row block of the activations by a
  1024-column block of the weights and adds that block of the bias. This module states what every window's staging
  buffer holds after the body at a point, as proof data over the contents the region is entered with.
-/
import proofs.«151280_j41747082117805_1_alg».proof.Proof.Gen.Kernel.Launch
import proofs.«151280_j41747082117805_1_alg».proof.Proof.Gen.Kernel.Skeleton
import proofs.«151280_j41747082117805_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered
variable (V : (c : Dev nD) → (b : Ref sig .tc) → Buf (Elt F) ((c : Thread nD τ).loc b))

/-- Window `w`'s block at point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

abbrev r0_0 : Rect S1024x1024 := Rect.unit (s := S1024x1024) ![0, 0] S1024x1024.size inb_S1024x1024_S1024x1024_0_0
abbrev r0_1 : Rect S1x1024 := Rect.unit (s := S1x1024) ![0, 0] S1x1024.size inb_S1x1024_S1x1024_0_0

/-- The output block after the body: its one whole store, of the product plus the bias row. -/
def out0_3 (x0 x1 : Vec F S1024x1024 .f32) (x2 : Vec F S1x1024 .f32) : Vec F S1024x1024 .bf16 :=
  View.canon [⟨r0_0, k0_pay1 (View.ld x0 r0_0) (View.ld x1 r0_0) (View.ld x2 r0_1)⟩]

/-- The region's proof data: inputs stay at their blocks, the output block is `out0_3` of them. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => out0_3 (iblk0 V c 0 t) (iblk0 V c 1 t) (iblk0 V c 2 t)
  Φ _ := Pipeline.ΦA spec0 c
  q _ := fullShare
  owed _ := 0

theorem A_eq0 (c : Dev nD) (w : Fin cfg0.W) : (dat0 V c).A w = V c (Pipeline.arrRef spec0 w) := by
  dsimp only [dat0]

theorem after0_3 (c : Dev nD) (t : Fin cfg0.N) :
    (dat0 V c).after 3 t = out0_3 (iblk0 V c 0 t) (iblk0 V c 1 t) (iblk0 V c 2 t) := by dsimp only [dat0]

/-! ## The input windows' staging buffers -/

/-- Input window 0's current staging buffer holds its block at every point, fetched there or not, for any proof
    data whose array is the entry contents and whose body leaves the block in place: an unfetched window's block index
    has not moved since the previous point, so the buffer still holds this point's block. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

/-- The same of input window 1. -/
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

/-- The same of input window 2. -/
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)

/-! ## The output block's one store covers it -/

/-- The single store writes the whole 1024 x 1024 block, so every index of the block lies in its rectangle. -/
theorem cover0_3 (p0 : Vec F S1024x1024 .bf16) (y : S1024x1024.Idx) :
    ∃ pc ∈ ([⟨r0_0, p0⟩] : List (View.Piece (Elt F) S1024x1024 .bf16)), y ∈ pc.1.set :=
  View.cover_of_tiled [⟨r0_0, p0⟩] S1024x1024.size (by rfl) y

/-! ## The body's triple -/

set_option maxHeartbeats 1000000 in
/-- The kernel body on whole staging buffers, the three inputs' at read contents and the output's at anything, runs to
    the continuation holding the inputs' as they were and the output's at the product plus the bias row. The body reads
    the three inputs whole, reads the output once (a value it never uses), and stores the output whole. -/
theorem sound_kernel0 (c : Dev nD) (E : Set ℕ) (i : grid0.Coords)
    (arg0 : Memref sig .tc .vmem S1024x1024 .f32) (harg0 : arg0.IsWhole) (arg1 : Memref sig .tc .vmem S1024x1024 .f32) (harg1 : arg1.IsWhole)
    (arg2 : Memref sig .tc .vmem S1x1024 .f32) (harg2 : arg2.IsWhole) (arg3 : Memref sig .tc .vmem S1024x1024 .bf16) (harg3 : arg3.IsWhole)
    (x0 x1 : Vec F S1024x1024 .f32) (x2 : Vec F S1x1024 .f32) (K : PUnit → sProp 𝕄) :
    iprop(owns (c : Thread nD τ) arg0 fullShare x0 ∗ owns (c : Thread nD τ) arg1 fullShare x1 ∗ owns (c : Thread nD τ) arg2 fullShare x2
        ∗ (∃ d, owns (c : Thread nD τ) arg3 fullShare d)
        ∗ (iprop(owns (c : Thread nD τ) arg0 fullShare x0 ∗ owns (c : Thread nD τ) arg1 fullShare x1 ∗ owns (c : Thread nD τ) arg2 fullShare x2
            ∗ owns (c : Thread nD τ) arg3 fullShare (out0_3 x0 x1 x2)) -∗ K ⟨⟩))
      ⊢ wp frame (wpE (defs₀ (F := F)) Variants.none c none) E (cc0__qkv_proj_kernel i arg0 harg0 arg1 harg1 arg2 harg2 arg3 harg3) K := by
  simp only [cc0__qkv_proj_kernel_eq_skeleton]; unfold cc0__qkv_proj_kernel_skel
  unfold owns
  iintro ⟨⟨%f0, %hf0, H0⟩, ⟨%f1, %hf1, H1⟩, ⟨%f2, %hf2, H2⟩, ⟨%d3, %f3, -, H3⟩, Hk⟩
  subst hf0 hf1 hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover0_3 _)

/-! ## The body obligation, at a generic point -/

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]

/-- Each input's current staging buffer holds its block at every point, fetched there or not. -/
theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d

/-- What the body is called with at point `t`: the invariant, what is owed, and each window's current buffer, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t))

/-- The body at any point: the inputs' buffers hold their blocks, so the body's triple applies; the invariant and
    what is owed pass through unread. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2]
  rw [show (dat0 V c).Φ t.succ = (dat0 V c).Φ t.castSucc from rfl,
    show (dat0 V c).owesAt () t.succ = (dat0 V c).owesAt () t.castSucc from rfl,
    after0_0, after0_1, after0_2, after0_3]
  iintro ⟨HΦ, Ho, ⟨%d0, H0⟩, ⟨%d1, H1⟩, ⟨%d2, H2⟩, ⟨%d3, H3⟩⟩
  iapply (sound_kernel0 c Set.univ _ _ _ _ _ _ _ _ _ (iblk0 V c 0 t) (iblk0 V c 1 t) (iblk0 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The body obligation, at every point. -/
theorem body_obligation0 (c : Dev nD) : BodyObligation (dat0 (F := F) V c) (defs₀ (F := F)) Variants.none () Set.univ := fun t => by
  rw [bigSep_W0, bigSep_W0]
  exact sound_body0 V c t

end Cert.Kernel.Hand

end
-- ==== Proof.Bits.RegionOut.lean ====
/-
  The output-projection region (the third kernel launch): one grid point multiplies a 1024-row block of the re-laid
  attention output by the whole output weight matrix and adds the bias row. This module states what every window's
  staging buffer holds after the body at a point, as proof data over the contents the region is entered with.
-/
import proofs.«151280_j41747082117805_1_alg».proof.Proof.Gen.Kernel.Launch
import proofs.«151280_j41747082117805_1_alg».proof.Proof.Gen.Kernel.Skeleton
import proofs.«151280_j41747082117805_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered
variable (V : (c : Dev nD) → (b : Ref sig .tc) → Buf (Elt F) ((c : Thread nD τ).loc b))

/-- Window `w`'s block at point `t`, read off its array as the region finds it. -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

abbrev r2_0 : Rect S1024x1024 := Rect.unit (s := S1024x1024) ![0, 0] S1024x1024.size inb_S1024x1024_S1024x1024_0_0
abbrev r2_1 : Rect S1x1024 := Rect.unit (s := S1x1024) ![0, 0] S1x1024.size inb_S1x1024_S1x1024_0_0

/-- The output block after the body: its one whole store, of the product plus the bias row. -/
def out2_3 (x0 x1 : Vec F S1024x1024 .f32) (x2 : Vec F S1x1024 .f32) : Vec F S1024x1024 .f32 :=
  View.canon [⟨r2_0, k2_pay1 (View.ld x0 r2_0) (View.ld x1 r2_0) (View.ld x2 r2_1)⟩]

/-- The region's proof data: inputs stay at their blocks, the output block is `out2_3` of them. -/
def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => iblk2 V c 2 t
    | ⟨3, _⟩ => out2_3 (iblk2 V c 0 t) (iblk2 V c 1 t) (iblk2 V c 2 t)
  Φ _ := Pipeline.ΦA spec2 c
  q _ := fullShare
  owed _ := 0

theorem A_eq2 (c : Dev nD) (w : Fin cfg2.W) : (dat2 V c).A w = V c (Pipeline.arrRef spec2 w) := by
  dsimp only [dat2]

theorem after2_3 (c : Dev nD) (t : Fin cfg2.N) :
    (dat2 V c).after 3 t = out2_3 (iblk2 V c 0 t) (iblk2 V c 1 t) (iblk2 V c 2 t) := by dsimp only [dat2]

/-! ## The input windows' staging buffers -/

/-- Input window 0's current staging buffer holds its block at every point, fetched there or not, for any proof
    data whose array is the entry contents and whose body leaves the block in place: an unfetched window's block index
    has not moved since the previous point, so the buffer still holds this point's block. -/
theorem before2_0_of {c : Dev nD} (dat : Dat τ (Elt F) Unit ℕ (UR sig nD τ) ℕ cfg2 c) (hA : dat.A 0 = V c (Pipeline.arrRef spec2 0))
    (hafter : ∀ t, dat.after 0 t = iblk2 V c 0 t) (t : Fin cfg2.N) (d) : dat.before 0 t d = iblk2 V c 0 t :=
  (dat.before_in_eq_fetched 0 rfl (fun _ => rfl) (fun _ _ _ => rfl) (fun t => by rw [hafter]; unfold Dat.blockOf iblk2; rw [hA]; try rfl) t d).trans
    (by unfold Dat.fetched Dat.blockOf iblk2; rw [hA]; try rfl)

/-- The same of input window 1. -/
theorem before2_1_of {c : Dev nD} (dat : Dat τ (Elt F) Unit ℕ (UR sig nD τ) ℕ cfg2 c) (hA : dat.A 1 = V c (Pipeline.arrRef spec2 1))
    (hafter : ∀ t, dat.after 1 t = iblk2 V c 1 t) (t : Fin cfg2.N) (d) : dat.before 1 t d = iblk2 V c 1 t :=
  (dat.before_in_eq_fetched 1 rfl (fun _ => rfl) (fun _ _ _ => rfl) (fun t => by rw [hafter]; unfold Dat.blockOf iblk2; rw [hA]; try rfl) t d).trans
    (by unfold Dat.fetched Dat.blockOf iblk2; rw [hA]; try rfl)

/-- The same of input window 2. -/
theorem before2_2_of {c : Dev nD} (dat : Dat τ (Elt F) Unit ℕ (UR sig nD τ) ℕ cfg2 c) (hA : dat.A 2 = V c (Pipeline.arrRef spec2 2))
    (hafter : ∀ t, dat.after 2 t = iblk2 V c 2 t) (t : Fin cfg2.N) (d) : dat.before 2 t d = iblk2 V c 2 t :=
  (dat.before_in_eq_fetched 2 rfl (fun _ => rfl) (fun _ _ _ => rfl) (fun t => by rw [hafter]; unfold Dat.blockOf iblk2; rw [hA]; try rfl) t d).trans
    (by unfold Dat.fetched Dat.blockOf iblk2; rw [hA]; try rfl)

/-! ## The output block's one store covers it -/

/-- The single store writes the whole 1024 x 1024 block, so every index of the block lies in its rectangle. -/
theorem cover2_3 (p0 : Vec F S1024x1024 .f32) (y : S1024x1024.Idx) :
    ∃ pc ∈ ([⟨r2_0, p0⟩] : List (View.Piece (Elt F) S1024x1024 .f32)), y ∈ pc.1.set :=
  View.cover_of_tiled [⟨r2_0, p0⟩] S1024x1024.size (by rfl) y

/-! ## The body's triple -/

set_option maxHeartbeats 1000000 in
/-- The kernel body on whole staging buffers, the three inputs' at read contents and the output's at anything, runs to
    the continuation holding the inputs' as they were and the output's at the product plus the bias row. The body reads
    the three inputs whole, reads the output once (a value it never uses), and stores the output whole. -/
theorem sound_kernel2 (c : Dev nD) (E : Set ℕ) (i : grid2.Coords)
    (arg0 : Memref sig .tc .vmem S1024x1024 .f32) (harg0 : arg0.IsWhole) (arg1 : Memref sig .tc .vmem S1024x1024 .f32) (harg1 : arg1.IsWhole)
    (arg2 : Memref sig .tc .vmem S1x1024 .f32) (harg2 : arg2.IsWhole) (arg3 : Memref sig .tc .vmem S1024x1024 .f32) (harg3 : arg3.IsWhole)
    (x0 x1 : Vec F S1024x1024 .f32) (x2 : Vec F S1x1024 .f32) (K : PUnit → sProp 𝕄) :
    iprop(owns (c : Thread nD τ) arg0 fullShare x0 ∗ owns (c : Thread nD τ) arg1 fullShare x1 ∗ owns (c : Thread nD τ) arg2 fullShare x2
        ∗ (∃ d, owns (c : Thread nD τ) arg3 fullShare d)
        ∗ (iprop(owns (c : Thread nD τ) arg0 fullShare x0 ∗ owns (c : Thread nD τ) arg1 fullShare x1 ∗ owns (c : Thread nD τ) arg2 fullShare x2
            ∗ owns (c : Thread nD τ) arg3 fullShare (out2_3 x0 x1 x2)) -∗ K ⟨⟩))
      ⊢ wp frame (wpE (defs₀ (F := F)) Variants.none c none) E (cc2__out_proj_kernel i arg0 harg0 arg1 harg1 arg2 harg2 arg3 harg3) K := by
  simp only [cc2__out_proj_kernel_eq_skeleton]; unfold cc2__out_proj_kernel_skel
  unfold owns
  iintro ⟨⟨%f0, %hf0, H0⟩, ⟨%f1, %hf1, H1⟩, ⟨%f2, %hf2, H2⟩, ⟨%d3, %f3, -, H3⟩, Hk⟩
  subst hf0 hf1 hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover2_3 _)

/-! ## The body obligation, at a generic point -/

theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = iblk2 V c 2 t := by dsimp only [dat2]

/-- Each input's current staging buffer holds its block at every point, fetched there or not. -/
theorem before2_0 (c : Dev nD) (t : Fin cfg2.N) (d) : (dat2 V c).before 0 t d = iblk2 V c 0 t :=
  before2_0_of V (dat2 V c) (A_eq2 V c 0) (after2_0 V c) t d
theorem before2_1 (c : Dev nD) (t : Fin cfg2.N) (d) : (dat2 V c).before 1 t d = iblk2 V c 1 t :=
  before2_1_of V (dat2 V c) (A_eq2 V c 1) (after2_1 V c) t d
theorem before2_2 (c : Dev nD) (t : Fin cfg2.N) (d) : (dat2 V c).before 2 t d = iblk2 V c 2 t :=
  before2_2_of V (dat2 V c) (A_eq2 V c 2) (after2_2 V c) t d

/-- What the body is called with at point `t`: the invariant, what is owed, and each window's current buffer, -/
def bodyPre2 (c : Dev nD) (t : Fin cfg2.N) : sProp 𝕄 :=
  iprop((dat2 V c).Φ t.castSucc ∗ (dat2 V c).owesAt () t.castSucc
    ∗ (∃ d, owns (c : Thread nD τ) (st2_0 t) fullShare ((dat2 V c).before 0 t d))
    ∗ (∃ d, owns (c : Thread nD τ) (st2_1 t) fullShare ((dat2 V c).before 1 t d))
    ∗ (∃ d, owns (c : Thread nD τ) (st2_2 t) fullShare ((dat2 V c).before 2 t d))
    ∗ (∃ d, owns (c : Thread nD τ) (st2_3 t) fullShare ((dat2 V c).before 3 t d)))

/-- and what it returns. -/
def bodyPost2 (c : Dev nD) (t : Fin cfg2.N) : sProp 𝕄 :=
  iprop((dat2 V c).Φ t.succ ∗ (dat2 V c).owesAt () t.succ
    ∗ owns (c : Thread nD τ) (st2_0 t) fullShare ((dat2 V c).after 0 t)
    ∗ owns (c : Thread nD τ) (st2_1 t) fullShare ((dat2 V c).after 1 t)
    ∗ owns (c : Thread nD τ) (st2_2 t) fullShare ((dat2 V c).after 2 t)
    ∗ owns (c : Thread nD τ) (st2_3 t) fullShare ((dat2 V c).after 3 t))

/-- The body at any point: the inputs' buffers hold their blocks, so the body's triple applies; the invariant and
    what is owed pass through unread. -/
theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1, before2_2]
  rw [show (dat2 V c).Φ t.succ = (dat2 V c).Φ t.castSucc from rfl,
    show (dat2 V c).owesAt () t.succ = (dat2 V c).owesAt () t.castSucc from rfl,
    after2_0, after2_1, after2_2, after2_3]
  iintro ⟨HΦ, Ho, ⟨%d0, H0⟩, ⟨%d1, H1⟩, ⟨%d2, H2⟩, ⟨%d3, H3⟩⟩
  iapply (sound_kernel2 c Set.univ _ _ _ _ _ _ _ _ _ (iblk2 V c 0 t) (iblk2 V c 1 t) (iblk2 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The body obligation, at every point. -/
theorem body_obligation2 (c : Dev nD) : BodyObligation (dat2 (F := F) V c) (defs₀ (F := F)) Variants.none () Set.univ := fun t => by
  rw [bigSep_W2, bigSep_W2]
  exact sound_body2 V c t

end Cert.Kernel.Hand

end
-- ==== Proof.Bits.AttnShared.lean ====
/- The attention region's body, case by case: what every case's run is stated over.

   The region's grid is (h, qi, kj) with 16 x 4 x 4 points, kj fastest. The body has six
   conditionals, each a test on (qi, kj):
     0: qi = 0 and kj = 0   (the state accumulator is set to the head's initial state)
     1: kj = 0              (the output accumulator is set to q times the initial state)
     2: kj <= qi            (the causal block: the masked q k^T times v is added to the output accumulator)
     3: qi = 0              (k^T v is added to the state accumulator)
     4: kj = 3              (the output accumulator is written to the output block)
     5: qi = 3 and kj = 3   (the state accumulator is written to the new-state block)
   Here: the six conditions as propositions of a grid point, each in closed form in the point's
   linear index t (qi = (t / 4) % 4, kj = t % 4), decided over the 256 points; the staging memrefs
   the body is called with at a point; the two accumulators as memrefs and views; and where the two
   output windows are idle (exactly where their condition fails). -/
import proofs.«151280_j41747082117805_1_alg».proof.Proof.Gen.Kernel.Launch
import proofs.«151280_j41747082117805_1_alg».proof.Proof.Gen.Kernel.Skeleton
import proofs.«151280_j41747082117805_1_alg».proof.Proof.Gen.Kernel.Points
import Idealize.ShloMosaic.Lib.Pipeline.FrameBody
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The six conditions -/

/-- Conditional 0: qi = 0 and kj = 0. -/
abbrev cond1_0 (i : grid1.Coords) : Prop := (Scalar.cmpi .ne (Scalar.extui (Scalar.andi (Scalar.cmpi .eq (BitVec.ofNat 32 (i 1).val) 0#32) (Scalar.cmpi .eq (BitVec.ofNat 32 (i 2).val) 0#32))) 0#32) = 1#1
theorem hcond1_0 : ∀ t : Fin cfg1.N, cond1_0 (grid1.coords t) ↔ ((t.val / 4) % 4 = 0 ∧ t.val % 4 = 0) :=
  (by decide +kernel : ∀ t : Fin grid1.N, cond1_0 (grid1.coords t) ↔ ((t.val / 4) % 4 = 0 ∧ t.val % 4 = 0))

/-- Conditional 1: kj = 0. -/
abbrev cond1_1 (i : grid1.Coords) : Prop := (Scalar.cmpi .ne (Scalar.extui (Scalar.cmpi .eq (BitVec.ofNat 32 (i 2).val) 0#32)) 0#32) = 1#1
theorem hcond1_1 : ∀ t : Fin cfg1.N, cond1_1 (grid1.coords t) ↔ t.val % 4 = 0 :=
  (by decide +kernel : ∀ t : Fin grid1.N, cond1_1 (grid1.coords t) ↔ t.val % 4 = 0)

/-- Conditional 2: kj <= qi (signed comparison of the two coordinates). -/
abbrev cond1_2 (i : grid1.Coords) : Prop := (Scalar.cmpi .ne (Scalar.extui (Scalar.cmpi .sle (BitVec.ofNat 32 (i 2).val) (BitVec.ofNat 32 (i 1).val))) 0#32) = 1#1
theorem hcond1_2 : ∀ t : Fin cfg1.N, cond1_2 (grid1.coords t) ↔ t.val % 4 ≤ (t.val / 4) % 4 :=
  (by decide +kernel : ∀ t : Fin grid1.N, cond1_2 (grid1.coords t) ↔ t.val % 4 ≤ (t.val / 4) % 4)

/-- Conditional 3: qi = 0. -/
abbrev cond1_3 (i : grid1.Coords) : Prop := (Scalar.cmpi .ne (Scalar.extui (Scalar.cmpi .eq (BitVec.ofNat 32 (i 1).val) 0#32)) 0#32) = 1#1
theorem hcond1_3 : ∀ t : Fin cfg1.N, cond1_3 (grid1.coords t) ↔ (t.val / 4) % 4 = 0 :=
  (by decide +kernel : ∀ t : Fin grid1.N, cond1_3 (grid1.coords t) ↔ (t.val / 4) % 4 = 0)

/-- Conditional 4: kj = 3. -/
abbrev cond1_4 (i : grid1.Coords) : Prop := k1_cond5 i = 1#1
theorem hcond1_4 : ∀ t : Fin cfg1.N, cond1_4 (grid1.coords t) ↔ t.val % 4 = 3 :=
  (by decide +kernel : ∀ t : Fin grid1.N, cond1_4 (grid1.coords t) ↔ t.val % 4 = 3)

/-- Conditional 5: qi = 3 and kj = 3. -/
abbrev cond1_5 (i : grid1.Coords) : Prop := k1_cond6 i = 1#1
theorem hcond1_5 : ∀ t : Fin cfg1.N, cond1_5 (grid1.coords t) ↔ ((t.val / 4) % 4 = 3 ∧ t.val % 4 = 3) :=
  (by decide +kernel : ∀ t : Fin grid1.N, cond1_5 (grid1.coords t) ↔ ((t.val / 4) % 4 = 3 ∧ t.val % 4 = 3))

/-! ## The memrefs the body is called with at a point -/

/-- Each window's current staging memref at point `t`, and its wholeness. -/
abbrev ms1_0 (t : Fin cfg1.N) : Memref sig .tc .vmem S1x1024x64 .bf16 := win1_0.stage (cfg1.slots t 0)
abbrev hs1_0 (t : Fin cfg1.N) : (ms1_0 t).IsWhole := hstage1_0 ((cfg1.slots t 0).cast nbuf1_0)
abbrev ms1_1 (t : Fin cfg1.N) : Memref sig .tc .vmem S1x1024x64 .bf16 := win1_1.stage (cfg1.slots t 1)
abbrev hs1_1 (t : Fin cfg1.N) : (ms1_1 t).IsWhole := hstage1_1 ((cfg1.slots t 1).cast nbuf1_1)
abbrev ms1_2 (t : Fin cfg1.N) : Memref sig .tc .vmem S1x1024x64 .bf16 := win1_2.stage (cfg1.slots t 2)
abbrev hs1_2 (t : Fin cfg1.N) : (ms1_2 t).IsWhole := hstage1_2 ((cfg1.slots t 2).cast nbuf1_2)
abbrev ms1_3 (t : Fin cfg1.N) : Memref sig .tc .vmem S1x64x64 .f32 := win1_3.stage (cfg1.slots t 3)
abbrev hs1_3 (t : Fin cfg1.N) : (ms1_3 t).IsWhole := hstage1_3 ((cfg1.slots t 3).cast nbuf1_3)
abbrev ms1_4 (t : Fin cfg1.N) : Memref sig .tc .vmem S1x1024x64 .f32 := win1_4.stage (cfg1.slots t 4)
abbrev hs1_4 (t : Fin cfg1.N) : (ms1_4 t).IsWhole := hstage1_4 ((cfg1.slots t 4).cast nbuf1_4)
abbrev ms1_5 (t : Fin cfg1.N) : Memref sig .tc .vmem S1x64x64 .f32 := win1_5.stage (cfg1.slots t 5)
abbrev hs1_5 (t : Fin cfg1.N) : (ms1_5 t).IsWhole := hstage1_5 ((cfg1.slots t 5).cast nbuf1_5)

/-- The two accumulators: whole scoped buffers of the region's own, passed beside the windows. -/
abbrev scM1_0 : Memref sig .tc .vmem S1024x64 .f32 := Memref.whole cc1_scratch0
abbrev scM1_1 : Memref sig .tc .vmem S64x64 .f32 := Memref.whole cc1_scratch1
/-- The accumulators as views: what they hold is stated through these. -/
abbrev VS1_0 : View sig .tc .vmem S1024x64 .f32 := scM1_0.view
abbrev VS1_1 : View sig .tc .vmem S64x64 .f32 := scM1_1.view
/-- One staging buffer of each output window, through which its contents are stated (which one does not matter). -/
abbrev VO1_4 : View sig .tc .vmem S1x1024x64 .f32 := (Memref.whole cc1_stg4_0 : Memref sig .tc .vmem S1x1024x64 .f32).view
abbrev VO1_5 : View sig .tc .vmem S1x64x64 .f32 := (Memref.whole cc1_stg5_0 : Memref sig .tc .vmem S1x64x64 .f32).view

/-! ## Where the windows are idle -/

/-- The four inputs are never idle. -/
theorem liveAt1_0 : ∀ t : Fin cfg1.N, cfg1.idle 0 (grid1.coords t) = false := by decide +kernel
theorem liveAt1_1 : ∀ t : Fin cfg1.N, cfg1.idle 1 (grid1.coords t) = false := by decide +kernel
theorem liveAt1_2 : ∀ t : Fin cfg1.N, cfg1.idle 2 (grid1.coords t) = false := by decide +kernel
theorem liveAt1_3 : ∀ t : Fin cfg1.N, cfg1.idle 3 (grid1.coords t) = false := by decide +kernel

/-- The output block is live exactly where conditional 4 holds (kj = 3); elsewhere it is idle and not written back. -/
theorem live1_4 : ∀ t : Fin cfg1.N, cond1_4 (grid1.coords t) → cfg1.idle 4 (grid1.coords t) = false := by decide +kernel
theorem idle1_4 : ∀ t : Fin cfg1.N, ¬cond1_4 (grid1.coords t) → cfg1.idle 4 (grid1.coords t) = true := by decide +kernel
theorem noFlush1_4 : ∀ t : Fin cfg1.N, ¬cond1_4 (grid1.coords t) → (cfg1.win 4).flush t = false := by decide +kernel

/-- The new-state block is live exactly where conditional 5 holds (qi = 3 and kj = 3); elsewhere it is idle and not written back. -/
theorem live1_5 : ∀ t : Fin cfg1.N, cond1_5 (grid1.coords t) → cfg1.idle 5 (grid1.coords t) = false := by decide +kernel
theorem idle1_5 : ∀ t : Fin cfg1.N, ¬cond1_5 (grid1.coords t) → cfg1.idle 5 (grid1.coords t) = true := by decide +kernel
theorem noFlush1_5 : ∀ t : Fin cfg1.N, ¬cond1_5 (grid1.coords t) → (cfg1.win 5).flush t = false := by decide +kernel

end Cert.Kernel.Hand

end
-- ==== Proof.Bits.AttnAcc.lean ====
/-
  The attention region's two accumulators, point by point, as a recursion over the body's payloads.

  A grid point is (head, query tile qi, key tile kj) and the body keeps an output accumulator `[1024, 64]` and a state
  accumulator `[64, 64]` from one point to the next. At a point, in this order:
  the state accumulator is reset to the head's state when qi = 0 and kj = 0; the output accumulator is set to the query
  tile against the head's state when kj = 0; when kj ≤ qi the masked scores of the query tile against the key tile,
  times the value tile, are added to it; when qi = 0 the key tile (transposed) against the value tile is added to the
  state accumulator. The output block is the output accumulator where kj = 3, the new-state block the state accumulator
  where qi = 3 and kj = 3.
-/
import proofs.«151280_j41747082117805_1_alg».proof.Proof.Gen.Kernel.Skeleton

noncomputable section

namespace Cert.Kernel.Hand

open Cert.Kernel Cert.Kernel.Gen
open Idealize.ShloMosaic

variable {F : FTy → Type} [FloatOps F]

/-- The output accumulator and the state accumulator. -/
abbrev Acc (F : FTy → Type) [FloatOps F] : Type := Vec F S1024x64 .f32 × Vec F S64x64 .f32

/-- The blocks a point is handed: query, key and value tiles and the head's state. -/
abbrev Blocks (F : FTy → Type) [FloatOps F] : Type :=
  Vec F S1x1024x64 .bf16 × Vec F S1x1024x64 .bf16 × Vec F S1x1024x64 .bf16 × Vec F S1x64x64 .f32

/-- One point's effect on the two accumulators. -/
def accStep (i : grid1.Coords) (q k v : Vec F S1x1024x64 .bf16) (st : Vec F S1x64x64 .f32) (a : Acc F) : Acc F :=
  let s1 : Vec F S64x64 .f32 := if (i 1).val = 0 ∧ (i 2).val = 0 then k1_pay1 st else a.2
  let o2 : Vec F S1024x64 .f32 := if (i 2).val = 0 then k1_pay2 st q else a.1
  let o3 : Vec F S1024x64 .f32 := if (i 2).val ≤ (i 1).val then k1_pay3 i q k o2 v else o2
  let s4 : Vec F S64x64 .f32 := if (i 1).val = 0 then k1_pay4 s1 k v else s1
  (o3, s4)

/-- The accumulators before the first point: anything (the first point overwrites both). -/
def acc0 [∀ e, Nonempty (Elt F e)] : Acc F := (fun _ => Classical.arbitrary _, fun _ => Classical.arbitrary _)

/-- The accumulators after point `n`, given every point's blocks. -/
def accAt [∀ e, Nonempty (Elt F e)] (blk : (n : ℕ) → n < grid1.N → Blocks F) : (n : ℕ) → n < grid1.N → Acc F
  | 0, hn => accStep (grid1.coords ⟨0, hn⟩) (blk 0 hn).1 (blk 0 hn).2.1 (blk 0 hn).2.2.1 (blk 0 hn).2.2.2 acc0
  | n + 1, hn => accStep (grid1.coords ⟨n + 1, hn⟩) (blk (n + 1) hn).1 (blk (n + 1) hn).2.1 (blk (n + 1) hn).2.2.1
      (blk (n + 1) hn).2.2.2 (accAt blk n (Nat.lt_of_succ_lt hn))

theorem accAt_zero [∀ e, Nonempty (Elt F e)] (blk : (n : ℕ) → n < grid1.N → Blocks F) (hn : 0 < grid1.N) :
    accAt blk 0 hn = accStep (grid1.coords ⟨0, hn⟩) (blk 0 hn).1 (blk 0 hn).2.1 (blk 0 hn).2.2.1 (blk 0 hn).2.2.2 acc0 := rfl

theorem accAt_succ [∀ e, Nonempty (Elt F e)] (blk : (n : ℕ) → n < grid1.N → Blocks F) (n : ℕ) (hn : n + 1 < grid1.N) :
    accAt blk (n + 1) hn = accStep (grid1.coords ⟨n + 1, hn⟩) (blk (n + 1) hn).1 (blk (n + 1) hn).2.1 (blk (n + 1) hn).2.2.1
      (blk (n + 1) hn).2.2.2 (accAt blk n (Nat.lt_of_succ_lt hn)) := rfl

end Cert.Kernel.Hand

end
-- ==== Proof.Bits.AttnData.lean ====
/-
  The attention region (the second kernel launch) as proof data over the contents the region is entered with.

  A grid point is (head, query tile qi, key tile kj), kj fastest. The body keeps an output accumulator and a state
  accumulator in two buffers of its own from one point to the next (`accAt`: the recursion over the points); the
  output block is the output accumulator at the points with kj = 3, where it is stored and written back, and the
  new-state block the state accumulator at (qi, kj) = (3, 3). Between those points the two output windows are idle:
  the body leaves their buffers as it found them. The region's invariant before a point is: the two accumulators at
  what the point before left (anything before the first point), every other buffer of the core's own at anything, the
  generator register at some state.
-/
import proofs.«151280_j41747082117805_1_alg».proof.Proof.Bits.AttnShared
import proofs.«151280_j41747082117805_1_alg».proof.Proof.Bits.AttnAcc
import Idealize.ShloMosaic.Lib.Pipeline.RegionsLoop
import Idealize.ShloMosaic.Lib.Pipeline.FrameSuffix

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered
variable (V : (c : Dev nD) → (b : Ref sig .tc) → Buf (Elt F) ((c : Thread nD τ).loc b))

/-- Window `w`'s block at point `t`, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-! ## The inputs' buffers hold their blocks at every point, fetched there or not -/

theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)
theorem before1_3_of {c : Dev nD} (dat : Dat τ (Elt F) Unit ℕ (UR sig nD τ) ℕ cfg1 c) (hA : dat.A 3 = V c (Pipeline.arrRef spec1 3))
    (hafter : ∀ t, dat.after 3 t = iblk1 V c 3 t) (t : Fin cfg1.N) (d) : dat.before 3 t d = iblk1 V c 3 t :=
  (dat.before_in_eq_fetched 3 rfl (fun _ => rfl) (fun _ _ _ => rfl) (fun t => by rw [hafter]; unfold Dat.blockOf iblk1; rw [hA]; try rfl) t d).trans
    (by unfold Dat.fetched Dat.blockOf iblk1; rw [hA]; try rfl)

/-! ## The accumulators point by point -/

/-- The blocks point `n` is handed: the query tile, the key tile, the value tile and the head's state. -/
def blk1 (c : Dev nD) (n : ℕ) (hn : n < grid1.N) : Blocks F :=
  (iblk1 V c 0 ⟨n, hn⟩, iblk1 V c 1 ⟨n, hn⟩, iblk1 V c 2 ⟨n, hn⟩, iblk1 V c 3 ⟨n, hn⟩)

/-- A point's query-tile and key-tile coordinates from its linear index. -/
theorem coords1_1 : ∀ t : Fin cfg1.N, ((grid1.coords t) 1).val = (t.val / 4) % 4 :=
  (by decide +kernel : ∀ t : Fin grid1.N, ((grid1.coords t) 1).val = (t.val / 4) % 4)
theorem coords1_2 : ∀ t : Fin cfg1.N, ((grid1.coords t) 2).val = t.val % 4 :=
  (by decide +kernel : ∀ t : Fin grid1.N, ((grid1.coords t) 2).val = t.val % 4)

/-- The recursion at the first point starts from anything. -/
theorem accAt_first (blk : (n : ℕ) → n < grid1.N → Blocks F) (t : Fin grid1.N) (h : t.val = 0) :
    accAt blk t.val t.isLt = accStep (grid1.coords t) (blk t.val t.isLt).1 (blk t.val t.isLt).2.1 (blk t.val t.isLt).2.2.1
      (blk t.val t.isLt).2.2.2 acc0 := by
  obtain ⟨n, hn⟩ := t
  cases n with
  | zero => rfl
  | succ n => exact absurd h (Nat.succ_ne_zero n)

/-- At a later point it continues from what the point before left. -/
theorem accAt_pos (blk : (n : ℕ) → n < grid1.N → Blocks F) (t : Fin grid1.N) (h : t.val ≠ 0) :
    accAt blk t.val t.isLt = accStep (grid1.coords t) (blk t.val t.isLt).1 (blk t.val t.isLt).2.1 (blk t.val t.isLt).2.2.1
      (blk t.val t.isLt).2.2.2 (accAt blk (t.val - 1) (Nat.lt_of_le_of_lt (Nat.sub_le _ _) t.isLt)) := by
  obtain ⟨n, hn⟩ := t
  cases n with
  | zero => exact absurd rfl h
  | succ n => rfl

/-- At the first point of a head (qi = 0 and kj = 0) both accumulators are overwritten: what was there does not matter. -/
theorem accStep_reset (i : grid1.Coords) (q k v : Vec F S1x1024x64 .bf16) (st : Vec F S1x64x64 .f32) (a b : Acc F)
    (h1 : (i 1).val = 0) (h2 : (i 2).val = 0) : accStep i q k v st a = accStep i q k v st b := by
  simp only [accStep, h1, h2, and_self, if_true, le_refl]

/-! ## The region invariant -/

/-- The core's own buffers that are neither this region's staging buffers nor its two accumulators (the other two
    regions' staging buffers), each at anything. -/
def others1 (c : Dev nD) : sProp 𝕄 :=
  iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg1_1), ((c : Thread nD τ).loc cc0_stg1_1) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg2_1), ((c : Thread nD τ).loc cc0_stg2_1) ↦{fullShare} f) ∗ (∃ f : Buf (Elt F) ((c : Thread nD τ).loc cc0_stg3_0), ((c : Thread nD τ).loc cc0_stg3_0) ↦{fullShare} f) ∗ (∃ f : Buf (Elt F) ((c : Thread nD τ).loc cc0_stg3_1), ((c : Thread nD τ).loc cc0_stg3_1) ↦{fullShare} f) ∗ (∃ f : Buf (Elt F) ((c : Thread nD τ).loc cc2_stg0_0), ((c : Thread nD τ).loc cc2_stg0_0) ↦{fullShare} f) ∗ (∃ f : Buf (Elt F) ((c : Thread nD τ).loc cc2_stg0_1), ((c : Thread nD τ).loc cc2_stg0_1) ↦{fullShare} f) ∗ (∃ f : Buf (Elt F) ((c : Thread nD τ).loc cc2_stg1_0), ((c : Thread nD τ).loc cc2_stg1_0) ↦{fullShare} f) ∗ (∃ f : Buf (Elt F) ((c : Thread nD τ).loc cc2_stg2_0), ((c : Thread nD τ).loc cc2_stg2_0) ↦{fullShare} f) ∗ (∃ f : Buf (Elt F) ((c : Thread nD τ).loc cc2_stg3_0), ((c : Thread nD τ).loc cc2_stg3_0) ↦{fullShare} f) ∗ (∃ f : Buf (Elt F) ((c : Thread nD τ).loc cc2_stg3_1), ((c : Thread nD τ).loc cc2_stg3_1) ↦{fullShare} f))

/-- The class's invariant with the two accumulators taken out of the scoped rest. -/
theorem PhiA1_split (c : Dev nD) :
    (Pipeline.ΦA spec1 c : sProp 𝕄) ⊢ iprop((∃ d, owns (c : Thread nD τ) scM1_0 fullShare d) ∗ (∃ d, owns (c : Thread nD τ) scM1_1 fullShare d) ∗ others1 c ∗ (∃ r, prngReg c r)) := by
  unfold Pipeline.ΦA others1; rw [scopedRest1_eq]; simp only [scM1_0, scM1_1, owns_whole]
  iintro ⟨⟨H1, H2, H3, H4, H5, H6, H7, H8, HS0, HS1, H9, H10, H11, H12, H13, H14⟩, Hg⟩
  isplitl [HS0]; · iexact HS0
  isplitl [HS1]; · iexact HS1
  isplitr [Hg]
  · isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    isplitl [H13]; · iexact H13
    iexact H14
  iexact Hg

/-- And put back. -/
theorem PhiA1_join (c : Dev nD) :
    iprop((∃ d, owns (c : Thread nD τ) scM1_0 fullShare d) ∗ (∃ d, owns (c : Thread nD τ) scM1_1 fullShare d) ∗ others1 c ∗ (∃ r, prngReg c r)) ⊢ (Pipeline.ΦA spec1 c : sProp 𝕄) := by
  unfold Pipeline.ΦA others1; rw [scopedRest1_eq]; simp only [scM1_0, scM1_1, owns_whole]
  iintro ⟨HS0, HS1, ⟨H1, H2, H3, H4, H5, H6, H7, H8, H9, H10, H11, H12, H13, H14⟩, Hg⟩
  isplitr [Hg]
  · isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [HS0]; · iexact HS0
    isplitl [HS1]; · iexact HS1
    isplitl [H9]; · iexact H9
    isplitl [H10]; · iexact H10
    isplitl [H11]; · iexact H11
    isplitl [H12]; · iexact H12
    isplitl [H13]; · iexact H13
    iexact H14
  iexact Hg

/-- The region invariant before position `n`: before the first point the class's; afterwards the two accumulators at
    what the point before left, the other buffers at anything, the generator register at some state. -/
def PhiS1 (c : Dev nD) : (n : ℕ) → n ≤ cfg1.N → sProp 𝕄
  | 0, _ => Pipeline.ΦA spec1 c
  | n + 1, hn => iprop(owns (c : Thread nD τ) scM1_0 fullShare (accAt (blk1 V c) n hn).1 ∗ owns (c : Thread nD τ) scM1_1 fullShare (accAt (blk1 V c) n hn).2
      ∗ others1 c ∗ (∃ r, prngReg c r))

theorem PhiS1_zero (c : Dev nD) (n : ℕ) (h : n ≤ cfg1.N) (hz : n = 0) : PhiS1 V c n h = Pipeline.ΦA spec1 c := by
  subst hz; rfl

theorem PhiS1_succ (c : Dev nD) (n : ℕ) (hn : n < cfg1.N) :
    PhiS1 V c (n + 1) hn = iprop(owns (c : Thread nD τ) scM1_0 fullShare (accAt (blk1 V c) n hn).1 ∗ owns (c : Thread nD τ) scM1_1 fullShare (accAt (blk1 V c) n hn).2
      ∗ others1 c ∗ (∃ r, prngReg c r)) := rfl

theorem PhiS1_pos (c : Dev nD) (n : ℕ) (h : n ≤ cfg1.N) (hz : n ≠ 0) :
    PhiS1 V c n h = iprop(owns (c : Thread nD τ) scM1_0 fullShare (accAt (blk1 V c) (n - 1) (Nat.lt_of_lt_of_le (Nat.sub_lt (Nat.pos_of_ne_zero hz) Nat.one_pos) h)).1 ∗ owns (c : Thread nD τ) scM1_1 fullShare (accAt (blk1 V c) (n - 1) (Nat.lt_of_lt_of_le (Nat.sub_lt (Nat.pos_of_ne_zero hz) Nat.one_pos) h)).2
      ∗ others1 c ∗ (∃ r, prngReg c r)) := by
  cases n with
  | zero => exact absurd rfl hz
  | succ n => rfl

/-! ## The proof data -/

/-- The region's proof data: the arrays as the region finds them; after the body at point `t` each input's buffer at
    its block, the output block at the output accumulator and the new-state block at the state accumulator (read
    where the windows are live); the invariant above; nothing owed; full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => k1_pay5 (accAt (blk1 V c) t.val t.isLt).1
    | ⟨5, _⟩ => k1_pay6 (accAt (blk1 V c) t.val t.isLt).2
  Φ t := PhiS1 V c t.val (Nat.le_of_lt_succ t.isLt)
  q _ := fullShare
  owed _ := 0

theorem A_eq1 (c : Dev nD) (w : Fin cfg1.W) : (dat1 V c).A w = V c (Pipeline.arrRef spec1 w) := by
  dsimp only [dat1]

theorem PhiS1_castSucc (c : Dev nD) (t : Fin cfg1.N) :
    (dat1 V c).Φ t.castSucc = PhiS1 V c t.val (Nat.le_of_lt t.isLt) := by
  dsimp only [dat1]; simp only [Fin.coe_castSucc]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t = k1_pay5 (accAt (blk1 V c) t.val t.isLt).1 := by dsimp only [dat1]
theorem after1_5 (c : Dev nD) (t : Fin cfg1.N) : (dat1 V c).after 5 t = k1_pay6 (accAt (blk1 V c) t.val t.isLt).2 := by dsimp only [dat1]

theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d
theorem before1_3 (c : Dev nD) (t : Fin cfg1.N) (d) : (dat1 V c).before 3 t d = iblk1 V c 3 t :=
  before1_3_of V (dat1 V c) (A_eq1 V c 3) (after1_3 V c) t d

end Cert.Kernel.Hand

end
-- ==== Proof.Bits.AttnRunA.lean ====
/- The attention body at the first block of a head (qi = 0, kj = 0), where conditionals 0, 1, 2, 3 hold:
   the state accumulator is set to the head's initial state, the output accumulator to q times that state;
   then the masked q k^T times v is added to the output accumulator and k^T v to the state accumulator.
   Neither output block is stored. -/
import proofs.«151280_j41747082117805_1_alg».proof.Proof.Bits.AttnShared

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- (the run's proof term is large: the definition's epilogue walks it past the default budget)
set_option maxHeartbeats 1000000 in
/-- The body on whole memrefs, in the case named above: the four inputs, the two output buffers and the two
    accumulators, each at given contents. It runs to the continuation holding the inputs as they were, each buffer
    the case does not store into at the contents it was given, and each buffer it stores into with its pieces
    written (last first). The pieces are the witness the run finds (no piece for a buffer not stored into). -/
noncomputable def kernelRun1_A (c : Dev nD) (i : grid1.Coords) (arg3 : Memref sig .tc .vmem S1x1024x64 .bf16) (harg3 : arg3.IsWhole) (arg4 : Memref sig .tc .vmem S1x1024x64 .bf16) (harg4 : arg4.IsWhole) (arg5 : Memref sig .tc .vmem S1x1024x64 .bf16) (harg5 : arg5.IsWhole) (arg6 : Memref sig .tc .vmem S1x64x64 .f32) (harg6 : arg6.IsWhole) (arg7 : Memref sig .tc .vmem S1x1024x64 .f32) (harg7 : arg7.IsWhole) (arg8 : Memref sig .tc .vmem S1x64x64 .f32) (harg8 : arg8.IsWhole) (arg9 : Memref sig .tc .vmem S1024x64 .f32) (harg9 : arg9.IsWhole) (arg10 : Memref sig .tc .vmem S64x64 .f32) (harg10 : arg10.IsWhole) (hc0 : cond1_0 i) (hc1 : cond1_1 i) (hc2 : cond1_2 i) (hc3 : cond1_3 i) (hc4 : ¬cond1_4 i) (hc5 : ¬cond1_5 i)
    (x0 x1 x2 : Vec F S1x1024x64 .bf16) (x3 : Vec F S1x64x64 .f32) (xo4 : Vec F S1x1024x64 .f32) (xo5 : Vec F S1x64x64 .f32) (xs0 : Vec F S1024x64 .f32) (xs1 : Vec F S64x64 .f32) :
    Σ' (L4 : List (View.Piece (Elt F) S1x1024x64 .f32)) (L5 : List (View.Piece (Elt F) S1x64x64 .f32)) (LS0 : List (View.Piece (Elt F) S1024x64 .f32)), { LS1 : List (View.Piece (Elt F) S64x64 .f32) //
      ∀ (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare xo4 ∗ owns (c : Thread nD τ) arg8 fullShare xo5 ∗ owns (c : Thread nD τ) arg9 fullShare xs0 ∗ owns (c : Thread nD τ) arg10 fullShare xs1
            ∗ (iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare xo4 ∗ owns (c : Thread nD τ) arg8 fullShare xo5 ∗ (∃ f, arg9.view.loc (c : Thread nD τ) ↦[arg9.view.set]{fullShare} arg9.view.writes (Elt F) f LS0) ∗ (∃ f, arg10.view.loc (c : Thread nD τ) ↦[arg10.view.set]{fullShare} arg10.view.writes (Elt F) f LS1)) -∗ K ⟨⟩))
          ⊢ wp frame (wpE (defs₀ (F := F)) Variants.none c none) E (cc1__attn_kernel i arg3 harg3 arg4 harg4 arg5 harg5 arg6 harg6 arg7 harg7 arg8 harg8 arg9 harg9 arg10 harg10) K } := by
  refine ⟨[], [], ?_, ?_, fun E K => ?run⟩
  case run =>
    simp only [cc1__attn_kernel_eq_skeleton]; unfold cc1__attn_kernel_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%fs0, %hfs0, HS0⟩, ⟨%fs1, %hfs1, HS1⟩, Hk⟩
    obtain rfl := harg3.eq_unread hf0; obtain rfl := harg4.eq_unread hf1; obtain rfl := harg5.eq_unread hf2; obtain rfl := harg6.eq_unread hf3
    obtain rfl := harg7.eq_unread hf4; obtain rfl := harg8.eq_unread hf5
    obtain rfl := harg9.eq_unread hfs0; obtain rfl := harg10.eq_unread hfs1
    sl_exec (disch := first | exact hc0 | exact hc1 | exact hc2 | exact hc3 | exact hc4 | exact hc5)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    isplitl [H4]
    · iexists _; isplitr; · ipureintro; exact harg7.read_unread _
      iexact H4
    isplitl [H5]
    · iexists _; isplitr; · ipureintro; exact harg8.read_unread _
      iexact H5
    isplitl [HS0]; · iexists _; iexact HS0
    iexists _; iexact HS1

end Cert.Kernel.Hand

end
-- ==== Proof.Bits.AttnRunB.lean ====
/- The attention body where only conditional 3 holds (qi = 0, kj = 1 or 2): k^T v is added to the state
   accumulator; the output accumulator and both output blocks are left as they are. -/
import proofs.«151280_j41747082117805_1_alg».proof.Proof.Bits.AttnShared

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- (the run's proof term is large: the definition's epilogue walks it past the default budget)
set_option maxHeartbeats 1000000 in
/-- The body on whole memrefs, in the case named above: the four inputs, the two output buffers and the two
    accumulators, each at given contents. It runs to the continuation holding the inputs as they were, each buffer
    the case does not store into at the contents it was given, and each buffer it stores into with its pieces
    written (last first). The pieces are the witness the run finds (no piece for a buffer not stored into). -/
noncomputable def kernelRun1_B (c : Dev nD) (i : grid1.Coords) (arg3 : Memref sig .tc .vmem S1x1024x64 .bf16) (harg3 : arg3.IsWhole) (arg4 : Memref sig .tc .vmem S1x1024x64 .bf16) (harg4 : arg4.IsWhole) (arg5 : Memref sig .tc .vmem S1x1024x64 .bf16) (harg5 : arg5.IsWhole) (arg6 : Memref sig .tc .vmem S1x64x64 .f32) (harg6 : arg6.IsWhole) (arg7 : Memref sig .tc .vmem S1x1024x64 .f32) (harg7 : arg7.IsWhole) (arg8 : Memref sig .tc .vmem S1x64x64 .f32) (harg8 : arg8.IsWhole) (arg9 : Memref sig .tc .vmem S1024x64 .f32) (harg9 : arg9.IsWhole) (arg10 : Memref sig .tc .vmem S64x64 .f32) (harg10 : arg10.IsWhole) (hc0 : ¬cond1_0 i) (hc1 : ¬cond1_1 i) (hc2 : ¬cond1_2 i) (hc3 : cond1_3 i) (hc4 : ¬cond1_4 i) (hc5 : ¬cond1_5 i)
    (x0 x1 x2 : Vec F S1x1024x64 .bf16) (x3 : Vec F S1x64x64 .f32) (xo4 : Vec F S1x1024x64 .f32) (xo5 : Vec F S1x64x64 .f32) (xs0 : Vec F S1024x64 .f32) (xs1 : Vec F S64x64 .f32) :
    Σ' (L4 : List (View.Piece (Elt F) S1x1024x64 .f32)) (L5 : List (View.Piece (Elt F) S1x64x64 .f32)) (LS0 : List (View.Piece (Elt F) S1024x64 .f32)), { LS1 : List (View.Piece (Elt F) S64x64 .f32) //
      ∀ (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare xo4 ∗ owns (c : Thread nD τ) arg8 fullShare xo5 ∗ owns (c : Thread nD τ) arg9 fullShare xs0 ∗ owns (c : Thread nD τ) arg10 fullShare xs1
            ∗ (iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare xo4 ∗ owns (c : Thread nD τ) arg8 fullShare xo5 ∗ owns (c : Thread nD τ) arg9 fullShare xs0 ∗ (∃ f, arg10.view.loc (c : Thread nD τ) ↦[arg10.view.set]{fullShare} arg10.view.writes (Elt F) f LS1)) -∗ K ⟨⟩))
          ⊢ wp frame (wpE (defs₀ (F := F)) Variants.none c none) E (cc1__attn_kernel i arg3 harg3 arg4 harg4 arg5 harg5 arg6 harg6 arg7 harg7 arg8 harg8 arg9 harg9 arg10 harg10) K } := by
  refine ⟨[], [], [], ?_, fun E K => ?run⟩
  case run =>
    simp only [cc1__attn_kernel_eq_skeleton]; unfold cc1__attn_kernel_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%fs0, %hfs0, HS0⟩, ⟨%fs1, %hfs1, HS1⟩, Hk⟩
    obtain rfl := harg3.eq_unread hf0; obtain rfl := harg4.eq_unread hf1; obtain rfl := harg5.eq_unread hf2; obtain rfl := harg6.eq_unread hf3
    obtain rfl := harg7.eq_unread hf4; obtain rfl := harg8.eq_unread hf5
    obtain rfl := harg9.eq_unread hfs0; obtain rfl := harg10.eq_unread hfs1
    sl_exec (disch := first | exact hc0 | exact hc1 | exact hc2 | exact hc3 | exact hc4 | exact hc5)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    isplitl [H4]
    · iexists _; isplitr; · ipureintro; exact harg7.read_unread _
      iexact H4
    isplitl [H5]
    · iexists _; isplitr; · ipureintro; exact harg8.read_unread _
      iexact H5
    isplitl [HS0]
    · iexists _; isplitr; · ipureintro; exact harg9.read_unread _
      iexact HS0
    iexists _; iexact HS1

end Cert.Kernel.Hand

end
-- ==== Proof.Bits.AttnRunC.lean ====
/- The attention body where conditionals 3 and 4 hold (qi = 0, kj = 3): k^T v is added to the state
   accumulator, and the output accumulator is written to the output block. -/
import proofs.«151280_j41747082117805_1_alg».proof.Proof.Bits.AttnShared

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- (the run's proof term is large: the definition's epilogue walks it past the default budget)
set_option maxHeartbeats 1000000 in
/-- The body on whole memrefs, in the case named above: the four inputs, the two output buffers and the two
    accumulators, each at given contents. It runs to the continuation holding the inputs as they were, each buffer
    the case does not store into at the contents it was given, and each buffer it stores into with its pieces
    written (last first). The pieces are the witness the run finds (no piece for a buffer not stored into). -/
noncomputable def kernelRun1_C (c : Dev nD) (i : grid1.Coords) (arg3 : Memref sig .tc .vmem S1x1024x64 .bf16) (harg3 : arg3.IsWhole) (arg4 : Memref sig .tc .vmem S1x1024x64 .bf16) (harg4 : arg4.IsWhole) (arg5 : Memref sig .tc .vmem S1x1024x64 .bf16) (harg5 : arg5.IsWhole) (arg6 : Memref sig .tc .vmem S1x64x64 .f32) (harg6 : arg6.IsWhole) (arg7 : Memref sig .tc .vmem S1x1024x64 .f32) (harg7 : arg7.IsWhole) (arg8 : Memref sig .tc .vmem S1x64x64 .f32) (harg8 : arg8.IsWhole) (arg9 : Memref sig .tc .vmem S1024x64 .f32) (harg9 : arg9.IsWhole) (arg10 : Memref sig .tc .vmem S64x64 .f32) (harg10 : arg10.IsWhole) (hc0 : ¬cond1_0 i) (hc1 : ¬cond1_1 i) (hc2 : ¬cond1_2 i) (hc3 : cond1_3 i) (hc4 : cond1_4 i) (hc5 : ¬cond1_5 i)
    (x0 x1 x2 : Vec F S1x1024x64 .bf16) (x3 : Vec F S1x64x64 .f32) (xo4 : Vec F S1x1024x64 .f32) (xo5 : Vec F S1x64x64 .f32) (xs0 : Vec F S1024x64 .f32) (xs1 : Vec F S64x64 .f32) :
    Σ' (L4 : List (View.Piece (Elt F) S1x1024x64 .f32)) (L5 : List (View.Piece (Elt F) S1x64x64 .f32)) (LS0 : List (View.Piece (Elt F) S1024x64 .f32)), { LS1 : List (View.Piece (Elt F) S64x64 .f32) //
      ∀ (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare xo4 ∗ owns (c : Thread nD τ) arg8 fullShare xo5 ∗ owns (c : Thread nD τ) arg9 fullShare xs0 ∗ owns (c : Thread nD τ) arg10 fullShare xs1
            ∗ (iprop(owns (c : Thread nD τ) arg3 fullShare x0 ∗ owns (c : Thread nD τ) arg4 fullShare x1 ∗ owns (c : Thread nD τ) arg5 fullShare x2 ∗ owns (c : Thread nD τ) arg6 fullShare x3 ∗ (∃ f, arg7.view.loc (c : Thread nD τ) ↦[arg7.view.set]{fullShare} arg7.view.writes (Elt F) f L4) ∗ owns (c : Thread nD τ) arg8 fullShare xo5 ∗ owns (c : Thread nD τ) arg9 fullShare xs0 ∗ (∃ f, arg10.view.loc (c : Thread nD τ) ↦[arg10.view.set]{fullShare} arg10.view.writes (Elt F) f LS1)) -∗ K ⟨⟩))
          ⊢ wp frame (wpE (defs₀ (F := F)) Variants.none c none) E (cc1__attn_kernel i arg3 harg3 arg4 harg4 arg5 harg5 arg6 harg6 arg7 harg7 arg8 harg8 arg9 harg9 arg10 harg10) K } := by
  refine ⟨?_, [], [], ?_, fun E K => ?run⟩
  case run =>
    simp only [cc1__attn_kernel_eq_skeleton]; unfold cc1__attn_kernel_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%fs0, %hfs0, HS0⟩, ⟨%fs1, %hfs1, HS1⟩, Hk⟩
    obtain rfl := harg3.eq_unread hf0; obtain rfl := harg4.eq_unread hf1; obtain rfl := harg5.eq_unread hf2; obtain rfl := harg6.eq_unread hf3
    obtain rfl := harg7.eq_unread hf4; obtain rfl := harg8.eq_unread hf5
    obtain rfl := harg9.eq_unread hfs0; obtain rfl := harg10.eq_unread hfs1
    sl_exec (disch := first | exact hc0 | exact hc1 | exact hc2 | exact hc3 | exact hc4 | exact hc5)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    isplitl [H4]; · iexists _; iexact H4
    isplitl [H5]
    · iexists _; isplitr; · ipureintro; exact harg8.read_unread _
      iexact H5
    isplitl [HS0]
    · iexists _; isplitr; · ipureintro; exact harg9.read_unread _
      iexact HS0
    iexists _; iexact HS1

end Cert.Kernel.Hand

end
-- ==== Proof.Bits.AttnRunD.lean ====
/- The attention body where conditionals 1 and 2 hold (qi > 0, kj = 0): the output accumulator is set to
   q times the head's initial state, then the masked q k^T times v is added to it; the state accumulator and
   both output blocks are left as they are. -/
import proofs.«151280_j41747082117805_1_alg».proof.Proof.Bits.AttnShared

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- (the run's proof term is large: the definition's epilogue walks it past the default budget)
set_option maxHeartbeats 1000000 in
/-- The body on whole memrefs, in the case named above: the four inputs, the two output buffers and the two
    accumulators, each at given contents. It runs to the continuation holding the inputs as they were, each buffer
    the case does not store into at the contents it was given, and each buffer it stores into with its pieces
    written (last first). The pieces are the witness the run finds (no piece for a buffer not stored into). -/
noncomputable def kernelRun1_D (c : Dev nD) (i : grid1.Coords) (arg3 : Memref sig .tc .vmem S1x1024x64 .bf16) (harg3 : arg3.IsWhole) (arg4 : Memref sig .tc .vmem S1x1024x64 .bf16) (harg4 : arg4.IsWhole) (arg5 : Memref sig .tc .vmem S1x1024x64 .bf16) (harg5 : arg5.IsWhole) (arg6 : Memref sig .tc .vmem S1x64x64 .f32) (harg6 : arg6.IsWhole) (arg7 : Memref sig .tc .vmem S1x1024x64 .f32) (harg7 : arg7.IsWhole) (arg8 : Memref sig .tc .vmem S1x64x64 .f32) (harg8 : arg8.IsWhole) (arg9 : Memref sig .tc .vmem S1024x64 .f32) (harg9 : arg9.IsWhole) (arg10 : Memref sig .tc .vmem S64x64 .f32) (harg10 : arg10.IsWhole) (hc0 : ¬cond1_0 i) (hc1 : cond1_1 i) (hc2 : cond1_2 i) (hc3 : ¬cond1_3 i) (hc4 : ¬cond1_4 i) (hc5 : ¬cond1_5 i)
    (x0 x1 x2 : Vec F S1x1024x64 .bf16) (x3 : Vec F S1x64x64 .f32) (xo4 : Vec F S1x1024x64 .f32) (xo5 : Vec F S1x64x64 .f32) (xs0 : Vec F S1024x64 .f32) (xs1 : Vec F S64x64 .f32) :
    Σ' (L4 : List (View.Piece (Elt F) S1x1024x64 .f32)) (L5 : List (View.Piece (Elt F) S1x64x64 .f32)) (LS0 : List (View.Piece (Elt F) S1024x64 .f32)), { LS1 : List (View.Piece (Elt F) S64x64 .f32) //
      ∀ (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare xo4 ∗ owns (c : Thread nD τ) arg8 fullShare xo5 ∗ owns (c : Thread nD τ) arg9 fullShare xs0 ∗ owns (c : Thread nD τ) arg10 fullShare xs1
            ∗ (iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare xo4 ∗ owns (c : Thread nD τ) arg8 fullShare xo5 ∗ (∃ f, arg9.view.loc (c : Thread nD τ) ↦[arg9.view.set]{fullShare} arg9.view.writes (Elt F) f LS0) ∗ owns (c : Thread nD τ) arg10 fullShare xs1) -∗ K ⟨⟩))
          ⊢ wp frame (wpE (defs₀ (F := F)) Variants.none c none) E (cc1__attn_kernel i arg3 harg3 arg4 harg4 arg5 harg5 arg6 harg6 arg7 harg7 arg8 harg8 arg9 harg9 arg10 harg10) K } := by
  refine ⟨[], [], ?_, [], fun E K => ?run⟩
  case run =>
    simp only [cc1__attn_kernel_eq_skeleton]; unfold cc1__attn_kernel_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%fs0, %hfs0, HS0⟩, ⟨%fs1, %hfs1, HS1⟩, Hk⟩
    obtain rfl := harg3.eq_unread hf0; obtain rfl := harg4.eq_unread hf1; obtain rfl := harg5.eq_unread hf2; obtain rfl := harg6.eq_unread hf3
    obtain rfl := harg7.eq_unread hf4; obtain rfl := harg8.eq_unread hf5
    obtain rfl := harg9.eq_unread hfs0; obtain rfl := harg10.eq_unread hfs1
    sl_exec (disch := first | exact hc0 | exact hc1 | exact hc2 | exact hc3 | exact hc4 | exact hc5)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    isplitl [H4]
    · iexists _; isplitr; · ipureintro; exact harg7.read_unread _
      iexact H4
    isplitl [H5]
    · iexists _; isplitr; · ipureintro; exact harg8.read_unread _
      iexact H5
    isplitl [HS0]; · iexists _; iexact HS0
    iexists _; isplitr; · ipureintro; exact harg10.read_unread _
    iexact HS1

end Cert.Kernel.Hand

end
-- ==== Proof.Bits.AttnRunE.lean ====
/- The attention body where only the causal-block conditional holds (0 < kj <= qi, kj < 3):
   the output accumulator is read, the masked q k^T times v is added to it, and it is stored back whole;
   the state accumulator and both output blocks are left as they are. -/
import proofs.«151280_j41747082117805_1_alg».proof.Proof.Bits.AttnShared

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- (the run's proof term is large: the definition's epilogue walks it past the default budget)
set_option maxHeartbeats 1000000 in
/-- The body on whole memrefs, in the case named above: the four inputs, the two output buffers and the two
    accumulators, each at given contents. It runs to the continuation holding the inputs as they were, each buffer
    the case does not store into at the contents it was given, and each buffer it stores into with its pieces
    written (last first). The pieces are the witness the run finds (no piece for a buffer not stored into). -/
noncomputable def kernelRun1_E (c : Dev nD) (i : grid1.Coords) (arg3 : Memref sig .tc .vmem S1x1024x64 .bf16) (harg3 : arg3.IsWhole) (arg4 : Memref sig .tc .vmem S1x1024x64 .bf16) (harg4 : arg4.IsWhole) (arg5 : Memref sig .tc .vmem S1x1024x64 .bf16) (harg5 : arg5.IsWhole) (arg6 : Memref sig .tc .vmem S1x64x64 .f32) (harg6 : arg6.IsWhole) (arg7 : Memref sig .tc .vmem S1x1024x64 .f32) (harg7 : arg7.IsWhole) (arg8 : Memref sig .tc .vmem S1x64x64 .f32) (harg8 : arg8.IsWhole) (arg9 : Memref sig .tc .vmem S1024x64 .f32) (harg9 : arg9.IsWhole) (arg10 : Memref sig .tc .vmem S64x64 .f32) (harg10 : arg10.IsWhole) (hc0 : ¬cond1_0 i) (hc1 : ¬cond1_1 i) (hc2 : cond1_2 i) (hc3 : ¬cond1_3 i) (hc4 : ¬cond1_4 i) (hc5 : ¬cond1_5 i)
    (x0 x1 x2 : Vec F S1x1024x64 .bf16) (x3 : Vec F S1x64x64 .f32) (xo4 : Vec F S1x1024x64 .f32) (xo5 : Vec F S1x64x64 .f32) (xs0 : Vec F S1024x64 .f32) (xs1 : Vec F S64x64 .f32) :
    Σ' (L4 : List (View.Piece (Elt F) S1x1024x64 .f32)) (L5 : List (View.Piece (Elt F) S1x64x64 .f32)) (LS0 : List (View.Piece (Elt F) S1024x64 .f32)), { LS1 : List (View.Piece (Elt F) S64x64 .f32) //
      ∀ (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare xo4 ∗ owns (c : Thread nD τ) arg8 fullShare xo5 ∗ owns (c : Thread nD τ) arg9 fullShare xs0 ∗ owns (c : Thread nD τ) arg10 fullShare xs1
            ∗ (iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare xo4 ∗ owns (c : Thread nD τ) arg8 fullShare xo5 ∗ (∃ f, arg9.view.loc (c : Thread nD τ) ↦[arg9.view.set]{fullShare} arg9.view.writes (Elt F) f LS0) ∗ owns (c : Thread nD τ) arg10 fullShare xs1) -∗ K ⟨⟩))
          ⊢ wp frame (wpE (defs₀ (F := F)) Variants.none c none) E (cc1__attn_kernel i arg3 harg3 arg4 harg4 arg5 harg5 arg6 harg6 arg7 harg7 arg8 harg8 arg9 harg9 arg10 harg10) K } := by
  refine ⟨[], [], ?_, [], fun E K => ?run⟩
  case run =>
    simp only [cc1__attn_kernel_eq_skeleton]; unfold cc1__attn_kernel_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%fs0, %hfs0, HS0⟩, ⟨%fs1, %hfs1, HS1⟩, Hk⟩
    obtain rfl := harg3.eq_unread hf0; obtain rfl := harg4.eq_unread hf1; obtain rfl := harg5.eq_unread hf2; obtain rfl := harg6.eq_unread hf3
    obtain rfl := harg7.eq_unread hf4; obtain rfl := harg8.eq_unread hf5
    obtain rfl := harg9.eq_unread hfs0; obtain rfl := harg10.eq_unread hfs1
    sl_exec (disch := first | exact hc0 | exact hc1 | exact hc2 | exact hc3 | exact hc4 | exact hc5)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    isplitl [H4]
    · iexists _; isplitr; · ipureintro; exact harg7.read_unread _
      iexact H4
    isplitl [H5]
    · iexists _; isplitr; · ipureintro; exact harg8.read_unread _
      iexact H5
    isplitl [HS0]; · iexists _; iexact HS0
    iexists _; isplitr; · ipureintro; exact harg10.read_unread _
    iexact HS1

end Cert.Kernel.Hand

end
-- ==== Proof.Bits.AttnRunF.lean ====
/- The attention body where no conditional holds (qi = 1, kj = 2: a block above the diagonal, not the
   last of its row): nothing is stored; every buffer is left as it is. -/
import proofs.«151280_j41747082117805_1_alg».proof.Proof.Bits.AttnShared

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- (the run's proof term is large: the definition's epilogue walks it past the default budget)
set_option maxHeartbeats 1000000 in
/-- The body on whole memrefs, in the case named above: the four inputs, the two output buffers and the two
    accumulators, each at given contents. It runs to the continuation holding the inputs as they were, each buffer
    the case does not store into at the contents it was given, and each buffer it stores into with its pieces
    written (last first). The pieces are the witness the run finds (no piece for a buffer not stored into). -/
noncomputable def kernelRun1_F (c : Dev nD) (i : grid1.Coords) (arg3 : Memref sig .tc .vmem S1x1024x64 .bf16) (harg3 : arg3.IsWhole) (arg4 : Memref sig .tc .vmem S1x1024x64 .bf16) (harg4 : arg4.IsWhole) (arg5 : Memref sig .tc .vmem S1x1024x64 .bf16) (harg5 : arg5.IsWhole) (arg6 : Memref sig .tc .vmem S1x64x64 .f32) (harg6 : arg6.IsWhole) (arg7 : Memref sig .tc .vmem S1x1024x64 .f32) (harg7 : arg7.IsWhole) (arg8 : Memref sig .tc .vmem S1x64x64 .f32) (harg8 : arg8.IsWhole) (arg9 : Memref sig .tc .vmem S1024x64 .f32) (harg9 : arg9.IsWhole) (arg10 : Memref sig .tc .vmem S64x64 .f32) (harg10 : arg10.IsWhole) (hc0 : ¬cond1_0 i) (hc1 : ¬cond1_1 i) (hc2 : ¬cond1_2 i) (hc3 : ¬cond1_3 i) (hc4 : ¬cond1_4 i) (hc5 : ¬cond1_5 i)
    (x0 x1 x2 : Vec F S1x1024x64 .bf16) (x3 : Vec F S1x64x64 .f32) (xo4 : Vec F S1x1024x64 .f32) (xo5 : Vec F S1x64x64 .f32) (xs0 : Vec F S1024x64 .f32) (xs1 : Vec F S64x64 .f32) :
    Σ' (L4 : List (View.Piece (Elt F) S1x1024x64 .f32)) (L5 : List (View.Piece (Elt F) S1x64x64 .f32)) (LS0 : List (View.Piece (Elt F) S1024x64 .f32)), { LS1 : List (View.Piece (Elt F) S64x64 .f32) //
      ∀ (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare xo4 ∗ owns (c : Thread nD τ) arg8 fullShare xo5 ∗ owns (c : Thread nD τ) arg9 fullShare xs0 ∗ owns (c : Thread nD τ) arg10 fullShare xs1
            ∗ (iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare xo4 ∗ owns (c : Thread nD τ) arg8 fullShare xo5 ∗ owns (c : Thread nD τ) arg9 fullShare xs0 ∗ owns (c : Thread nD τ) arg10 fullShare xs1) -∗ K ⟨⟩))
          ⊢ wp frame (wpE (defs₀ (F := F)) Variants.none c none) E (cc1__attn_kernel i arg3 harg3 arg4 harg4 arg5 harg5 arg6 harg6 arg7 harg7 arg8 harg8 arg9 harg9 arg10 harg10) K } := by
  refine ⟨[], [], [], [], fun E K => ?run⟩
  case run =>
    simp only [cc1__attn_kernel_eq_skeleton]; unfold cc1__attn_kernel_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%fs0, %hfs0, HS0⟩, ⟨%fs1, %hfs1, HS1⟩, Hk⟩
    obtain rfl := harg3.eq_unread hf0; obtain rfl := harg4.eq_unread hf1; obtain rfl := harg5.eq_unread hf2; obtain rfl := harg6.eq_unread hf3
    obtain rfl := harg7.eq_unread hf4; obtain rfl := harg8.eq_unread hf5
    obtain rfl := harg9.eq_unread hfs0; obtain rfl := harg10.eq_unread hfs1
    sl_exec (disch := first | exact hc0 | exact hc1 | exact hc2 | exact hc3 | exact hc4 | exact hc5)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    isplitl [H4]
    · iexists _; isplitr; · ipureintro; exact harg7.read_unread _
      iexact H4
    isplitl [H5]
    · iexists _; isplitr; · ipureintro; exact harg8.read_unread _
      iexact H5
    isplitl [HS0]
    · iexists _; isplitr; · ipureintro; exact harg9.read_unread _
      iexact HS0
    iexists _; isplitr; · ipureintro; exact harg10.read_unread _
    iexact HS1

end Cert.Kernel.Hand

end
-- ==== Proof.Bits.AttnRunG.lean ====
/- The attention body where only conditional 4 holds (qi = 1 or 2, kj = 3: above the diagonal, the last
   block of its row): the output accumulator is written to the output block; nothing else is stored. -/
import proofs.«151280_j41747082117805_1_alg».proof.Proof.Bits.AttnShared

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- (the run's proof term is large: the definition's epilogue walks it past the default budget)
set_option maxHeartbeats 1000000 in
/-- The body on whole memrefs, in the case named above: the four inputs, the two output buffers and the two
    accumulators, each at given contents. It runs to the continuation holding the inputs as they were, each buffer
    the case does not store into at the contents it was given, and each buffer it stores into with its pieces
    written (last first). The pieces are the witness the run finds (no piece for a buffer not stored into). -/
noncomputable def kernelRun1_G (c : Dev nD) (i : grid1.Coords) (arg3 : Memref sig .tc .vmem S1x1024x64 .bf16) (harg3 : arg3.IsWhole) (arg4 : Memref sig .tc .vmem S1x1024x64 .bf16) (harg4 : arg4.IsWhole) (arg5 : Memref sig .tc .vmem S1x1024x64 .bf16) (harg5 : arg5.IsWhole) (arg6 : Memref sig .tc .vmem S1x64x64 .f32) (harg6 : arg6.IsWhole) (arg7 : Memref sig .tc .vmem S1x1024x64 .f32) (harg7 : arg7.IsWhole) (arg8 : Memref sig .tc .vmem S1x64x64 .f32) (harg8 : arg8.IsWhole) (arg9 : Memref sig .tc .vmem S1024x64 .f32) (harg9 : arg9.IsWhole) (arg10 : Memref sig .tc .vmem S64x64 .f32) (harg10 : arg10.IsWhole) (hc0 : ¬cond1_0 i) (hc1 : ¬cond1_1 i) (hc2 : ¬cond1_2 i) (hc3 : ¬cond1_3 i) (hc4 : cond1_4 i) (hc5 : ¬cond1_5 i)
    (x0 x1 x2 : Vec F S1x1024x64 .bf16) (x3 : Vec F S1x64x64 .f32) (xo4 : Vec F S1x1024x64 .f32) (xo5 : Vec F S1x64x64 .f32) (xs0 : Vec F S1024x64 .f32) (xs1 : Vec F S64x64 .f32) :
    Σ' (L4 : List (View.Piece (Elt F) S1x1024x64 .f32)) (L5 : List (View.Piece (Elt F) S1x64x64 .f32)) (LS0 : List (View.Piece (Elt F) S1024x64 .f32)), { LS1 : List (View.Piece (Elt F) S64x64 .f32) //
      ∀ (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare xo4 ∗ owns (c : Thread nD τ) arg8 fullShare xo5 ∗ owns (c : Thread nD τ) arg9 fullShare xs0 ∗ owns (c : Thread nD τ) arg10 fullShare xs1
            ∗ (iprop(owns (c : Thread nD τ) arg3 fullShare x0 ∗ owns (c : Thread nD τ) arg4 fullShare x1 ∗ owns (c : Thread nD τ) arg5 fullShare x2 ∗ owns (c : Thread nD τ) arg6 fullShare x3 ∗ (∃ f, arg7.view.loc (c : Thread nD τ) ↦[arg7.view.set]{fullShare} arg7.view.writes (Elt F) f L4) ∗ owns (c : Thread nD τ) arg8 fullShare xo5 ∗ owns (c : Thread nD τ) arg9 fullShare xs0 ∗ owns (c : Thread nD τ) arg10 fullShare xs1) -∗ K ⟨⟩))
          ⊢ wp frame (wpE (defs₀ (F := F)) Variants.none c none) E (cc1__attn_kernel i arg3 harg3 arg4 harg4 arg5 harg5 arg6 harg6 arg7 harg7 arg8 harg8 arg9 harg9 arg10 harg10) K } := by
  refine ⟨?_, [], [], [], fun E K => ?run⟩
  case run =>
    simp only [cc1__attn_kernel_eq_skeleton]; unfold cc1__attn_kernel_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%fs0, %hfs0, HS0⟩, ⟨%fs1, %hfs1, HS1⟩, Hk⟩
    obtain rfl := harg3.eq_unread hf0; obtain rfl := harg4.eq_unread hf1; obtain rfl := harg5.eq_unread hf2; obtain rfl := harg6.eq_unread hf3
    obtain rfl := harg7.eq_unread hf4; obtain rfl := harg8.eq_unread hf5
    obtain rfl := harg9.eq_unread hfs0; obtain rfl := harg10.eq_unread hfs1
    sl_exec (disch := first | exact hc0 | exact hc1 | exact hc2 | exact hc3 | exact hc4 | exact hc5)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    isplitl [H4]; · iexists _; iexact H4
    isplitl [H5]
    · iexists _; isplitr; · ipureintro; exact harg8.read_unread _
      iexact H5
    isplitl [HS0]
    · iexists _; isplitr; · ipureintro; exact harg9.read_unread _
      iexact HS0
    iexists _; isplitr; · ipureintro; exact harg10.read_unread _
    iexact HS1

end Cert.Kernel.Hand

end
-- ==== Proof.Bits.AttnRunH.lean ====
/- The attention body at the last block of a head (qi = 3, kj = 3), where conditionals 2, 4, 5 hold: the masked
   q k^T times v is added to the output accumulator, which is then written to the output block, and the state
   accumulator is written to the new-state block. -/
import proofs.«151280_j41747082117805_1_alg».proof.Proof.Bits.AttnShared

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- (the run's proof term is large: the definition's epilogue walks it past the default budget)
set_option maxHeartbeats 1000000 in
/-- The body on whole memrefs, in the case named above: the four inputs, the two output buffers and the two
    accumulators, each at given contents. It runs to the continuation holding the inputs as they were, each buffer
    the case does not store into at the contents it was given, and each buffer it stores into with its pieces
    written (last first). The pieces are the witness the run finds (no piece for a buffer not stored into). -/
noncomputable def kernelRun1_H (c : Dev nD) (i : grid1.Coords) (arg3 : Memref sig .tc .vmem S1x1024x64 .bf16) (harg3 : arg3.IsWhole) (arg4 : Memref sig .tc .vmem S1x1024x64 .bf16) (harg4 : arg4.IsWhole) (arg5 : Memref sig .tc .vmem S1x1024x64 .bf16) (harg5 : arg5.IsWhole) (arg6 : Memref sig .tc .vmem S1x64x64 .f32) (harg6 : arg6.IsWhole) (arg7 : Memref sig .tc .vmem S1x1024x64 .f32) (harg7 : arg7.IsWhole) (arg8 : Memref sig .tc .vmem S1x64x64 .f32) (harg8 : arg8.IsWhole) (arg9 : Memref sig .tc .vmem S1024x64 .f32) (harg9 : arg9.IsWhole) (arg10 : Memref sig .tc .vmem S64x64 .f32) (harg10 : arg10.IsWhole) (hc0 : ¬cond1_0 i) (hc1 : ¬cond1_1 i) (hc2 : cond1_2 i) (hc3 : ¬cond1_3 i) (hc4 : cond1_4 i) (hc5 : cond1_5 i)
    (x0 x1 x2 : Vec F S1x1024x64 .bf16) (x3 : Vec F S1x64x64 .f32) (xo4 : Vec F S1x1024x64 .f32) (xo5 : Vec F S1x64x64 .f32) (xs0 : Vec F S1024x64 .f32) (xs1 : Vec F S64x64 .f32) :
    Σ' (L4 : List (View.Piece (Elt F) S1x1024x64 .f32)) (L5 : List (View.Piece (Elt F) S1x64x64 .f32)) (LS0 : List (View.Piece (Elt F) S1024x64 .f32)), { LS1 : List (View.Piece (Elt F) S64x64 .f32) //
      ∀ (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare xo4 ∗ owns (c : Thread nD τ) arg8 fullShare xo5 ∗ owns (c : Thread nD τ) arg9 fullShare xs0 ∗ owns (c : Thread nD τ) arg10 fullShare xs1
            ∗ (iprop(owns (c : Thread nD τ) arg3 fullShare x0 ∗ owns (c : Thread nD τ) arg4 fullShare x1 ∗ owns (c : Thread nD τ) arg5 fullShare x2 ∗ owns (c : Thread nD τ) arg6 fullShare x3 ∗ (∃ f, arg7.view.loc (c : Thread nD τ) ↦[arg7.view.set]{fullShare} arg7.view.writes (Elt F) f L4) ∗ (∃ f, arg8.view.loc (c : Thread nD τ) ↦[arg8.view.set]{fullShare} arg8.view.writes (Elt F) f L5) ∗ (∃ f, arg9.view.loc (c : Thread nD τ) ↦[arg9.view.set]{fullShare} arg9.view.writes (Elt F) f LS0) ∗ owns (c : Thread nD τ) arg10 fullShare xs1) -∗ K ⟨⟩))
          ⊢ wp frame (wpE (defs₀ (F := F)) Variants.none c none) E (cc1__attn_kernel i arg3 harg3 arg4 harg4 arg5 harg5 arg6 harg6 arg7 harg7 arg8 harg8 arg9 harg9 arg10 harg10) K } := by
  refine ⟨?_, ?_, ?_, [], fun E K => ?run⟩
  case run =>
    simp only [cc1__attn_kernel_eq_skeleton]; unfold cc1__attn_kernel_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%fs0, %hfs0, HS0⟩, ⟨%fs1, %hfs1, HS1⟩, Hk⟩
    obtain rfl := harg3.eq_unread hf0; obtain rfl := harg4.eq_unread hf1; obtain rfl := harg5.eq_unread hf2; obtain rfl := harg6.eq_unread hf3
    obtain rfl := harg7.eq_unread hf4; obtain rfl := harg8.eq_unread hf5
    obtain rfl := harg9.eq_unread hfs0; obtain rfl := harg10.eq_unread hfs1
    sl_exec (disch := first | exact hc0 | exact hc1 | exact hc2 | exact hc3 | exact hc4 | exact hc5)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    isplitl [H4]; · iexists _; iexact H4
    isplitl [H5]; · iexists _; iexact H5
    isplitl [HS0]; · iexists _; iexact HS0
    iexists _; isplitr; · ipureintro; exact harg10.read_unread _
    iexact HS1

end Cert.Kernel.Hand

end
-- ==== Proof.Bits.AttnReadback.lean ====
/- What each case of the attention body leaves in the buffers it stores, as ONE payload of the
   case's inputs: the stores are whole-buffer stores, so whatever a buffer held before, reading it
   back after the case gives the last store's payload; where that payload read an earlier store of
   the same case (the first block of a row sets the output accumulator and then adds to it), the
   earlier payload is substituted. Names: x0 the query tile, x1 the key tile, x2 the value tile,
   x3 the head's initial state, xs0 / xs1 the output / state accumulator before the case. -/
import proofs.«151280_j41747082117805_1_alg».proof.Proof.Bits.AttnRunA
import proofs.«151280_j41747082117805_1_alg».proof.Proof.Bits.AttnRunB
import proofs.«151280_j41747082117805_1_alg».proof.Proof.Bits.AttnRunC
import proofs.«151280_j41747082117805_1_alg».proof.Proof.Bits.AttnRunD
import proofs.«151280_j41747082117805_1_alg».proof.Proof.Bits.AttnRunE
import proofs.«151280_j41747082117805_1_alg».proof.Proof.Bits.AttnRunF
import proofs.«151280_j41747082117805_1_alg».proof.Proof.Bits.AttnRunG
import proofs.«151280_j41747082117805_1_alg».proof.Proof.Bits.AttnRunH
import Idealize.ShloMosaic.Lib.Pipeline.Value

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

theorem hz2 : (![0, 0] : Fin 2 → Nat) = fun _ => 0 := funext fun a => by fin_cases a <;> rfl
theorem hz3 : (![0, 0, 0] : Fin 3 → Nat) = fun _ => 0 := funext fun a => by fin_cases a <;> rfl

/-- The pieces case E finds for arg9 tile it, so they cover it. -/
theorem cov1_E_S0 (c : Dev nD) (i : grid1.Coords) (arg3 : Memref sig .tc .vmem S1x1024x64 .bf16) (harg3 : arg3.IsWhole) (arg4 : Memref sig .tc .vmem S1x1024x64 .bf16) (harg4 : arg4.IsWhole) (arg5 : Memref sig .tc .vmem S1x1024x64 .bf16) (harg5 : arg5.IsWhole) (arg6 : Memref sig .tc .vmem S1x64x64 .f32) (harg6 : arg6.IsWhole) (arg7 : Memref sig .tc .vmem S1x1024x64 .f32) (harg7 : arg7.IsWhole) (arg8 : Memref sig .tc .vmem S1x64x64 .f32) (harg8 : arg8.IsWhole) (arg9 : Memref sig .tc .vmem S1024x64 .f32) (harg9 : arg9.IsWhole) (arg10 : Memref sig .tc .vmem S64x64 .f32) (harg10 : arg10.IsWhole) (hc0 : ¬cond1_0 i) (hc1 : ¬cond1_1 i) (hc2 : cond1_2 i) (hc3 : ¬cond1_3 i) (hc4 : ¬cond1_4 i) (hc5 : ¬cond1_5 i) (x0 x1 x2 : Vec F S1x1024x64 .bf16) (x3 : Vec F S1x64x64 .f32) (xo4 : Vec F S1x1024x64 .f32) (xo5 : Vec F S1x64x64 .f32) (xs0 : Vec F S1024x64 .f32) (xs1 : Vec F S64x64 .f32) (y : S1024x64.Idx) :
    ∃ pc ∈ (kernelRun1_E c i arg3 harg3 arg4 harg4 arg5 harg5 arg6 harg6 arg7 harg7 arg8 harg8 arg9 harg9 arg10 harg10 hc0 hc1 hc2 hc3 hc4 hc5 x0 x1 x2 x3 xo4 xo5 xs0 xs1).2.2.1, y ∈ pc.1.set :=
  View.cover_of_tiledL (kernelRun1_E c i arg3 harg3 arg4 harg4 arg5 harg5 arg6 harg6 arg7 harg7 arg8 harg8 arg9 harg9 arg10 harg10 hc0 hc1 hc2 hc3 hc4 hc5 x0 x1 x2 x3 xo4 xo5 xs0 xs1).2.2.1 S1024x64.size (by sl_kernel_rfl) y

/-- Case E leaves the output accumulator at its contents before plus the masked q k^T times v. -/
theorem rb1_E_S0 (c : Dev nD) (i : grid1.Coords) (arg3 : Memref sig .tc .vmem S1x1024x64 .bf16) (harg3 : arg3.IsWhole) (arg4 : Memref sig .tc .vmem S1x1024x64 .bf16) (harg4 : arg4.IsWhole) (arg5 : Memref sig .tc .vmem S1x1024x64 .bf16) (harg5 : arg5.IsWhole) (arg6 : Memref sig .tc .vmem S1x64x64 .f32) (harg6 : arg6.IsWhole) (arg7 : Memref sig .tc .vmem S1x1024x64 .f32) (harg7 : arg7.IsWhole) (arg8 : Memref sig .tc .vmem S1x64x64 .f32) (harg8 : arg8.IsWhole) (arg9 : Memref sig .tc .vmem S1024x64 .f32) (harg9 : arg9.IsWhole) (arg10 : Memref sig .tc .vmem S64x64 .f32) (harg10 : arg10.IsWhole) (hc0 : ¬cond1_0 i) (hc1 : ¬cond1_1 i) (hc2 : cond1_2 i) (hc3 : ¬cond1_3 i) (hc4 : ¬cond1_4 i) (hc5 : ¬cond1_5 i) (x0 x1 x2 : Vec F S1x1024x64 .bf16) (x3 : Vec F S1x64x64 .f32) (xo4 : Vec F S1x1024x64 .f32) (xo5 : Vec F S1x64x64 .f32) (xs0 : Vec F S1024x64 .f32) (xs1 : Vec F S64x64 .f32) (f : arg9.view.ty.Contents (Elt F)) :
    arg9.view.read (Elt F) (arg9.view.writes (Elt F) f (kernelRun1_E c i arg3 harg3 arg4 harg4 arg5 harg5 arg6 harg6 arg7 harg7 arg8 harg8 arg9 harg9 arg10 harg10 hc0 hc1 hc2 hc3 hc4 hc5 x0 x1 x2 x3 xo4 xo5 xs0 xs1).2.2.1) = k1_pay3 i x0 x1 xs0 x2 := by
  rw [View.read_writes_eq_canon _ _ _ (cov1_E_S0 c i arg3 harg3 arg4 harg4 arg5 harg5 arg6 harg6 arg7 harg7 arg8 harg8 arg9 harg9 arg10 harg10 hc0 hc1 hc2 hc3 hc4 hc5 x0 x1 x2 x3 xo4 xo5 xs0 xs1)]
  unfold kernelRun1_E
  dsimp only
  sl_unfold_words
  rw [View.canon_unit_zero (S := S1024x64) hz2]
  simp only [View.readAt_eq_ld, harg3.read_unread, harg4.read_unread, harg5.read_unread, harg6.read_unread, harg9.read_unread, harg10.read_unread, View.ld_unit_zero (S := S1x1024x64) hz3, View.ld_unit_zero (S := S1x64x64) hz3, View.ld_unit_zero (S := S1024x64) hz2, View.ld_unit_zero (S := S64x64) hz2]

/-- The pieces case B finds for arg10 tile it, so they cover it. -/
theorem cov1_B_S1 (c : Dev nD) (i : grid1.Coords) (arg3 : Memref sig .tc .vmem S1x1024x64 .bf16) (harg3 : arg3.IsWhole) (arg4 : Memref sig .tc .vmem S1x1024x64 .bf16) (harg4 : arg4.IsWhole) (arg5 : Memref sig .tc .vmem S1x1024x64 .bf16) (harg5 : arg5.IsWhole) (arg6 : Memref sig .tc .vmem S1x64x64 .f32) (harg6 : arg6.IsWhole) (arg7 : Memref sig .tc .vmem S1x1024x64 .f32) (harg7 : arg7.IsWhole) (arg8 : Memref sig .tc .vmem S1x64x64 .f32) (harg8 : arg8.IsWhole) (arg9 : Memref sig .tc .vmem S1024x64 .f32) (harg9 : arg9.IsWhole) (arg10 : Memref sig .tc .vmem S64x64 .f32) (harg10 : arg10.IsWhole) (hc0 : ¬cond1_0 i) (hc1 : ¬cond1_1 i) (hc2 : ¬cond1_2 i) (hc3 : cond1_3 i) (hc4 : ¬cond1_4 i) (hc5 : ¬cond1_5 i) (x0 x1 x2 : Vec F S1x1024x64 .bf16) (x3 : Vec F S1x64x64 .f32) (xo4 : Vec F S1x1024x64 .f32) (xo5 : Vec F S1x64x64 .f32) (xs0 : Vec F S1024x64 .f32) (xs1 : Vec F S64x64 .f32) (y : S64x64.Idx) :
    ∃ pc ∈ (kernelRun1_B c i arg3 harg3 arg4 harg4 arg5 harg5 arg6 harg6 arg7 harg7 arg8 harg8 arg9 harg9 arg10 harg10 hc0 hc1 hc2 hc3 hc4 hc5 x0 x1 x2 x3 xo4 xo5 xs0 xs1).2.2.2.1, y ∈ pc.1.set :=
  View.cover_of_tiledL (kernelRun1_B c i arg3 harg3 arg4 harg4 arg5 harg5 arg6 harg6 arg7 harg7 arg8 harg8 arg9 harg9 arg10 harg10 hc0 hc1 hc2 hc3 hc4 hc5 x0 x1 x2 x3 xo4 xo5 xs0 xs1).2.2.2.1 S64x64.size (by sl_kernel_rfl) y

/-- Case B leaves the state accumulator at its contents before plus k^T v. -/
theorem rb1_B_S1 (c : Dev nD) (i : grid1.Coords) (arg3 : Memref sig .tc .vmem S1x1024x64 .bf16) (harg3 : arg3.IsWhole) (arg4 : Memref sig .tc .vmem S1x1024x64 .bf16) (harg4 : arg4.IsWhole) (arg5 : Memref sig .tc .vmem S1x1024x64 .bf16) (harg5 : arg5.IsWhole) (arg6 : Memref sig .tc .vmem S1x64x64 .f32) (harg6 : arg6.IsWhole) (arg7 : Memref sig .tc .vmem S1x1024x64 .f32) (harg7 : arg7.IsWhole) (arg8 : Memref sig .tc .vmem S1x64x64 .f32) (harg8 : arg8.IsWhole) (arg9 : Memref sig .tc .vmem S1024x64 .f32) (harg9 : arg9.IsWhole) (arg10 : Memref sig .tc .vmem S64x64 .f32) (harg10 : arg10.IsWhole) (hc0 : ¬cond1_0 i) (hc1 : ¬cond1_1 i) (hc2 : ¬cond1_2 i) (hc3 : cond1_3 i) (hc4 : ¬cond1_4 i) (hc5 : ¬cond1_5 i) (x0 x1 x2 : Vec F S1x1024x64 .bf16) (x3 : Vec F S1x64x64 .f32) (xo4 : Vec F S1x1024x64 .f32) (xo5 : Vec F S1x64x64 .f32) (xs0 : Vec F S1024x64 .f32) (xs1 : Vec F S64x64 .f32) (f : arg10.view.ty.Contents (Elt F)) :
    arg10.view.read (Elt F) (arg10.view.writes (Elt F) f (kernelRun1_B c i arg3 harg3 arg4 harg4 arg5 harg5 arg6 harg6 arg7 harg7 arg8 harg8 arg9 harg9 arg10 harg10 hc0 hc1 hc2 hc3 hc4 hc5 x0 x1 x2 x3 xo4 xo5 xs0 xs1).2.2.2.1) = k1_pay4 xs1 x1 x2 := by
  rw [View.read_writes_eq_canon _ _ _ (cov1_B_S1 c i arg3 harg3 arg4 harg4 arg5 harg5 arg6 harg6 arg7 harg7 arg8 harg8 arg9 harg9 arg10 harg10 hc0 hc1 hc2 hc3 hc4 hc5 x0 x1 x2 x3 xo4 xo5 xs0 xs1)]
  unfold kernelRun1_B
  dsimp only
  sl_unfold_words
  rw [View.canon_unit_zero (S := S64x64) hz2]
  simp only [View.readAt_eq_ld, harg3.read_unread, harg4.read_unread, harg5.read_unread, harg6.read_unread, harg9.read_unread, harg10.read_unread, View.ld_unit_zero (S := S1x1024x64) hz3, View.ld_unit_zero (S := S1x64x64) hz3, View.ld_unit_zero (S := S1024x64) hz2, View.ld_unit_zero (S := S64x64) hz2]

/-- The pieces case C finds for arg7 tile it, so they cover it. -/
theorem cov1_C_O4 (c : Dev nD) (i : grid1.Coords) (arg3 : Memref sig .tc .vmem S1x1024x64 .bf16) (harg3 : arg3.IsWhole) (arg4 : Memref sig .tc .vmem S1x1024x64 .bf16) (harg4 : arg4.IsWhole) (arg5 : Memref sig .tc .vmem S1x1024x64 .bf16) (harg5 : arg5.IsWhole) (arg6 : Memref sig .tc .vmem S1x64x64 .f32) (harg6 : arg6.IsWhole) (arg7 : Memref sig .tc .vmem S1x1024x64 .f32) (harg7 : arg7.IsWhole) (arg8 : Memref sig .tc .vmem S1x64x64 .f32) (harg8 : arg8.IsWhole) (arg9 : Memref sig .tc .vmem S1024x64 .f32) (harg9 : arg9.IsWhole) (arg10 : Memref sig .tc .vmem S64x64 .f32) (harg10 : arg10.IsWhole) (hc0 : ¬cond1_0 i) (hc1 : ¬cond1_1 i) (hc2 : ¬cond1_2 i) (hc3 : cond1_3 i) (hc4 : cond1_4 i) (hc5 : ¬cond1_5 i) (x0 x1 x2 : Vec F S1x1024x64 .bf16) (x3 : Vec F S1x64x64 .f32) (xo4 : Vec F S1x1024x64 .f32) (xo5 : Vec F S1x64x64 .f32) (xs0 : Vec F S1024x64 .f32) (xs1 : Vec F S64x64 .f32) (y : S1x1024x64.Idx) :
    ∃ pc ∈ (kernelRun1_C c i arg3 harg3 arg4 harg4 arg5 harg5 arg6 harg6 arg7 harg7 arg8 harg8 arg9 harg9 arg10 harg10 hc0 hc1 hc2 hc3 hc4 hc5 x0 x1 x2 x3 xo4 xo5 xs0 xs1).1, y ∈ pc.1.set :=
  View.cover_of_tiledL (kernelRun1_C c i arg3 harg3 arg4 harg4 arg5 harg5 arg6 harg6 arg7 harg7 arg8 harg8 arg9 harg9 arg10 harg10 hc0 hc1 hc2 hc3 hc4 hc5 x0 x1 x2 x3 xo4 xo5 xs0 xs1).1 S1x1024x64.size (by sl_kernel_rfl) y

/-- Case C leaves the output block at the output accumulator's contents. -/
theorem rb1_C_O4 (c : Dev nD) (i : grid1.Coords) (arg3 : Memref sig .tc .vmem S1x1024x64 .bf16) (harg3 : arg3.IsWhole) (arg4 : Memref sig .tc .vmem S1x1024x64 .bf16) (harg4 : arg4.IsWhole) (arg5 : Memref sig .tc .vmem S1x1024x64 .bf16) (harg5 : arg5.IsWhole) (arg6 : Memref sig .tc .vmem S1x64x64 .f32) (harg6 : arg6.IsWhole) (arg7 : Memref sig .tc .vmem S1x1024x64 .f32) (harg7 : arg7.IsWhole) (arg8 : Memref sig .tc .vmem S1x64x64 .f32) (harg8 : arg8.IsWhole) (arg9 : Memref sig .tc .vmem S1024x64 .f32) (harg9 : arg9.IsWhole) (arg10 : Memref sig .tc .vmem S64x64 .f32) (harg10 : arg10.IsWhole) (hc0 : ¬cond1_0 i) (hc1 : ¬cond1_1 i) (hc2 : ¬cond1_2 i) (hc3 : cond1_3 i) (hc4 : cond1_4 i) (hc5 : ¬cond1_5 i) (x0 x1 x2 : Vec F S1x1024x64 .bf16) (x3 : Vec F S1x64x64 .f32) (xo4 : Vec F S1x1024x64 .f32) (xo5 : Vec F S1x64x64 .f32) (xs0 : Vec F S1024x64 .f32) (xs1 : Vec F S64x64 .f32) (f : arg7.view.ty.Contents (Elt F)) :
    arg7.view.read (Elt F) (arg7.view.writes (Elt F) f (kernelRun1_C c i arg3 harg3 arg4 harg4 arg5 harg5 arg6 harg6 arg7 harg7 arg8 harg8 arg9 harg9 arg10 harg10 hc0 hc1 hc2 hc3 hc4 hc5 x0 x1 x2 x3 xo4 xo5 xs0 xs1).1) = k1_pay5 xs0 := by
  rw [View.read_writes_eq_canon _ _ _ (cov1_C_O4 c i arg3 harg3 arg4 harg4 arg5 harg5 arg6 harg6 arg7 harg7 arg8 harg8 arg9 harg9 arg10 harg10 hc0 hc1 hc2 hc3 hc4 hc5 x0 x1 x2 x3 xo4 xo5 xs0 xs1)]
  unfold kernelRun1_C
  dsimp only
  sl_unfold_words
  rw [View.canon_unit_zero (S := S1x1024x64) hz3]
  simp only [View.readAt_eq_ld, harg3.read_unread, harg4.read_unread, harg5.read_unread, harg6.read_unread, harg9.read_unread, harg10.read_unread, View.ld_unit_zero (S := S1x1024x64) hz3, View.ld_unit_zero (S := S1x64x64) hz3, View.ld_unit_zero (S := S1024x64) hz2, View.ld_unit_zero (S := S64x64) hz2]

/-- The pieces case C finds for arg10 tile it, so they cover it. -/
theorem cov1_C_S1 (c : Dev nD) (i : grid1.Coords) (arg3 : Memref sig .tc .vmem S1x1024x64 .bf16) (harg3 : arg3.IsWhole) (arg4 : Memref sig .tc .vmem S1x1024x64 .bf16) (harg4 : arg4.IsWhole) (arg5 : Memref sig .tc .vmem S1x1024x64 .bf16) (harg5 : arg5.IsWhole) (arg6 : Memref sig .tc .vmem S1x64x64 .f32) (harg6 : arg6.IsWhole) (arg7 : Memref sig .tc .vmem S1x1024x64 .f32) (harg7 : arg7.IsWhole) (arg8 : Memref sig .tc .vmem S1x64x64 .f32) (harg8 : arg8.IsWhole) (arg9 : Memref sig .tc .vmem S1024x64 .f32) (harg9 : arg9.IsWhole) (arg10 : Memref sig .tc .vmem S64x64 .f32) (harg10 : arg10.IsWhole) (hc0 : ¬cond1_0 i) (hc1 : ¬cond1_1 i) (hc2 : ¬cond1_2 i) (hc3 : cond1_3 i) (hc4 : cond1_4 i) (hc5 : ¬cond1_5 i) (x0 x1 x2 : Vec F S1x1024x64 .bf16) (x3 : Vec F S1x64x64 .f32) (xo4 : Vec F S1x1024x64 .f32) (xo5 : Vec F S1x64x64 .f32) (xs0 : Vec F S1024x64 .f32) (xs1 : Vec F S64x64 .f32) (y : S64x64.Idx) :
    ∃ pc ∈ (kernelRun1_C c i arg3 harg3 arg4 harg4 arg5 harg5 arg6 harg6 arg7 harg7 arg8 harg8 arg9 harg9 arg10 harg10 hc0 hc1 hc2 hc3 hc4 hc5 x0 x1 x2 x3 xo4 xo5 xs0 xs1).2.2.2.1, y ∈ pc.1.set :=
  View.cover_of_tiledL (kernelRun1_C c i arg3 harg3 arg4 harg4 arg5 harg5 arg6 harg6 arg7 harg7 arg8 harg8 arg9 harg9 arg10 harg10 hc0 hc1 hc2 hc3 hc4 hc5 x0 x1 x2 x3 xo4 xo5 xs0 xs1).2.2.2.1 S64x64.size (by sl_kernel_rfl) y

/-- Case C leaves the state accumulator at its contents before plus k^T v. -/
theorem rb1_C_S1 (c : Dev nD) (i : grid1.Coords) (arg3 : Memref sig .tc .vmem S1x1024x64 .bf16) (harg3 : arg3.IsWhole) (arg4 : Memref sig .tc .vmem S1x1024x64 .bf16) (harg4 : arg4.IsWhole) (arg5 : Memref sig .tc .vmem S1x1024x64 .bf16) (harg5 : arg5.IsWhole) (arg6 : Memref sig .tc .vmem S1x64x64 .f32) (harg6 : arg6.IsWhole) (arg7 : Memref sig .tc .vmem S1x1024x64 .f32) (harg7 : arg7.IsWhole) (arg8 : Memref sig .tc .vmem S1x64x64 .f32) (harg8 : arg8.IsWhole) (arg9 : Memref sig .tc .vmem S1024x64 .f32) (harg9 : arg9.IsWhole) (arg10 : Memref sig .tc .vmem S64x64 .f32) (harg10 : arg10.IsWhole) (hc0 : ¬cond1_0 i) (hc1 : ¬cond1_1 i) (hc2 : ¬cond1_2 i) (hc3 : cond1_3 i) (hc4 : cond1_4 i) (hc5 : ¬cond1_5 i) (x0 x1 x2 : Vec F S1x1024x64 .bf16) (x3 : Vec F S1x64x64 .f32) (xo4 : Vec F S1x1024x64 .f32) (xo5 : Vec F S1x64x64 .f32) (xs0 : Vec F S1024x64 .f32) (xs1 : Vec F S64x64 .f32) (f : arg10.view.ty.Contents (Elt F)) :
    arg10.view.read (Elt F) (arg10.view.writes (Elt F) f (kernelRun1_C c i arg3 harg3 arg4 harg4 arg5 harg5 arg6 harg6 arg7 harg7 arg8 harg8 arg9 harg9 arg10 harg10 hc0 hc1 hc2 hc3 hc4 hc5 x0 x1 x2 x3 xo4 xo5 xs0 xs1).2.2.2.1) = k1_pay4 xs1 x1 x2 := by
  rw [View.read_writes_eq_canon _ _ _ (cov1_C_S1 c i arg3 harg3 arg4 harg4 arg5 harg5 arg6 harg6 arg7 harg7 arg8 harg8 arg9 harg9 arg10 harg10 hc0 hc1 hc2 hc3 hc4 hc5 x0 x1 x2 x3 xo4 xo5 xs0 xs1)]
  unfold kernelRun1_C
  dsimp only
  sl_unfold_words
  rw [View.canon_unit_zero (S := S64x64) hz2]
  simp only [View.readAt_eq_ld, harg3.read_unread, harg4.read_unread, harg5.read_unread, harg6.read_unread, harg9.read_unread, harg10.read_unread, View.ld_unit_zero (S := S1x1024x64) hz3, View.ld_unit_zero (S := S1x64x64) hz3, View.ld_unit_zero (S := S1024x64) hz2, View.ld_unit_zero (S := S64x64) hz2]

/-- The pieces case G finds for arg7 tile it, so they cover it. -/
theorem cov1_G_O4 (c : Dev nD) (i : grid1.Coords) (arg3 : Memref sig .tc .vmem S1x1024x64 .bf16) (harg3 : arg3.IsWhole) (arg4 : Memref sig .tc .vmem S1x1024x64 .bf16) (harg4 : arg4.IsWhole) (arg5 : Memref sig .tc .vmem S1x1024x64 .bf16) (harg5 : arg5.IsWhole) (arg6 : Memref sig .tc .vmem S1x64x64 .f32) (harg6 : arg6.IsWhole) (arg7 : Memref sig .tc .vmem S1x1024x64 .f32) (harg7 : arg7.IsWhole) (arg8 : Memref sig .tc .vmem S1x64x64 .f32) (harg8 : arg8.IsWhole) (arg9 : Memref sig .tc .vmem S1024x64 .f32) (harg9 : arg9.IsWhole) (arg10 : Memref sig .tc .vmem S64x64 .f32) (harg10 : arg10.IsWhole) (hc0 : ¬cond1_0 i) (hc1 : ¬cond1_1 i) (hc2 : ¬cond1_2 i) (hc3 : ¬cond1_3 i) (hc4 : cond1_4 i) (hc5 : ¬cond1_5 i) (x0 x1 x2 : Vec F S1x1024x64 .bf16) (x3 : Vec F S1x64x64 .f32) (xo4 : Vec F S1x1024x64 .f32) (xo5 : Vec F S1x64x64 .f32) (xs0 : Vec F S1024x64 .f32) (xs1 : Vec F S64x64 .f32) (y : S1x1024x64.Idx) :
    ∃ pc ∈ (kernelRun1_G c i arg3 harg3 arg4 harg4 arg5 harg5 arg6 harg6 arg7 harg7 arg8 harg8 arg9 harg9 arg10 harg10 hc0 hc1 hc2 hc3 hc4 hc5 x0 x1 x2 x3 xo4 xo5 xs0 xs1).1, y ∈ pc.1.set :=
  View.cover_of_tiledL (kernelRun1_G c i arg3 harg3 arg4 harg4 arg5 harg5 arg6 harg6 arg7 harg7 arg8 harg8 arg9 harg9 arg10 harg10 hc0 hc1 hc2 hc3 hc4 hc5 x0 x1 x2 x3 xo4 xo5 xs0 xs1).1 S1x1024x64.size (by sl_kernel_rfl) y

/-- Case G leaves the output block at the output accumulator's contents. -/
theorem rb1_G_O4 (c : Dev nD) (i : grid1.Coords) (arg3 : Memref sig .tc .vmem S1x1024x64 .bf16) (harg3 : arg3.IsWhole) (arg4 : Memref sig .tc .vmem S1x1024x64 .bf16) (harg4 : arg4.IsWhole) (arg5 : Memref sig .tc .vmem S1x1024x64 .bf16) (harg5 : arg5.IsWhole) (arg6 : Memref sig .tc .vmem S1x64x64 .f32) (harg6 : arg6.IsWhole) (arg7 : Memref sig .tc .vmem S1x1024x64 .f32) (harg7 : arg7.IsWhole) (arg8 : Memref sig .tc .vmem S1x64x64 .f32) (harg8 : arg8.IsWhole) (arg9 : Memref sig .tc .vmem S1024x64 .f32) (harg9 : arg9.IsWhole) (arg10 : Memref sig .tc .vmem S64x64 .f32) (harg10 : arg10.IsWhole) (hc0 : ¬cond1_0 i) (hc1 : ¬cond1_1 i) (hc2 : ¬cond1_2 i) (hc3 : ¬cond1_3 i) (hc4 : cond1_4 i) (hc5 : ¬cond1_5 i) (x0 x1 x2 : Vec F S1x1024x64 .bf16) (x3 : Vec F S1x64x64 .f32) (xo4 : Vec F S1x1024x64 .f32) (xo5 : Vec F S1x64x64 .f32) (xs0 : Vec F S1024x64 .f32) (xs1 : Vec F S64x64 .f32) (f : arg7.view.ty.Contents (Elt F)) :
    arg7.view.read (Elt F) (arg7.view.writes (Elt F) f (kernelRun1_G c i arg3 harg3 arg4 harg4 arg5 harg5 arg6 harg6 arg7 harg7 arg8 harg8 arg9 harg9 arg10 harg10 hc0 hc1 hc2 hc3 hc4 hc5 x0 x1 x2 x3 xo4 xo5 xs0 xs1).1) = k1_pay5 xs0 := by
  rw [View.read_writes_eq_canon _ _ _ (cov1_G_O4 c i arg3 harg3 arg4 harg4 arg5 harg5 arg6 harg6 arg7 harg7 arg8 harg8 arg9 harg9 arg10 harg10 hc0 hc1 hc2 hc3 hc4 hc5 x0 x1 x2 x3 xo4 xo5 xs0 xs1)]
  unfold kernelRun1_G
  dsimp only
  sl_unfold_words
  rw [View.canon_unit_zero (S := S1x1024x64) hz3]
  simp only [View.readAt_eq_ld, harg3.read_unread, harg4.read_unread, harg5.read_unread, harg6.read_unread, harg9.read_unread, harg10.read_unread, View.ld_unit_zero (S := S1x1024x64) hz3, View.ld_unit_zero (S := S1x64x64) hz3, View.ld_unit_zero (S := S1024x64) hz2, View.ld_unit_zero (S := S64x64) hz2]

/-- The pieces case H finds for arg9 tile it, so they cover it. -/
theorem cov1_H_S0 (c : Dev nD) (i : grid1.Coords) (arg3 : Memref sig .tc .vmem S1x1024x64 .bf16) (harg3 : arg3.IsWhole) (arg4 : Memref sig .tc .vmem S1x1024x64 .bf16) (harg4 : arg4.IsWhole) (arg5 : Memref sig .tc .vmem S1x1024x64 .bf16) (harg5 : arg5.IsWhole) (arg6 : Memref sig .tc .vmem S1x64x64 .f32) (harg6 : arg6.IsWhole) (arg7 : Memref sig .tc .vmem S1x1024x64 .f32) (harg7 : arg7.IsWhole) (arg8 : Memref sig .tc .vmem S1x64x64 .f32) (harg8 : arg8.IsWhole) (arg9 : Memref sig .tc .vmem S1024x64 .f32) (harg9 : arg9.IsWhole) (arg10 : Memref sig .tc .vmem S64x64 .f32) (harg10 : arg10.IsWhole) (hc0 : ¬cond1_0 i) (hc1 : ¬cond1_1 i) (hc2 : cond1_2 i) (hc3 : ¬cond1_3 i) (hc4 : cond1_4 i) (hc5 : cond1_5 i) (x0 x1 x2 : Vec F S1x1024x64 .bf16) (x3 : Vec F S1x64x64 .f32) (xo4 : Vec F S1x1024x64 .f32) (xo5 : Vec F S1x64x64 .f32) (xs0 : Vec F S1024x64 .f32) (xs1 : Vec F S64x64 .f32) (y : S1024x64.Idx) :
    ∃ pc ∈ (kernelRun1_H c i arg3 harg3 arg4 harg4 arg5 harg5 arg6 harg6 arg7 harg7 arg8 harg8 arg9 harg9 arg10 harg10 hc0 hc1 hc2 hc3 hc4 hc5 x0 x1 x2 x3 xo4 xo5 xs0 xs1).2.2.1, y ∈ pc.1.set :=
  View.cover_of_tiledL (kernelRun1_H c i arg3 harg3 arg4 harg4 arg5 harg5 arg6 harg6 arg7 harg7 arg8 harg8 arg9 harg9 arg10 harg10 hc0 hc1 hc2 hc3 hc4 hc5 x0 x1 x2 x3 xo4 xo5 xs0 xs1).2.2.1 S1024x64.size (by sl_kernel_rfl) y

/-- Case H leaves the output accumulator at its contents before plus the masked q k^T times v. -/
theorem rb1_H_S0 (c : Dev nD) (i : grid1.Coords) (arg3 : Memref sig .tc .vmem S1x1024x64 .bf16) (harg3 : arg3.IsWhole) (arg4 : Memref sig .tc .vmem S1x1024x64 .bf16) (harg4 : arg4.IsWhole) (arg5 : Memref sig .tc .vmem S1x1024x64 .bf16) (harg5 : arg5.IsWhole) (arg6 : Memref sig .tc .vmem S1x64x64 .f32) (harg6 : arg6.IsWhole) (arg7 : Memref sig .tc .vmem S1x1024x64 .f32) (harg7 : arg7.IsWhole) (arg8 : Memref sig .tc .vmem S1x64x64 .f32) (harg8 : arg8.IsWhole) (arg9 : Memref sig .tc .vmem S1024x64 .f32) (harg9 : arg9.IsWhole) (arg10 : Memref sig .tc .vmem S64x64 .f32) (harg10 : arg10.IsWhole) (hc0 : ¬cond1_0 i) (hc1 : ¬cond1_1 i) (hc2 : cond1_2 i) (hc3 : ¬cond1_3 i) (hc4 : cond1_4 i) (hc5 : cond1_5 i) (x0 x1 x2 : Vec F S1x1024x64 .bf16) (x3 : Vec F S1x64x64 .f32) (xo4 : Vec F S1x1024x64 .f32) (xo5 : Vec F S1x64x64 .f32) (xs0 : Vec F S1024x64 .f32) (xs1 : Vec F S64x64 .f32) (f : arg9.view.ty.Contents (Elt F)) :
    arg9.view.read (Elt F) (arg9.view.writes (Elt F) f (kernelRun1_H c i arg3 harg3 arg4 harg4 arg5 harg5 arg6 harg6 arg7 harg7 arg8 harg8 arg9 harg9 arg10 harg10 hc0 hc1 hc2 hc3 hc4 hc5 x0 x1 x2 x3 xo4 xo5 xs0 xs1).2.2.1) = k1_pay3 i x0 x1 xs0 x2 := by
  rw [View.read_writes_eq_canon _ _ _ (cov1_H_S0 c i arg3 harg3 arg4 harg4 arg5 harg5 arg6 harg6 arg7 harg7 arg8 harg8 arg9 harg9 arg10 harg10 hc0 hc1 hc2 hc3 hc4 hc5 x0 x1 x2 x3 xo4 xo5 xs0 xs1)]
  unfold kernelRun1_H
  dsimp only
  sl_unfold_words
  rw [View.canon_unit_zero (S := S1024x64) hz2]
  simp only [View.readAt_eq_ld, harg3.read_unread, harg4.read_unread, harg5.read_unread, harg6.read_unread, harg9.read_unread, harg10.read_unread, View.ld_unit_zero (S := S1x1024x64) hz3, View.ld_unit_zero (S := S1x64x64) hz3, View.ld_unit_zero (S := S1024x64) hz2, View.ld_unit_zero (S := S64x64) hz2]

/-- The pieces case H finds for arg8 tile it, so they cover it. -/
theorem cov1_H_O5 (c : Dev nD) (i : grid1.Coords) (arg3 : Memref sig .tc .vmem S1x1024x64 .bf16) (harg3 : arg3.IsWhole) (arg4 : Memref sig .tc .vmem S1x1024x64 .bf16) (harg4 : arg4.IsWhole) (arg5 : Memref sig .tc .vmem S1x1024x64 .bf16) (harg5 : arg5.IsWhole) (arg6 : Memref sig .tc .vmem S1x64x64 .f32) (harg6 : arg6.IsWhole) (arg7 : Memref sig .tc .vmem S1x1024x64 .f32) (harg7 : arg7.IsWhole) (arg8 : Memref sig .tc .vmem S1x64x64 .f32) (harg8 : arg8.IsWhole) (arg9 : Memref sig .tc .vmem S1024x64 .f32) (harg9 : arg9.IsWhole) (arg10 : Memref sig .tc .vmem S64x64 .f32) (harg10 : arg10.IsWhole) (hc0 : ¬cond1_0 i) (hc1 : ¬cond1_1 i) (hc2 : cond1_2 i) (hc3 : ¬cond1_3 i) (hc4 : cond1_4 i) (hc5 : cond1_5 i) (x0 x1 x2 : Vec F S1x1024x64 .bf16) (x3 : Vec F S1x64x64 .f32) (xo4 : Vec F S1x1024x64 .f32) (xo5 : Vec F S1x64x64 .f32) (xs0 : Vec F S1024x64 .f32) (xs1 : Vec F S64x64 .f32) (y : S1x64x64.Idx) :
    ∃ pc ∈ (kernelRun1_H c i arg3 harg3 arg4 harg4 arg5 harg5 arg6 harg6 arg7 harg7 arg8 harg8 arg9 harg9 arg10 harg10 hc0 hc1 hc2 hc3 hc4 hc5 x0 x1 x2 x3 xo4 xo5 xs0 xs1).2.1, y ∈ pc.1.set :=
  View.cover_of_tiledL (kernelRun1_H c i arg3 harg3 arg4 harg4 arg5 harg5 arg6 harg6 arg7 harg7 arg8 harg8 arg9 harg9 arg10 harg10 hc0 hc1 hc2 hc3 hc4 hc5 x0 x1 x2 x3 xo4 xo5 xs0 xs1).2.1 S1x64x64.size (by sl_kernel_rfl) y

/-- Case H leaves the new-state block at the state accumulator's contents. -/
theorem rb1_H_O5 (c : Dev nD) (i : grid1.Coords) (arg3 : Memref sig .tc .vmem S1x1024x64 .bf16) (harg3 : arg3.IsWhole) (arg4 : Memref sig .tc .vmem S1x1024x64 .bf16) (harg4 : arg4.IsWhole) (arg5 : Memref sig .tc .vmem S1x1024x64 .bf16) (harg5 : arg5.IsWhole) (arg6 : Memref sig .tc .vmem S1x64x64 .f32) (harg6 : arg6.IsWhole) (arg7 : Memref sig .tc .vmem S1x1024x64 .f32) (harg7 : arg7.IsWhole) (arg8 : Memref sig .tc .vmem S1x64x64 .f32) (harg8 : arg8.IsWhole) (arg9 : Memref sig .tc .vmem S1024x64 .f32) (harg9 : arg9.IsWhole) (arg10 : Memref sig .tc .vmem S64x64 .f32) (harg10 : arg10.IsWhole) (hc0 : ¬cond1_0 i) (hc1 : ¬cond1_1 i) (hc2 : cond1_2 i) (hc3 : ¬cond1_3 i) (hc4 : cond1_4 i) (hc5 : cond1_5 i) (x0 x1 x2 : Vec F S1x1024x64 .bf16) (x3 : Vec F S1x64x64 .f32) (xo4 : Vec F S1x1024x64 .f32) (xo5 : Vec F S1x64x64 .f32) (xs0 : Vec F S1024x64 .f32) (xs1 : Vec F S64x64 .f32) (f : arg8.view.ty.Contents (Elt F)) :
    arg8.view.read (Elt F) (arg8.view.writes (Elt F) f (kernelRun1_H c i arg3 harg3 arg4 harg4 arg5 harg5 arg6 harg6 arg7 harg7 arg8 harg8 arg9 harg9 arg10 harg10 hc0 hc1 hc2 hc3 hc4 hc5 x0 x1 x2 x3 xo4 xo5 xs0 xs1).2.1) = k1_pay6 xs1 := by
  rw [View.read_writes_eq_canon _ _ _ (cov1_H_O5 c i arg3 harg3 arg4 harg4 arg5 harg5 arg6 harg6 arg7 harg7 arg8 harg8 arg9 harg9 arg10 harg10 hc0 hc1 hc2 hc3 hc4 hc5 x0 x1 x2 x3 xo4 xo5 xs0 xs1)]
  unfold kernelRun1_H
  dsimp only
  sl_unfold_words
  rw [View.canon_unit_zero (S := S1x64x64) hz3]
  simp only [View.readAt_eq_ld, harg3.read_unread, harg4.read_unread, harg5.read_unread, harg6.read_unread, harg9.read_unread, harg10.read_unread, View.ld_unit_zero (S := S1x1024x64) hz3, View.ld_unit_zero (S := S1x64x64) hz3, View.ld_unit_zero (S := S1024x64) hz2, View.ld_unit_zero (S := S64x64) hz2]

/-- The pieces case H finds for arg7 tile it, so they cover it. -/
theorem cov1_H_O4 (c : Dev nD) (i : grid1.Coords) (arg3 : Memref sig .tc .vmem S1x1024x64 .bf16) (harg3 : arg3.IsWhole) (arg4 : Memref sig .tc .vmem S1x1024x64 .bf16) (harg4 : arg4.IsWhole) (arg5 : Memref sig .tc .vmem S1x1024x64 .bf16) (harg5 : arg5.IsWhole) (arg6 : Memref sig .tc .vmem S1x64x64 .f32) (harg6 : arg6.IsWhole) (arg7 : Memref sig .tc .vmem S1x1024x64 .f32) (harg7 : arg7.IsWhole) (arg8 : Memref sig .tc .vmem S1x64x64 .f32) (harg8 : arg8.IsWhole) (arg9 : Memref sig .tc .vmem S1024x64 .f32) (harg9 : arg9.IsWhole) (arg10 : Memref sig .tc .vmem S64x64 .f32) (harg10 : arg10.IsWhole) (hc0 : ¬cond1_0 i) (hc1 : ¬cond1_1 i) (hc2 : cond1_2 i) (hc3 : ¬cond1_3 i) (hc4 : cond1_4 i) (hc5 : cond1_5 i) (x0 x1 x2 : Vec F S1x1024x64 .bf16) (x3 : Vec F S1x64x64 .f32) (xo4 : Vec F S1x1024x64 .f32) (xo5 : Vec F S1x64x64 .f32) (xs0 : Vec F S1024x64 .f32) (xs1 : Vec F S64x64 .f32) (y : S1x1024x64.Idx) :
    ∃ pc ∈ (kernelRun1_H c i arg3 harg3 arg4 harg4 arg5 harg5 arg6 harg6 arg7 harg7 arg8 harg8 arg9 harg9 arg10 harg10 hc0 hc1 hc2 hc3 hc4 hc5 x0 x1 x2 x3 xo4 xo5 xs0 xs1).1, y ∈ pc.1.set :=
  View.cover_of_tiledL (kernelRun1_H c i arg3 harg3 arg4 harg4 arg5 harg5 arg6 harg6 arg7 harg7 arg8 harg8 arg9 harg9 arg10 harg10 hc0 hc1 hc2 hc3 hc4 hc5 x0 x1 x2 x3 xo4 xo5 xs0 xs1).1 S1x1024x64.size (by sl_kernel_rfl) y

/-- Case H leaves the output block at the output accumulator's NEW contents: the store to the block reads the accumulator after this case's own store into it. -/
theorem rb1_H_O4 (c : Dev nD) (i : grid1.Coords) (arg3 : Memref sig .tc .vmem S1x1024x64 .bf16) (harg3 : arg3.IsWhole) (arg4 : Memref sig .tc .vmem S1x1024x64 .bf16) (harg4 : arg4.IsWhole) (arg5 : Memref sig .tc .vmem S1x1024x64 .bf16) (harg5 : arg5.IsWhole) (arg6 : Memref sig .tc .vmem S1x64x64 .f32) (harg6 : arg6.IsWhole) (arg7 : Memref sig .tc .vmem S1x1024x64 .f32) (harg7 : arg7.IsWhole) (arg8 : Memref sig .tc .vmem S1x64x64 .f32) (harg8 : arg8.IsWhole) (arg9 : Memref sig .tc .vmem S1024x64 .f32) (harg9 : arg9.IsWhole) (arg10 : Memref sig .tc .vmem S64x64 .f32) (harg10 : arg10.IsWhole) (hc0 : ¬cond1_0 i) (hc1 : ¬cond1_1 i) (hc2 : cond1_2 i) (hc3 : ¬cond1_3 i) (hc4 : cond1_4 i) (hc5 : cond1_5 i) (x0 x1 x2 : Vec F S1x1024x64 .bf16) (x3 : Vec F S1x64x64 .f32) (xo4 : Vec F S1x1024x64 .f32) (xo5 : Vec F S1x64x64 .f32) (xs0 : Vec F S1024x64 .f32) (xs1 : Vec F S64x64 .f32) (f : arg7.view.ty.Contents (Elt F)) :
    arg7.view.read (Elt F) (arg7.view.writes (Elt F) f (kernelRun1_H c i arg3 harg3 arg4 harg4 arg5 harg5 arg6 harg6 arg7 harg7 arg8 harg8 arg9 harg9 arg10 harg10 hc0 hc1 hc2 hc3 hc4 hc5 x0 x1 x2 x3 xo4 xo5 xs0 xs1).1) = k1_pay5 (k1_pay3 i x0 x1 xs0 x2) := by
  rw [View.read_writes_eq_canon _ _ _ (cov1_H_O4 c i arg3 harg3 arg4 harg4 arg5 harg5 arg6 harg6 arg7 harg7 arg8 harg8 arg9 harg9 arg10 harg10 hc0 hc1 hc2 hc3 hc4 hc5 x0 x1 x2 x3 xo4 xo5 xs0 xs1)]
  unfold kernelRun1_H
  dsimp only
  sl_unfold_words
  rw [View.canon_unit_zero (S := S1x1024x64) hz3, View.readCov_unit_zero (S := S1024x64) _ hz2]
  simp only [View.readAt_eq_ld, harg3.read_unread, harg4.read_unread, harg5.read_unread, harg6.read_unread, harg9.read_unread, harg10.read_unread, View.ld_unit_zero (S := S1x1024x64) hz3, View.ld_unit_zero (S := S1x64x64) hz3, View.ld_unit_zero (S := S1024x64) hz2, View.ld_unit_zero (S := S64x64) hz2]

/-- The pieces case A finds for arg9 tile it, so they cover it. -/
theorem cov1_A_S0 (c : Dev nD) (i : grid1.Coords) (arg3 : Memref sig .tc .vmem S1x1024x64 .bf16) (harg3 : arg3.IsWhole) (arg4 : Memref sig .tc .vmem S1x1024x64 .bf16) (harg4 : arg4.IsWhole) (arg5 : Memref sig .tc .vmem S1x1024x64 .bf16) (harg5 : arg5.IsWhole) (arg6 : Memref sig .tc .vmem S1x64x64 .f32) (harg6 : arg6.IsWhole) (arg7 : Memref sig .tc .vmem S1x1024x64 .f32) (harg7 : arg7.IsWhole) (arg8 : Memref sig .tc .vmem S1x64x64 .f32) (harg8 : arg8.IsWhole) (arg9 : Memref sig .tc .vmem S1024x64 .f32) (harg9 : arg9.IsWhole) (arg10 : Memref sig .tc .vmem S64x64 .f32) (harg10 : arg10.IsWhole) (hc0 : cond1_0 i) (hc1 : cond1_1 i) (hc2 : cond1_2 i) (hc3 : cond1_3 i) (hc4 : ¬cond1_4 i) (hc5 : ¬cond1_5 i) (x0 x1 x2 : Vec F S1x1024x64 .bf16) (x3 : Vec F S1x64x64 .f32) (xo4 : Vec F S1x1024x64 .f32) (xo5 : Vec F S1x64x64 .f32) (xs0 : Vec F S1024x64 .f32) (xs1 : Vec F S64x64 .f32) (y : S1024x64.Idx) :
    ∃ pc ∈ (kernelRun1_A c i arg3 harg3 arg4 harg4 arg5 harg5 arg6 harg6 arg7 harg7 arg8 harg8 arg9 harg9 arg10 harg10 hc0 hc1 hc2 hc3 hc4 hc5 x0 x1 x2 x3 xo4 xo5 xs0 xs1).2.2.1, y ∈ pc.1.set :=
  View.cover_of_tiledL (kernelRun1_A c i arg3 harg3 arg4 harg4 arg5 harg5 arg6 harg6 arg7 harg7 arg8 harg8 arg9 harg9 arg10 harg10 hc0 hc1 hc2 hc3 hc4 hc5 x0 x1 x2 x3 xo4 xo5 xs0 xs1).2.2.1 S1024x64.size (by sl_kernel_rfl) y

/-- Case A leaves the output accumulator at q times the initial state plus the masked q k^T times v: the second store reads the first back. -/
theorem rb1_A_S0 (c : Dev nD) (i : grid1.Coords) (arg3 : Memref sig .tc .vmem S1x1024x64 .bf16) (harg3 : arg3.IsWhole) (arg4 : Memref sig .tc .vmem S1x1024x64 .bf16) (harg4 : arg4.IsWhole) (arg5 : Memref sig .tc .vmem S1x1024x64 .bf16) (harg5 : arg5.IsWhole) (arg6 : Memref sig .tc .vmem S1x64x64 .f32) (harg6 : arg6.IsWhole) (arg7 : Memref sig .tc .vmem S1x1024x64 .f32) (harg7 : arg7.IsWhole) (arg8 : Memref sig .tc .vmem S1x64x64 .f32) (harg8 : arg8.IsWhole) (arg9 : Memref sig .tc .vmem S1024x64 .f32) (harg9 : arg9.IsWhole) (arg10 : Memref sig .tc .vmem S64x64 .f32) (harg10 : arg10.IsWhole) (hc0 : cond1_0 i) (hc1 : cond1_1 i) (hc2 : cond1_2 i) (hc3 : cond1_3 i) (hc4 : ¬cond1_4 i) (hc5 : ¬cond1_5 i) (x0 x1 x2 : Vec F S1x1024x64 .bf16) (x3 : Vec F S1x64x64 .f32) (xo4 : Vec F S1x1024x64 .f32) (xo5 : Vec F S1x64x64 .f32) (xs0 : Vec F S1024x64 .f32) (xs1 : Vec F S64x64 .f32) (f : arg9.view.ty.Contents (Elt F)) :
    arg9.view.read (Elt F) (arg9.view.writes (Elt F) f (kernelRun1_A c i arg3 harg3 arg4 harg4 arg5 harg5 arg6 harg6 arg7 harg7 arg8 harg8 arg9 harg9 arg10 harg10 hc0 hc1 hc2 hc3 hc4 hc5 x0 x1 x2 x3 xo4 xo5 xs0 xs1).2.2.1) = k1_pay3 i x0 x1 (k1_pay2 x3 x0) x2 := by
  rw [View.read_writes_eq_canon _ _ _ (cov1_A_S0 c i arg3 harg3 arg4 harg4 arg5 harg5 arg6 harg6 arg7 harg7 arg8 harg8 arg9 harg9 arg10 harg10 hc0 hc1 hc2 hc3 hc4 hc5 x0 x1 x2 x3 xo4 xo5 xs0 xs1)]
  unfold kernelRun1_A
  dsimp only
  sl_unfold_words
  rw [View.canon_cons_unit_zero (S := S1024x64) hz2, View.readCov_unit_zero (S := S1024x64) _ hz2]
  simp only [View.readAt_eq_ld, harg3.read_unread, harg4.read_unread, harg5.read_unread, harg6.read_unread, harg9.read_unread, harg10.read_unread, View.ld_unit_zero (S := S1x1024x64) hz3, View.ld_unit_zero (S := S1x64x64) hz3, View.ld_unit_zero (S := S1024x64) hz2, View.ld_unit_zero (S := S64x64) hz2]

/-- The pieces case A finds for arg10 tile it, so they cover it. -/
theorem cov1_A_S1 (c : Dev nD) (i : grid1.Coords) (arg3 : Memref sig .tc .vmem S1x1024x64 .bf16) (harg3 : arg3.IsWhole) (arg4 : Memref sig .tc .vmem S1x1024x64 .bf16) (harg4 : arg4.IsWhole) (arg5 : Memref sig .tc .vmem S1x1024x64 .bf16) (harg5 : arg5.IsWhole) (arg6 : Memref sig .tc .vmem S1x64x64 .f32) (harg6 : arg6.IsWhole) (arg7 : Memref sig .tc .vmem S1x1024x64 .f32) (harg7 : arg7.IsWhole) (arg8 : Memref sig .tc .vmem S1x64x64 .f32) (harg8 : arg8.IsWhole) (arg9 : Memref sig .tc .vmem S1024x64 .f32) (harg9 : arg9.IsWhole) (arg10 : Memref sig .tc .vmem S64x64 .f32) (harg10 : arg10.IsWhole) (hc0 : cond1_0 i) (hc1 : cond1_1 i) (hc2 : cond1_2 i) (hc3 : cond1_3 i) (hc4 : ¬cond1_4 i) (hc5 : ¬cond1_5 i) (x0 x1 x2 : Vec F S1x1024x64 .bf16) (x3 : Vec F S1x64x64 .f32) (xo4 : Vec F S1x1024x64 .f32) (xo5 : Vec F S1x64x64 .f32) (xs0 : Vec F S1024x64 .f32) (xs1 : Vec F S64x64 .f32) (y : S64x64.Idx) :
    ∃ pc ∈ (kernelRun1_A c i arg3 harg3 arg4 harg4 arg5 harg5 arg6 harg6 arg7 harg7 arg8 harg8 arg9 harg9 arg10 harg10 hc0 hc1 hc2 hc3 hc4 hc5 x0 x1 x2 x3 xo4 xo5 xs0 xs1).2.2.2.1, y ∈ pc.1.set :=
  View.cover_of_tiledL (kernelRun1_A c i arg3 harg3 arg4 harg4 arg5 harg5 arg6 harg6 arg7 harg7 arg8 harg8 arg9 harg9 arg10 harg10 hc0 hc1 hc2 hc3 hc4 hc5 x0 x1 x2 x3 xo4 xo5 xs0 xs1).2.2.2.1 S64x64.size (by sl_kernel_rfl) y

/-- Case A leaves the state accumulator at the initial state plus k^T v: the second store reads the first back. -/
theorem rb1_A_S1 (c : Dev nD) (i : grid1.Coords) (arg3 : Memref sig .tc .vmem S1x1024x64 .bf16) (harg3 : arg3.IsWhole) (arg4 : Memref sig .tc .vmem S1x1024x64 .bf16) (harg4 : arg4.IsWhole) (arg5 : Memref sig .tc .vmem S1x1024x64 .bf16) (harg5 : arg5.IsWhole) (arg6 : Memref sig .tc .vmem S1x64x64 .f32) (harg6 : arg6.IsWhole) (arg7 : Memref sig .tc .vmem S1x1024x64 .f32) (harg7 : arg7.IsWhole) (arg8 : Memref sig .tc .vmem S1x64x64 .f32) (harg8 : arg8.IsWhole) (arg9 : Memref sig .tc .vmem S1024x64 .f32) (harg9 : arg9.IsWhole) (arg10 : Memref sig .tc .vmem S64x64 .f32) (harg10 : arg10.IsWhole) (hc0 : cond1_0 i) (hc1 : cond1_1 i) (hc2 : cond1_2 i) (hc3 : cond1_3 i) (hc4 : ¬cond1_4 i) (hc5 : ¬cond1_5 i) (x0 x1 x2 : Vec F S1x1024x64 .bf16) (x3 : Vec F S1x64x64 .f32) (xo4 : Vec F S1x1024x64 .f32) (xo5 : Vec F S1x64x64 .f32) (xs0 : Vec F S1024x64 .f32) (xs1 : Vec F S64x64 .f32) (f : arg10.view.ty.Contents (Elt F)) :
    arg10.view.read (Elt F) (arg10.view.writes (Elt F) f (kernelRun1_A c i arg3 harg3 arg4 harg4 arg5 harg5 arg6 harg6 arg7 harg7 arg8 harg8 arg9 harg9 arg10 harg10 hc0 hc1 hc2 hc3 hc4 hc5 x0 x1 x2 x3 xo4 xo5 xs0 xs1).2.2.2.1) = k1_pay4 (k1_pay1 x3) x1 x2 := by
  rw [View.read_writes_eq_canon _ _ _ (cov1_A_S1 c i arg3 harg3 arg4 harg4 arg5 harg5 arg6 harg6 arg7 harg7 arg8 harg8 arg9 harg9 arg10 harg10 hc0 hc1 hc2 hc3 hc4 hc5 x0 x1 x2 x3 xo4 xo5 xs0 xs1)]
  unfold kernelRun1_A
  dsimp only
  sl_unfold_words
  rw [View.canon_cons_unit_zero (S := S64x64) hz2, View.readCov_unit_zero (S := S64x64) _ hz2]
  simp only [View.readAt_eq_ld, harg3.read_unread, harg4.read_unread, harg5.read_unread, harg6.read_unread, harg9.read_unread, harg10.read_unread, View.ld_unit_zero (S := S1x1024x64) hz3, View.ld_unit_zero (S := S1x64x64) hz3, View.ld_unit_zero (S := S1024x64) hz2, View.ld_unit_zero (S := S64x64) hz2]

/-- The pieces case D finds for arg9 tile it, so they cover it. -/
theorem cov1_D_S0 (c : Dev nD) (i : grid1.Coords) (arg3 : Memref sig .tc .vmem S1x1024x64 .bf16) (harg3 : arg3.IsWhole) (arg4 : Memref sig .tc .vmem S1x1024x64 .bf16) (harg4 : arg4.IsWhole) (arg5 : Memref sig .tc .vmem S1x1024x64 .bf16) (harg5 : arg5.IsWhole) (arg6 : Memref sig .tc .vmem S1x64x64 .f32) (harg6 : arg6.IsWhole) (arg7 : Memref sig .tc .vmem S1x1024x64 .f32) (harg7 : arg7.IsWhole) (arg8 : Memref sig .tc .vmem S1x64x64 .f32) (harg8 : arg8.IsWhole) (arg9 : Memref sig .tc .vmem S1024x64 .f32) (harg9 : arg9.IsWhole) (arg10 : Memref sig .tc .vmem S64x64 .f32) (harg10 : arg10.IsWhole) (hc0 : ¬cond1_0 i) (hc1 : cond1_1 i) (hc2 : cond1_2 i) (hc3 : ¬cond1_3 i) (hc4 : ¬cond1_4 i) (hc5 : ¬cond1_5 i) (x0 x1 x2 : Vec F S1x1024x64 .bf16) (x3 : Vec F S1x64x64 .f32) (xo4 : Vec F S1x1024x64 .f32) (xo5 : Vec F S1x64x64 .f32) (xs0 : Vec F S1024x64 .f32) (xs1 : Vec F S64x64 .f32) (y : S1024x64.Idx) :
    ∃ pc ∈ (kernelRun1_D c i arg3 harg3 arg4 harg4 arg5 harg5 arg6 harg6 arg7 harg7 arg8 harg8 arg9 harg9 arg10 harg10 hc0 hc1 hc2 hc3 hc4 hc5 x0 x1 x2 x3 xo4 xo5 xs0 xs1).2.2.1, y ∈ pc.1.set :=
  View.cover_of_tiledL (kernelRun1_D c i arg3 harg3 arg4 harg4 arg5 harg5 arg6 harg6 arg7 harg7 arg8 harg8 arg9 harg9 arg10 harg10 hc0 hc1 hc2 hc3 hc4 hc5 x0 x1 x2 x3 xo4 xo5 xs0 xs1).2.2.1 S1024x64.size (by sl_kernel_rfl) y

/-- Case D leaves the output accumulator at q times the initial state plus the masked q k^T times v: the second store reads the first back. -/
theorem rb1_D_S0 (c : Dev nD) (i : grid1.Coords) (arg3 : Memref sig .tc .vmem S1x1024x64 .bf16) (harg3 : arg3.IsWhole) (arg4 : Memref sig .tc .vmem S1x1024x64 .bf16) (harg4 : arg4.IsWhole) (arg5 : Memref sig .tc .vmem S1x1024x64 .bf16) (harg5 : arg5.IsWhole) (arg6 : Memref sig .tc .vmem S1x64x64 .f32) (harg6 : arg6.IsWhole) (arg7 : Memref sig .tc .vmem S1x1024x64 .f32) (harg7 : arg7.IsWhole) (arg8 : Memref sig .tc .vmem S1x64x64 .f32) (harg8 : arg8.IsWhole) (arg9 : Memref sig .tc .vmem S1024x64 .f32) (harg9 : arg9.IsWhole) (arg10 : Memref sig .tc .vmem S64x64 .f32) (harg10 : arg10.IsWhole) (hc0 : ¬cond1_0 i) (hc1 : cond1_1 i) (hc2 : cond1_2 i) (hc3 : ¬cond1_3 i) (hc4 : ¬cond1_4 i) (hc5 : ¬cond1_5 i) (x0 x1 x2 : Vec F S1x1024x64 .bf16) (x3 : Vec F S1x64x64 .f32) (xo4 : Vec F S1x1024x64 .f32) (xo5 : Vec F S1x64x64 .f32) (xs0 : Vec F S1024x64 .f32) (xs1 : Vec F S64x64 .f32) (f : arg9.view.ty.Contents (Elt F)) :
    arg9.view.read (Elt F) (arg9.view.writes (Elt F) f (kernelRun1_D c i arg3 harg3 arg4 harg4 arg5 harg5 arg6 harg6 arg7 harg7 arg8 harg8 arg9 harg9 arg10 harg10 hc0 hc1 hc2 hc3 hc4 hc5 x0 x1 x2 x3 xo4 xo5 xs0 xs1).2.2.1) = k1_pay3 i x0 x1 (k1_pay2 x3 x0) x2 := by
  rw [View.read_writes_eq_canon _ _ _ (cov1_D_S0 c i arg3 harg3 arg4 harg4 arg5 harg5 arg6 harg6 arg7 harg7 arg8 harg8 arg9 harg9 arg10 harg10 hc0 hc1 hc2 hc3 hc4 hc5 x0 x1 x2 x3 xo4 xo5 xs0 xs1)]
  unfold kernelRun1_D
  dsimp only
  sl_unfold_words
  rw [View.canon_cons_unit_zero (S := S1024x64) hz2, View.readCov_unit_zero (S := S1024x64) _ hz2]
  simp only [View.readAt_eq_ld, harg3.read_unread, harg4.read_unread, harg5.read_unread, harg6.read_unread, harg9.read_unread, harg10.read_unread, View.ld_unit_zero (S := S1x1024x64) hz3, View.ld_unit_zero (S := S1x64x64) hz3, View.ld_unit_zero (S := S1024x64) hz2, View.ld_unit_zero (S := S64x64) hz2]

end Cert.Kernel.Hand

end
-- ==== Proof.Bits.AttnRunAll.lean ====
/- The attention body at any grid point, in payload form: from the eight cases' runs and what each leaves in the
   buffers it stores. The point's linear index t gives qi = (t / 4) % 4 and kj = t % 4; those decide the six
   conditionals, hence the case; in each case the accumulators come back at one step of the recursion over the
   payloads, the output block at the new output accumulator where kj = 3, the new-state block at the new state
   accumulator where qi = 3 and kj = 3, and every other buffer at the contents it was given. -/
import proofs.«151280_j41747082117805_1_alg».proof.Proof.Bits.AttnReadback
import proofs.«151280_j41747082117805_1_alg».proof.Proof.Bits.AttnData

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The body at a point of case A: the case's run, each stored buffer handed back at its payload. -/
theorem run1_all_A (c : Dev nD) (t : Fin cfg1.N) (arg3 : Memref sig .tc .vmem S1x1024x64 .bf16) (harg3 : arg3.IsWhole) (arg4 : Memref sig .tc .vmem S1x1024x64 .bf16) (harg4 : arg4.IsWhole) (arg5 : Memref sig .tc .vmem S1x1024x64 .bf16) (harg5 : arg5.IsWhole) (arg6 : Memref sig .tc .vmem S1x64x64 .f32) (harg6 : arg6.IsWhole) (arg7 : Memref sig .tc .vmem S1x1024x64 .f32) (harg7 : arg7.IsWhole) (arg8 : Memref sig .tc .vmem S1x64x64 .f32) (harg8 : arg8.IsWhole) (arg9 : Memref sig .tc .vmem S1024x64 .f32) (harg9 : arg9.IsWhole) (arg10 : Memref sig .tc .vmem S64x64 .f32) (harg10 : arg10.IsWhole)
    (x0 x1 x2 : Vec F S1x1024x64 .bf16) (x3 : Vec F S1x64x64 .f32) (xo4 : Vec F S1x1024x64 .f32) (xo5 : Vec F S1x64x64 .f32) (xs0 : Vec F S1024x64 .f32) (xs1 : Vec F S64x64 .f32) (E : Set ℕ) (K : PUnit → sProp 𝕄)
    (p1 : t.val % 4 = 0) (p2 : t.val % 4 ≤ (t.val / 4) % 4) (p3 : (t.val / 4) % 4 = 0) (p4 : ¬t.val % 4 = 3) :
    iprop(owns (c : Thread nD τ) arg3 fullShare x0 ∗ owns (c : Thread nD τ) arg4 fullShare x1 ∗ owns (c : Thread nD τ) arg5 fullShare x2 ∗ owns (c : Thread nD τ) arg6 fullShare x3
        ∗ owns (c : Thread nD τ) arg7 fullShare xo4 ∗ owns (c : Thread nD τ) arg8 fullShare xo5 ∗ owns (c : Thread nD τ) arg9 fullShare xs0 ∗ owns (c : Thread nD τ) arg10 fullShare xs1
        ∗ (iprop(owns (c : Thread nD τ) arg3 fullShare x0 ∗ owns (c : Thread nD τ) arg4 fullShare x1 ∗ owns (c : Thread nD τ) arg5 fullShare x2 ∗ owns (c : Thread nD τ) arg6 fullShare x3
            ∗ owns (c : Thread nD τ) arg7 fullShare (if t.val % 4 = 3 then k1_pay5 (accStep (grid1.coords t) x0 x1 x2 x3 (xs0, xs1)).1 else xo4)
            ∗ owns (c : Thread nD τ) arg8 fullShare (if (t.val / 4) % 4 = 3 ∧ t.val % 4 = 3 then k1_pay6 (accStep (grid1.coords t) x0 x1 x2 x3 (xs0, xs1)).2 else xo5)
            ∗ owns (c : Thread nD τ) arg9 fullShare (accStep (grid1.coords t) x0 x1 x2 x3 (xs0, xs1)).1
            ∗ owns (c : Thread nD τ) arg10 fullShare (accStep (grid1.coords t) x0 x1 x2 x3 (xs0, xs1)).2) -∗ K ⟨⟩))
      ⊢ wp frame (wpE (defs₀ (F := F)) Variants.none c none) E (cc1__attn_kernel (grid1.coords t) arg3 harg3 arg4 harg4 arg5 harg5 arg6 harg6 arg7 harg7 arg8 harg8 arg9 harg9 arg10 harg10) K := by
  have hN : t.val < 256 := lt_of_lt_of_eq t.isLt (show cfg1.N = 256 from N_1)
  have hc0 : cond1_0 (grid1.coords t) := (hcond1_0 t).mpr (by omega)
  have hc1 : cond1_1 (grid1.coords t) := (hcond1_1 t).mpr (by omega)
  have hc2 : cond1_2 (grid1.coords t) := (hcond1_2 t).mpr (by omega)
  have hc3 : cond1_3 (grid1.coords t) := (hcond1_3 t).mpr (by omega)
  have hc4 : ¬cond1_4 (grid1.coords t) := fun h => absurd ((hcond1_4 t).mp h) (by omega)
  have hc5 : ¬cond1_5 (grid1.coords t) := fun h => absurd ((hcond1_5 t).mp h) (by omega)
  simp only [accStep, coords1_1 t, coords1_2 t, eq_true p1, eq_true p2, eq_true p3, eq_false p4, true_and, and_true, false_and, and_false, and_self, ↓reduceIte]
  iintro ⟨H3, H4, H5, H6, H7, H8, H9, H10, Hk⟩
  iapply ((kernelRun1_A c (grid1.coords t) arg3 harg3 arg4 harg4 arg5 harg5 arg6 harg6 arg7 harg7 arg8 harg8 arg9 harg9 arg10 harg10 hc0 hc1 hc2 hc3 hc4 hc5 x0 x1 x2 x3 xo4 xo5 xs0 xs1).2.2.2.2 E _)
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  iintro ⟨H3, H4, H5, H6, H7, H8, ⟨%eH9, H9⟩, ⟨%eH10, H10⟩⟩
  iapply Hk
  isplitl [H3]; · iexact H3
  isplitl [H4]; · iexact H4
  isplitl [H5]; · iexact H5
  isplitl [H6]; · iexact H6
  isplitl [H7]
  · iexact H7
  isplitl [H8]
  · iexact H8
  isplitl [H9]
  · unfold owns; iexists _; isplitr
    swap; · iexact H9
    ipureintro; exact rb1_A_S0 c (grid1.coords t) arg3 harg3 arg4 harg4 arg5 harg5 arg6 harg6 arg7 harg7 arg8 harg8 arg9 harg9 arg10 harg10 hc0 hc1 hc2 hc3 hc4 hc5 x0 x1 x2 x3 xo4 xo5 xs0 xs1 _
  unfold owns; iexists _; isplitr
  swap; · iexact H10
  ipureintro; exact rb1_A_S1 c (grid1.coords t) arg3 harg3 arg4 harg4 arg5 harg5 arg6 harg6 arg7 harg7 arg8 harg8 arg9 harg9 arg10 harg10 hc0 hc1 hc2 hc3 hc4 hc5 x0 x1 x2 x3 xo4 xo5 xs0 xs1 _

/-- The body at a point of case B: the case's run, each stored buffer handed back at its payload. -/
theorem run1_all_B (c : Dev nD) (t : Fin cfg1.N) (arg3 : Memref sig .tc .vmem S1x1024x64 .bf16) (harg3 : arg3.IsWhole) (arg4 : Memref sig .tc .vmem S1x1024x64 .bf16) (harg4 : arg4.IsWhole) (arg5 : Memref sig .tc .vmem S1x1024x64 .bf16) (harg5 : arg5.IsWhole) (arg6 : Memref sig .tc .vmem S1x64x64 .f32) (harg6 : arg6.IsWhole) (arg7 : Memref sig .tc .vmem S1x1024x64 .f32) (harg7 : arg7.IsWhole) (arg8 : Memref sig .tc .vmem S1x64x64 .f32) (harg8 : arg8.IsWhole) (arg9 : Memref sig .tc .vmem S1024x64 .f32) (harg9 : arg9.IsWhole) (arg10 : Memref sig .tc .vmem S64x64 .f32) (harg10 : arg10.IsWhole)
    (x0 x1 x2 : Vec F S1x1024x64 .bf16) (x3 : Vec F S1x64x64 .f32) (xo4 : Vec F S1x1024x64 .f32) (xo5 : Vec F S1x64x64 .f32) (xs0 : Vec F S1024x64 .f32) (xs1 : Vec F S64x64 .f32) (E : Set ℕ) (K : PUnit → sProp 𝕄)
    (p1 : ¬t.val % 4 = 0) (p2 : ¬t.val % 4 ≤ (t.val / 4) % 4) (p3 : (t.val / 4) % 4 = 0) (p4 : ¬t.val % 4 = 3) :
    iprop(owns (c : Thread nD τ) arg3 fullShare x0 ∗ owns (c : Thread nD τ) arg4 fullShare x1 ∗ owns (c : Thread nD τ) arg5 fullShare x2 ∗ owns (c : Thread nD τ) arg6 fullShare x3
        ∗ owns (c : Thread nD τ) arg7 fullShare xo4 ∗ owns (c : Thread nD τ) arg8 fullShare xo5 ∗ owns (c : Thread nD τ) arg9 fullShare xs0 ∗ owns (c : Thread nD τ) arg10 fullShare xs1
        ∗ (iprop(owns (c : Thread nD τ) arg3 fullShare x0 ∗ owns (c : Thread nD τ) arg4 fullShare x1 ∗ owns (c : Thread nD τ) arg5 fullShare x2 ∗ owns (c : Thread nD τ) arg6 fullShare x3
            ∗ owns (c : Thread nD τ) arg7 fullShare (if t.val % 4 = 3 then k1_pay5 (accStep (grid1.coords t) x0 x1 x2 x3 (xs0, xs1)).1 else xo4)
            ∗ owns (c : Thread nD τ) arg8 fullShare (if (t.val / 4) % 4 = 3 ∧ t.val % 4 = 3 then k1_pay6 (accStep (grid1.coords t) x0 x1 x2 x3 (xs0, xs1)).2 else xo5)
            ∗ owns (c : Thread nD τ) arg9 fullShare (accStep (grid1.coords t) x0 x1 x2 x3 (xs0, xs1)).1
            ∗ owns (c : Thread nD τ) arg10 fullShare (accStep (grid1.coords t) x0 x1 x2 x3 (xs0, xs1)).2) -∗ K ⟨⟩))
      ⊢ wp frame (wpE (defs₀ (F := F)) Variants.none c none) E (cc1__attn_kernel (grid1.coords t) arg3 harg3 arg4 harg4 arg5 harg5 arg6 harg6 arg7 harg7 arg8 harg8 arg9 harg9 arg10 harg10) K := by
  have hN : t.val < 256 := lt_of_lt_of_eq t.isLt (show cfg1.N = 256 from N_1)
  have hc0 : ¬cond1_0 (grid1.coords t) := fun h => absurd ((hcond1_0 t).mp h) (by omega)
  have hc1 : ¬cond1_1 (grid1.coords t) := fun h => absurd ((hcond1_1 t).mp h) (by omega)
  have hc2 : ¬cond1_2 (grid1.coords t) := fun h => absurd ((hcond1_2 t).mp h) (by omega)
  have hc3 : cond1_3 (grid1.coords t) := (hcond1_3 t).mpr (by omega)
  have hc4 : ¬cond1_4 (grid1.coords t) := fun h => absurd ((hcond1_4 t).mp h) (by omega)
  have hc5 : ¬cond1_5 (grid1.coords t) := fun h => absurd ((hcond1_5 t).mp h) (by omega)
  simp only [accStep, coords1_1 t, coords1_2 t, eq_false p1, eq_false p2, eq_true p3, eq_false p4, true_and, and_true, false_and, and_false, and_self, ↓reduceIte]
  iintro ⟨H3, H4, H5, H6, H7, H8, H9, H10, Hk⟩
  iapply ((kernelRun1_B c (grid1.coords t) arg3 harg3 arg4 harg4 arg5 harg5 arg6 harg6 arg7 harg7 arg8 harg8 arg9 harg9 arg10 harg10 hc0 hc1 hc2 hc3 hc4 hc5 x0 x1 x2 x3 xo4 xo5 xs0 xs1).2.2.2.2 E _)
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  iintro ⟨H3, H4, H5, H6, H7, H8, H9, ⟨%eH10, H10⟩⟩
  iapply Hk
  isplitl [H3]; · iexact H3
  isplitl [H4]; · iexact H4
  isplitl [H5]; · iexact H5
  isplitl [H6]; · iexact H6
  isplitl [H7]
  · iexact H7
  isplitl [H8]
  · iexact H8
  isplitl [H9]
  · iexact H9
  unfold owns; iexists _; isplitr
  swap; · iexact H10
  ipureintro; exact rb1_B_S1 c (grid1.coords t) arg3 harg3 arg4 harg4 arg5 harg5 arg6 harg6 arg7 harg7 arg8 harg8 arg9 harg9 arg10 harg10 hc0 hc1 hc2 hc3 hc4 hc5 x0 x1 x2 x3 xo4 xo5 xs0 xs1 _

/-- The body at a point of case C: the case's run, each stored buffer handed back at its payload. -/
theorem run1_all_C (c : Dev nD) (t : Fin cfg1.N) (arg3 : Memref sig .tc .vmem S1x1024x64 .bf16) (harg3 : arg3.IsWhole) (arg4 : Memref sig .tc .vmem S1x1024x64 .bf16) (harg4 : arg4.IsWhole) (arg5 : Memref sig .tc .vmem S1x1024x64 .bf16) (harg5 : arg5.IsWhole) (arg6 : Memref sig .tc .vmem S1x64x64 .f32) (harg6 : arg6.IsWhole) (arg7 : Memref sig .tc .vmem S1x1024x64 .f32) (harg7 : arg7.IsWhole) (arg8 : Memref sig .tc .vmem S1x64x64 .f32) (harg8 : arg8.IsWhole) (arg9 : Memref sig .tc .vmem S1024x64 .f32) (harg9 : arg9.IsWhole) (arg10 : Memref sig .tc .vmem S64x64 .f32) (harg10 : arg10.IsWhole)
    (x0 x1 x2 : Vec F S1x1024x64 .bf16) (x3 : Vec F S1x64x64 .f32) (xo4 : Vec F S1x1024x64 .f32) (xo5 : Vec F S1x64x64 .f32) (xs0 : Vec F S1024x64 .f32) (xs1 : Vec F S64x64 .f32) (E : Set ℕ) (K : PUnit → sProp 𝕄)
    (p1 : ¬t.val % 4 = 0) (p2 : ¬t.val % 4 ≤ (t.val / 4) % 4) (p3 : (t.val / 4) % 4 = 0) (p4 : t.val % 4 = 3) (p6 : ¬(t.val / 4) % 4 = 3) :
    iprop(owns (c : Thread nD τ) arg3 fullShare x0 ∗ owns (c : Thread nD τ) arg4 fullShare x1 ∗ owns (c : Thread nD τ) arg5 fullShare x2 ∗ owns (c : Thread nD τ) arg6 fullShare x3
        ∗ owns (c : Thread nD τ) arg7 fullShare xo4 ∗ owns (c : Thread nD τ) arg8 fullShare xo5 ∗ owns (c : Thread nD τ) arg9 fullShare xs0 ∗ owns (c : Thread nD τ) arg10 fullShare xs1
        ∗ (iprop(owns (c : Thread nD τ) arg3 fullShare x0 ∗ owns (c : Thread nD τ) arg4 fullShare x1 ∗ owns (c : Thread nD τ) arg5 fullShare x2 ∗ owns (c : Thread nD τ) arg6 fullShare x3
            ∗ owns (c : Thread nD τ) arg7 fullShare (if t.val % 4 = 3 then k1_pay5 (accStep (grid1.coords t) x0 x1 x2 x3 (xs0, xs1)).1 else xo4)
            ∗ owns (c : Thread nD τ) arg8 fullShare (if (t.val / 4) % 4 = 3 ∧ t.val % 4 = 3 then k1_pay6 (accStep (grid1.coords t) x0 x1 x2 x3 (xs0, xs1)).2 else xo5)
            ∗ owns (c : Thread nD τ) arg9 fullShare (accStep (grid1.coords t) x0 x1 x2 x3 (xs0, xs1)).1
            ∗ owns (c : Thread nD τ) arg10 fullShare (accStep (grid1.coords t) x0 x1 x2 x3 (xs0, xs1)).2) -∗ K ⟨⟩))
      ⊢ wp frame (wpE (defs₀ (F := F)) Variants.none c none) E (cc1__attn_kernel (grid1.coords t) arg3 harg3 arg4 harg4 arg5 harg5 arg6 harg6 arg7 harg7 arg8 harg8 arg9 harg9 arg10 harg10) K := by
  have hN : t.val < 256 := lt_of_lt_of_eq t.isLt (show cfg1.N = 256 from N_1)
  have hc0 : ¬cond1_0 (grid1.coords t) := fun h => absurd ((hcond1_0 t).mp h) (by omega)
  have hc1 : ¬cond1_1 (grid1.coords t) := fun h => absurd ((hcond1_1 t).mp h) (by omega)
  have hc2 : ¬cond1_2 (grid1.coords t) := fun h => absurd ((hcond1_2 t).mp h) (by omega)
  have hc3 : cond1_3 (grid1.coords t) := (hcond1_3 t).mpr (by omega)
  have hc4 : cond1_4 (grid1.coords t) := (hcond1_4 t).mpr (by omega)
  have hc5 : ¬cond1_5 (grid1.coords t) := fun h => absurd ((hcond1_5 t).mp h) (by omega)
  simp only [accStep, coords1_1 t, coords1_2 t, eq_false p1, eq_false p2, eq_true p3, eq_true p4, eq_false p6, true_and, and_true, false_and, and_false, and_self, ↓reduceIte]
  iintro ⟨H3, H4, H5, H6, H7, H8, H9, H10, Hk⟩
  iapply ((kernelRun1_C c (grid1.coords t) arg3 harg3 arg4 harg4 arg5 harg5 arg6 harg6 arg7 harg7 arg8 harg8 arg9 harg9 arg10 harg10 hc0 hc1 hc2 hc3 hc4 hc5 x0 x1 x2 x3 xo4 xo5 xs0 xs1).2.2.2.2 E _)
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  iintro ⟨H3, H4, H5, H6, ⟨%eH7, H7⟩, H8, H9, ⟨%eH10, H10⟩⟩
  iapply Hk
  isplitl [H3]; · iexact H3
  isplitl [H4]; · iexact H4
  isplitl [H5]; · iexact H5
  isplitl [H6]; · iexact H6
  isplitl [H7]
  · unfold owns; iexists _; isplitr
    swap; · iexact H7
    ipureintro; exact rb1_C_O4 c (grid1.coords t) arg3 harg3 arg4 harg4 arg5 harg5 arg6 harg6 arg7 harg7 arg8 harg8 arg9 harg9 arg10 harg10 hc0 hc1 hc2 hc3 hc4 hc5 x0 x1 x2 x3 xo4 xo5 xs0 xs1 _
  isplitl [H8]
  · iexact H8
  isplitl [H9]
  · iexact H9
  unfold owns; iexists _; isplitr
  swap; · iexact H10
  ipureintro; exact rb1_C_S1 c (grid1.coords t) arg3 harg3 arg4 harg4 arg5 harg5 arg6 harg6 arg7 harg7 arg8 harg8 arg9 harg9 arg10 harg10 hc0 hc1 hc2 hc3 hc4 hc5 x0 x1 x2 x3 xo4 xo5 xs0 xs1 _

/-- The body at a point of case D: the case's run, each stored buffer handed back at its payload. -/
theorem run1_all_D (c : Dev nD) (t : Fin cfg1.N) (arg3 : Memref sig .tc .vmem S1x1024x64 .bf16) (harg3 : arg3.IsWhole) (arg4 : Memref sig .tc .vmem S1x1024x64 .bf16) (harg4 : arg4.IsWhole) (arg5 : Memref sig .tc .vmem S1x1024x64 .bf16) (harg5 : arg5.IsWhole) (arg6 : Memref sig .tc .vmem S1x64x64 .f32) (harg6 : arg6.IsWhole) (arg7 : Memref sig .tc .vmem S1x1024x64 .f32) (harg7 : arg7.IsWhole) (arg8 : Memref sig .tc .vmem S1x64x64 .f32) (harg8 : arg8.IsWhole) (arg9 : Memref sig .tc .vmem S1024x64 .f32) (harg9 : arg9.IsWhole) (arg10 : Memref sig .tc .vmem S64x64 .f32) (harg10 : arg10.IsWhole)
    (x0 x1 x2 : Vec F S1x1024x64 .bf16) (x3 : Vec F S1x64x64 .f32) (xo4 : Vec F S1x1024x64 .f32) (xo5 : Vec F S1x64x64 .f32) (xs0 : Vec F S1024x64 .f32) (xs1 : Vec F S64x64 .f32) (E : Set ℕ) (K : PUnit → sProp 𝕄)
    (p1 : t.val % 4 = 0) (p2 : t.val % 4 ≤ (t.val / 4) % 4) (p3 : ¬(t.val / 4) % 4 = 0) (p4 : ¬t.val % 4 = 3) :
    iprop(owns (c : Thread nD τ) arg3 fullShare x0 ∗ owns (c : Thread nD τ) arg4 fullShare x1 ∗ owns (c : Thread nD τ) arg5 fullShare x2 ∗ owns (c : Thread nD τ) arg6 fullShare x3
        ∗ owns (c : Thread nD τ) arg7 fullShare xo4 ∗ owns (c : Thread nD τ) arg8 fullShare xo5 ∗ owns (c : Thread nD τ) arg9 fullShare xs0 ∗ owns (c : Thread nD τ) arg10 fullShare xs1
        ∗ (iprop(owns (c : Thread nD τ) arg3 fullShare x0 ∗ owns (c : Thread nD τ) arg4 fullShare x1 ∗ owns (c : Thread nD τ) arg5 fullShare x2 ∗ owns (c : Thread nD τ) arg6 fullShare x3
            ∗ owns (c : Thread nD τ) arg7 fullShare (if t.val % 4 = 3 then k1_pay5 (accStep (grid1.coords t) x0 x1 x2 x3 (xs0, xs1)).1 else xo4)
            ∗ owns (c : Thread nD τ) arg8 fullShare (if (t.val / 4) % 4 = 3 ∧ t.val % 4 = 3 then k1_pay6 (accStep (grid1.coords t) x0 x1 x2 x3 (xs0, xs1)).2 else xo5)
            ∗ owns (c : Thread nD τ) arg9 fullShare (accStep (grid1.coords t) x0 x1 x2 x3 (xs0, xs1)).1
            ∗ owns (c : Thread nD τ) arg10 fullShare (accStep (grid1.coords t) x0 x1 x2 x3 (xs0, xs1)).2) -∗ K ⟨⟩))
      ⊢ wp frame (wpE (defs₀ (F := F)) Variants.none c none) E (cc1__attn_kernel (grid1.coords t) arg3 harg3 arg4 harg4 arg5 harg5 arg6 harg6 arg7 harg7 arg8 harg8 arg9 harg9 arg10 harg10) K := by
  have hN : t.val < 256 := lt_of_lt_of_eq t.isLt (show cfg1.N = 256 from N_1)
  have hc0 : ¬cond1_0 (grid1.coords t) := fun h => absurd ((hcond1_0 t).mp h) (by omega)
  have hc1 : cond1_1 (grid1.coords t) := (hcond1_1 t).mpr (by omega)
  have hc2 : cond1_2 (grid1.coords t) := (hcond1_2 t).mpr (by omega)
  have hc3 : ¬cond1_3 (grid1.coords t) := fun h => absurd ((hcond1_3 t).mp h) (by omega)
  have hc4 : ¬cond1_4 (grid1.coords t) := fun h => absurd ((hcond1_4 t).mp h) (by omega)
  have hc5 : ¬cond1_5 (grid1.coords t) := fun h => absurd ((hcond1_5 t).mp h) (by omega)
  simp only [accStep, coords1_1 t, coords1_2 t, eq_true p1, eq_true p2, eq_false p3, eq_false p4, true_and, and_true, false_and, and_false, and_self, ↓reduceIte]
  iintro ⟨H3, H4, H5, H6, H7, H8, H9, H10, Hk⟩
  iapply ((kernelRun1_D c (grid1.coords t) arg3 harg3 arg4 harg4 arg5 harg5 arg6 harg6 arg7 harg7 arg8 harg8 arg9 harg9 arg10 harg10 hc0 hc1 hc2 hc3 hc4 hc5 x0 x1 x2 x3 xo4 xo5 xs0 xs1).2.2.2.2 E _)
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  iintro ⟨H3, H4, H5, H6, H7, H8, ⟨%eH9, H9⟩, H10⟩
  iapply Hk
  isplitl [H3]; · iexact H3
  isplitl [H4]; · iexact H4
  isplitl [H5]; · iexact H5
  isplitl [H6]; · iexact H6
  isplitl [H7]
  · iexact H7
  isplitl [H8]
  · iexact H8
  isplitl [H9]
  · unfold owns; iexists _; isplitr
    swap; · iexact H9
    ipureintro; exact rb1_D_S0 c (grid1.coords t) arg3 harg3 arg4 harg4 arg5 harg5 arg6 harg6 arg7 harg7 arg8 harg8 arg9 harg9 arg10 harg10 hc0 hc1 hc2 hc3 hc4 hc5 x0 x1 x2 x3 xo4 xo5 xs0 xs1 _
  iexact H10

/-- The body at a point of case E: the case's run, each stored buffer handed back at its payload. -/
theorem run1_all_E (c : Dev nD) (t : Fin cfg1.N) (arg3 : Memref sig .tc .vmem S1x1024x64 .bf16) (harg3 : arg3.IsWhole) (arg4 : Memref sig .tc .vmem S1x1024x64 .bf16) (harg4 : arg4.IsWhole) (arg5 : Memref sig .tc .vmem S1x1024x64 .bf16) (harg5 : arg5.IsWhole) (arg6 : Memref sig .tc .vmem S1x64x64 .f32) (harg6 : arg6.IsWhole) (arg7 : Memref sig .tc .vmem S1x1024x64 .f32) (harg7 : arg7.IsWhole) (arg8 : Memref sig .tc .vmem S1x64x64 .f32) (harg8 : arg8.IsWhole) (arg9 : Memref sig .tc .vmem S1024x64 .f32) (harg9 : arg9.IsWhole) (arg10 : Memref sig .tc .vmem S64x64 .f32) (harg10 : arg10.IsWhole)
    (x0 x1 x2 : Vec F S1x1024x64 .bf16) (x3 : Vec F S1x64x64 .f32) (xo4 : Vec F S1x1024x64 .f32) (xo5 : Vec F S1x64x64 .f32) (xs0 : Vec F S1024x64 .f32) (xs1 : Vec F S64x64 .f32) (E : Set ℕ) (K : PUnit → sProp 𝕄)
    (p1 : ¬t.val % 4 = 0) (p2 : t.val % 4 ≤ (t.val / 4) % 4) (p3 : ¬(t.val / 4) % 4 = 0) (p4 : ¬t.val % 4 = 3) :
    iprop(owns (c : Thread nD τ) arg3 fullShare x0 ∗ owns (c : Thread nD τ) arg4 fullShare x1 ∗ owns (c : Thread nD τ) arg5 fullShare x2 ∗ owns (c : Thread nD τ) arg6 fullShare x3
        ∗ owns (c : Thread nD τ) arg7 fullShare xo4 ∗ owns (c : Thread nD τ) arg8 fullShare xo5 ∗ owns (c : Thread nD τ) arg9 fullShare xs0 ∗ owns (c : Thread nD τ) arg10 fullShare xs1
        ∗ (iprop(owns (c : Thread nD τ) arg3 fullShare x0 ∗ owns (c : Thread nD τ) arg4 fullShare x1 ∗ owns (c : Thread nD τ) arg5 fullShare x2 ∗ owns (c : Thread nD τ) arg6 fullShare x3
            ∗ owns (c : Thread nD τ) arg7 fullShare (if t.val % 4 = 3 then k1_pay5 (accStep (grid1.coords t) x0 x1 x2 x3 (xs0, xs1)).1 else xo4)
            ∗ owns (c : Thread nD τ) arg8 fullShare (if (t.val / 4) % 4 = 3 ∧ t.val % 4 = 3 then k1_pay6 (accStep (grid1.coords t) x0 x1 x2 x3 (xs0, xs1)).2 else xo5)
            ∗ owns (c : Thread nD τ) arg9 fullShare (accStep (grid1.coords t) x0 x1 x2 x3 (xs0, xs1)).1
            ∗ owns (c : Thread nD τ) arg10 fullShare (accStep (grid1.coords t) x0 x1 x2 x3 (xs0, xs1)).2) -∗ K ⟨⟩))
      ⊢ wp frame (wpE (defs₀ (F := F)) Variants.none c none) E (cc1__attn_kernel (grid1.coords t) arg3 harg3 arg4 harg4 arg5 harg5 arg6 harg6 arg7 harg7 arg8 harg8 arg9 harg9 arg10 harg10) K := by
  have hN : t.val < 256 := lt_of_lt_of_eq t.isLt (show cfg1.N = 256 from N_1)
  have hc0 : ¬cond1_0 (grid1.coords t) := fun h => absurd ((hcond1_0 t).mp h) (by omega)
  have hc1 : ¬cond1_1 (grid1.coords t) := fun h => absurd ((hcond1_1 t).mp h) (by omega)
  have hc2 : cond1_2 (grid1.coords t) := (hcond1_2 t).mpr (by omega)
  have hc3 : ¬cond1_3 (grid1.coords t) := fun h => absurd ((hcond1_3 t).mp h) (by omega)
  have hc4 : ¬cond1_4 (grid1.coords t) := fun h => absurd ((hcond1_4 t).mp h) (by omega)
  have hc5 : ¬cond1_5 (grid1.coords t) := fun h => absurd ((hcond1_5 t).mp h) (by omega)
  simp only [accStep, coords1_1 t, coords1_2 t, eq_false p1, eq_true p2, eq_false p3, eq_false p4, true_and, and_true, false_and, and_false, and_self, ↓reduceIte]
  iintro ⟨H3, H4, H5, H6, H7, H8, H9, H10, Hk⟩
  iapply ((kernelRun1_E c (grid1.coords t) arg3 harg3 arg4 harg4 arg5 harg5 arg6 harg6 arg7 harg7 arg8 harg8 arg9 harg9 arg10 harg10 hc0 hc1 hc2 hc3 hc4 hc5 x0 x1 x2 x3 xo4 xo5 xs0 xs1).2.2.2.2 E _)
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  iintro ⟨H3, H4, H5, H6, H7, H8, ⟨%eH9, H9⟩, H10⟩
  iapply Hk
  isplitl [H3]; · iexact H3
  isplitl [H4]; · iexact H4
  isplitl [H5]; · iexact H5
  isplitl [H6]; · iexact H6
  isplitl [H7]
  · iexact H7
  isplitl [H8]
  · iexact H8
  isplitl [H9]
  · unfold owns; iexists _; isplitr
    swap; · iexact H9
    ipureintro; exact rb1_E_S0 c (grid1.coords t) arg3 harg3 arg4 harg4 arg5 harg5 arg6 harg6 arg7 harg7 arg8 harg8 arg9 harg9 arg10 harg10 hc0 hc1 hc2 hc3 hc4 hc5 x0 x1 x2 x3 xo4 xo5 xs0 xs1 _
  iexact H10

/-- The body at a point of case F: the case's run, each stored buffer handed back at its payload. -/
theorem run1_all_F (c : Dev nD) (t : Fin cfg1.N) (arg3 : Memref sig .tc .vmem S1x1024x64 .bf16) (harg3 : arg3.IsWhole) (arg4 : Memref sig .tc .vmem S1x1024x64 .bf16) (harg4 : arg4.IsWhole) (arg5 : Memref sig .tc .vmem S1x1024x64 .bf16) (harg5 : arg5.IsWhole) (arg6 : Memref sig .tc .vmem S1x64x64 .f32) (harg6 : arg6.IsWhole) (arg7 : Memref sig .tc .vmem S1x1024x64 .f32) (harg7 : arg7.IsWhole) (arg8 : Memref sig .tc .vmem S1x64x64 .f32) (harg8 : arg8.IsWhole) (arg9 : Memref sig .tc .vmem S1024x64 .f32) (harg9 : arg9.IsWhole) (arg10 : Memref sig .tc .vmem S64x64 .f32) (harg10 : arg10.IsWhole)
    (x0 x1 x2 : Vec F S1x1024x64 .bf16) (x3 : Vec F S1x64x64 .f32) (xo4 : Vec F S1x1024x64 .f32) (xo5 : Vec F S1x64x64 .f32) (xs0 : Vec F S1024x64 .f32) (xs1 : Vec F S64x64 .f32) (E : Set ℕ) (K : PUnit → sProp 𝕄)
    (p1 : ¬t.val % 4 = 0) (p2 : ¬t.val % 4 ≤ (t.val / 4) % 4) (p3 : ¬(t.val / 4) % 4 = 0) (p4 : ¬t.val % 4 = 3) :
    iprop(owns (c : Thread nD τ) arg3 fullShare x0 ∗ owns (c : Thread nD τ) arg4 fullShare x1 ∗ owns (c : Thread nD τ) arg5 fullShare x2 ∗ owns (c : Thread nD τ) arg6 fullShare x3
        ∗ owns (c : Thread nD τ) arg7 fullShare xo4 ∗ owns (c : Thread nD τ) arg8 fullShare xo5 ∗ owns (c : Thread nD τ) arg9 fullShare xs0 ∗ owns (c : Thread nD τ) arg10 fullShare xs1
        ∗ (iprop(owns (c : Thread nD τ) arg3 fullShare x0 ∗ owns (c : Thread nD τ) arg4 fullShare x1 ∗ owns (c : Thread nD τ) arg5 fullShare x2 ∗ owns (c : Thread nD τ) arg6 fullShare x3
            ∗ owns (c : Thread nD τ) arg7 fullShare (if t.val % 4 = 3 then k1_pay5 (accStep (grid1.coords t) x0 x1 x2 x3 (xs0, xs1)).1 else xo4)
            ∗ owns (c : Thread nD τ) arg8 fullShare (if (t.val / 4) % 4 = 3 ∧ t.val % 4 = 3 then k1_pay6 (accStep (grid1.coords t) x0 x1 x2 x3 (xs0, xs1)).2 else xo5)
            ∗ owns (c : Thread nD τ) arg9 fullShare (accStep (grid1.coords t) x0 x1 x2 x3 (xs0, xs1)).1
            ∗ owns (c : Thread nD τ) arg10 fullShare (accStep (grid1.coords t) x0 x1 x2 x3 (xs0, xs1)).2) -∗ K ⟨⟩))
      ⊢ wp frame (wpE (defs₀ (F := F)) Variants.none c none) E (cc1__attn_kernel (grid1.coords t) arg3 harg3 arg4 harg4 arg5 harg5 arg6 harg6 arg7 harg7 arg8 harg8 arg9 harg9 arg10 harg10) K := by
  have hN : t.val < 256 := lt_of_lt_of_eq t.isLt (show cfg1.N = 256 from N_1)
  have hc0 : ¬cond1_0 (grid1.coords t) := fun h => absurd ((hcond1_0 t).mp h) (by omega)
  have hc1 : ¬cond1_1 (grid1.coords t) := fun h => absurd ((hcond1_1 t).mp h) (by omega)
  have hc2 : ¬cond1_2 (grid1.coords t) := fun h => absurd ((hcond1_2 t).mp h) (by omega)
  have hc3 : ¬cond1_3 (grid1.coords t) := fun h => absurd ((hcond1_3 t).mp h) (by omega)
  have hc4 : ¬cond1_4 (grid1.coords t) := fun h => absurd ((hcond1_4 t).mp h) (by omega)
  have hc5 : ¬cond1_5 (grid1.coords t) := fun h => absurd ((hcond1_5 t).mp h) (by omega)
  simp only [accStep, coords1_1 t, coords1_2 t, eq_false p1, eq_false p2, eq_false p3, eq_false p4, true_and, and_true, false_and, and_false, and_self, ↓reduceIte]
  iintro ⟨H3, H4, H5, H6, H7, H8, H9, H10, Hk⟩
  iapply ((kernelRun1_F c (grid1.coords t) arg3 harg3 arg4 harg4 arg5 harg5 arg6 harg6 arg7 harg7 arg8 harg8 arg9 harg9 arg10 harg10 hc0 hc1 hc2 hc3 hc4 hc5 x0 x1 x2 x3 xo4 xo5 xs0 xs1).2.2.2.2 E _)
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  iintro ⟨H3, H4, H5, H6, H7, H8, H9, H10⟩
  iapply Hk
  isplitl [H3]; · iexact H3
  isplitl [H4]; · iexact H4
  isplitl [H5]; · iexact H5
  isplitl [H6]; · iexact H6
  isplitl [H7]
  · iexact H7
  isplitl [H8]
  · iexact H8
  isplitl [H9]
  · iexact H9
  iexact H10

/-- The body at a point of case G: the case's run, each stored buffer handed back at its payload. -/
theorem run1_all_G (c : Dev nD) (t : Fin cfg1.N) (arg3 : Memref sig .tc .vmem S1x1024x64 .bf16) (harg3 : arg3.IsWhole) (arg4 : Memref sig .tc .vmem S1x1024x64 .bf16) (harg4 : arg4.IsWhole) (arg5 : Memref sig .tc .vmem S1x1024x64 .bf16) (harg5 : arg5.IsWhole) (arg6 : Memref sig .tc .vmem S1x64x64 .f32) (harg6 : arg6.IsWhole) (arg7 : Memref sig .tc .vmem S1x1024x64 .f32) (harg7 : arg7.IsWhole) (arg8 : Memref sig .tc .vmem S1x64x64 .f32) (harg8 : arg8.IsWhole) (arg9 : Memref sig .tc .vmem S1024x64 .f32) (harg9 : arg9.IsWhole) (arg10 : Memref sig .tc .vmem S64x64 .f32) (harg10 : arg10.IsWhole)
    (x0 x1 x2 : Vec F S1x1024x64 .bf16) (x3 : Vec F S1x64x64 .f32) (xo4 : Vec F S1x1024x64 .f32) (xo5 : Vec F S1x64x64 .f32) (xs0 : Vec F S1024x64 .f32) (xs1 : Vec F S64x64 .f32) (E : Set ℕ) (K : PUnit → sProp 𝕄)
    (p1 : ¬t.val % 4 = 0) (p2 : ¬t.val % 4 ≤ (t.val / 4) % 4) (p3 : ¬(t.val / 4) % 4 = 0) (p4 : t.val % 4 = 3) (p6 : ¬(t.val / 4) % 4 = 3) :
    iprop(owns (c : Thread nD τ) arg3 fullShare x0 ∗ owns (c : Thread nD τ) arg4 fullShare x1 ∗ owns (c : Thread nD τ) arg5 fullShare x2 ∗ owns (c : Thread nD τ) arg6 fullShare x3
        ∗ owns (c : Thread nD τ) arg7 fullShare xo4 ∗ owns (c : Thread nD τ) arg8 fullShare xo5 ∗ owns (c : Thread nD τ) arg9 fullShare xs0 ∗ owns (c : Thread nD τ) arg10 fullShare xs1
        ∗ (iprop(owns (c : Thread nD τ) arg3 fullShare x0 ∗ owns (c : Thread nD τ) arg4 fullShare x1 ∗ owns (c : Thread nD τ) arg5 fullShare x2 ∗ owns (c : Thread nD τ) arg6 fullShare x3
            ∗ owns (c : Thread nD τ) arg7 fullShare (if t.val % 4 = 3 then k1_pay5 (accStep (grid1.coords t) x0 x1 x2 x3 (xs0, xs1)).1 else xo4)
            ∗ owns (c : Thread nD τ) arg8 fullShare (if (t.val / 4) % 4 = 3 ∧ t.val % 4 = 3 then k1_pay6 (accStep (grid1.coords t) x0 x1 x2 x3 (xs0, xs1)).2 else xo5)
            ∗ owns (c : Thread nD τ) arg9 fullShare (accStep (grid1.coords t) x0 x1 x2 x3 (xs0, xs1)).1
            ∗ owns (c : Thread nD τ) arg10 fullShare (accStep (grid1.coords t) x0 x1 x2 x3 (xs0, xs1)).2) -∗ K ⟨⟩))
      ⊢ wp frame (wpE (defs₀ (F := F)) Variants.none c none) E (cc1__attn_kernel (grid1.coords t) arg3 harg3 arg4 harg4 arg5 harg5 arg6 harg6 arg7 harg7 arg8 harg8 arg9 harg9 arg10 harg10) K := by
  have hN : t.val < 256 := lt_of_lt_of_eq t.isLt (show cfg1.N = 256 from N_1)
  have hc0 : ¬cond1_0 (grid1.coords t) := fun h => absurd ((hcond1_0 t).mp h) (by omega)
  have hc1 : ¬cond1_1 (grid1.coords t) := fun h => absurd ((hcond1_1 t).mp h) (by omega)
  have hc2 : ¬cond1_2 (grid1.coords t) := fun h => absurd ((hcond1_2 t).mp h) (by omega)
  have hc3 : ¬cond1_3 (grid1.coords t) := fun h => absurd ((hcond1_3 t).mp h) (by omega)
  have hc4 : cond1_4 (grid1.coords t) := (hcond1_4 t).mpr (by omega)
  have hc5 : ¬cond1_5 (grid1.coords t) := fun h => absurd ((hcond1_5 t).mp h) (by omega)
  simp only [accStep, coords1_1 t, coords1_2 t, eq_false p1, eq_false p2, eq_false p3, eq_true p4, eq_false p6, true_and, and_true, false_and, and_false, and_self, ↓reduceIte]
  iintro ⟨H3, H4, H5, H6, H7, H8, H9, H10, Hk⟩
  iapply ((kernelRun1_G c (grid1.coords t) arg3 harg3 arg4 harg4 arg5 harg5 arg6 harg6 arg7 harg7 arg8 harg8 arg9 harg9 arg10 harg10 hc0 hc1 hc2 hc3 hc4 hc5 x0 x1 x2 x3 xo4 xo5 xs0 xs1).2.2.2.2 E _)
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  iintro ⟨H3, H4, H5, H6, ⟨%eH7, H7⟩, H8, H9, H10⟩
  iapply Hk
  isplitl [H3]; · iexact H3
  isplitl [H4]; · iexact H4
  isplitl [H5]; · iexact H5
  isplitl [H6]; · iexact H6
  isplitl [H7]
  · unfold owns; iexists _; isplitr
    swap; · iexact H7
    ipureintro; exact rb1_G_O4 c (grid1.coords t) arg3 harg3 arg4 harg4 arg5 harg5 arg6 harg6 arg7 harg7 arg8 harg8 arg9 harg9 arg10 harg10 hc0 hc1 hc2 hc3 hc4 hc5 x0 x1 x2 x3 xo4 xo5 xs0 xs1 _
  isplitl [H8]
  · iexact H8
  isplitl [H9]
  · iexact H9
  iexact H10

/-- The body at a point of case H: the case's run, each stored buffer handed back at its payload. -/
theorem run1_all_H (c : Dev nD) (t : Fin cfg1.N) (arg3 : Memref sig .tc .vmem S1x1024x64 .bf16) (harg3 : arg3.IsWhole) (arg4 : Memref sig .tc .vmem S1x1024x64 .bf16) (harg4 : arg4.IsWhole) (arg5 : Memref sig .tc .vmem S1x1024x64 .bf16) (harg5 : arg5.IsWhole) (arg6 : Memref sig .tc .vmem S1x64x64 .f32) (harg6 : arg6.IsWhole) (arg7 : Memref sig .tc .vmem S1x1024x64 .f32) (harg7 : arg7.IsWhole) (arg8 : Memref sig .tc .vmem S1x64x64 .f32) (harg8 : arg8.IsWhole) (arg9 : Memref sig .tc .vmem S1024x64 .f32) (harg9 : arg9.IsWhole) (arg10 : Memref sig .tc .vmem S64x64 .f32) (harg10 : arg10.IsWhole)
    (x0 x1 x2 : Vec F S1x1024x64 .bf16) (x3 : Vec F S1x64x64 .f32) (xo4 : Vec F S1x1024x64 .f32) (xo5 : Vec F S1x64x64 .f32) (xs0 : Vec F S1024x64 .f32) (xs1 : Vec F S64x64 .f32) (E : Set ℕ) (K : PUnit → sProp 𝕄)
    (p1 : ¬t.val % 4 = 0) (p2 : t.val % 4 ≤ (t.val / 4) % 4) (p3 : ¬(t.val / 4) % 4 = 0) (p4 : t.val % 4 = 3) (p6 : (t.val / 4) % 4 = 3) :
    iprop(owns (c : Thread nD τ) arg3 fullShare x0 ∗ owns (c : Thread nD τ) arg4 fullShare x1 ∗ owns (c : Thread nD τ) arg5 fullShare x2 ∗ owns (c : Thread nD τ) arg6 fullShare x3
        ∗ owns (c : Thread nD τ) arg7 fullShare xo4 ∗ owns (c : Thread nD τ) arg8 fullShare xo5 ∗ owns (c : Thread nD τ) arg9 fullShare xs0 ∗ owns (c : Thread nD τ) arg10 fullShare xs1
        ∗ (iprop(owns (c : Thread nD τ) arg3 fullShare x0 ∗ owns (c : Thread nD τ) arg4 fullShare x1 ∗ owns (c : Thread nD τ) arg5 fullShare x2 ∗ owns (c : Thread nD τ) arg6 fullShare x3
            ∗ owns (c : Thread nD τ) arg7 fullShare (if t.val % 4 = 3 then k1_pay5 (accStep (grid1.coords t) x0 x1 x2 x3 (xs0, xs1)).1 else xo4)
            ∗ owns (c : Thread nD τ) arg8 fullShare (if (t.val / 4) % 4 = 3 ∧ t.val % 4 = 3 then k1_pay6 (accStep (grid1.coords t) x0 x1 x2 x3 (xs0, xs1)).2 else xo5)
            ∗ owns (c : Thread nD τ) arg9 fullShare (accStep (grid1.coords t) x0 x1 x2 x3 (xs0, xs1)).1
            ∗ owns (c : Thread nD τ) arg10 fullShare (accStep (grid1.coords t) x0 x1 x2 x3 (xs0, xs1)).2) -∗ K ⟨⟩))
      ⊢ wp frame (wpE (defs₀ (F := F)) Variants.none c none) E (cc1__attn_kernel (grid1.coords t) arg3 harg3 arg4 harg4 arg5 harg5 arg6 harg6 arg7 harg7 arg8 harg8 arg9 harg9 arg10 harg10) K := by
  have hN : t.val < 256 := lt_of_lt_of_eq t.isLt (show cfg1.N = 256 from N_1)
  have hc0 : ¬cond1_0 (grid1.coords t) := fun h => absurd ((hcond1_0 t).mp h) (by omega)
  have hc1 : ¬cond1_1 (grid1.coords t) := fun h => absurd ((hcond1_1 t).mp h) (by omega)
  have hc2 : cond1_2 (grid1.coords t) := (hcond1_2 t).mpr (by omega)
  have hc3 : ¬cond1_3 (grid1.coords t) := fun h => absurd ((hcond1_3 t).mp h) (by omega)
  have hc4 : cond1_4 (grid1.coords t) := (hcond1_4 t).mpr (by omega)
  have hc5 : cond1_5 (grid1.coords t) := (hcond1_5 t).mpr (by omega)
  simp only [accStep, coords1_1 t, coords1_2 t, eq_false p1, eq_true p2, eq_false p3, eq_true p4, eq_true p6, true_and, and_true, false_and, and_false, and_self, ↓reduceIte]
  iintro ⟨H3, H4, H5, H6, H7, H8, H9, H10, Hk⟩
  iapply ((kernelRun1_H c (grid1.coords t) arg3 harg3 arg4 harg4 arg5 harg5 arg6 harg6 arg7 harg7 arg8 harg8 arg9 harg9 arg10 harg10 hc0 hc1 hc2 hc3 hc4 hc5 x0 x1 x2 x3 xo4 xo5 xs0 xs1).2.2.2.2 E _)
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  iintro ⟨H3, H4, H5, H6, ⟨%eH7, H7⟩, ⟨%eH8, H8⟩, ⟨%eH9, H9⟩, H10⟩
  iapply Hk
  isplitl [H3]; · iexact H3
  isplitl [H4]; · iexact H4
  isplitl [H5]; · iexact H5
  isplitl [H6]; · iexact H6
  isplitl [H7]
  · unfold owns; iexists _; isplitr
    swap; · iexact H7
    ipureintro; exact rb1_H_O4 c (grid1.coords t) arg3 harg3 arg4 harg4 arg5 harg5 arg6 harg6 arg7 harg7 arg8 harg8 arg9 harg9 arg10 harg10 hc0 hc1 hc2 hc3 hc4 hc5 x0 x1 x2 x3 xo4 xo5 xs0 xs1 _
  isplitl [H8]
  · unfold owns; iexists _; isplitr
    swap; · iexact H8
    ipureintro; exact rb1_H_O5 c (grid1.coords t) arg3 harg3 arg4 harg4 arg5 harg5 arg6 harg6 arg7 harg7 arg8 harg8 arg9 harg9 arg10 harg10 hc0 hc1 hc2 hc3 hc4 hc5 x0 x1 x2 x3 xo4 xo5 xs0 xs1 _
  isplitl [H9]
  · unfold owns; iexists _; isplitr
    swap; · iexact H9
    ipureintro; exact rb1_H_S0 c (grid1.coords t) arg3 harg3 arg4 harg4 arg5 harg5 arg6 harg6 arg7 harg7 arg8 harg8 arg9 harg9 arg10 harg10 hc0 hc1 hc2 hc3 hc4 hc5 x0 x1 x2 x3 xo4 xo5 xs0 xs1 _
  iexact H10

/-- The body on whole memrefs at given contents, at any point: the four inputs come back as they were, the two
    accumulators at one step of the recursion, the output block at the new output accumulator where kj = 3 and the
    new-state block at the new state accumulator where (qi, kj) = (3, 3), each left as it was elsewhere. -/
theorem run1_all (c : Dev nD) (t : Fin cfg1.N) (arg3 : Memref sig .tc .vmem S1x1024x64 .bf16) (harg3 : arg3.IsWhole) (arg4 : Memref sig .tc .vmem S1x1024x64 .bf16) (harg4 : arg4.IsWhole) (arg5 : Memref sig .tc .vmem S1x1024x64 .bf16) (harg5 : arg5.IsWhole) (arg6 : Memref sig .tc .vmem S1x64x64 .f32) (harg6 : arg6.IsWhole) (arg7 : Memref sig .tc .vmem S1x1024x64 .f32) (harg7 : arg7.IsWhole) (arg8 : Memref sig .tc .vmem S1x64x64 .f32) (harg8 : arg8.IsWhole) (arg9 : Memref sig .tc .vmem S1024x64 .f32) (harg9 : arg9.IsWhole) (arg10 : Memref sig .tc .vmem S64x64 .f32) (harg10 : arg10.IsWhole)
    (x0 x1 x2 : Vec F S1x1024x64 .bf16) (x3 : Vec F S1x64x64 .f32) (xo4 : Vec F S1x1024x64 .f32) (xo5 : Vec F S1x64x64 .f32) (xs0 : Vec F S1024x64 .f32) (xs1 : Vec F S64x64 .f32) (E : Set ℕ) (K : PUnit → sProp 𝕄) :
    iprop(owns (c : Thread nD τ) arg3 fullShare x0 ∗ owns (c : Thread nD τ) arg4 fullShare x1 ∗ owns (c : Thread nD τ) arg5 fullShare x2 ∗ owns (c : Thread nD τ) arg6 fullShare x3
        ∗ owns (c : Thread nD τ) arg7 fullShare xo4 ∗ owns (c : Thread nD τ) arg8 fullShare xo5 ∗ owns (c : Thread nD τ) arg9 fullShare xs0 ∗ owns (c : Thread nD τ) arg10 fullShare xs1
        ∗ (iprop(owns (c : Thread nD τ) arg3 fullShare x0 ∗ owns (c : Thread nD τ) arg4 fullShare x1 ∗ owns (c : Thread nD τ) arg5 fullShare x2 ∗ owns (c : Thread nD τ) arg6 fullShare x3
            ∗ owns (c : Thread nD τ) arg7 fullShare (if t.val % 4 = 3 then k1_pay5 (accStep (grid1.coords t) x0 x1 x2 x3 (xs0, xs1)).1 else xo4)
            ∗ owns (c : Thread nD τ) arg8 fullShare (if (t.val / 4) % 4 = 3 ∧ t.val % 4 = 3 then k1_pay6 (accStep (grid1.coords t) x0 x1 x2 x3 (xs0, xs1)).2 else xo5)
            ∗ owns (c : Thread nD τ) arg9 fullShare (accStep (grid1.coords t) x0 x1 x2 x3 (xs0, xs1)).1
            ∗ owns (c : Thread nD τ) arg10 fullShare (accStep (grid1.coords t) x0 x1 x2 x3 (xs0, xs1)).2) -∗ K ⟨⟩))
      ⊢ wp frame (wpE (defs₀ (F := F)) Variants.none c none) E (cc1__attn_kernel (grid1.coords t) arg3 harg3 arg4 harg4 arg5 harg5 arg6 harg6 arg7 harg7 arg8 harg8 arg9 harg9 arg10 harg10) K := by
  have hN : t.val < 256 := lt_of_lt_of_eq t.isLt (show cfg1.N = 256 from N_1)
  by_cases p3 : (t.val / 4) % 4 = 0
  · by_cases p1 : t.val % 4 = 0
    · exact run1_all_A c t arg3 harg3 arg4 harg4 arg5 harg5 arg6 harg6 arg7 harg7 arg8 harg8 arg9 harg9 arg10 harg10 x0 x1 x2 x3 xo4 xo5 xs0 xs1 E K p1 (by omega) p3 (by omega)
    · by_cases p4 : t.val % 4 = 3
      · exact run1_all_C c t arg3 harg3 arg4 harg4 arg5 harg5 arg6 harg6 arg7 harg7 arg8 harg8 arg9 harg9 arg10 harg10 x0 x1 x2 x3 xo4 xo5 xs0 xs1 E K p1 (by omega) p3 p4 (by omega)
      · exact run1_all_B c t arg3 harg3 arg4 harg4 arg5 harg5 arg6 harg6 arg7 harg7 arg8 harg8 arg9 harg9 arg10 harg10 x0 x1 x2 x3 xo4 xo5 xs0 xs1 E K p1 (by omega) p3 p4
  · by_cases p1 : t.val % 4 = 0
    · exact run1_all_D c t arg3 harg3 arg4 harg4 arg5 harg5 arg6 harg6 arg7 harg7 arg8 harg8 arg9 harg9 arg10 harg10 x0 x1 x2 x3 xo4 xo5 xs0 xs1 E K p1 (by omega) p3 (by omega)
    · by_cases p2 : t.val % 4 ≤ (t.val / 4) % 4
      · by_cases p4 : t.val % 4 = 3
        · exact run1_all_H c t arg3 harg3 arg4 harg4 arg5 harg5 arg6 harg6 arg7 harg7 arg8 harg8 arg9 harg9 arg10 harg10 x0 x1 x2 x3 xo4 xo5 xs0 xs1 E K p1 p2 p3 p4 (by omega)
        · exact run1_all_E c t arg3 harg3 arg4 harg4 arg5 harg5 arg6 harg6 arg7 harg7 arg8 harg8 arg9 harg9 arg10 harg10 x0 x1 x2 x3 xo4 xo5 xs0 xs1 E K p1 p2 p3 p4
      · by_cases p4 : t.val % 4 = 3
        · exact run1_all_G c t arg3 harg3 arg4 harg4 arg5 harg5 arg6 harg6 arg7 harg7 arg8 harg8 arg9 harg9 arg10 harg10 x0 x1 x2 x3 xo4 xo5 xs0 xs1 E K p1 p2 p3 p4 (by omega)
        · exact run1_all_F c t arg3 harg3 arg4 harg4 arg5 harg5 arg6 harg6 arg7 harg7 arg8 harg8 arg9 harg9 arg10 harg10 x0 x1 x2 x3 xo4 xo5 xs0 xs1 E K p1 p2 p3 p4

end Cert.Kernel.Hand

end
-- ==== Proof.Bits.AttnRegion.lean ====
/-
  The attention region's body obligation: at every point the body, run on the current staging buffers and the two
  accumulators, takes the region invariant before the point to the invariant after it and leaves every window's
  buffer as the proof data say — the inputs at their blocks, the output block at the new output accumulator where it
  is stored (kj = 3) and untouched elsewhere, the new-state block at the new state accumulator where it is stored
  ((qi, kj) = (3, 3)) and untouched elsewhere.
-/
import proofs.«151280_j41747082117805_1_alg».proof.Proof.Bits.AttnData
import proofs.«151280_j41747082117805_1_alg».proof.Proof.Bits.AttnRunAll

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered
variable (V : (c : Dev nD) → (b : Ref sig .tc) → Buf (Elt F) ((c : Thread nD τ).loc b))

/-! ## What the body leaves in each window's buffer -/

theorem leaves1_0 (c : Dev nD) (t : Fin cfg1.N) :
    (dat1 V c).leavesExact 0 t = owns (c : Thread nD τ) (ms1_0 t) fullShare (iblk1 V c 0 t) := by
  unfold Dat.leavesExact; rw [liveAt1_0 t, after1_0]
theorem leaves1_1 (c : Dev nD) (t : Fin cfg1.N) :
    (dat1 V c).leavesExact 1 t = owns (c : Thread nD τ) (ms1_1 t) fullShare (iblk1 V c 1 t) := by
  unfold Dat.leavesExact; rw [liveAt1_1 t, after1_1]
theorem leaves1_2 (c : Dev nD) (t : Fin cfg1.N) :
    (dat1 V c).leavesExact 2 t = owns (c : Thread nD τ) (ms1_2 t) fullShare (iblk1 V c 2 t) := by
  unfold Dat.leavesExact; rw [liveAt1_2 t, after1_2]
theorem leaves1_3 (c : Dev nD) (t : Fin cfg1.N) :
    (dat1 V c).leavesExact 3 t = owns (c : Thread nD τ) (ms1_3 t) fullShare (iblk1 V c 3 t) := by
  unfold Dat.leavesExact; rw [liveAt1_3 t, after1_3]

/-- The output block: the new output accumulator where kj = 3, untouched elsewhere. -/
theorem leaves1_4 (c : Dev nD) (t : Fin cfg1.N) :
    (dat1 V c).leavesExact 4 t = (if t.val % 4 = 3 then owns (c : Thread nD τ) (ms1_4 t) fullShare (k1_pay5 (accAt (blk1 V c) t.val t.isLt).1)
      else iprop(∃ d, owns (c : Thread nD τ) (ms1_4 t) fullShare ((dat1 V c).before 4 t d))) := by
  by_cases h : t.val % 4 = 3
  · rw [if_pos h]; unfold Dat.leavesExact; rw [live1_4 t ((hcond1_4 t).mpr h), after1_4]
  · rw [if_neg h]
    exact Dat.leavesExact_idle (dat1 V c) 4 t (idle1_4 t (fun hc => h ((hcond1_4 t).mp hc))) (noFlush1_4 t (fun hc => h ((hcond1_4 t).mp hc)))

/-- The new-state block: the new state accumulator where (qi, kj) = (3, 3), untouched elsewhere. -/
theorem leaves1_5 (c : Dev nD) (t : Fin cfg1.N) :
    (dat1 V c).leavesExact 5 t = (if (t.val / 4) % 4 = 3 ∧ t.val % 4 = 3 then owns (c : Thread nD τ) (ms1_5 t) fullShare (k1_pay6 (accAt (blk1 V c) t.val t.isLt).2)
      else iprop(∃ d, owns (c : Thread nD τ) (ms1_5 t) fullShare ((dat1 V c).before 5 t d))) := by
  by_cases h : (t.val / 4) % 4 = 3 ∧ t.val % 4 = 3
  · rw [if_pos h]; unfold Dat.leavesExact; rw [live1_5 t ((hcond1_5 t).mpr h), after1_5]
  · rw [if_neg h]
    exact Dat.leavesExact_idle (dat1 V c) 5 t (idle1_5 t (fun hc => h ((hcond1_5 t).mp hc))) (noFlush1_5 t (fun hc => h ((hcond1_5 t).mp hc)))

/-- Handing the output block back: the new output accumulator where kj = 3, the contents it was handed elsewhere. -/
theorem give1_4 (c : Dev nD) (t : Fin cfg1.N) (d4 : Vec F S1x1024x64 .f32) (a : Vec F S1x1024x64 .f32) :
    owns (c : Thread nD τ) (ms1_4 t) fullShare (if t.val % 4 = 3 then a else (dat1 V c).before 4 t d4)
      ⊢ (if t.val % 4 = 3 then owns (c : Thread nD τ) (ms1_4 t) fullShare a
          else iprop(∃ d, owns (c : Thread nD τ) (ms1_4 t) fullShare ((dat1 V c).before 4 t d)) : sProp 𝕄) := by
  by_cases h : t.val % 4 = 3
  · rw [if_pos h, if_pos h]; try exact Idealize.SL.BI.Entails.refl _
  · rw [if_neg h, if_neg h]; iintro H; iexists _; iexact H

/-- Handing the new-state block back: the new state accumulator where (qi, kj) = (3, 3), the contents it was handed elsewhere. -/
theorem give1_5 (c : Dev nD) (t : Fin cfg1.N) (d5 : Vec F S1x64x64 .f32) (a : Vec F S1x64x64 .f32) :
    owns (c : Thread nD τ) (ms1_5 t) fullShare (if (t.val / 4) % 4 = 3 ∧ t.val % 4 = 3 then a else (dat1 V c).before 5 t d5)
      ⊢ (if (t.val / 4) % 4 = 3 ∧ t.val % 4 = 3 then owns (c : Thread nD τ) (ms1_5 t) fullShare a
          else iprop(∃ d, owns (c : Thread nD τ) (ms1_5 t) fullShare ((dat1 V c).before 5 t d)) : sProp 𝕄) := by
  by_cases h : (t.val / 4) % 4 = 3 ∧ t.val % 4 = 3
  · rw [if_pos h, if_pos h]; try exact Idealize.SL.BI.Entails.refl _
  · rw [if_neg h, if_neg h]; iintro H; iexists _; iexact H

/-- The accumulators' contents forgotten: the invariant after a point gives the class's back. -/
theorem accs_forget (c : Dev nD) (a : Vec F S1024x64 .f32) (b : Vec F S64x64 .f32) :
    iprop(owns (c : Thread nD τ) scM1_0 fullShare a ∗ owns (c : Thread nD τ) scM1_1 fullShare b ∗ others1 c ∗ (∃ r, prngReg c r))
      ⊢ (Pipeline.ΦA spec1 c : sProp 𝕄) := by
  have h : iprop(owns (c : Thread nD τ) scM1_0 fullShare a ∗ owns (c : Thread nD τ) scM1_1 fullShare b ∗ others1 c ∗ (∃ r, prngReg c r))
      ⊢ (iprop((∃ d, owns (c : Thread nD τ) scM1_0 fullShare d) ∗ (∃ d, owns (c : Thread nD τ) scM1_1 fullShare d) ∗ others1 c ∗ (∃ r, prngReg c r)) : sProp 𝕄) := by
    iintro ⟨HS0, HS1, Hoth, Hg⟩
    isplitl [HS0]; · iexists _; iexact HS0
    isplitl [HS1]; · iexists _; iexact HS1
    isplitl [Hoth]; · iexact Hoth
    iexact Hg
  exact h.trans (PhiA1_join c)

/-! ## The body obligation -/

/-- What the body is called with at point `t`: the invariant, the core owing nothing, each window's current buffer at
    what the pipeline left in it. -/
def bodyPre1 (c : Dev nD) (t : Fin cfg1.N) : sProp 𝕄 :=
  iprop((dat1 V c).Φ t.castSucc ∗ (dat1 V c).owesAt () t.castSucc
    ∗ (∃ d, owns (c : Thread nD τ) (ms1_0 t) fullShare ((dat1 V c).before 0 t d))
    ∗ (∃ d, owns (c : Thread nD τ) (ms1_1 t) fullShare ((dat1 V c).before 1 t d))
    ∗ (∃ d, owns (c : Thread nD τ) (ms1_2 t) fullShare ((dat1 V c).before 2 t d))
    ∗ (∃ d, owns (c : Thread nD τ) (ms1_3 t) fullShare ((dat1 V c).before 3 t d))
    ∗ (∃ d, owns (c : Thread nD τ) (ms1_4 t) fullShare ((dat1 V c).before 4 t d))
    ∗ (∃ d, owns (c : Thread nD τ) (ms1_5 t) fullShare ((dat1 V c).before 5 t d)))

/-- And what it returns. -/
def bodyPost1 (c : Dev nD) (t : Fin cfg1.N) : sProp 𝕄 :=
  iprop((dat1 V c).Φ t.succ ∗ (dat1 V c).owesAt () t.succ
    ∗ (dat1 V c).leavesExact 0 t ∗ (dat1 V c).leavesExact 1 t ∗ (dat1 V c).leavesExact 2 t
    ∗ (dat1 V c).leavesExact 3 t ∗ (dat1 V c).leavesExact 4 t ∗ (dat1 V c).leavesExact 5 t)

/-- The step of the recursion at a point, from given accumulators, IS the recursion's value there: at the first point
    whatever the accumulators held is overwritten, at a later one they hold what the point before left. -/
theorem accAt_step_first (c : Dev nD) (t : Fin cfg1.N) (hz : t.val = 0) (a : Acc F) :
    accStep (grid1.coords t) (iblk1 V c 0 t) (iblk1 V c 1 t) (iblk1 V c 2 t) (iblk1 V c 3 t) a = accAt (blk1 V c) t.val t.isLt := by
  rw [accAt_first (blk1 V c) t hz]
  exact accStep_reset _ _ _ _ _ _ _ (by rw [coords1_1 t, hz]) (by rw [coords1_2 t, hz])

theorem accAt_step_pos (c : Dev nD) (t : Fin cfg1.N) (hz : t.val ≠ 0) :
    accStep (grid1.coords t) (iblk1 V c 0 t) (iblk1 V c 1 t) (iblk1 V c 2 t) (iblk1 V c 3 t)
        ((accAt (blk1 V c) (t.val - 1) (Nat.lt_of_lt_of_le (Nat.sub_lt (Nat.pos_of_ne_zero hz) Nat.one_pos) (Nat.le_of_lt t.isLt))).1,
         (accAt (blk1 V c) (t.val - 1) (Nat.lt_of_lt_of_le (Nat.sub_lt (Nat.pos_of_ne_zero hz) Nat.one_pos) (Nat.le_of_lt t.isLt))).2)
      = accAt (blk1 V c) t.val t.isLt := by
  rw [accAt_pos (blk1 V c) t hz]; rfl

set_option maxHeartbeats 1600000 in
/-- The body at any point. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3]
  rw [show (dat1 V c).owesAt () t.succ = (dat1 V c).owesAt () t.castSucc from rfl]
  rw [show (dat1 V c).Φ t.succ = PhiS1 V c (t.val + 1) t.isLt from rfl, PhiS1_succ]
  rw [leaves1_0, leaves1_1, leaves1_2, leaves1_3, leaves1_4, leaves1_5, PhiS1_castSucc]
  by_cases hz : t.val = 0
  · rw [PhiS1_zero V c _ _ hz]
    iintro ⟨HΦ, Ho, ⟨%d0, H0⟩, ⟨%d1, H1⟩, ⟨%d2, H2⟩, ⟨%d3, H3⟩, ⟨%d4, H4⟩, ⟨%d5, H5⟩⟩
    ihave HΦ' := (PhiA1_split c) $$ HΦ
    icases HΦ' with ⟨⟨%a0, HS0⟩, ⟨%a1, HS1⟩, Hoth, Hg⟩
    iapply (run1_all c t _ _ _ _ _ _ _ _ _ _ _ _ _ _ _ _ (iblk1 V c 0 t) (iblk1 V c 1 t) (iblk1 V c 2 t) (iblk1 V c 3 t)
      ((dat1 V c).before 4 t d4) ((dat1 V c).before 5 t d5) a0 a1 Set.univ _)
    isplitl [H0]; · iexact H0
    isplitl [H1]; · iexact H1
    isplitl [H2]; · iexact H2
    isplitl [H3]; · iexact H3
    isplitl [H4]; · iexact H4
    isplitl [H5]; · iexact H5
    isplitl [HS0]; · iexact HS0
    isplitl [HS1]; · iexact HS1
    rw [accAt_step_first V c t hz (a0, a1)]
    iintro ⟨H0, H1, H2, H3, H4, H5, HS0, HS1⟩
    isplitl [HS0 HS1 Hoth Hg]
    · isplitl [HS0]; · iexact HS0
      isplitl [HS1]; · iexact HS1
      isplitl [Hoth]; · iexact Hoth
      iexact Hg
    isplitl [Ho]; · iexact Ho
    isplitl [H0]; · iexact H0
    isplitl [H1]; · iexact H1
    isplitl [H2]; · iexact H2
    isplitl [H3]; · iexact H3
    isplitl [H4]
    · iapply (give1_4 V c t d4 _); iexact H4
    · iapply (give1_5 V c t d5 _); iexact H5
  · rw [PhiS1_pos V c _ _ hz]
    iintro ⟨⟨HS0, HS1, Hoth, Hg⟩, Ho, ⟨%d0, H0⟩, ⟨%d1, H1⟩, ⟨%d2, H2⟩, ⟨%d3, H3⟩, ⟨%d4, H4⟩, ⟨%d5, H5⟩⟩
    iapply (run1_all c t _ _ _ _ _ _ _ _ _ _ _ _ _ _ _ _ (iblk1 V c 0 t) (iblk1 V c 1 t) (iblk1 V c 2 t) (iblk1 V c 3 t)
      ((dat1 V c).before 4 t d4) ((dat1 V c).before 5 t d5) _ _ Set.univ _)
    isplitl [H0]; · iexact H0
    isplitl [H1]; · iexact H1
    isplitl [H2]; · iexact H2
    isplitl [H3]; · iexact H3
    isplitl [H4]; · iexact H4
    isplitl [H5]; · iexact H5
    isplitl [HS0]; · iexact HS0
    isplitl [HS1]; · iexact HS1
    rw [accAt_step_pos V c t hz]
    iintro ⟨H0, H1, H2, H3, H4, H5, HS0, HS1⟩
    isplitl [HS0 HS1 Hoth Hg]
    · isplitl [HS0]; · iexact HS0
      isplitl [HS1]; · iexact HS1
      isplitl [Hoth]; · iexact Hoth
      iexact Hg
    isplitl [Ho]; · iexact Ho
    isplitl [H0]; · iexact H0
    isplitl [H1]; · iexact H1
    isplitl [H2]; · iexact H2
    isplitl [H3]; · iexact H3
    isplitl [H4]
    · iapply (give1_4 V c t d4 _); iexact H4
    · iapply (give1_5 V c t d5 _); iexact H5

/-- The library's body obligation, at every point. -/
theorem body_obligation1 (c : Dev nD) : BodyObligation (dat1 (F := F) V c) (defs₀ (F := F)) Variants.none () Set.univ := fun t => by
  rw [bigSep_W1, bigSep_W1]
  exact sound_body1 V c t

/-- What the launch hands the region is the invariant before the first point. -/
theorem hin1 (c : Dev nD) : Pipeline.ΦA spec1 c ⊢ (dat1 V c).Φ 0 := by
  rw [show (dat1 V c).Φ 0 = PhiS1 V c 0 (Nat.zero_le _) from rfl, PhiS1_zero V c 0 _ rfl]
  try exact Idealize.SL.BI.Entails.refl _

/-- After the last point the invariant gives it back: the accumulators' contents are forgotten. -/
theorem hout1 (c : Dev nD) : (dat1 V c).Φ (Fin.last cfg1.N) ⊢ Pipeline.ΦA spec1 c := by
  rw [show (dat1 V c).Φ (Fin.last cfg1.N) = PhiS1 V c (Fin.last cfg1.N).val (Nat.le_of_lt_succ (Fin.last cfg1.N).isLt) from rfl,
    PhiS1_pos V c _ _ (by rw [Fin.val_last]; exact (by decide : cfg1.N ≠ 0))]
  exact accs_forget c _ _

end Cert.Kernel.Hand

end
-- ==== Proof.Bits.MainRun.lean ====
/-
  The whole run of the program: a stretch of layout operations, the projection launch, the stretch that re-lays its
  result into per-head queries, keys and values, the attention launch, the stretch that re-lays the attention output
  into rows, and the output-projection launch. Each boundary between two of these six pieces gets a name for what
  every buffer holds there; the run is assembled from the three launches' proof data over those names, and its
  conclusion says what every buffer holds at the end. From that: the arguments end as they were launched, and the two
  results are what the second and third launches' write-backs leave.
-/
import proofs.«151280_j41747082117805_1_alg».proof.Proof.Bits.RegionQkv
import proofs.«151280_j41747082117805_1_alg».proof.Proof.Bits.RegionOut
import proofs.«151280_j41747082117805_1_alg».proof.Proof.Bits.AttnRegion
import proofs.«151280_j41747082117805_1_alg».proof.Proof.Gen.Kernel.Regions

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## What the buffers hold at each boundary -/

/-- At launch. -/
abbrev W0 : Dev nD → Valuation τ sig (Elt F) := fun c b => (s₀ m ρ).mem ((c : Dev nD), b)
/-- After the first stretch of layout operations: what the projection launch is entered with. -/
abbrev W1 : Dev nD → Valuation τ sig (Elt F) := fun c => StableHlo.after hostOps0 (W0 m ρ c)
abbrev E1 : (c : Dev nD) → (b : Ref sig .tc) → Buf (Elt F) ((c : Thread nD τ).loc b) := fun c b => W1 m ρ c b
/-- When the projection launch is left: its windows' arrays at what the write-backs leave, every other buffer as it was entered. -/
def W2 (c : Dev nD) : Valuation τ sig (Elt F) :=
  Pipeline.withArrays spec0 c (W1 m ρ c) fun w => (dat0 (E1 m ρ) c).arrAt w cfg0.N
theorem W2_arr (c : Dev nD) (w : Fin cfg0.W) :
    W2 m ρ c (Proc.devRef .tc (Pipeline.arrRef spec0 w)) = (dat0 (E1 m ρ) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m ρ c (Proc.devRef .tc b) = W1 m ρ c (Proc.devRef .tc b) := by
  unfold W2; exact Pipeline.withArrays_of_ne spec0 c _ _ b hb
/-- An input window's array is left as it was entered. -/
theorem W2_in (c : Dev nD) (w : Fin cfg0.W) (hin : (cfg0.win w).isOut = false) :
    W2 m ρ c (Proc.devRef .tc (Pipeline.arrRef spec0 w)) = W1 m ρ c (Proc.devRef .tc (Pipeline.arrRef spec0 w)) :=
  (W2_arr m ρ c w).trans (((dat0 (E1 m ρ) c).arrAt_in w hin _).trans (A_eq0 (E1 m ρ) c w))
/-- The same read at the TensorCore's references. -/
abbrev E2 : (c : Dev nD) → (b : Ref sig .tc) → Buf (Elt F) ((c : Thread nD τ).loc b) := fun c b => W2 m ρ c b
theorem hF0 (c : Dev nD) (w : Fin cfg0.W) : (dat0 (E1 m ρ) c).arrAt w cfg0.N = E2 m ρ c (Pipeline.arrRef spec0 w) :=
  (W2_arr m ρ c w).symm
theorem hrest0 (c : Dev nD) : ∀ b, b ∉ Finset.univ.image (Pipeline.arrRef spec0) → E2 m ρ c b = E1 m ρ c b :=
  fun b hb => W2_of_ne m ρ c b fun w e => hb (Finset.mem_image.mpr ⟨w, Finset.mem_univ _, e⟩)

/-- After the second stretch: what the attention launch is entered with. -/
abbrev W3 : Dev nD → Valuation τ sig (Elt F) := fun c => StableHlo.after hostOps1 (W2 m ρ c)
abbrev E3 : (c : Dev nD) → (b : Ref sig .tc) → Buf (Elt F) ((c : Thread nD τ).loc b) := fun c b => W3 m ρ c b
/-- When the attention launch is left: its windows' arrays at what the write-backs leave, every other buffer as it was entered. -/
def W4 (c : Dev nD) : Valuation τ sig (Elt F) :=
  Pipeline.withArrays spec1 c (W3 m ρ c) fun w => (dat1 (E3 m ρ) c).arrAt w cfg1.N
theorem W4_arr (c : Dev nD) (w : Fin cfg1.W) :
    W4 m ρ c (Proc.devRef .tc (Pipeline.arrRef spec1 w)) = (dat1 (E3 m ρ) c).arrAt w cfg1.N := by
  unfold W4; exact Pipeline.withArrays_arr spec1 launch1.win.arr_inj c _ _ w
theorem W4_of_ne (c : Dev nD) (b : Ref sig .tc) (hb : ∀ w, Pipeline.arrRef spec1 w ≠ b) :
    W4 m ρ c (Proc.devRef .tc b) = W3 m ρ c (Proc.devRef .tc b) := by
  unfold W4; exact Pipeline.withArrays_of_ne spec1 c _ _ b hb
/-- An input window's array is left as it was entered. -/
theorem W4_in (c : Dev nD) (w : Fin cfg1.W) (hin : (cfg1.win w).isOut = false) :
    W4 m ρ c (Proc.devRef .tc (Pipeline.arrRef spec1 w)) = W3 m ρ c (Proc.devRef .tc (Pipeline.arrRef spec1 w)) :=
  (W4_arr m ρ c w).trans (((dat1 (E3 m ρ) c).arrAt_in w hin _).trans (A_eq1 (E3 m ρ) c w))
/-- The same read at the TensorCore's references. -/
abbrev E4 : (c : Dev nD) → (b : Ref sig .tc) → Buf (Elt F) ((c : Thread nD τ).loc b) := fun c b => W4 m ρ c b
theorem hF1 (c : Dev nD) (w : Fin cfg1.W) : (dat1 (E3 m ρ) c).arrAt w cfg1.N = E4 m ρ c (Pipeline.arrRef spec1 w) :=
  (W4_arr m ρ c w).symm
theorem hrest1 (c : Dev nD) : ∀ b, b ∉ Finset.univ.image (Pipeline.arrRef spec1) → E4 m ρ c b = E3 m ρ c b :=
  fun b hb => W4_of_ne m ρ c b fun w e => hb (Finset.mem_image.mpr ⟨w, Finset.mem_univ _, e⟩)

/-- After the third stretch: what the output-projection launch is entered with. -/
abbrev W5 : Dev nD → Valuation τ sig (Elt F) := fun c => StableHlo.after hostOps2 (W4 m ρ c)
abbrev E5 : (c : Dev nD) → (b : Ref sig .tc) → Buf (Elt F) ((c : Thread nD τ).loc b) := fun c b => W5 m ρ c b
/-- When the output-projection launch is left: its windows' arrays at what the write-backs leave, every other buffer as it was entered. -/
def W6 (c : Dev nD) : Valuation τ sig (Elt F) :=
  Pipeline.withArrays spec2 c (W5 m ρ c) fun w => (dat2 (E5 m ρ) c).arrAt w cfg2.N
theorem W6_arr (c : Dev nD) (w : Fin cfg2.W) :
    W6 m ρ c (Proc.devRef .tc (Pipeline.arrRef spec2 w)) = (dat2 (E5 m ρ) c).arrAt w cfg2.N := by
  unfold W6; exact Pipeline.withArrays_arr spec2 launch2.win.arr_inj c _ _ w
theorem W6_of_ne (c : Dev nD) (b : Ref sig .tc) (hb : ∀ w, Pipeline.arrRef spec2 w ≠ b) :
    W6 m ρ c (Proc.devRef .tc b) = W5 m ρ c (Proc.devRef .tc b) := by
  unfold W6; exact Pipeline.withArrays_of_ne spec2 c _ _ b hb
/-- An input window's array is left as it was entered. -/
theorem W6_in (c : Dev nD) (w : Fin cfg2.W) (hin : (cfg2.win w).isOut = false) :
    W6 m ρ c (Proc.devRef .tc (Pipeline.arrRef spec2 w)) = W5 m ρ c (Proc.devRef .tc (Pipeline.arrRef spec2 w)) :=
  (W6_arr m ρ c w).trans (((dat2 (E5 m ρ) c).arrAt_in w hin _).trans (A_eq2 (E5 m ρ) c w))
/-- The same read at the TensorCore's references. -/
abbrev E6 : (c : Dev nD) → (b : Ref sig .tc) → Buf (Elt F) ((c : Thread nD τ).loc b) := fun c b => W6 m ρ c b
theorem hF2 (c : Dev nD) (w : Fin cfg2.W) : (dat2 (E5 m ρ) c).arrAt w cfg2.N = E6 m ρ c (Pipeline.arrRef spec2 w) :=
  (W6_arr m ρ c w).symm
theorem hrest2 (c : Dev nD) : ∀ b, b ∉ Finset.univ.image (Pipeline.arrRef spec2) → E6 m ρ c b = E5 m ρ c b :=
  fun b hb => W6_of_ne m ρ c b fun w e => hb (Finset.mem_image.mpr ⟨w, Finset.mem_univ _, e⟩)

/-! ## The arguments end as launched

No layout operation writes an argument, and a launch only reads one (through an input window) or does not touch it. -/

theorem W1_main_arg0 (c : Dev nD) : W1 m ρ c (Proc.devRef .tc main_arg0) = m ((c : Thread nD τ).loc main_arg0) :=
  calc W1 m ρ c (Proc.devRef .tc main_arg0)
    _ = W0 m ρ c (Proc.devRef .tc main_arg0) := StableHlo.after_of_writes_sub hostOps0 _ hostOps0_writes (by decide)
    _ = m ((c : Thread nD τ).loc main_arg0) := rfl
theorem W2_main_arg0 (c : Dev nD) : W2 m ρ c (Proc.devRef .tc main_arg0) = m ((c : Thread nD τ).loc main_arg0) :=
  calc W2 m ρ c (Proc.devRef .tc main_arg0)
    _ = W1 m ρ c (Proc.devRef .tc main_arg0) := W2_of_ne m ρ c main_arg0 (by decide)
    _ = m ((c : Thread nD τ).loc main_arg0) := W1_main_arg0 m ρ c
theorem W3_main_arg0 (c : Dev nD) : W3 m ρ c (Proc.devRef .tc main_arg0) = m ((c : Thread nD τ).loc main_arg0) :=
  calc W3 m ρ c (Proc.devRef .tc main_arg0)
    _ = W2 m ρ c (Proc.devRef .tc main_arg0) := StableHlo.after_of_writes_sub hostOps1 _ hostOps1_writes (by decide)
    _ = m ((c : Thread nD τ).loc main_arg0) := W2_main_arg0 m ρ c
theorem W4_main_arg0 (c : Dev nD) : W4 m ρ c (Proc.devRef .tc main_arg0) = m ((c : Thread nD τ).loc main_arg0) :=
  calc W4 m ρ c (Proc.devRef .tc main_arg0)
    _ = W3 m ρ c (Proc.devRef .tc main_arg0) := W4_in m ρ c 3 rfl
    _ = m ((c : Thread nD τ).loc main_arg0) := W3_main_arg0 m ρ c
theorem W5_main_arg0 (c : Dev nD) : W5 m ρ c (Proc.devRef .tc main_arg0) = m ((c : Thread nD τ).loc main_arg0) :=
  calc W5 m ρ c (Proc.devRef .tc main_arg0)
    _ = W4 m ρ c (Proc.devRef .tc main_arg0) := StableHlo.after_of_writes_sub hostOps2 _ hostOps2_writes (by decide)
    _ = m ((c : Thread nD τ).loc main_arg0) := W4_main_arg0 m ρ c
theorem W6_main_arg0 (c : Dev nD) : W6 m ρ c (Proc.devRef .tc main_arg0) = m ((c : Thread nD τ).loc main_arg0) :=
  calc W6 m ρ c (Proc.devRef .tc main_arg0)
    _ = W5 m ρ c (Proc.devRef .tc main_arg0) := W6_of_ne m ρ c main_arg0 (by decide)
    _ = m ((c : Thread nD τ).loc main_arg0) := W5_main_arg0 m ρ c

theorem W1_main_arg1 (c : Dev nD) : W1 m ρ c (Proc.devRef .tc main_arg1) = m ((c : Thread nD τ).loc main_arg1) :=
  calc W1 m ρ c (Proc.devRef .tc main_arg1)
    _ = W0 m ρ c (Proc.devRef .tc main_arg1) := StableHlo.after_of_writes_sub hostOps0 _ hostOps0_writes (by decide)
    _ = m ((c : Thread nD τ).loc main_arg1) := rfl
theorem W2_main_arg1 (c : Dev nD) : W2 m ρ c (Proc.devRef .tc main_arg1) = m ((c : Thread nD τ).loc main_arg1) :=
  calc W2 m ρ c (Proc.devRef .tc main_arg1)
    _ = W1 m ρ c (Proc.devRef .tc main_arg1) := W2_in m ρ c 0 rfl
    _ = m ((c : Thread nD τ).loc main_arg1) := W1_main_arg1 m ρ c
theorem W3_main_arg1 (c : Dev nD) : W3 m ρ c (Proc.devRef .tc main_arg1) = m ((c : Thread nD τ).loc main_arg1) :=
  calc W3 m ρ c (Proc.devRef .tc main_arg1)
    _ = W2 m ρ c (Proc.devRef .tc main_arg1) := StableHlo.after_of_writes_sub hostOps1 _ hostOps1_writes (by decide)
    _ = m ((c : Thread nD τ).loc main_arg1) := W2_main_arg1 m ρ c
theorem W4_main_arg1 (c : Dev nD) : W4 m ρ c (Proc.devRef .tc main_arg1) = m ((c : Thread nD τ).loc main_arg1) :=
  calc W4 m ρ c (Proc.devRef .tc main_arg1)
    _ = W3 m ρ c (Proc.devRef .tc main_arg1) := W4_of_ne m ρ c main_arg1 (by decide)
    _ = m ((c : Thread nD τ).loc main_arg1) := W3_main_arg1 m ρ c
theorem W5_main_arg1 (c : Dev nD) : W5 m ρ c (Proc.devRef .tc main_arg1) = m ((c : Thread nD τ).loc main_arg1) :=
  calc W5 m ρ c (Proc.devRef .tc main_arg1)
    _ = W4 m ρ c (Proc.devRef .tc main_arg1) := StableHlo.after_of_writes_sub hostOps2 _ hostOps2_writes (by decide)
    _ = m ((c : Thread nD τ).loc main_arg1) := W4_main_arg1 m ρ c
theorem W6_main_arg1 (c : Dev nD) : W6 m ρ c (Proc.devRef .tc main_arg1) = m ((c : Thread nD τ).loc main_arg1) :=
  calc W6 m ρ c (Proc.devRef .tc main_arg1)
    _ = W5 m ρ c (Proc.devRef .tc main_arg1) := W6_of_ne m ρ c main_arg1 (by decide)
    _ = m ((c : Thread nD τ).loc main_arg1) := W5_main_arg1 m ρ c

theorem W1_main_arg2 (c : Dev nD) : W1 m ρ c (Proc.devRef .tc main_arg2) = m ((c : Thread nD τ).loc main_arg2) :=
  calc W1 m ρ c (Proc.devRef .tc main_arg2)
    _ = W0 m ρ c (Proc.devRef .tc main_arg2) := StableHlo.after_of_writes_sub hostOps0 _ hostOps0_writes (by decide)
    _ = m ((c : Thread nD τ).loc main_arg2) := rfl
theorem W2_main_arg2 (c : Dev nD) : W2 m ρ c (Proc.devRef .tc main_arg2) = m ((c : Thread nD τ).loc main_arg2) :=
  calc W2 m ρ c (Proc.devRef .tc main_arg2)
    _ = W1 m ρ c (Proc.devRef .tc main_arg2) := W2_in m ρ c 1 rfl
    _ = m ((c : Thread nD τ).loc main_arg2) := W1_main_arg2 m ρ c
theorem W3_main_arg2 (c : Dev nD) : W3 m ρ c (Proc.devRef .tc main_arg2) = m ((c : Thread nD τ).loc main_arg2) :=
  calc W3 m ρ c (Proc.devRef .tc main_arg2)
    _ = W2 m ρ c (Proc.devRef .tc main_arg2) := StableHlo.after_of_writes_sub hostOps1 _ hostOps1_writes (by decide)
    _ = m ((c : Thread nD τ).loc main_arg2) := W2_main_arg2 m ρ c
theorem W4_main_arg2 (c : Dev nD) : W4 m ρ c (Proc.devRef .tc main_arg2) = m ((c : Thread nD τ).loc main_arg2) :=
  calc W4 m ρ c (Proc.devRef .tc main_arg2)
    _ = W3 m ρ c (Proc.devRef .tc main_arg2) := W4_of_ne m ρ c main_arg2 (by decide)
    _ = m ((c : Thread nD τ).loc main_arg2) := W3_main_arg2 m ρ c
theorem W5_main_arg2 (c : Dev nD) : W5 m ρ c (Proc.devRef .tc main_arg2) = m ((c : Thread nD τ).loc main_arg2) :=
  calc W5 m ρ c (Proc.devRef .tc main_arg2)
    _ = W4 m ρ c (Proc.devRef .tc main_arg2) := StableHlo.after_of_writes_sub hostOps2 _ hostOps2_writes (by decide)
    _ = m ((c : Thread nD τ).loc main_arg2) := W4_main_arg2 m ρ c
theorem W6_main_arg2 (c : Dev nD) : W6 m ρ c (Proc.devRef .tc main_arg2) = m ((c : Thread nD τ).loc main_arg2) :=
  calc W6 m ρ c (Proc.devRef .tc main_arg2)
    _ = W5 m ρ c (Proc.devRef .tc main_arg2) := W6_of_ne m ρ c main_arg2 (by decide)
    _ = m ((c : Thread nD τ).loc main_arg2) := W5_main_arg2 m ρ c

theorem W1_main_arg3 (c : Dev nD) : W1 m ρ c (Proc.devRef .tc main_arg3) = m ((c : Thread nD τ).loc main_arg3) :=
  calc W1 m ρ c (Proc.devRef .tc main_arg3)
    _ = W0 m ρ c (Proc.devRef .tc main_arg3) := StableHlo.after_of_writes_sub hostOps0 _ hostOps0_writes (by decide)
    _ = m ((c : Thread nD τ).loc main_arg3) := rfl
theorem W2_main_arg3 (c : Dev nD) : W2 m ρ c (Proc.devRef .tc main_arg3) = m ((c : Thread nD τ).loc main_arg3) :=
  calc W2 m ρ c (Proc.devRef .tc main_arg3)
    _ = W1 m ρ c (Proc.devRef .tc main_arg3) := W2_of_ne m ρ c main_arg3 (by decide)
    _ = m ((c : Thread nD τ).loc main_arg3) := W1_main_arg3 m ρ c
theorem W3_main_arg3 (c : Dev nD) : W3 m ρ c (Proc.devRef .tc main_arg3) = m ((c : Thread nD τ).loc main_arg3) :=
  calc W3 m ρ c (Proc.devRef .tc main_arg3)
    _ = W2 m ρ c (Proc.devRef .tc main_arg3) := StableHlo.after_of_writes_sub hostOps1 _ hostOps1_writes (by decide)
    _ = m ((c : Thread nD τ).loc main_arg3) := W2_main_arg3 m ρ c
theorem W4_main_arg3 (c : Dev nD) : W4 m ρ c (Proc.devRef .tc main_arg3) = m ((c : Thread nD τ).loc main_arg3) :=
  calc W4 m ρ c (Proc.devRef .tc main_arg3)
    _ = W3 m ρ c (Proc.devRef .tc main_arg3) := W4_of_ne m ρ c main_arg3 (by decide)
    _ = m ((c : Thread nD τ).loc main_arg3) := W3_main_arg3 m ρ c
theorem W5_main_arg3 (c : Dev nD) : W5 m ρ c (Proc.devRef .tc main_arg3) = m ((c : Thread nD τ).loc main_arg3) :=
  calc W5 m ρ c (Proc.devRef .tc main_arg3)
    _ = W4 m ρ c (Proc.devRef .tc main_arg3) := StableHlo.after_of_writes_sub hostOps2 _ hostOps2_writes (by decide)
    _ = m ((c : Thread nD τ).loc main_arg3) := W4_main_arg3 m ρ c
theorem W6_main_arg3 (c : Dev nD) : W6 m ρ c (Proc.devRef .tc main_arg3) = m ((c : Thread nD τ).loc main_arg3) :=
  calc W6 m ρ c (Proc.devRef .tc main_arg3)
    _ = W5 m ρ c (Proc.devRef .tc main_arg3) := W6_of_ne m ρ c main_arg3 (by decide)
    _ = m ((c : Thread nD τ).loc main_arg3) := W5_main_arg3 m ρ c

theorem W1_main_arg4 (c : Dev nD) : W1 m ρ c (Proc.devRef .tc main_arg4) = m ((c : Thread nD τ).loc main_arg4) :=
  calc W1 m ρ c (Proc.devRef .tc main_arg4)
    _ = W0 m ρ c (Proc.devRef .tc main_arg4) := StableHlo.after_of_writes_sub hostOps0 _ hostOps0_writes (by decide)
    _ = m ((c : Thread nD τ).loc main_arg4) := rfl
theorem W2_main_arg4 (c : Dev nD) : W2 m ρ c (Proc.devRef .tc main_arg4) = m ((c : Thread nD τ).loc main_arg4) :=
  calc W2 m ρ c (Proc.devRef .tc main_arg4)
    _ = W1 m ρ c (Proc.devRef .tc main_arg4) := W2_of_ne m ρ c main_arg4 (by decide)
    _ = m ((c : Thread nD τ).loc main_arg4) := W1_main_arg4 m ρ c
theorem W3_main_arg4 (c : Dev nD) : W3 m ρ c (Proc.devRef .tc main_arg4) = m ((c : Thread nD τ).loc main_arg4) :=
  calc W3 m ρ c (Proc.devRef .tc main_arg4)
    _ = W2 m ρ c (Proc.devRef .tc main_arg4) := StableHlo.after_of_writes_sub hostOps1 _ hostOps1_writes (by decide)
    _ = m ((c : Thread nD τ).loc main_arg4) := W2_main_arg4 m ρ c
theorem W4_main_arg4 (c : Dev nD) : W4 m ρ c (Proc.devRef .tc main_arg4) = m ((c : Thread nD τ).loc main_arg4) :=
  calc W4 m ρ c (Proc.devRef .tc main_arg4)
    _ = W3 m ρ c (Proc.devRef .tc main_arg4) := W4_of_ne m ρ c main_arg4 (by decide)
    _ = m ((c : Thread nD τ).loc main_arg4) := W3_main_arg4 m ρ c
theorem W5_main_arg4 (c : Dev nD) : W5 m ρ c (Proc.devRef .tc main_arg4) = m ((c : Thread nD τ).loc main_arg4) :=
  calc W5 m ρ c (Proc.devRef .tc main_arg4)
    _ = W4 m ρ c (Proc.devRef .tc main_arg4) := StableHlo.after_of_writes_sub hostOps2 _ hostOps2_writes (by decide)
    _ = m ((c : Thread nD τ).loc main_arg4) := W4_main_arg4 m ρ c
theorem W6_main_arg4 (c : Dev nD) : W6 m ρ c (Proc.devRef .tc main_arg4) = m ((c : Thread nD τ).loc main_arg4) :=
  calc W6 m ρ c (Proc.devRef .tc main_arg4)
    _ = W5 m ρ c (Proc.devRef .tc main_arg4) := W6_in m ρ c 1 rfl
    _ = m ((c : Thread nD τ).loc main_arg4) := W5_main_arg4 m ρ c

theorem W1_main_arg5 (c : Dev nD) : W1 m ρ c (Proc.devRef .tc main_arg5) = m ((c : Thread nD τ).loc main_arg5) :=
  calc W1 m ρ c (Proc.devRef .tc main_arg5)
    _ = W0 m ρ c (Proc.devRef .tc main_arg5) := StableHlo.after_of_writes_sub hostOps0 _ hostOps0_writes (by decide)
    _ = m ((c : Thread nD τ).loc main_arg5) := rfl
theorem W2_main_arg5 (c : Dev nD) : W2 m ρ c (Proc.devRef .tc main_arg5) = m ((c : Thread nD τ).loc main_arg5) :=
  calc W2 m ρ c (Proc.devRef .tc main_arg5)
    _ = W1 m ρ c (Proc.devRef .tc main_arg5) := W2_of_ne m ρ c main_arg5 (by decide)
    _ = m ((c : Thread nD τ).loc main_arg5) := W1_main_arg5 m ρ c
theorem W3_main_arg5 (c : Dev nD) : W3 m ρ c (Proc.devRef .tc main_arg5) = m ((c : Thread nD τ).loc main_arg5) :=
  calc W3 m ρ c (Proc.devRef .tc main_arg5)
    _ = W2 m ρ c (Proc.devRef .tc main_arg5) := StableHlo.after_of_writes_sub hostOps1 _ hostOps1_writes (by decide)
    _ = m ((c : Thread nD τ).loc main_arg5) := W2_main_arg5 m ρ c
theorem W4_main_arg5 (c : Dev nD) : W4 m ρ c (Proc.devRef .tc main_arg5) = m ((c : Thread nD τ).loc main_arg5) :=
  calc W4 m ρ c (Proc.devRef .tc main_arg5)
    _ = W3 m ρ c (Proc.devRef .tc main_arg5) := W4_of_ne m ρ c main_arg5 (by decide)
    _ = m ((c : Thread nD τ).loc main_arg5) := W3_main_arg5 m ρ c
theorem W5_main_arg5 (c : Dev nD) : W5 m ρ c (Proc.devRef .tc main_arg5) = m ((c : Thread nD τ).loc main_arg5) :=
  calc W5 m ρ c (Proc.devRef .tc main_arg5)
    _ = W4 m ρ c (Proc.devRef .tc main_arg5) := StableHlo.after_of_writes_sub hostOps2 _ hostOps2_writes (by decide)
    _ = m ((c : Thread nD τ).loc main_arg5) := W4_main_arg5 m ρ c
theorem W6_main_arg5 (c : Dev nD) : W6 m ρ c (Proc.devRef .tc main_arg5) = m ((c : Thread nD τ).loc main_arg5) :=
  calc W6 m ρ c (Proc.devRef .tc main_arg5)
    _ = W5 m ρ c (Proc.devRef .tc main_arg5) := W6_of_ne m ρ c main_arg5 (by decide)
    _ = m ((c : Thread nD τ).loc main_arg5) := W5_main_arg5 m ρ c

/-! ## The two results

The new state is the attention launch's sixth window; nothing after that launch writes it. The output rows are the
last launch's fourth window. -/

theorem W6_newState (c : Dev nD) : W6 m ρ c (Proc.devRef .tc main_v10_1) = (dat1 (E3 m ρ) c).arrAt 5 cfg1.N :=
  calc W6 m ρ c (Proc.devRef .tc main_v10_1)
    _ = W5 m ρ c (Proc.devRef .tc main_v10_1) := W6_of_ne m ρ c main_v10_1 (by decide)
    _ = W4 m ρ c (Proc.devRef .tc main_v10_1) := StableHlo.after_of_writes_sub hostOps2 _ hostOps2_writes (by decide)
    _ = (dat1 (E3 m ρ) c).arrAt 5 cfg1.N := W4_arr m ρ c 5

theorem W6_y (c : Dev nD) : W6 m ρ c (Proc.devRef .tc main_v14) = (dat2 (E5 m ρ) c).arrAt 3 cfg2.N := W6_arr m ρ c 3

/-! ## What each launch is entered with, at the arrays its windows stage

The projection launch reads the activations and the weights as launched and the bias as a one-row matrix. The attention
launch reads the three slices of the projection's result, re-laid as [part, head, row, feature], each as a
[head, row, feature] array, and the state as launched. The output-projection launch reads the attention output with
its head axis moved inside the row, the weights as launched and the bias as a one-row matrix. -/

theorem E1_main_arg1 (c : Dev nD) : E1 m ρ c main_arg1 = m ((c : Thread nD τ).loc main_arg1) := W1_main_arg1 m ρ c
theorem E1_main_arg2 (c : Dev nD) : E1 m ρ c main_arg2 = m ((c : Thread nD τ).loc main_arg2) := W1_main_arg2 m ρ c
theorem E1_main_v0 (c : Dev nD) :
    E1 m ρ c main_v0 = shapeCast _ (m ((c : Thread nD τ).loc main_arg3)) shapeCasts_S3072_S1x3072 := by
  show StableHlo.after hostOps0 (W0 m ρ c) (Proc.devRef .tc main_v0) = _
  after_results
  rfl

/-- The projection's result as the launch leaves it. -/
theorem W2_main_v1 (c : Dev nD) : W2 m ρ c (Proc.devRef .tc main_v1) = (dat0 (E1 m ρ) c).arrAt 3 cfg0.N := W2_arr m ρ c 3

theorem E3_main_v5 (c : Dev nD) :
    E3 m ρ c main_v5 = shapeCast _ (extractStridedSlice S1x16x4096x64 ![0, 0, 0, 0] (transpose S3x16x4096x64 [1, 2, 0, 3]
      (shapeCast _ ((dat0 (E1 m ρ) c).arrAt 3 cfg0.N) shapeCasts_S4096x3072_S4096x3x16x64)
      transposes_S4096x3x16x64_S3x16x4096x64_1_2_0_3) slices_S3x16x4096x64_S1x16x4096x64_0_0_0_0) shapeCasts_S1x16x4096x64_S16x4096x64 := by
  show StableHlo.after hostOps1 (W2 m ρ c) (Proc.devRef .tc main_v5) = _
  after_results
  rw [W2_main_v1]
  rfl
theorem E3_main_v7 (c : Dev nD) :
    E3 m ρ c main_v7 = shapeCast _ (extractStridedSlice S1x16x4096x64 ![1, 0, 0, 0] (transpose S3x16x4096x64 [1, 2, 0, 3]
      (shapeCast _ ((dat0 (E1 m ρ) c).arrAt 3 cfg0.N) shapeCasts_S4096x3072_S4096x3x16x64)
      transposes_S4096x3x16x64_S3x16x4096x64_1_2_0_3) slices_S3x16x4096x64_S1x16x4096x64_1_0_0_0) shapeCasts_S1x16x4096x64_S16x4096x64 := by
  show StableHlo.after hostOps1 (W2 m ρ c) (Proc.devRef .tc main_v7) = _
  after_results
  rw [W2_main_v1]
  rfl
theorem E3_main_v9 (c : Dev nD) :
    E3 m ρ c main_v9 = shapeCast _ (extractStridedSlice S1x16x4096x64 ![2, 0, 0, 0] (transpose S3x16x4096x64 [1, 2, 0, 3]
      (shapeCast _ ((dat0 (E1 m ρ) c).arrAt 3 cfg0.N) shapeCasts_S4096x3072_S4096x3x16x64)
      transposes_S4096x3x16x64_S3x16x4096x64_1_2_0_3) slices_S3x16x4096x64_S1x16x4096x64_2_0_0_0) shapeCasts_S1x16x4096x64_S16x4096x64 := by
  show StableHlo.after hostOps1 (W2 m ρ c) (Proc.devRef .tc main_v9) = _
  after_results
  rw [W2_main_v1]
  rfl
theorem E3_main_arg0 (c : Dev nD) : E3 m ρ c main_arg0 = m ((c : Thread nD τ).loc main_arg0) := W3_main_arg0 m ρ c

/-- The attention output as the launch leaves it. -/
theorem W4_main_v10_0 (c : Dev nD) : W4 m ρ c (Proc.devRef .tc main_v10_0) = (dat1 (E3 m ρ) c).arrAt 4 cfg1.N := W4_arr m ρ c 4

theorem E5_main_v12 (c : Dev nD) :
    E5 m ρ c main_v12 = shapeCast _ (transpose S4096x16x64 [1, 0, 2] ((dat1 (E3 m ρ) c).arrAt 4 cfg1.N)
      transposes_S16x4096x64_S4096x16x64_1_0_2) shapeCasts_S4096x16x64_S4096x1024 := by
  show StableHlo.after hostOps2 (W4 m ρ c) (Proc.devRef .tc main_v12) = _
  after_results
  rw [W4_main_v10_0]
  rfl
theorem E5_main_arg4 (c : Dev nD) : E5 m ρ c main_arg4 = m ((c : Thread nD τ).loc main_arg4) := W5_main_arg4 m ρ c
theorem E5_main_v13 (c : Dev nD) :
    E5 m ρ c main_v13 = shapeCast _ (m ((c : Thread nD τ).loc main_arg5)) shapeCasts_S1024_S1x1024 := by
  show StableHlo.after hostOps2 (W4 m ρ c) (Proc.devRef .tc main_v13) = _
  after_results
  rw [W4_main_arg5]
  rfl

/-! ## The proof data per launch and the state a core carries between pieces -/

/-- Each launch's proof data at the contents it is entered with. -/
def pdats : (p : Fin 3) → (c : Dev nD) → Dat τ (Elt F) Unit ℕ (UR sig nD τ) ℕ (Pipeline.pin (pcfgs (F := F)) adm p) c
  | ⟨0, _⟩ => fun c => dat0 (E1 m ρ) c
  | ⟨1, _⟩ => fun c => dat1 (E3 m ρ) c
  | ⟨2, _⟩ => fun c => dat2 (E5 m ρ) c
abbrev 𝒱₀ : Variants := Variants.none
/-- No core owes another anything. -/
abbrev L : GSem nD τ sig → Finset Unit := fun _ => ∅
abbrev lv : GSem nD τ sig → Unit → ℕ := fun _ _ => 0
/-- Beside the buffers a core carries its generator register, at some state, and owes nothing. -/
abbrev R (c : Dev nD) : sProp 𝕄 := iprop((∃ r, prngReg c r) ∗ ∃ W, owes (c : Thread nD τ) (0 : CellTallies nD τ sig Unit) W)
/-- A stretch of layout operations run from the contents `W`: it leaves every buffer at the operations' results. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last state: every buffer at the last boundary's contents, the generator register at some state. -/
abbrev Tₙ (c : Dev nD) : sProp 𝕄 := iprop(StableHlo.held (c : Thread nD τ) (Pipeline.ucRefs τ sig) (W6 m ρ c) ∗ ∃ r, prngReg c r)

/-! ## The three launches

Each is entered from every buffer at the boundary before it and left at the boundary after it: its windows' arrays are
split out of the buffers and put back at what the write-backs leave. The first and third keep nothing from point to
point beyond the generator register; the attention launch's invariant also carries its two accumulators, and is
entered from and left at the plain invariant by the two lemmas its module proves. -/

-- `iapply` of a library lemma stated over the pinned configuration unifies only when unification may unfold plain
-- definitions in a metavariable's type
set_option backward.isDefEq.respectTransparency.types false in
def reg0 : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (body_obligation0 (E1 m ρ) c).loose
  hwaits := Pipeline.hwaits_of_owed_zero _ _ _ _ L lv 0 fun _ _ => rfl
  pre c := iprop(StableHlo.held (c : Thread nD τ) (Pipeline.ucRefs τ sig) (W1 m ρ c) ∗ R c)
  post c := iprop(StableHlo.held (c : Thread nD τ) (Pipeline.ucRefs τ sig) (W2 m ρ c) ∗ R c)
  X c := iprop(∃ r, prngReg c r)
  Y c := iprop(∃ r, prngReg c r)
  Z c := Pipeline.unscopedRest (Ix := Unit) (Name := ℕ) (U := UR sig nD τ) (Lvl := ℕ) spec0 c (E1 m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (E1 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m ρ 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (E1 m ρ c) (E2 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

-- `iapply` of a library lemma stated over the pinned configuration unifies only when unification may unfold plain
-- definitions in a metavariable's type
set_option backward.isDefEq.respectTransparency.types false in
def reg1 : Pipeline.RegionSeg (pcfgs (F := F)) adm (pdats m ρ) () defs₀ 𝒱₀ L lv 1 where
  win := launch1.win.to₀
  block_pos := launch1.block_pos
  stage_whole := launch1.stage_whole
  K := PEmpty
  osem k := k.elim
  ho := Pipeline.OwnSemFacts.none _
  hbody c := (body_obligation1 (E3 m ρ) c).loose
  hwaits := Pipeline.hwaits_of_owed_zero _ _ _ _ L lv 1 fun _ _ => rfl
  pre c := iprop(StableHlo.held (c : Thread nD τ) (Pipeline.ucRefs τ sig) (W3 m ρ c) ∗ R c)
  post c := iprop(StableHlo.held (c : Thread nD τ) (Pipeline.ucRefs τ sig) (W4 m ρ c) ∗ R c)
  X c := iprop(∃ r, prngReg c r)
  Y c := iprop(∃ r, prngReg c r)
  Z c := Pipeline.unscopedRest (Ix := Unit) (Name := ℕ) (U := UR sig nD τ) (Lvl := ℕ) spec1 c (E3 m ρ c)
  hentry c := by
    rw [Pipeline.ownSems0_none]
    have hsplit := Pipeline.arrays_of_unscopedBufs (p := 1) (pcfgs (F := F)) adm (pdats m ρ) launch1.win launch1.arr_whole c
      ((pdats m ρ 1 c).share_full fun _ => rfl) (E3 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine (?_ : _ ⊢ Pipeline.ΦA spec1 c).trans (hin1 (E3 m ρ) c)
    unfold Pipeline.ΦA
    iintro ⟨Hp, -, Hr⟩
    isplitl [Hr]; · iexact Hr
    iexact Hp
  hout c := by
    rw [Pipeline.ownSems0_none]
    refine (hout1 (E3 m ρ) c).trans (?_ : Pipeline.ΦA spec1 c ⊢ _)
    unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m ρ) ((pdats m ρ 1 c).share_full fun _ => rfl)
      (E3 m ρ c) (E4 m ρ c) ((pdats m ρ 1 c).arrAt · cfg1.N) (hF1 m ρ c) (hrest1 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

-- `iapply` of a library lemma stated over the pinned configuration unifies only when unification may unfold plain
-- definitions in a metavariable's type
set_option backward.isDefEq.respectTransparency.types false in
def reg2 : Pipeline.RegionSeg (pcfgs (F := F)) adm (pdats m ρ) () defs₀ 𝒱₀ L lv 2 where
  win := launch2.win.to₀
  block_pos := launch2.block_pos
  stage_whole := launch2.stage_whole
  K := PEmpty
  osem k := k.elim
  ho := Pipeline.OwnSemFacts.none _
  hbody c := (body_obligation2 (E5 m ρ) c).loose
  hwaits := Pipeline.hwaits_of_owed_zero _ _ _ _ L lv 2 fun _ _ => rfl
  pre c := iprop(StableHlo.held (c : Thread nD τ) (Pipeline.ucRefs τ sig) (W5 m ρ c) ∗ R c)
  post c := iprop(Tₙ m ρ c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec2 c (E5 m ρ c)
  hentry c := by
    rw [Pipeline.ownSems0_none]
    have hsplit := Pipeline.arrays_of_unscopedBufs (p := 2) (pcfgs (F := F)) adm (pdats m ρ) launch2.win launch2.arr_whole c
      ((pdats m ρ 2 c).share_full fun _ => rfl) (E5 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 2 c).Φ 0 = Pipeline.ΦA spec2 c from rfl]; unfold Pipeline.ΦA
    iintro ⟨Hp, -, Hr⟩
    isplitl [Hr]; · iexact Hr
    iexact Hp
  hout c := by
    rw [Pipeline.ownSems0_none, show (pdats m ρ 2 c).Φ (Fin.last _) = Pipeline.ΦA spec2 c from rfl]; unfold Pipeline.ΦA
    iintro ⟨Hr, Hp⟩
    isplitl [Hp]; · iexact Hp
    isplitr; · iempintro
    iexact Hr
  hexit c := by
    have hjoin := Pipeline.unscopedBufs_of_arrays (p := 2) (pcfgs (F := F)) adm (Ix := Unit) (Name := ℕ) (U := UR sig nD τ) (Lvl := ℕ)
      launch2.win launch2.arr_whole c (pdats m ρ) ((pdats m ρ 2 c).share_full fun _ => rfl)
      (E5 m ρ c) (E6 m ρ c) ((pdats m ρ 2 c).arrAt · cfg2.N) (hF2 m ρ c) (hrest2 m ρ c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

/-! ## The program as its six pieces, and the run -/

abbrev mainSegs : List (Pipeline.Seg (pcfgs (F := F)) adm (pdats m ρ) () defs₀ 𝒱₀ L lv) :=
  [ .host (hseg hostOps0 hostOps0_sub hostOps0_fresh (W0 m ρ)),
    .region (reg0 m ρ),
    .host (hseg hostOps1 hostOps1_sub hostOps1_fresh (W2 m ρ)),
    .region (reg1 m ρ),
    .host (hseg hostOps2 hostOps2_sub hostOps2_fresh (W4 m ρ)),
    .region (reg2 m ρ) ]
theorem main_run (c : Dev nD) : main (F := F) c = Pipeline.Seg.run (mainSegs m ρ) := (main_chain c).trans (by chain_rfl)

set_option backward.isDefEq.respectTransparency.types false in
/-- Every weakly fair execution of the program from memory `m` with zero counters terminates without a fault, and at
    the end every buffer holds the last boundary's contents. -/
theorem run_all : θ_run defs (onTc (τ := τ) (main (F := F))) ⟨m, fun _ => 0, ρ⟩ (fun r => ∀ c : Dev nD,
      ∀ b ∈ Pipeline.ucRefs τ sig, r.2.mem ((c : Thread nD τ).1, b) = W6 m ρ c b) :=
  Pipeline.θ_run_regions_kit (pcfgs (F := F)) adm (pdats m ρ) () cellOf_inj emb₁ defs₀ 𝒱₀ L lv m ρ main (mainSegs m ρ)
    (fun c Q => by rw [main_run m ρ c])
    (by simp only [mainSegs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W6 m ρ c b)
    (hfin := fun c s' => by
      iintro ⟨⟨Hh, -⟩, HSI⟩
      unfold StableHlo.held
      imodintro
      iapply (pointsTo_read_all (Pipeline.ucRefs τ sig) (fun b => (((c : Thread nD τ)).1, b)) (W6 m ρ c) s')
      isplitl [Hh] <;> iassumption)
    (hQ := fun _ h => h)

/-- The arguments end as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  (θ_run defs _ _).mono (fun r h c =>
    ⟨(h c _ (mem_uc main_arg0 (by decide))).trans (W6_main_arg0 m ρ c),
     (h c _ (mem_uc main_arg1 (by decide))).trans (W6_main_arg1 m ρ c),
     (h c _ (mem_uc main_arg2 (by decide))).trans (W6_main_arg2 m ρ c),
     (h c _ (mem_uc main_arg3 (by decide))).trans (W6_main_arg3 m ρ c),
     (h c _ (mem_uc main_arg4 (by decide))).trans (W6_main_arg4 m ρ c),
     (h c _ (mem_uc main_arg5 (by decide))).trans (W6_main_arg5 m ρ c)⟩) (run_all m ρ)

end Cert.Kernel.Hand

end
-- ==== Proof.RegionQkv.lean ====
/-
  The projection region (the first kernel launch): one grid point multiplies a 1024-row block of the activations by a
  1024-column block of the weights and adds that block of the bias. This module states what every window's staging
  buffer holds after the body at a point, as proof data over the contents the region is entered with.
-/
import proofs.«151280_j41747082117805_1_alg».proof.Proof.Gen.KernelIdeal.Launch
import proofs.«151280_j41747082117805_1_alg».proof.Proof.Gen.KernelIdeal.Skeleton
import proofs.«151280_j41747082117805_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered
variable (V : (c : Dev nD) → (b : Ref sig .tc) → Buf (Elt F) ((c : Thread nD τ).loc b))

/-- Window `w`'s block at point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

abbrev r0_0 : Rect S1024x1024 := Rect.unit (s := S1024x1024) ![0, 0] S1024x1024.size inb_S1024x1024_S1024x1024_0_0
abbrev r0_1 : Rect S1x1024 := Rect.unit (s := S1x1024) ![0, 0] S1x1024.size inb_S1x1024_S1x1024_0_0

/-- The output block after the body: its one whole store, of the product plus the bias row. -/
def out0_3 (x0 x1 : Vec F S1024x1024 .f32) (x2 : Vec F S1x1024 .f32) : Vec F S1024x1024 .bf16 :=
  View.canon [⟨r0_0, k0_pay1 (View.ld x0 r0_0) (View.ld x1 r0_0) (View.ld x2 r0_1)⟩]

/-- The region's proof data: inputs stay at their blocks, the output block is `out0_3` of them. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => out0_3 (iblk0 V c 0 t) (iblk0 V c 1 t) (iblk0 V c 2 t)
  Φ _ := Pipeline.ΦA spec0 c
  q _ := fullShare
  owed _ := 0

theorem A_eq0 (c : Dev nD) (w : Fin cfg0.W) : (dat0 V c).A w = V c (Pipeline.arrRef spec0 w) := by
  dsimp only [dat0]

theorem after0_3 (c : Dev nD) (t : Fin cfg0.N) :
    (dat0 V c).after 3 t = out0_3 (iblk0 V c 0 t) (iblk0 V c 1 t) (iblk0 V c 2 t) := by dsimp only [dat0]

/-! ## The input windows' staging buffers -/

/-- Input window 0's current staging buffer holds its block at every point, fetched there or not, for any proof
    data whose array is the entry contents and whose body leaves the block in place: an unfetched window's block index
    has not moved since the previous point, so the buffer still holds this point's block. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

/-- The same of input window 1. -/
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

/-- The same of input window 2. -/
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)

/-! ## The output block's one store covers it -/

/-- The single store writes the whole 1024 x 1024 block, so every index of the block lies in its rectangle. -/
theorem cover0_3 (p0 : Vec F S1024x1024 .bf16) (y : S1024x1024.Idx) :
    ∃ pc ∈ ([⟨r0_0, p0⟩] : List (View.Piece (Elt F) S1024x1024 .bf16)), y ∈ pc.1.set :=
  View.cover_of_tiled [⟨r0_0, p0⟩] S1024x1024.size (by rfl) y

/-! ## The body's triple -/

set_option maxHeartbeats 1000000 in
/-- The kernel body on whole staging buffers, the three inputs' at read contents and the output's at anything, runs to
    the continuation holding the inputs' as they were and the output's at the product plus the bias row. The body reads
    the three inputs whole, reads the output once (a value it never uses), and stores the output whole. -/
theorem sound_kernel0 (c : Dev nD) (E : Set ℕ) (i : grid0.Coords)
    (arg0 : Memref sig .tc .vmem S1024x1024 .f32) (harg0 : arg0.IsWhole) (arg1 : Memref sig .tc .vmem S1024x1024 .f32) (harg1 : arg1.IsWhole)
    (arg2 : Memref sig .tc .vmem S1x1024 .f32) (harg2 : arg2.IsWhole) (arg3 : Memref sig .tc .vmem S1024x1024 .bf16) (harg3 : arg3.IsWhole)
    (x0 x1 : Vec F S1024x1024 .f32) (x2 : Vec F S1x1024 .f32) (K : PUnit → sProp 𝕄) :
    iprop(owns (c : Thread nD τ) arg0 fullShare x0 ∗ owns (c : Thread nD τ) arg1 fullShare x1 ∗ owns (c : Thread nD τ) arg2 fullShare x2
        ∗ (∃ d, owns (c : Thread nD τ) arg3 fullShare d)
        ∗ (iprop(owns (c : Thread nD τ) arg0 fullShare x0 ∗ owns (c : Thread nD τ) arg1 fullShare x1 ∗ owns (c : Thread nD τ) arg2 fullShare x2
            ∗ owns (c : Thread nD τ) arg3 fullShare (out0_3 x0 x1 x2)) -∗ K ⟨⟩))
      ⊢ wp frame (wpE (defs₀ (F := F)) Variants.none c none) E (cc0__qkv_proj_kernel i arg0 harg0 arg1 harg1 arg2 harg2 arg3 harg3) K := by
  simp only [cc0__qkv_proj_kernel_eq_skeleton]; unfold cc0__qkv_proj_kernel_skel
  unfold owns
  iintro ⟨⟨%f0, %hf0, H0⟩, ⟨%f1, %hf1, H1⟩, ⟨%f2, %hf2, H2⟩, ⟨%d3, %f3, -, H3⟩, Hk⟩
  subst hf0 hf1 hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover0_3 _)

/-! ## The body obligation, at a generic point -/

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]

/-- Each input's current staging buffer holds its block at every point, fetched there or not. -/
theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d

/-- What the body is called with at point `t`: the invariant, what is owed, and each window's current buffer, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t))

/-- The body at any point: the inputs' buffers hold their blocks, so the body's triple applies; the invariant and
    what is owed pass through unread. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2]
  rw [show (dat0 V c).Φ t.succ = (dat0 V c).Φ t.castSucc from rfl,
    show (dat0 V c).owesAt () t.succ = (dat0 V c).owesAt () t.castSucc from rfl,
    after0_0, after0_1, after0_2, after0_3]
  iintro ⟨HΦ, Ho, ⟨%d0, H0⟩, ⟨%d1, H1⟩, ⟨%d2, H2⟩, ⟨%d3, H3⟩⟩
  iapply (sound_kernel0 c Set.univ _ _ _ _ _ _ _ _ _ (iblk0 V c 0 t) (iblk0 V c 1 t) (iblk0 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The body obligation, at every point. -/
theorem body_obligation0 (c : Dev nD) : BodyObligation (dat0 (F := F) V c) (defs₀ (F := F)) Variants.none () Set.univ := fun t => by
  rw [bigSep_W0, bigSep_W0]
  exact sound_body0 V c t

end Cert.KernelIdeal.Hand

end
-- ==== Proof.RegionOut.lean ====
/-
  The output-projection region (the third kernel launch): one grid point multiplies a 1024-row block of the re-laid
  attention output by the whole output weight matrix and adds the bias row. This module states what every window's
  staging buffer holds after the body at a point, as proof data over the contents the region is entered with.
-/
import proofs.«151280_j41747082117805_1_alg».proof.Proof.Gen.KernelIdeal.Launch
import proofs.«151280_j41747082117805_1_alg».proof.Proof.Gen.KernelIdeal.Skeleton
import proofs.«151280_j41747082117805_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered
variable (V : (c : Dev nD) → (b : Ref sig .tc) → Buf (Elt F) ((c : Thread nD τ).loc b))

/-- Window `w`'s block at point `t`, read off its array as the region finds it. -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

abbrev r2_0 : Rect S1024x1024 := Rect.unit (s := S1024x1024) ![0, 0] S1024x1024.size inb_S1024x1024_S1024x1024_0_0
abbrev r2_1 : Rect S1x1024 := Rect.unit (s := S1x1024) ![0, 0] S1x1024.size inb_S1x1024_S1x1024_0_0

/-- The output block after the body: its one whole store, of the product plus the bias row. -/
def out2_3 (x0 x1 : Vec F S1024x1024 .f32) (x2 : Vec F S1x1024 .f32) : Vec F S1024x1024 .f32 :=
  View.canon [⟨r2_0, k2_pay1 (View.ld x0 r2_0) (View.ld x1 r2_0) (View.ld x2 r2_1)⟩]

/-- The region's proof data: inputs stay at their blocks, the output block is `out2_3` of them. -/
def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => iblk2 V c 2 t
    | ⟨3, _⟩ => out2_3 (iblk2 V c 0 t) (iblk2 V c 1 t) (iblk2 V c 2 t)
  Φ _ := Pipeline.ΦA spec2 c
  q _ := fullShare
  owed _ := 0

theorem A_eq2 (c : Dev nD) (w : Fin cfg2.W) : (dat2 V c).A w = V c (Pipeline.arrRef spec2 w) := by
  dsimp only [dat2]

theorem after2_3 (c : Dev nD) (t : Fin cfg2.N) :
    (dat2 V c).after 3 t = out2_3 (iblk2 V c 0 t) (iblk2 V c 1 t) (iblk2 V c 2 t) := by dsimp only [dat2]

/-! ## The input windows' staging buffers -/

/-- Input window 0's current staging buffer holds its block at every point, fetched there or not, for any proof
    data whose array is the entry contents and whose body leaves the block in place: an unfetched window's block index
    has not moved since the previous point, so the buffer still holds this point's block. -/
theorem before2_0_of {c : Dev nD} (dat : Dat τ (Elt F) Unit ℕ (UR sig nD τ) ℕ cfg2 c) (hA : dat.A 0 = V c (Pipeline.arrRef spec2 0))
    (hafter : ∀ t, dat.after 0 t = iblk2 V c 0 t) (t : Fin cfg2.N) (d) : dat.before 0 t d = iblk2 V c 0 t :=
  (dat.before_in_eq_fetched 0 rfl (fun _ => rfl) (fun _ _ _ => rfl) (fun t => by rw [hafter]; unfold Dat.blockOf iblk2; rw [hA]; try rfl) t d).trans
    (by unfold Dat.fetched Dat.blockOf iblk2; rw [hA]; try rfl)

/-- The same of input window 1. -/
theorem before2_1_of {c : Dev nD} (dat : Dat τ (Elt F) Unit ℕ (UR sig nD τ) ℕ cfg2 c) (hA : dat.A 1 = V c (Pipeline.arrRef spec2 1))
    (hafter : ∀ t, dat.after 1 t = iblk2 V c 1 t) (t : Fin cfg2.N) (d) : dat.before 1 t d = iblk2 V c 1 t :=
  (dat.before_in_eq_fetched 1 rfl (fun _ => rfl) (fun _ _ _ => rfl) (fun t => by rw [hafter]; unfold Dat.blockOf iblk2; rw [hA]; try rfl) t d).trans
    (by unfold Dat.fetched Dat.blockOf iblk2; rw [hA]; try rfl)

/-- The same of input window 2. -/
theorem before2_2_of {c : Dev nD} (dat : Dat τ (Elt F) Unit ℕ (UR sig nD τ) ℕ cfg2 c) (hA : dat.A 2 = V c (Pipeline.arrRef spec2 2))
    (hafter : ∀ t, dat.after 2 t = iblk2 V c 2 t) (t : Fin cfg2.N) (d) : dat.before 2 t d = iblk2 V c 2 t :=
  (dat.before_in_eq_fetched 2 rfl (fun _ => rfl) (fun _ _ _ => rfl) (fun t => by rw [hafter]; unfold Dat.blockOf iblk2; rw [hA]; try rfl) t d).trans
    (by unfold Dat.fetched Dat.blockOf iblk2; rw [hA]; try rfl)

/-! ## The output block's one store covers it -/

/-- The single store writes the whole 1024 x 1024 block, so every index of the block lies in its rectangle. -/
theorem cover2_3 (p0 : Vec F S1024x1024 .f32) (y : S1024x1024.Idx) :
    ∃ pc ∈ ([⟨r2_0, p0⟩] : List (View.Piece (Elt F) S1024x1024 .f32)), y ∈ pc.1.set :=
  View.cover_of_tiled [⟨r2_0, p0⟩] S1024x1024.size (by rfl) y

/-! ## The body's triple -/

set_option maxHeartbeats 1000000 in
/-- The kernel body on whole staging buffers, the three inputs' at read contents and the output's at anything, runs to
    the continuation holding the inputs' as they were and the output's at the product plus the bias row. The body reads
    the three inputs whole, reads the output once (a value it never uses), and stores the output whole. -/
theorem sound_kernel2 (c : Dev nD) (E : Set ℕ) (i : grid2.Coords)
    (arg0 : Memref sig .tc .vmem S1024x1024 .f32) (harg0 : arg0.IsWhole) (arg1 : Memref sig .tc .vmem S1024x1024 .f32) (harg1 : arg1.IsWhole)
    (arg2 : Memref sig .tc .vmem S1x1024 .f32) (harg2 : arg2.IsWhole) (arg3 : Memref sig .tc .vmem S1024x1024 .f32) (harg3 : arg3.IsWhole)
    (x0 x1 : Vec F S1024x1024 .f32) (x2 : Vec F S1x1024 .f32) (K : PUnit → sProp 𝕄) :
    iprop(owns (c : Thread nD τ) arg0 fullShare x0 ∗ owns (c : Thread nD τ) arg1 fullShare x1 ∗ owns (c : Thread nD τ) arg2 fullShare x2
        ∗ (∃ d, owns (c : Thread nD τ) arg3 fullShare d)
        ∗ (iprop(owns (c : Thread nD τ) arg0 fullShare x0 ∗ owns (c : Thread nD τ) arg1 fullShare x1 ∗ owns (c : Thread nD τ) arg2 fullShare x2
            ∗ owns (c : Thread nD τ) arg3 fullShare (out2_3 x0 x1 x2)) -∗ K ⟨⟩))
      ⊢ wp frame (wpE (defs₀ (F := F)) Variants.none c none) E (cc2__out_proj_kernel i arg0 harg0 arg1 harg1 arg2 harg2 arg3 harg3) K := by
  simp only [cc2__out_proj_kernel_eq_skeleton]; unfold cc2__out_proj_kernel_skel
  unfold owns
  iintro ⟨⟨%f0, %hf0, H0⟩, ⟨%f1, %hf1, H1⟩, ⟨%f2, %hf2, H2⟩, ⟨%d3, %f3, -, H3⟩, Hk⟩
  subst hf0 hf1 hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover2_3 _)

/-! ## The body obligation, at a generic point -/

theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = iblk2 V c 2 t := by dsimp only [dat2]

/-- Each input's current staging buffer holds its block at every point, fetched there or not. -/
theorem before2_0 (c : Dev nD) (t : Fin cfg2.N) (d) : (dat2 V c).before 0 t d = iblk2 V c 0 t :=
  before2_0_of V (dat2 V c) (A_eq2 V c 0) (after2_0 V c) t d
theorem before2_1 (c : Dev nD) (t : Fin cfg2.N) (d) : (dat2 V c).before 1 t d = iblk2 V c 1 t :=
  before2_1_of V (dat2 V c) (A_eq2 V c 1) (after2_1 V c) t d
theorem before2_2 (c : Dev nD) (t : Fin cfg2.N) (d) : (dat2 V c).before 2 t d = iblk2 V c 2 t :=
  before2_2_of V (dat2 V c) (A_eq2 V c 2) (after2_2 V c) t d

/-- What the body is called with at point `t`: the invariant, what is owed, and each window's current buffer, -/
def bodyPre2 (c : Dev nD) (t : Fin cfg2.N) : sProp 𝕄 :=
  iprop((dat2 V c).Φ t.castSucc ∗ (dat2 V c).owesAt () t.castSucc
    ∗ (∃ d, owns (c : Thread nD τ) (st2_0 t) fullShare ((dat2 V c).before 0 t d))
    ∗ (∃ d, owns (c : Thread nD τ) (st2_1 t) fullShare ((dat2 V c).before 1 t d))
    ∗ (∃ d, owns (c : Thread nD τ) (st2_2 t) fullShare ((dat2 V c).before 2 t d))
    ∗ (∃ d, owns (c : Thread nD τ) (st2_3 t) fullShare ((dat2 V c).before 3 t d)))

/-- and what it returns. -/
def bodyPost2 (c : Dev nD) (t : Fin cfg2.N) : sProp 𝕄 :=
  iprop((dat2 V c).Φ t.succ ∗ (dat2 V c).owesAt () t.succ
    ∗ owns (c : Thread nD τ) (st2_0 t) fullShare ((dat2 V c).after 0 t)
    ∗ owns (c : Thread nD τ) (st2_1 t) fullShare ((dat2 V c).after 1 t)
    ∗ owns (c : Thread nD τ) (st2_2 t) fullShare ((dat2 V c).after 2 t)
    ∗ owns (c : Thread nD τ) (st2_3 t) fullShare ((dat2 V c).after 3 t))

/-- The body at any point: the inputs' buffers hold their blocks, so the body's triple applies; the invariant and
    what is owed pass through unread. -/
theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1, before2_2]
  rw [show (dat2 V c).Φ t.succ = (dat2 V c).Φ t.castSucc from rfl,
    show (dat2 V c).owesAt () t.succ = (dat2 V c).owesAt () t.castSucc from rfl,
    after2_0, after2_1, after2_2, after2_3]
  iintro ⟨HΦ, Ho, ⟨%d0, H0⟩, ⟨%d1, H1⟩, ⟨%d2, H2⟩, ⟨%d3, H3⟩⟩
  iapply (sound_kernel2 c Set.univ _ _ _ _ _ _ _ _ _ (iblk2 V c 0 t) (iblk2 V c 1 t) (iblk2 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The body obligation, at every point. -/
theorem body_obligation2 (c : Dev nD) : BodyObligation (dat2 (F := F) V c) (defs₀ (F := F)) Variants.none () Set.univ := fun t => by
  rw [bigSep_W2, bigSep_W2]
  exact sound_body2 V c t

end Cert.KernelIdeal.Hand

end
-- ==== Proof.AttnShared.lean ====
/- The attention region's body, case by case: what every case's run is stated over.

   The region's grid is (h, qi, kj) with 16 x 4 x 4 points, kj fastest. The body has six
   conditionals, each a test on (qi, kj):
     0: qi = 0 and kj = 0   (the state accumulator is set to the head's initial state)
     1: kj = 0              (the output accumulator is set to q times the initial state)
     2: kj <= qi            (the causal block: the masked q k^T times v is added to the output accumulator)
     3: qi = 0              (k^T v is added to the state accumulator)
     4: kj = 3              (the output accumulator is written to the output block)
     5: qi = 3 and kj = 3   (the state accumulator is written to the new-state block)
   Here: the six conditions as propositions of a grid point, each in closed form in the point's
   linear index t (qi = (t / 4) % 4, kj = t % 4), decided over the 256 points; the staging memrefs
   the body is called with at a point; the two accumulators as memrefs and views; and where the two
   output windows are idle (exactly where their condition fails). -/
import proofs.«151280_j41747082117805_1_alg».proof.Proof.Gen.KernelIdeal.Launch
import proofs.«151280_j41747082117805_1_alg».proof.Proof.Gen.KernelIdeal.Skeleton
import proofs.«151280_j41747082117805_1_alg».proof.Proof.Gen.KernelIdeal.Points
import Idealize.ShloMosaic.Lib.Pipeline.FrameBody
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The six conditions -/

/-- Conditional 0: qi = 0 and kj = 0. -/
abbrev cond1_0 (i : grid1.Coords) : Prop := (Scalar.cmpi .ne (Scalar.extui (Scalar.andi (Scalar.cmpi .eq (BitVec.ofNat 32 (i 1).val) 0#32) (Scalar.cmpi .eq (BitVec.ofNat 32 (i 2).val) 0#32))) 0#32) = 1#1
theorem hcond1_0 : ∀ t : Fin cfg1.N, cond1_0 (grid1.coords t) ↔ ((t.val / 4) % 4 = 0 ∧ t.val % 4 = 0) :=
  (by decide +kernel : ∀ t : Fin grid1.N, cond1_0 (grid1.coords t) ↔ ((t.val / 4) % 4 = 0 ∧ t.val % 4 = 0))

/-- Conditional 1: kj = 0. -/
abbrev cond1_1 (i : grid1.Coords) : Prop := (Scalar.cmpi .ne (Scalar.extui (Scalar.cmpi .eq (BitVec.ofNat 32 (i 2).val) 0#32)) 0#32) = 1#1
theorem hcond1_1 : ∀ t : Fin cfg1.N, cond1_1 (grid1.coords t) ↔ t.val % 4 = 0 :=
  (by decide +kernel : ∀ t : Fin grid1.N, cond1_1 (grid1.coords t) ↔ t.val % 4 = 0)

/-- Conditional 2: kj <= qi (signed comparison of the two coordinates). -/
abbrev cond1_2 (i : grid1.Coords) : Prop := (Scalar.cmpi .ne (Scalar.extui (Scalar.cmpi .sle (BitVec.ofNat 32 (i 2).val) (BitVec.ofNat 32 (i 1).val))) 0#32) = 1#1
theorem hcond1_2 : ∀ t : Fin cfg1.N, cond1_2 (grid1.coords t) ↔ t.val % 4 ≤ (t.val / 4) % 4 :=
  (by decide +kernel : ∀ t : Fin grid1.N, cond1_2 (grid1.coords t) ↔ t.val % 4 ≤ (t.val / 4) % 4)

/-- Conditional 3: qi = 0. -/
abbrev cond1_3 (i : grid1.Coords) : Prop := (Scalar.cmpi .ne (Scalar.extui (Scalar.cmpi .eq (BitVec.ofNat 32 (i 1).val) 0#32)) 0#32) = 1#1
theorem hcond1_3 : ∀ t : Fin cfg1.N, cond1_3 (grid1.coords t) ↔ (t.val / 4) % 4 = 0 :=
  (by decide +kernel : ∀ t : Fin grid1.N, cond1_3 (grid1.coords t) ↔ (t.val / 4) % 4 = 0)

/-- Conditional 4: kj = 3. -/
abbrev cond1_4 (i : grid1.Coords) : Prop := k1_cond5 i = 1#1
theorem hcond1_4 : ∀ t : Fin cfg1.N, cond1_4 (grid1.coords t) ↔ t.val % 4 = 3 :=
  (by decide +kernel : ∀ t : Fin grid1.N, cond1_4 (grid1.coords t) ↔ t.val % 4 = 3)

/-- Conditional 5: qi = 3 and kj = 3. -/
abbrev cond1_5 (i : grid1.Coords) : Prop := k1_cond6 i = 1#1
theorem hcond1_5 : ∀ t : Fin cfg1.N, cond1_5 (grid1.coords t) ↔ ((t.val / 4) % 4 = 3 ∧ t.val % 4 = 3) :=
  (by decide +kernel : ∀ t : Fin grid1.N, cond1_5 (grid1.coords t) ↔ ((t.val / 4) % 4 = 3 ∧ t.val % 4 = 3))

/-! ## The memrefs the body is called with at a point -/

/-- Each window's current staging memref at point `t`, and its wholeness. -/
abbrev ms1_0 (t : Fin cfg1.N) : Memref sig .tc .vmem S1x1024x64 .bf16 := win1_0.stage (cfg1.slots t 0)
abbrev hs1_0 (t : Fin cfg1.N) : (ms1_0 t).IsWhole := hstage1_0 ((cfg1.slots t 0).cast nbuf1_0)
abbrev ms1_1 (t : Fin cfg1.N) : Memref sig .tc .vmem S1x1024x64 .bf16 := win1_1.stage (cfg1.slots t 1)
abbrev hs1_1 (t : Fin cfg1.N) : (ms1_1 t).IsWhole := hstage1_1 ((cfg1.slots t 1).cast nbuf1_1)
abbrev ms1_2 (t : Fin cfg1.N) : Memref sig .tc .vmem S1x1024x64 .bf16 := win1_2.stage (cfg1.slots t 2)
abbrev hs1_2 (t : Fin cfg1.N) : (ms1_2 t).IsWhole := hstage1_2 ((cfg1.slots t 2).cast nbuf1_2)
abbrev ms1_3 (t : Fin cfg1.N) : Memref sig .tc .vmem S1x64x64 .f32 := win1_3.stage (cfg1.slots t 3)
abbrev hs1_3 (t : Fin cfg1.N) : (ms1_3 t).IsWhole := hstage1_3 ((cfg1.slots t 3).cast nbuf1_3)
abbrev ms1_4 (t : Fin cfg1.N) : Memref sig .tc .vmem S1x1024x64 .f32 := win1_4.stage (cfg1.slots t 4)
abbrev hs1_4 (t : Fin cfg1.N) : (ms1_4 t).IsWhole := hstage1_4 ((cfg1.slots t 4).cast nbuf1_4)
abbrev ms1_5 (t : Fin cfg1.N) : Memref sig .tc .vmem S1x64x64 .f32 := win1_5.stage (cfg1.slots t 5)
abbrev hs1_5 (t : Fin cfg1.N) : (ms1_5 t).IsWhole := hstage1_5 ((cfg1.slots t 5).cast nbuf1_5)

/-- The two accumulators: whole scoped buffers of the region's own, passed beside the windows. -/
abbrev scM1_0 : Memref sig .tc .vmem S1024x64 .f32 := Memref.whole cc1_scratch0
abbrev scM1_1 : Memref sig .tc .vmem S64x64 .f32 := Memref.whole cc1_scratch1
/-- The accumulators as views: what they hold is stated through these. -/
abbrev VS1_0 : View sig .tc .vmem S1024x64 .f32 := scM1_0.view
abbrev VS1_1 : View sig .tc .vmem S64x64 .f32 := scM1_1.view
/-- One staging buffer of each output window, through which its contents are stated (which one does not matter). -/
abbrev VO1_4 : View sig .tc .vmem S1x1024x64 .f32 := (Memref.whole cc1_stg4_0 : Memref sig .tc .vmem S1x1024x64 .f32).view
abbrev VO1_5 : View sig .tc .vmem S1x64x64 .f32 := (Memref.whole cc1_stg5_0 : Memref sig .tc .vmem S1x64x64 .f32).view

/-! ## Where the windows are idle -/

/-- The four inputs are never idle. -/
theorem liveAt1_0 : ∀ t : Fin cfg1.N, cfg1.idle 0 (grid1.coords t) = false := by decide +kernel
theorem liveAt1_1 : ∀ t : Fin cfg1.N, cfg1.idle 1 (grid1.coords t) = false := by decide +kernel
theorem liveAt1_2 : ∀ t : Fin cfg1.N, cfg1.idle 2 (grid1.coords t) = false := by decide +kernel
theorem liveAt1_3 : ∀ t : Fin cfg1.N, cfg1.idle 3 (grid1.coords t) = false := by decide +kernel

/-- The output block is live exactly where conditional 4 holds (kj = 3); elsewhere it is idle and not written back. -/
theorem live1_4 : ∀ t : Fin cfg1.N, cond1_4 (grid1.coords t) → cfg1.idle 4 (grid1.coords t) = false := by decide +kernel
theorem idle1_4 : ∀ t : Fin cfg1.N, ¬cond1_4 (grid1.coords t) → cfg1.idle 4 (grid1.coords t) = true := by decide +kernel
theorem noFlush1_4 : ∀ t : Fin cfg1.N, ¬cond1_4 (grid1.coords t) → (cfg1.win 4).flush t = false := by decide +kernel

/-- The new-state block is live exactly where conditional 5 holds (qi = 3 and kj = 3); elsewhere it is idle and not written back. -/
theorem live1_5 : ∀ t : Fin cfg1.N, cond1_5 (grid1.coords t) → cfg1.idle 5 (grid1.coords t) = false := by decide +kernel
theorem idle1_5 : ∀ t : Fin cfg1.N, ¬cond1_5 (grid1.coords t) → cfg1.idle 5 (grid1.coords t) = true := by decide +kernel
theorem noFlush1_5 : ∀ t : Fin cfg1.N, ¬cond1_5 (grid1.coords t) → (cfg1.win 5).flush t = false := by decide +kernel

end Cert.KernelIdeal.Hand

end
-- ==== Proof.AttnAcc.lean ====
/-
  The attention region's two accumulators, point by point, as a recursion over the body's payloads.

  A grid point is (head, query tile qi, key tile kj) and the body keeps an output accumulator `[1024, 64]` and a state
  accumulator `[64, 64]` from one point to the next. At a point, in this order:
  the state accumulator is reset to the head's state when qi = 0 and kj = 0; the output accumulator is set to the query
  tile against the head's state when kj = 0; when kj ≤ qi the masked scores of the query tile against the key tile,
  times the value tile, are added to it; when qi = 0 the key tile (transposed) against the value tile is added to the
  state accumulator. The output block is the output accumulator where kj = 3, the new-state block the state accumulator
  where qi = 3 and kj = 3.
-/
import proofs.«151280_j41747082117805_1_alg».proof.Proof.Gen.KernelIdeal.Skeleton

noncomputable section

namespace Cert.KernelIdeal.Hand

open Cert.KernelIdeal Cert.KernelIdeal.Gen
open Idealize.ShloMosaic

variable {F : FTy → Type} [FloatOps F]

/-- The output accumulator and the state accumulator. -/
abbrev Acc (F : FTy → Type) [FloatOps F] : Type := Vec F S1024x64 .f32 × Vec F S64x64 .f32

/-- The blocks a point is handed: query, key and value tiles and the head's state. -/
abbrev Blocks (F : FTy → Type) [FloatOps F] : Type :=
  Vec F S1x1024x64 .bf16 × Vec F S1x1024x64 .bf16 × Vec F S1x1024x64 .bf16 × Vec F S1x64x64 .f32

/-- One point's effect on the two accumulators. -/
def accStep (i : grid1.Coords) (q k v : Vec F S1x1024x64 .bf16) (st : Vec F S1x64x64 .f32) (a : Acc F) : Acc F :=
  let s1 : Vec F S64x64 .f32 := if (i 1).val = 0 ∧ (i 2).val = 0 then k1_pay1 st else a.2
  let o2 : Vec F S1024x64 .f32 := if (i 2).val = 0 then k1_pay2 st q else a.1
  let o3 : Vec F S1024x64 .f32 := if (i 2).val ≤ (i 1).val then k1_pay3 i q k o2 v else o2
  let s4 : Vec F S64x64 .f32 := if (i 1).val = 0 then k1_pay4 s1 k v else s1
  (o3, s4)

/-- The accumulators before the first point: anything (the first point overwrites both). -/
def acc0 [∀ e, Nonempty (Elt F e)] : Acc F := (fun _ => Classical.arbitrary _, fun _ => Classical.arbitrary _)

/-- The accumulators after point `n`, given every point's blocks. -/
def accAt [∀ e, Nonempty (Elt F e)] (blk : (n : ℕ) → n < grid1.N → Blocks F) : (n : ℕ) → n < grid1.N → Acc F
  | 0, hn => accStep (grid1.coords ⟨0, hn⟩) (blk 0 hn).1 (blk 0 hn).2.1 (blk 0 hn).2.2.1 (blk 0 hn).2.2.2 acc0
  | n + 1, hn => accStep (grid1.coords ⟨n + 1, hn⟩) (blk (n + 1) hn).1 (blk (n + 1) hn).2.1 (blk (n + 1) hn).2.2.1
      (blk (n + 1) hn).2.2.2 (accAt blk n (Nat.lt_of_succ_lt hn))

theorem accAt_zero [∀ e, Nonempty (Elt F e)] (blk : (n : ℕ) → n < grid1.N → Blocks F) (hn : 0 < grid1.N) :
    accAt blk 0 hn = accStep (grid1.coords ⟨0, hn⟩) (blk 0 hn).1 (blk 0 hn).2.1 (blk 0 hn).2.2.1 (blk 0 hn).2.2.2 acc0 := rfl

theorem accAt_succ [∀ e, Nonempty (Elt F e)] (blk : (n : ℕ) → n < grid1.N → Blocks F) (n : ℕ) (hn : n + 1 < grid1.N) :
    accAt blk (n + 1) hn = accStep (grid1.coords ⟨n + 1, hn⟩) (blk (n + 1) hn).1 (blk (n + 1) hn).2.1 (blk (n + 1) hn).2.2.1
      (blk (n + 1) hn).2.2.2 (accAt blk n (Nat.lt_of_succ_lt hn)) := rfl

end Cert.KernelIdeal.Hand

end
-- ==== Proof.AttnData.lean ====
/-
  The attention region (the second kernel launch) as proof data over the contents the region is entered with.

  A grid point is (head, query tile qi, key tile kj), kj fastest. The body keeps an output accumulator and a state
  accumulator in two buffers of its own from one point to the next (`accAt`: the recursion over the points); the
  output block is the output accumulator at the points with kj = 3, where it is stored and written back, and the
  new-state block the state accumulator at (qi, kj) = (3, 3). Between those points the two output windows are idle:
  the body leaves their buffers as it found them. The region's invariant before a point is: the two accumulators at
  what the point before left (anything before the first point), every other buffer of the core's own at anything, the
  generator register at some state.
-/
import proofs.«151280_j41747082117805_1_alg».proof.Proof.AttnShared
import proofs.«151280_j41747082117805_1_alg».proof.Proof.AttnAcc
import Idealize.ShloMosaic.Lib.Pipeline.RegionsLoop
import Idealize.ShloMosaic.Lib.Pipeline.FrameSuffix

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered
variable (V : (c : Dev nD) → (b : Ref sig .tc) → Buf (Elt F) ((c : Thread nD τ).loc b))

/-- Window `w`'s block at point `t`, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-! ## The inputs' buffers hold their blocks at every point, fetched there or not -/

theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)
theorem before1_3_of {c : Dev nD} (dat : Dat τ (Elt F) Unit ℕ (UR sig nD τ) ℕ cfg1 c) (hA : dat.A 3 = V c (Pipeline.arrRef spec1 3))
    (hafter : ∀ t, dat.after 3 t = iblk1 V c 3 t) (t : Fin cfg1.N) (d) : dat.before 3 t d = iblk1 V c 3 t :=
  (dat.before_in_eq_fetched 3 rfl (fun _ => rfl) (fun _ _ _ => rfl) (fun t => by rw [hafter]; unfold Dat.blockOf iblk1; rw [hA]; try rfl) t d).trans
    (by unfold Dat.fetched Dat.blockOf iblk1; rw [hA]; try rfl)

/-! ## The accumulators point by point -/

/-- The blocks point `n` is handed: the query tile, the key tile, the value tile and the head's state. -/
def blk1 (c : Dev nD) (n : ℕ) (hn : n < grid1.N) : Blocks F :=
  (iblk1 V c 0 ⟨n, hn⟩, iblk1 V c 1 ⟨n, hn⟩, iblk1 V c 2 ⟨n, hn⟩, iblk1 V c 3 ⟨n, hn⟩)

/-- A point's query-tile and key-tile coordinates from its linear index. -/
theorem coords1_1 : ∀ t : Fin cfg1.N, ((grid1.coords t) 1).val = (t.val / 4) % 4 :=
  (by decide +kernel : ∀ t : Fin grid1.N, ((grid1.coords t) 1).val = (t.val / 4) % 4)
theorem coords1_2 : ∀ t : Fin cfg1.N, ((grid1.coords t) 2).val = t.val % 4 :=
  (by decide +kernel : ∀ t : Fin grid1.N, ((grid1.coords t) 2).val = t.val % 4)

/-- The recursion at the first point starts from anything. -/
theorem accAt_first (blk : (n : ℕ) → n < grid1.N → Blocks F) (t : Fin grid1.N) (h : t.val = 0) :
    accAt blk t.val t.isLt = accStep (grid1.coords t) (blk t.val t.isLt).1 (blk t.val t.isLt).2.1 (blk t.val t.isLt).2.2.1
      (blk t.val t.isLt).2.2.2 acc0 := by
  obtain ⟨n, hn⟩ := t
  cases n with
  | zero => rfl
  | succ n => exact absurd h (Nat.succ_ne_zero n)

/-- At a later point it continues from what the point before left. -/
theorem accAt_pos (blk : (n : ℕ) → n < grid1.N → Blocks F) (t : Fin grid1.N) (h : t.val ≠ 0) :
    accAt blk t.val t.isLt = accStep (grid1.coords t) (blk t.val t.isLt).1 (blk t.val t.isLt).2.1 (blk t.val t.isLt).2.2.1
      (blk t.val t.isLt).2.2.2 (accAt blk (t.val - 1) (Nat.lt_of_le_of_lt (Nat.sub_le _ _) t.isLt)) := by
  obtain ⟨n, hn⟩ := t
  cases n with
  | zero => exact absurd rfl h
  | succ n => rfl

/-- At the first point of a head (qi = 0 and kj = 0) both accumulators are overwritten: what was there does not matter. -/
theorem accStep_reset (i : grid1.Coords) (q k v : Vec F S1x1024x64 .bf16) (st : Vec F S1x64x64 .f32) (a b : Acc F)
    (h1 : (i 1).val = 0) (h2 : (i 2).val = 0) : accStep i q k v st a = accStep i q k v st b := by
  simp only [accStep, h1, h2, and_self, if_true, le_refl]

/-! ## The region invariant -/

/-- The core's own buffers that are neither this region's staging buffers nor its two accumulators (the other two
    regions' staging buffers), each at anything. -/
def others1 (c : Dev nD) : sProp 𝕄 :=
  iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg1_1), ((c : Thread nD τ).loc cc0_stg1_1) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg2_1), ((c : Thread nD τ).loc cc0_stg2_1) ↦{fullShare} f) ∗ (∃ f : Buf (Elt F) ((c : Thread nD τ).loc cc0_stg3_0), ((c : Thread nD τ).loc cc0_stg3_0) ↦{fullShare} f) ∗ (∃ f : Buf (Elt F) ((c : Thread nD τ).loc cc0_stg3_1), ((c : Thread nD τ).loc cc0_stg3_1) ↦{fullShare} f) ∗ (∃ f : Buf (Elt F) ((c : Thread nD τ).loc cc2_stg0_0), ((c : Thread nD τ).loc cc2_stg0_0) ↦{fullShare} f) ∗ (∃ f : Buf (Elt F) ((c : Thread nD τ).loc cc2_stg0_1), ((c : Thread nD τ).loc cc2_stg0_1) ↦{fullShare} f) ∗ (∃ f : Buf (Elt F) ((c : Thread nD τ).loc cc2_stg1_0), ((c : Thread nD τ).loc cc2_stg1_0) ↦{fullShare} f) ∗ (∃ f : Buf (Elt F) ((c : Thread nD τ).loc cc2_stg2_0), ((c : Thread nD τ).loc cc2_stg2_0) ↦{fullShare} f) ∗ (∃ f : Buf (Elt F) ((c : Thread nD τ).loc cc2_stg3_0), ((c : Thread nD τ).loc cc2_stg3_0) ↦{fullShare} f) ∗ (∃ f : Buf (Elt F) ((c : Thread nD τ).loc cc2_stg3_1), ((c : Thread nD τ).loc cc2_stg3_1) ↦{fullShare} f))

/-- The class's invariant with the two accumulators taken out of the scoped rest. -/
theorem PhiA1_split (c : Dev nD) :
    (Pipeline.ΦA spec1 c : sProp 𝕄) ⊢ iprop((∃ d, owns (c : Thread nD τ) scM1_0 fullShare d) ∗ (∃ d, owns (c : Thread nD τ) scM1_1 fullShare d) ∗ others1 c ∗ (∃ r, prngReg c r)) := by
  unfold Pipeline.ΦA others1; rw [scopedRest1_eq]; simp only [scM1_0, scM1_1, owns_whole]
  iintro ⟨⟨H1, H2, H3, H4, H5, H6, H7, H8, HS0, HS1, H9, H10, H11, H12, H13, H14⟩, Hg⟩
  isplitl [HS0]; · iexact HS0
  isplitl [HS1]; · iexact HS1
  isplitr [Hg]
  · isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    isplitl [H13]; · iexact H13
    iexact H14
  iexact Hg

/-- And put back. -/
theorem PhiA1_join (c : Dev nD) :
    iprop((∃ d, owns (c : Thread nD τ) scM1_0 fullShare d) ∗ (∃ d, owns (c : Thread nD τ) scM1_1 fullShare d) ∗ others1 c ∗ (∃ r, prngReg c r)) ⊢ (Pipeline.ΦA spec1 c : sProp 𝕄) := by
  unfold Pipeline.ΦA others1; rw [scopedRest1_eq]; simp only [scM1_0, scM1_1, owns_whole]
  iintro ⟨HS0, HS1, ⟨H1, H2, H3, H4, H5, H6, H7, H8, H9, H10, H11, H12, H13, H14⟩, Hg⟩
  isplitr [Hg]
  · isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [HS0]; · iexact HS0
    isplitl [HS1]; · iexact HS1
    isplitl [H9]; · iexact H9
    isplitl [H10]; · iexact H10
    isplitl [H11]; · iexact H11
    isplitl [H12]; · iexact H12
    isplitl [H13]; · iexact H13
    iexact H14
  iexact Hg

/-- The region invariant before position `n`: before the first point the class's; afterwards the two accumulators at
    what the point before left, the other buffers at anything, the generator register at some state. -/
def PhiS1 (c : Dev nD) : (n : ℕ) → n ≤ cfg1.N → sProp 𝕄
  | 0, _ => Pipeline.ΦA spec1 c
  | n + 1, hn => iprop(owns (c : Thread nD τ) scM1_0 fullShare (accAt (blk1 V c) n hn).1 ∗ owns (c : Thread nD τ) scM1_1 fullShare (accAt (blk1 V c) n hn).2
      ∗ others1 c ∗ (∃ r, prngReg c r))

theorem PhiS1_zero (c : Dev nD) (n : ℕ) (h : n ≤ cfg1.N) (hz : n = 0) : PhiS1 V c n h = Pipeline.ΦA spec1 c := by
  subst hz; rfl

theorem PhiS1_succ (c : Dev nD) (n : ℕ) (hn : n < cfg1.N) :
    PhiS1 V c (n + 1) hn = iprop(owns (c : Thread nD τ) scM1_0 fullShare (accAt (blk1 V c) n hn).1 ∗ owns (c : Thread nD τ) scM1_1 fullShare (accAt (blk1 V c) n hn).2
      ∗ others1 c ∗ (∃ r, prngReg c r)) := rfl

theorem PhiS1_pos (c : Dev nD) (n : ℕ) (h : n ≤ cfg1.N) (hz : n ≠ 0) :
    PhiS1 V c n h = iprop(owns (c : Thread nD τ) scM1_0 fullShare (accAt (blk1 V c) (n - 1) (Nat.lt_of_lt_of_le (Nat.sub_lt (Nat.pos_of_ne_zero hz) Nat.one_pos) h)).1 ∗ owns (c : Thread nD τ) scM1_1 fullShare (accAt (blk1 V c) (n - 1) (Nat.lt_of_lt_of_le (Nat.sub_lt (Nat.pos_of_ne_zero hz) Nat.one_pos) h)).2
      ∗ others1 c ∗ (∃ r, prngReg c r)) := by
  cases n with
  | zero => exact absurd rfl hz
  | succ n => rfl

/-! ## The proof data -/

/-- The region's proof data: the arrays as the region finds them; after the body at point `t` each input's buffer at
    its block, the output block at the output accumulator and the new-state block at the state accumulator (read
    where the windows are live); the invariant above; nothing owed; full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => k1_pay5 (accAt (blk1 V c) t.val t.isLt).1
    | ⟨5, _⟩ => k1_pay6 (accAt (blk1 V c) t.val t.isLt).2
  Φ t := PhiS1 V c t.val (Nat.le_of_lt_succ t.isLt)
  q _ := fullShare
  owed _ := 0

theorem A_eq1 (c : Dev nD) (w : Fin cfg1.W) : (dat1 V c).A w = V c (Pipeline.arrRef spec1 w) := by
  dsimp only [dat1]

theorem PhiS1_castSucc (c : Dev nD) (t : Fin cfg1.N) :
    (dat1 V c).Φ t.castSucc = PhiS1 V c t.val (Nat.le_of_lt t.isLt) := by
  dsimp only [dat1]; simp only [Fin.coe_castSucc]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t = k1_pay5 (accAt (blk1 V c) t.val t.isLt).1 := by dsimp only [dat1]
theorem after1_5 (c : Dev nD) (t : Fin cfg1.N) : (dat1 V c).after 5 t = k1_pay6 (accAt (blk1 V c) t.val t.isLt).2 := by dsimp only [dat1]

theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d
theorem before1_3 (c : Dev nD) (t : Fin cfg1.N) (d) : (dat1 V c).before 3 t d = iblk1 V c 3 t :=
  before1_3_of V (dat1 V c) (A_eq1 V c 3) (after1_3 V c) t d

end Cert.KernelIdeal.Hand

end
-- ==== Proof.AttnRunA.lean ====
/- The attention body at the first block of a head (qi = 0, kj = 0), where conditionals 0, 1, 2, 3 hold:
   the state accumulator is set to the head's initial state, the output accumulator to q times that state;
   then the masked q k^T times v is added to the output accumulator and k^T v to the state accumulator.
   Neither output block is stored. -/
import proofs.«151280_j41747082117805_1_alg».proof.Proof.AttnShared

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- (the run's proof term is large: the definition's epilogue walks it past the default budget)
set_option maxHeartbeats 1000000 in
/-- The body on whole memrefs, in the case named above: the four inputs, the two output buffers and the two
    accumulators, each at given contents. It runs to the continuation holding the inputs as they were, each buffer
    the case does not store into at the contents it was given, and each buffer it stores into with its pieces
    written (last first). The pieces are the witness the run finds (no piece for a buffer not stored into). -/
noncomputable def kernelRun1_A (c : Dev nD) (i : grid1.Coords) (arg3 : Memref sig .tc .vmem S1x1024x64 .bf16) (harg3 : arg3.IsWhole) (arg4 : Memref sig .tc .vmem S1x1024x64 .bf16) (harg4 : arg4.IsWhole) (arg5 : Memref sig .tc .vmem S1x1024x64 .bf16) (harg5 : arg5.IsWhole) (arg6 : Memref sig .tc .vmem S1x64x64 .f32) (harg6 : arg6.IsWhole) (arg7 : Memref sig .tc .vmem S1x1024x64 .f32) (harg7 : arg7.IsWhole) (arg8 : Memref sig .tc .vmem S1x64x64 .f32) (harg8 : arg8.IsWhole) (arg9 : Memref sig .tc .vmem S1024x64 .f32) (harg9 : arg9.IsWhole) (arg10 : Memref sig .tc .vmem S64x64 .f32) (harg10 : arg10.IsWhole) (hc0 : cond1_0 i) (hc1 : cond1_1 i) (hc2 : cond1_2 i) (hc3 : cond1_3 i) (hc4 : ¬cond1_4 i) (hc5 : ¬cond1_5 i)
    (x0 x1 x2 : Vec F S1x1024x64 .bf16) (x3 : Vec F S1x64x64 .f32) (xo4 : Vec F S1x1024x64 .f32) (xo5 : Vec F S1x64x64 .f32) (xs0 : Vec F S1024x64 .f32) (xs1 : Vec F S64x64 .f32) :
    Σ' (L4 : List (View.Piece (Elt F) S1x1024x64 .f32)) (L5 : List (View.Piece (Elt F) S1x64x64 .f32)) (LS0 : List (View.Piece (Elt F) S1024x64 .f32)), { LS1 : List (View.Piece (Elt F) S64x64 .f32) //
      ∀ (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare xo4 ∗ owns (c : Thread nD τ) arg8 fullShare xo5 ∗ owns (c : Thread nD τ) arg9 fullShare xs0 ∗ owns (c : Thread nD τ) arg10 fullShare xs1
            ∗ (iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare xo4 ∗ owns (c : Thread nD τ) arg8 fullShare xo5 ∗ (∃ f, arg9.view.loc (c : Thread nD τ) ↦[arg9.view.set]{fullShare} arg9.view.writes (Elt F) f LS0) ∗ (∃ f, arg10.view.loc (c : Thread nD τ) ↦[arg10.view.set]{fullShare} arg10.view.writes (Elt F) f LS1)) -∗ K ⟨⟩))
          ⊢ wp frame (wpE (defs₀ (F := F)) Variants.none c none) E (cc1__attn_kernel i arg3 harg3 arg4 harg4 arg5 harg5 arg6 harg6 arg7 harg7 arg8 harg8 arg9 harg9 arg10 harg10) K } := by
  refine ⟨[], [], ?_, ?_, fun E K => ?run⟩
  case run =>
    simp only [cc1__attn_kernel_eq_skeleton]; unfold cc1__attn_kernel_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%fs0, %hfs0, HS0⟩, ⟨%fs1, %hfs1, HS1⟩, Hk⟩
    obtain rfl := harg3.eq_unread hf0; obtain rfl := harg4.eq_unread hf1; obtain rfl := harg5.eq_unread hf2; obtain rfl := harg6.eq_unread hf3
    obtain rfl := harg7.eq_unread hf4; obtain rfl := harg8.eq_unread hf5
    obtain rfl := harg9.eq_unread hfs0; obtain rfl := harg10.eq_unread hfs1
    sl_exec (disch := first | exact hc0 | exact hc1 | exact hc2 | exact hc3 | exact hc4 | exact hc5)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    isplitl [H4]
    · iexists _; isplitr; · ipureintro; exact harg7.read_unread _
      iexact H4
    isplitl [H5]
    · iexists _; isplitr; · ipureintro; exact harg8.read_unread _
      iexact H5
    isplitl [HS0]; · iexists _; iexact HS0
    iexists _; iexact HS1

end Cert.KernelIdeal.Hand

end
-- ==== Proof.AttnRunB.lean ====
/- The attention body where only conditional 3 holds (qi = 0, kj = 1 or 2): k^T v is added to the state
   accumulator; the output accumulator and both output blocks are left as they are. -/
import proofs.«151280_j41747082117805_1_alg».proof.Proof.AttnShared

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- (the run's proof term is large: the definition's epilogue walks it past the default budget)
set_option maxHeartbeats 1000000 in
/-- The body on whole memrefs, in the case named above: the four inputs, the two output buffers and the two
    accumulators, each at given contents. It runs to the continuation holding the inputs as they were, each buffer
    the case does not store into at the contents it was given, and each buffer it stores into with its pieces
    written (last first). The pieces are the witness the run finds (no piece for a buffer not stored into). -/
noncomputable def kernelRun1_B (c : Dev nD) (i : grid1.Coords) (arg3 : Memref sig .tc .vmem S1x1024x64 .bf16) (harg3 : arg3.IsWhole) (arg4 : Memref sig .tc .vmem S1x1024x64 .bf16) (harg4 : arg4.IsWhole) (arg5 : Memref sig .tc .vmem S1x1024x64 .bf16) (harg5 : arg5.IsWhole) (arg6 : Memref sig .tc .vmem S1x64x64 .f32) (harg6 : arg6.IsWhole) (arg7 : Memref sig .tc .vmem S1x1024x64 .f32) (harg7 : arg7.IsWhole) (arg8 : Memref sig .tc .vmem S1x64x64 .f32) (harg8 : arg8.IsWhole) (arg9 : Memref sig .tc .vmem S1024x64 .f32) (harg9 : arg9.IsWhole) (arg10 : Memref sig .tc .vmem S64x64 .f32) (harg10 : arg10.IsWhole) (hc0 : ¬cond1_0 i) (hc1 : ¬cond1_1 i) (hc2 : ¬cond1_2 i) (hc3 : cond1_3 i) (hc4 : ¬cond1_4 i) (hc5 : ¬cond1_5 i)
    (x0 x1 x2 : Vec F S1x1024x64 .bf16) (x3 : Vec F S1x64x64 .f32) (xo4 : Vec F S1x1024x64 .f32) (xo5 : Vec F S1x64x64 .f32) (xs0 : Vec F S1024x64 .f32) (xs1 : Vec F S64x64 .f32) :
    Σ' (L4 : List (View.Piece (Elt F) S1x1024x64 .f32)) (L5 : List (View.Piece (Elt F) S1x64x64 .f32)) (LS0 : List (View.Piece (Elt F) S1024x64 .f32)), { LS1 : List (View.Piece (Elt F) S64x64 .f32) //
      ∀ (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare xo4 ∗ owns (c : Thread nD τ) arg8 fullShare xo5 ∗ owns (c : Thread nD τ) arg9 fullShare xs0 ∗ owns (c : Thread nD τ) arg10 fullShare xs1
            ∗ (iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare xo4 ∗ owns (c : Thread nD τ) arg8 fullShare xo5 ∗ owns (c : Thread nD τ) arg9 fullShare xs0 ∗ (∃ f, arg10.view.loc (c : Thread nD τ) ↦[arg10.view.set]{fullShare} arg10.view.writes (Elt F) f LS1)) -∗ K ⟨⟩))
          ⊢ wp frame (wpE (defs₀ (F := F)) Variants.none c none) E (cc1__attn_kernel i arg3 harg3 arg4 harg4 arg5 harg5 arg6 harg6 arg7 harg7 arg8 harg8 arg9 harg9 arg10 harg10) K } := by
  refine ⟨[], [], [], ?_, fun E K => ?run⟩
  case run =>
    simp only [cc1__attn_kernel_eq_skeleton]; unfold cc1__attn_kernel_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%fs0, %hfs0, HS0⟩, ⟨%fs1, %hfs1, HS1⟩, Hk⟩
    obtain rfl := harg3.eq_unread hf0; obtain rfl := harg4.eq_unread hf1; obtain rfl := harg5.eq_unread hf2; obtain rfl := harg6.eq_unread hf3
    obtain rfl := harg7.eq_unread hf4; obtain rfl := harg8.eq_unread hf5
    obtain rfl := harg9.eq_unread hfs0; obtain rfl := harg10.eq_unread hfs1
    sl_exec (disch := first | exact hc0 | exact hc1 | exact hc2 | exact hc3 | exact hc4 | exact hc5)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    isplitl [H4]
    · iexists _; isplitr; · ipureintro; exact harg7.read_unread _
      iexact H4
    isplitl [H5]
    · iexists _; isplitr; · ipureintro; exact harg8.read_unread _
      iexact H5
    isplitl [HS0]
    · iexists _; isplitr; · ipureintro; exact harg9.read_unread _
      iexact HS0
    iexists _; iexact HS1

end Cert.KernelIdeal.Hand

end
-- ==== Proof.AttnRunC.lean ====
/- The attention body where conditionals 3 and 4 hold (qi = 0, kj = 3): k^T v is added to the state
   accumulator, and the output accumulator is written to the output block. -/
import proofs.«151280_j41747082117805_1_alg».proof.Proof.AttnShared

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- (the run's proof term is large: the definition's epilogue walks it past the default budget)
set_option maxHeartbeats 1000000 in
/-- The body on whole memrefs, in the case named above: the four inputs, the two output buffers and the two
    accumulators, each at given contents. It runs to the continuation holding the inputs as they were, each buffer
    the case does not store into at the contents it was given, and each buffer it stores into with its pieces
    written (last first). The pieces are the witness the run finds (no piece for a buffer not stored into). -/
noncomputable def kernelRun1_C (c : Dev nD) (i : grid1.Coords) (arg3 : Memref sig .tc .vmem S1x1024x64 .bf16) (harg3 : arg3.IsWhole) (arg4 : Memref sig .tc .vmem S1x1024x64 .bf16) (harg4 : arg4.IsWhole) (arg5 : Memref sig .tc .vmem S1x1024x64 .bf16) (harg5 : arg5.IsWhole) (arg6 : Memref sig .tc .vmem S1x64x64 .f32) (harg6 : arg6.IsWhole) (arg7 : Memref sig .tc .vmem S1x1024x64 .f32) (harg7 : arg7.IsWhole) (arg8 : Memref sig .tc .vmem S1x64x64 .f32) (harg8 : arg8.IsWhole) (arg9 : Memref sig .tc .vmem S1024x64 .f32) (harg9 : arg9.IsWhole) (arg10 : Memref sig .tc .vmem S64x64 .f32) (harg10 : arg10.IsWhole) (hc0 : ¬cond1_0 i) (hc1 : ¬cond1_1 i) (hc2 : ¬cond1_2 i) (hc3 : cond1_3 i) (hc4 : cond1_4 i) (hc5 : ¬cond1_5 i)
    (x0 x1 x2 : Vec F S1x1024x64 .bf16) (x3 : Vec F S1x64x64 .f32) (xo4 : Vec F S1x1024x64 .f32) (xo5 : Vec F S1x64x64 .f32) (xs0 : Vec F S1024x64 .f32) (xs1 : Vec F S64x64 .f32) :
    Σ' (L4 : List (View.Piece (Elt F) S1x1024x64 .f32)) (L5 : List (View.Piece (Elt F) S1x64x64 .f32)) (LS0 : List (View.Piece (Elt F) S1024x64 .f32)), { LS1 : List (View.Piece (Elt F) S64x64 .f32) //
      ∀ (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare xo4 ∗ owns (c : Thread nD τ) arg8 fullShare xo5 ∗ owns (c : Thread nD τ) arg9 fullShare xs0 ∗ owns (c : Thread nD τ) arg10 fullShare xs1
            ∗ (iprop(owns (c : Thread nD τ) arg3 fullShare x0 ∗ owns (c : Thread nD τ) arg4 fullShare x1 ∗ owns (c : Thread nD τ) arg5 fullShare x2 ∗ owns (c : Thread nD τ) arg6 fullShare x3 ∗ (∃ f, arg7.view.loc (c : Thread nD τ) ↦[arg7.view.set]{fullShare} arg7.view.writes (Elt F) f L4) ∗ owns (c : Thread nD τ) arg8 fullShare xo5 ∗ owns (c : Thread nD τ) arg9 fullShare xs0 ∗ (∃ f, arg10.view.loc (c : Thread nD τ) ↦[arg10.view.set]{fullShare} arg10.view.writes (Elt F) f LS1)) -∗ K ⟨⟩))
          ⊢ wp frame (wpE (defs₀ (F := F)) Variants.none c none) E (cc1__attn_kernel i arg3 harg3 arg4 harg4 arg5 harg5 arg6 harg6 arg7 harg7 arg8 harg8 arg9 harg9 arg10 harg10) K } := by
  refine ⟨?_, [], [], ?_, fun E K => ?run⟩
  case run =>
    simp only [cc1__attn_kernel_eq_skeleton]; unfold cc1__attn_kernel_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%fs0, %hfs0, HS0⟩, ⟨%fs1, %hfs1, HS1⟩, Hk⟩
    obtain rfl := harg3.eq_unread hf0; obtain rfl := harg4.eq_unread hf1; obtain rfl := harg5.eq_unread hf2; obtain rfl := harg6.eq_unread hf3
    obtain rfl := harg7.eq_unread hf4; obtain rfl := harg8.eq_unread hf5
    obtain rfl := harg9.eq_unread hfs0; obtain rfl := harg10.eq_unread hfs1
    sl_exec (disch := first | exact hc0 | exact hc1 | exact hc2 | exact hc3 | exact hc4 | exact hc5)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    isplitl [H4]; · iexists _; iexact H4
    isplitl [H5]
    · iexists _; isplitr; · ipureintro; exact harg8.read_unread _
      iexact H5
    isplitl [HS0]
    · iexists _; isplitr; · ipureintro; exact harg9.read_unread _
      iexact HS0
    iexists _; iexact HS1

end Cert.KernelIdeal.Hand

end
-- ==== Proof.AttnRunD.lean ====
/- The attention body where conditionals 1 and 2 hold (qi > 0, kj = 0): the output accumulator is set to
   q times the head's initial state, then the masked q k^T times v is added to it; the state accumulator and
   both output blocks are left as they are. -/
import proofs.«151280_j41747082117805_1_alg».proof.Proof.AttnShared

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- (the run's proof term is large: the definition's epilogue walks it past the default budget)
set_option maxHeartbeats 1000000 in
/-- The body on whole memrefs, in the case named above: the four inputs, the two output buffers and the two
    accumulators, each at given contents. It runs to the continuation holding the inputs as they were, each buffer
    the case does not store into at the contents it was given, and each buffer it stores into with its pieces
    written (last first). The pieces are the witness the run finds (no piece for a buffer not stored into). -/
noncomputable def kernelRun1_D (c : Dev nD) (i : grid1.Coords) (arg3 : Memref sig .tc .vmem S1x1024x64 .bf16) (harg3 : arg3.IsWhole) (arg4 : Memref sig .tc .vmem S1x1024x64 .bf16) (harg4 : arg4.IsWhole) (arg5 : Memref sig .tc .vmem S1x1024x64 .bf16) (harg5 : arg5.IsWhole) (arg6 : Memref sig .tc .vmem S1x64x64 .f32) (harg6 : arg6.IsWhole) (arg7 : Memref sig .tc .vmem S1x1024x64 .f32) (harg7 : arg7.IsWhole) (arg8 : Memref sig .tc .vmem S1x64x64 .f32) (harg8 : arg8.IsWhole) (arg9 : Memref sig .tc .vmem S1024x64 .f32) (harg9 : arg9.IsWhole) (arg10 : Memref sig .tc .vmem S64x64 .f32) (harg10 : arg10.IsWhole) (hc0 : ¬cond1_0 i) (hc1 : cond1_1 i) (hc2 : cond1_2 i) (hc3 : ¬cond1_3 i) (hc4 : ¬cond1_4 i) (hc5 : ¬cond1_5 i)
    (x0 x1 x2 : Vec F S1x1024x64 .bf16) (x3 : Vec F S1x64x64 .f32) (xo4 : Vec F S1x1024x64 .f32) (xo5 : Vec F S1x64x64 .f32) (xs0 : Vec F S1024x64 .f32) (xs1 : Vec F S64x64 .f32) :
    Σ' (L4 : List (View.Piece (Elt F) S1x1024x64 .f32)) (L5 : List (View.Piece (Elt F) S1x64x64 .f32)) (LS0 : List (View.Piece (Elt F) S1024x64 .f32)), { LS1 : List (View.Piece (Elt F) S64x64 .f32) //
      ∀ (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare xo4 ∗ owns (c : Thread nD τ) arg8 fullShare xo5 ∗ owns (c : Thread nD τ) arg9 fullShare xs0 ∗ owns (c : Thread nD τ) arg10 fullShare xs1
            ∗ (iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare xo4 ∗ owns (c : Thread nD τ) arg8 fullShare xo5 ∗ (∃ f, arg9.view.loc (c : Thread nD τ) ↦[arg9.view.set]{fullShare} arg9.view.writes (Elt F) f LS0) ∗ owns (c : Thread nD τ) arg10 fullShare xs1) -∗ K ⟨⟩))
          ⊢ wp frame (wpE (defs₀ (F := F)) Variants.none c none) E (cc1__attn_kernel i arg3 harg3 arg4 harg4 arg5 harg5 arg6 harg6 arg7 harg7 arg8 harg8 arg9 harg9 arg10 harg10) K } := by
  refine ⟨[], [], ?_, [], fun E K => ?run⟩
  case run =>
    simp only [cc1__attn_kernel_eq_skeleton]; unfold cc1__attn_kernel_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%fs0, %hfs0, HS0⟩, ⟨%fs1, %hfs1, HS1⟩, Hk⟩
    obtain rfl := harg3.eq_unread hf0; obtain rfl := harg4.eq_unread hf1; obtain rfl := harg5.eq_unread hf2; obtain rfl := harg6.eq_unread hf3
    obtain rfl := harg7.eq_unread hf4; obtain rfl := harg8.eq_unread hf5
    obtain rfl := harg9.eq_unread hfs0; obtain rfl := harg10.eq_unread hfs1
    sl_exec (disch := first | exact hc0 | exact hc1 | exact hc2 | exact hc3 | exact hc4 | exact hc5)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    isplitl [H4]
    · iexists _; isplitr; · ipureintro; exact harg7.read_unread _
      iexact H4
    isplitl [H5]
    · iexists _; isplitr; · ipureintro; exact harg8.read_unread _
      iexact H5
    isplitl [HS0]; · iexists _; iexact HS0
    iexists _; isplitr; · ipureintro; exact harg10.read_unread _
    iexact HS1

end Cert.KernelIdeal.Hand

end
-- ==== Proof.AttnRunE.lean ====
/- The attention body where only the causal-block conditional holds (0 < kj <= qi, kj < 3):
   the output accumulator is read, the masked q k^T times v is added to it, and it is stored back whole;
   the state accumulator and both output blocks are left as they are. -/
import proofs.«151280_j41747082117805_1_alg».proof.Proof.AttnShared

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- (the run's proof term is large: the definition's epilogue walks it past the default budget)
set_option maxHeartbeats 1000000 in
/-- The body on whole memrefs, in the case named above: the four inputs, the two output buffers and the two
    accumulators, each at given contents. It runs to the continuation holding the inputs as they were, each buffer
    the case does not store into at the contents it was given, and each buffer it stores into with its pieces
    written (last first). The pieces are the witness the run finds (no piece for a buffer not stored into). -/
noncomputable def kernelRun1_E (c : Dev nD) (i : grid1.Coords) (arg3 : Memref sig .tc .vmem S1x1024x64 .bf16) (harg3 : arg3.IsWhole) (arg4 : Memref sig .tc .vmem S1x1024x64 .bf16) (harg4 : arg4.IsWhole) (arg5 : Memref sig .tc .vmem S1x1024x64 .bf16) (harg5 : arg5.IsWhole) (arg6 : Memref sig .tc .vmem S1x64x64 .f32) (harg6 : arg6.IsWhole) (arg7 : Memref sig .tc .vmem S1x1024x64 .f32) (harg7 : arg7.IsWhole) (arg8 : Memref sig .tc .vmem S1x64x64 .f32) (harg8 : arg8.IsWhole) (arg9 : Memref sig .tc .vmem S1024x64 .f32) (harg9 : arg9.IsWhole) (arg10 : Memref sig .tc .vmem S64x64 .f32) (harg10 : arg10.IsWhole) (hc0 : ¬cond1_0 i) (hc1 : ¬cond1_1 i) (hc2 : cond1_2 i) (hc3 : ¬cond1_3 i) (hc4 : ¬cond1_4 i) (hc5 : ¬cond1_5 i)
    (x0 x1 x2 : Vec F S1x1024x64 .bf16) (x3 : Vec F S1x64x64 .f32) (xo4 : Vec F S1x1024x64 .f32) (xo5 : Vec F S1x64x64 .f32) (xs0 : Vec F S1024x64 .f32) (xs1 : Vec F S64x64 .f32) :
    Σ' (L4 : List (View.Piece (Elt F) S1x1024x64 .f32)) (L5 : List (View.Piece (Elt F) S1x64x64 .f32)) (LS0 : List (View.Piece (Elt F) S1024x64 .f32)), { LS1 : List (View.Piece (Elt F) S64x64 .f32) //
      ∀ (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare xo4 ∗ owns (c : Thread nD τ) arg8 fullShare xo5 ∗ owns (c : Thread nD τ) arg9 fullShare xs0 ∗ owns (c : Thread nD τ) arg10 fullShare xs1
            ∗ (iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare xo4 ∗ owns (c : Thread nD τ) arg8 fullShare xo5 ∗ (∃ f, arg9.view.loc (c : Thread nD τ) ↦[arg9.view.set]{fullShare} arg9.view.writes (Elt F) f LS0) ∗ owns (c : Thread nD τ) arg10 fullShare xs1) -∗ K ⟨⟩))
          ⊢ wp frame (wpE (defs₀ (F := F)) Variants.none c none) E (cc1__attn_kernel i arg3 harg3 arg4 harg4 arg5 harg5 arg6 harg6 arg7 harg7 arg8 harg8 arg9 harg9 arg10 harg10) K } := by
  refine ⟨[], [], ?_, [], fun E K => ?run⟩
  case run =>
    simp only [cc1__attn_kernel_eq_skeleton]; unfold cc1__attn_kernel_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%fs0, %hfs0, HS0⟩, ⟨%fs1, %hfs1, HS1⟩, Hk⟩
    obtain rfl := harg3.eq_unread hf0; obtain rfl := harg4.eq_unread hf1; obtain rfl := harg5.eq_unread hf2; obtain rfl := harg6.eq_unread hf3
    obtain rfl := harg7.eq_unread hf4; obtain rfl := harg8.eq_unread hf5
    obtain rfl := harg9.eq_unread hfs0; obtain rfl := harg10.eq_unread hfs1
    sl_exec (disch := first | exact hc0 | exact hc1 | exact hc2 | exact hc3 | exact hc4 | exact hc5)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    isplitl [H4]
    · iexists _; isplitr; · ipureintro; exact harg7.read_unread _
      iexact H4
    isplitl [H5]
    · iexists _; isplitr; · ipureintro; exact harg8.read_unread _
      iexact H5
    isplitl [HS0]; · iexists _; iexact HS0
    iexists _; isplitr; · ipureintro; exact harg10.read_unread _
    iexact HS1

end Cert.KernelIdeal.Hand

end
-- ==== Proof.AttnRunF.lean ====
/- The attention body where no conditional holds (qi = 1, kj = 2: a block above the diagonal, not the
   last of its row): nothing is stored; every buffer is left as it is. -/
import proofs.«151280_j41747082117805_1_alg».proof.Proof.AttnShared

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- (the run's proof term is large: the definition's epilogue walks it past the default budget)
set_option maxHeartbeats 1000000 in
/-- The body on whole memrefs, in the case named above: the four inputs, the two output buffers and the two
    accumulators, each at given contents. It runs to the continuation holding the inputs as they were, each buffer
    the case does not store into at the contents it was given, and each buffer it stores into with its pieces
    written (last first). The pieces are the witness the run finds (no piece for a buffer not stored into). -/
noncomputable def kernelRun1_F (c : Dev nD) (i : grid1.Coords) (arg3 : Memref sig .tc .vmem S1x1024x64 .bf16) (harg3 : arg3.IsWhole) (arg4 : Memref sig .tc .vmem S1x1024x64 .bf16) (harg4 : arg4.IsWhole) (arg5 : Memref sig .tc .vmem S1x1024x64 .bf16) (harg5 : arg5.IsWhole) (arg6 : Memref sig .tc .vmem S1x64x64 .f32) (harg6 : arg6.IsWhole) (arg7 : Memref sig .tc .vmem S1x1024x64 .f32) (harg7 : arg7.IsWhole) (arg8 : Memref sig .tc .vmem S1x64x64 .f32) (harg8 : arg8.IsWhole) (arg9 : Memref sig .tc .vmem S1024x64 .f32) (harg9 : arg9.IsWhole) (arg10 : Memref sig .tc .vmem S64x64 .f32) (harg10 : arg10.IsWhole) (hc0 : ¬cond1_0 i) (hc1 : ¬cond1_1 i) (hc2 : ¬cond1_2 i) (hc3 : ¬cond1_3 i) (hc4 : ¬cond1_4 i) (hc5 : ¬cond1_5 i)
    (x0 x1 x2 : Vec F S1x1024x64 .bf16) (x3 : Vec F S1x64x64 .f32) (xo4 : Vec F S1x1024x64 .f32) (xo5 : Vec F S1x64x64 .f32) (xs0 : Vec F S1024x64 .f32) (xs1 : Vec F S64x64 .f32) :
    Σ' (L4 : List (View.Piece (Elt F) S1x1024x64 .f32)) (L5 : List (View.Piece (Elt F) S1x64x64 .f32)) (LS0 : List (View.Piece (Elt F) S1024x64 .f32)), { LS1 : List (View.Piece (Elt F) S64x64 .f32) //
      ∀ (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare xo4 ∗ owns (c : Thread nD τ) arg8 fullShare xo5 ∗ owns (c : Thread nD τ) arg9 fullShare xs0 ∗ owns (c : Thread nD τ) arg10 fullShare xs1
            ∗ (iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare xo4 ∗ owns (c : Thread nD τ) arg8 fullShare xo5 ∗ owns (c : Thread nD τ) arg9 fullShare xs0 ∗ owns (c : Thread nD τ) arg10 fullShare xs1) -∗ K ⟨⟩))
          ⊢ wp frame (wpE (defs₀ (F := F)) Variants.none c none) E (cc1__attn_kernel i arg3 harg3 arg4 harg4 arg5 harg5 arg6 harg6 arg7 harg7 arg8 harg8 arg9 harg9 arg10 harg10) K } := by
  refine ⟨[], [], [], [], fun E K => ?run⟩
  case run =>
    simp only [cc1__attn_kernel_eq_skeleton]; unfold cc1__attn_kernel_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%fs0, %hfs0, HS0⟩, ⟨%fs1, %hfs1, HS1⟩, Hk⟩
    obtain rfl := harg3.eq_unread hf0; obtain rfl := harg4.eq_unread hf1; obtain rfl := harg5.eq_unread hf2; obtain rfl := harg6.eq_unread hf3
    obtain rfl := harg7.eq_unread hf4; obtain rfl := harg8.eq_unread hf5
    obtain rfl := harg9.eq_unread hfs0; obtain rfl := harg10.eq_unread hfs1
    sl_exec (disch := first | exact hc0 | exact hc1 | exact hc2 | exact hc3 | exact hc4 | exact hc5)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    isplitl [H4]
    · iexists _; isplitr; · ipureintro; exact harg7.read_unread _
      iexact H4
    isplitl [H5]
    · iexists _; isplitr; · ipureintro; exact harg8.read_unread _
      iexact H5
    isplitl [HS0]
    · iexists _; isplitr; · ipureintro; exact harg9.read_unread _
      iexact HS0
    iexists _; isplitr; · ipureintro; exact harg10.read_unread _
    iexact HS1

end Cert.KernelIdeal.Hand

end
-- ==== Proof.AttnRunG.lean ====
/- The attention body where only conditional 4 holds (qi = 1 or 2, kj = 3: above the diagonal, the last
   block of its row): the output accumulator is written to the output block; nothing else is stored. -/
import proofs.«151280_j41747082117805_1_alg».proof.Proof.AttnShared

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- (the run's proof term is large: the definition's epilogue walks it past the default budget)
set_option maxHeartbeats 1000000 in
/-- The body on whole memrefs, in the case named above: the four inputs, the two output buffers and the two
    accumulators, each at given contents. It runs to the continuation holding the inputs as they were, each buffer
    the case does not store into at the contents it was given, and each buffer it stores into with its pieces
    written (last first). The pieces are the witness the run finds (no piece for a buffer not stored into). -/
noncomputable def kernelRun1_G (c : Dev nD) (i : grid1.Coords) (arg3 : Memref sig .tc .vmem S1x1024x64 .bf16) (harg3 : arg3.IsWhole) (arg4 : Memref sig .tc .vmem S1x1024x64 .bf16) (harg4 : arg4.IsWhole) (arg5 : Memref sig .tc .vmem S1x1024x64 .bf16) (harg5 : arg5.IsWhole) (arg6 : Memref sig .tc .vmem S1x64x64 .f32) (harg6 : arg6.IsWhole) (arg7 : Memref sig .tc .vmem S1x1024x64 .f32) (harg7 : arg7.IsWhole) (arg8 : Memref sig .tc .vmem S1x64x64 .f32) (harg8 : arg8.IsWhole) (arg9 : Memref sig .tc .vmem S1024x64 .f32) (harg9 : arg9.IsWhole) (arg10 : Memref sig .tc .vmem S64x64 .f32) (harg10 : arg10.IsWhole) (hc0 : ¬cond1_0 i) (hc1 : ¬cond1_1 i) (hc2 : ¬cond1_2 i) (hc3 : ¬cond1_3 i) (hc4 : cond1_4 i) (hc5 : ¬cond1_5 i)
    (x0 x1 x2 : Vec F S1x1024x64 .bf16) (x3 : Vec F S1x64x64 .f32) (xo4 : Vec F S1x1024x64 .f32) (xo5 : Vec F S1x64x64 .f32) (xs0 : Vec F S1024x64 .f32) (xs1 : Vec F S64x64 .f32) :
    Σ' (L4 : List (View.Piece (Elt F) S1x1024x64 .f32)) (L5 : List (View.Piece (Elt F) S1x64x64 .f32)) (LS0 : List (View.Piece (Elt F) S1024x64 .f32)), { LS1 : List (View.Piece (Elt F) S64x64 .f32) //
      ∀ (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare xo4 ∗ owns (c : Thread nD τ) arg8 fullShare xo5 ∗ owns (c : Thread nD τ) arg9 fullShare xs0 ∗ owns (c : Thread nD τ) arg10 fullShare xs1
            ∗ (iprop(owns (c : Thread nD τ) arg3 fullShare x0 ∗ owns (c : Thread nD τ) arg4 fullShare x1 ∗ owns (c : Thread nD τ) arg5 fullShare x2 ∗ owns (c : Thread nD τ) arg6 fullShare x3 ∗ (∃ f, arg7.view.loc (c : Thread nD τ) ↦[arg7.view.set]{fullShare} arg7.view.writes (Elt F) f L4) ∗ owns (c : Thread nD τ) arg8 fullShare xo5 ∗ owns (c : Thread nD τ) arg9 fullShare xs0 ∗ owns (c : Thread nD τ) arg10 fullShare xs1) -∗ K ⟨⟩))
          ⊢ wp frame (wpE (defs₀ (F := F)) Variants.none c none) E (cc1__attn_kernel i arg3 harg3 arg4 harg4 arg5 harg5 arg6 harg6 arg7 harg7 arg8 harg8 arg9 harg9 arg10 harg10) K } := by
  refine ⟨?_, [], [], [], fun E K => ?run⟩
  case run =>
    simp only [cc1__attn_kernel_eq_skeleton]; unfold cc1__attn_kernel_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%fs0, %hfs0, HS0⟩, ⟨%fs1, %hfs1, HS1⟩, Hk⟩
    obtain rfl := harg3.eq_unread hf0; obtain rfl := harg4.eq_unread hf1; obtain rfl := harg5.eq_unread hf2; obtain rfl := harg6.eq_unread hf3
    obtain rfl := harg7.eq_unread hf4; obtain rfl := harg8.eq_unread hf5
    obtain rfl := harg9.eq_unread hfs0; obtain rfl := harg10.eq_unread hfs1
    sl_exec (disch := first | exact hc0 | exact hc1 | exact hc2 | exact hc3 | exact hc4 | exact hc5)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    isplitl [H4]; · iexists _; iexact H4
    isplitl [H5]
    · iexists _; isplitr; · ipureintro; exact harg8.read_unread _
      iexact H5
    isplitl [HS0]
    · iexists _; isplitr; · ipureintro; exact harg9.read_unread _
      iexact HS0
    iexists _; isplitr; · ipureintro; exact harg10.read_unread _
    iexact HS1

end Cert.KernelIdeal.Hand

end
-- ==== Proof.AttnRunH.lean ====
/- The attention body at the last block of a head (qi = 3, kj = 3), where conditionals 2, 4, 5 hold: the masked
   q k^T times v is added to the output accumulator, which is then written to the output block, and the state
   accumulator is written to the new-state block. -/
import proofs.«151280_j41747082117805_1_alg».proof.Proof.AttnShared

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- (the run's proof term is large: the definition's epilogue walks it past the default budget)
set_option maxHeartbeats 1000000 in
/-- The body on whole memrefs, in the case named above: the four inputs, the two output buffers and the two
    accumulators, each at given contents. It runs to the continuation holding the inputs as they were, each buffer
    the case does not store into at the contents it was given, and each buffer it stores into with its pieces
    written (last first). The pieces are the witness the run finds (no piece for a buffer not stored into). -/
noncomputable def kernelRun1_H (c : Dev nD) (i : grid1.Coords) (arg3 : Memref sig .tc .vmem S1x1024x64 .bf16) (harg3 : arg3.IsWhole) (arg4 : Memref sig .tc .vmem S1x1024x64 .bf16) (harg4 : arg4.IsWhole) (arg5 : Memref sig .tc .vmem S1x1024x64 .bf16) (harg5 : arg5.IsWhole) (arg6 : Memref sig .tc .vmem S1x64x64 .f32) (harg6 : arg6.IsWhole) (arg7 : Memref sig .tc .vmem S1x1024x64 .f32) (harg7 : arg7.IsWhole) (arg8 : Memref sig .tc .vmem S1x64x64 .f32) (harg8 : arg8.IsWhole) (arg9 : Memref sig .tc .vmem S1024x64 .f32) (harg9 : arg9.IsWhole) (arg10 : Memref sig .tc .vmem S64x64 .f32) (harg10 : arg10.IsWhole) (hc0 : ¬cond1_0 i) (hc1 : ¬cond1_1 i) (hc2 : cond1_2 i) (hc3 : ¬cond1_3 i) (hc4 : cond1_4 i) (hc5 : cond1_5 i)
    (x0 x1 x2 : Vec F S1x1024x64 .bf16) (x3 : Vec F S1x64x64 .f32) (xo4 : Vec F S1x1024x64 .f32) (xo5 : Vec F S1x64x64 .f32) (xs0 : Vec F S1024x64 .f32) (xs1 : Vec F S64x64 .f32) :
    Σ' (L4 : List (View.Piece (Elt F) S1x1024x64 .f32)) (L5 : List (View.Piece (Elt F) S1x64x64 .f32)) (LS0 : List (View.Piece (Elt F) S1024x64 .f32)), { LS1 : List (View.Piece (Elt F) S64x64 .f32) //
      ∀ (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare xo4 ∗ owns (c : Thread nD τ) arg8 fullShare xo5 ∗ owns (c : Thread nD τ) arg9 fullShare xs0 ∗ owns (c : Thread nD τ) arg10 fullShare xs1
            ∗ (iprop(owns (c : Thread nD τ) arg3 fullShare x0 ∗ owns (c : Thread nD τ) arg4 fullShare x1 ∗ owns (c : Thread nD τ) arg5 fullShare x2 ∗ owns (c : Thread nD τ) arg6 fullShare x3 ∗ (∃ f, arg7.view.loc (c : Thread nD τ) ↦[arg7.view.set]{fullShare} arg7.view.writes (Elt F) f L4) ∗ (∃ f, arg8.view.loc (c : Thread nD τ) ↦[arg8.view.set]{fullShare} arg8.view.writes (Elt F) f L5) ∗ (∃ f, arg9.view.loc (c : Thread nD τ) ↦[arg9.view.set]{fullShare} arg9.view.writes (Elt F) f LS0) ∗ owns (c : Thread nD τ) arg10 fullShare xs1) -∗ K ⟨⟩))
          ⊢ wp frame (wpE (defs₀ (F := F)) Variants.none c none) E (cc1__attn_kernel i arg3 harg3 arg4 harg4 arg5 harg5 arg6 harg6 arg7 harg7 arg8 harg8 arg9 harg9 arg10 harg10) K } := by
  refine ⟨?_, ?_, ?_, [], fun E K => ?run⟩
  case run =>
    simp only [cc1__attn_kernel_eq_skeleton]; unfold cc1__attn_kernel_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%fs0, %hfs0, HS0⟩, ⟨%fs1, %hfs1, HS1⟩, Hk⟩
    obtain rfl := harg3.eq_unread hf0; obtain rfl := harg4.eq_unread hf1; obtain rfl := harg5.eq_unread hf2; obtain rfl := harg6.eq_unread hf3
    obtain rfl := harg7.eq_unread hf4; obtain rfl := harg8.eq_unread hf5
    obtain rfl := harg9.eq_unread hfs0; obtain rfl := harg10.eq_unread hfs1
    sl_exec (disch := first | exact hc0 | exact hc1 | exact hc2 | exact hc3 | exact hc4 | exact hc5)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    isplitl [H4]; · iexists _; iexact H4
    isplitl [H5]; · iexists _; iexact H5
    isplitl [HS0]; · iexists _; iexact HS0
    iexists _; isplitr; · ipureintro; exact harg10.read_unread _
    iexact HS1

end Cert.KernelIdeal.Hand

end
-- ==== Proof.AttnReadback.lean ====
/- What each case of the attention body leaves in the buffers it stores, as ONE payload of the
   case's inputs: the stores are whole-buffer stores, so whatever a buffer held before, reading it
   back after the case gives the last store's payload; where that payload read an earlier store of
   the same case (the first block of a row sets the output accumulator and then adds to it), the
   earlier payload is substituted. Names: x0 the query tile, x1 the key tile, x2 the value tile,
   x3 the head's initial state, xs0 / xs1 the output / state accumulator before the case. -/
import proofs.«151280_j41747082117805_1_alg».proof.Proof.AttnRunA
import proofs.«151280_j41747082117805_1_alg».proof.Proof.AttnRunB
import proofs.«151280_j41747082117805_1_alg».proof.Proof.AttnRunC
import proofs.«151280_j41747082117805_1_alg».proof.Proof.AttnRunD
import proofs.«151280_j41747082117805_1_alg».proof.Proof.AttnRunE
import proofs.«151280_j41747082117805_1_alg».proof.Proof.AttnRunF
import proofs.«151280_j41747082117805_1_alg».proof.Proof.AttnRunG
import proofs.«151280_j41747082117805_1_alg».proof.Proof.AttnRunH
import Idealize.ShloMosaic.Lib.Pipeline.Value

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

theorem hz2 : (![0, 0] : Fin 2 → Nat) = fun _ => 0 := funext fun a => by fin_cases a <;> rfl
theorem hz3 : (![0, 0, 0] : Fin 3 → Nat) = fun _ => 0 := funext fun a => by fin_cases a <;> rfl

/-- The pieces case E finds for arg9 tile it, so they cover it. -/
theorem cov1_E_S0 (c : Dev nD) (i : grid1.Coords) (arg3 : Memref sig .tc .vmem S1x1024x64 .bf16) (harg3 : arg3.IsWhole) (arg4 : Memref sig .tc .vmem S1x1024x64 .bf16) (harg4 : arg4.IsWhole) (arg5 : Memref sig .tc .vmem S1x1024x64 .bf16) (harg5 : arg5.IsWhole) (arg6 : Memref sig .tc .vmem S1x64x64 .f32) (harg6 : arg6.IsWhole) (arg7 : Memref sig .tc .vmem S1x1024x64 .f32) (harg7 : arg7.IsWhole) (arg8 : Memref sig .tc .vmem S1x64x64 .f32) (harg8 : arg8.IsWhole) (arg9 : Memref sig .tc .vmem S1024x64 .f32) (harg9 : arg9.IsWhole) (arg10 : Memref sig .tc .vmem S64x64 .f32) (harg10 : arg10.IsWhole) (hc0 : ¬cond1_0 i) (hc1 : ¬cond1_1 i) (hc2 : cond1_2 i) (hc3 : ¬cond1_3 i) (hc4 : ¬cond1_4 i) (hc5 : ¬cond1_5 i) (x0 x1 x2 : Vec F S1x1024x64 .bf16) (x3 : Vec F S1x64x64 .f32) (xo4 : Vec F S1x1024x64 .f32) (xo5 : Vec F S1x64x64 .f32) (xs0 : Vec F S1024x64 .f32) (xs1 : Vec F S64x64 .f32) (y : S1024x64.Idx) :
    ∃ pc ∈ (kernelRun1_E c i arg3 harg3 arg4 harg4 arg5 harg5 arg6 harg6 arg7 harg7 arg8 harg8 arg9 harg9 arg10 harg10 hc0 hc1 hc2 hc3 hc4 hc5 x0 x1 x2 x3 xo4 xo5 xs0 xs1).2.2.1, y ∈ pc.1.set :=
  View.cover_of_tiledL (kernelRun1_E c i arg3 harg3 arg4 harg4 arg5 harg5 arg6 harg6 arg7 harg7 arg8 harg8 arg9 harg9 arg10 harg10 hc0 hc1 hc2 hc3 hc4 hc5 x0 x1 x2 x3 xo4 xo5 xs0 xs1).2.2.1 S1024x64.size (by sl_kernel_rfl) y

/-- Case E leaves the output accumulator at its contents before plus the masked q k^T times v. -/
theorem rb1_E_S0 (c : Dev nD) (i : grid1.Coords) (arg3 : Memref sig .tc .vmem S1x1024x64 .bf16) (harg3 : arg3.IsWhole) (arg4 : Memref sig .tc .vmem S1x1024x64 .bf16) (harg4 : arg4.IsWhole) (arg5 : Memref sig .tc .vmem S1x1024x64 .bf16) (harg5 : arg5.IsWhole) (arg6 : Memref sig .tc .vmem S1x64x64 .f32) (harg6 : arg6.IsWhole) (arg7 : Memref sig .tc .vmem S1x1024x64 .f32) (harg7 : arg7.IsWhole) (arg8 : Memref sig .tc .vmem S1x64x64 .f32) (harg8 : arg8.IsWhole) (arg9 : Memref sig .tc .vmem S1024x64 .f32) (harg9 : arg9.IsWhole) (arg10 : Memref sig .tc .vmem S64x64 .f32) (harg10 : arg10.IsWhole) (hc0 : ¬cond1_0 i) (hc1 : ¬cond1_1 i) (hc2 : cond1_2 i) (hc3 : ¬cond1_3 i) (hc4 : ¬cond1_4 i) (hc5 : ¬cond1_5 i) (x0 x1 x2 : Vec F S1x1024x64 .bf16) (x3 : Vec F S1x64x64 .f32) (xo4 : Vec F S1x1024x64 .f32) (xo5 : Vec F S1x64x64 .f32) (xs0 : Vec F S1024x64 .f32) (xs1 : Vec F S64x64 .f32) (f : arg9.view.ty.Contents (Elt F)) :
    arg9.view.read (Elt F) (arg9.view.writes (Elt F) f (kernelRun1_E c i arg3 harg3 arg4 harg4 arg5 harg5 arg6 harg6 arg7 harg7 arg8 harg8 arg9 harg9 arg10 harg10 hc0 hc1 hc2 hc3 hc4 hc5 x0 x1 x2 x3 xo4 xo5 xs0 xs1).2.2.1) = k1_pay3 i x0 x1 xs0 x2 := by
  rw [View.read_writes_eq_canon _ _ _ (cov1_E_S0 c i arg3 harg3 arg4 harg4 arg5 harg5 arg6 harg6 arg7 harg7 arg8 harg8 arg9 harg9 arg10 harg10 hc0 hc1 hc2 hc3 hc4 hc5 x0 x1 x2 x3 xo4 xo5 xs0 xs1)]
  unfold kernelRun1_E
  dsimp only
  sl_unfold_words
  rw [View.canon_unit_zero (S := S1024x64) hz2]
  simp only [View.readAt_eq_ld, harg3.read_unread, harg4.read_unread, harg5.read_unread, harg6.read_unread, harg9.read_unread, harg10.read_unread, View.ld_unit_zero (S := S1x1024x64) hz3, View.ld_unit_zero (S := S1x64x64) hz3, View.ld_unit_zero (S := S1024x64) hz2, View.ld_unit_zero (S := S64x64) hz2]

/-- The pieces case B finds for arg10 tile it, so they cover it. -/
theorem cov1_B_S1 (c : Dev nD) (i : grid1.Coords) (arg3 : Memref sig .tc .vmem S1x1024x64 .bf16) (harg3 : arg3.IsWhole) (arg4 : Memref sig .tc .vmem S1x1024x64 .bf16) (harg4 : arg4.IsWhole) (arg5 : Memref sig .tc .vmem S1x1024x64 .bf16) (harg5 : arg5.IsWhole) (arg6 : Memref sig .tc .vmem S1x64x64 .f32) (harg6 : arg6.IsWhole) (arg7 : Memref sig .tc .vmem S1x1024x64 .f32) (harg7 : arg7.IsWhole) (arg8 : Memref sig .tc .vmem S1x64x64 .f32) (harg8 : arg8.IsWhole) (arg9 : Memref sig .tc .vmem S1024x64 .f32) (harg9 : arg9.IsWhole) (arg10 : Memref sig .tc .vmem S64x64 .f32) (harg10 : arg10.IsWhole) (hc0 : ¬cond1_0 i) (hc1 : ¬cond1_1 i) (hc2 : ¬cond1_2 i) (hc3 : cond1_3 i) (hc4 : ¬cond1_4 i) (hc5 : ¬cond1_5 i) (x0 x1 x2 : Vec F S1x1024x64 .bf16) (x3 : Vec F S1x64x64 .f32) (xo4 : Vec F S1x1024x64 .f32) (xo5 : Vec F S1x64x64 .f32) (xs0 : Vec F S1024x64 .f32) (xs1 : Vec F S64x64 .f32) (y : S64x64.Idx) :
    ∃ pc ∈ (kernelRun1_B c i arg3 harg3 arg4 harg4 arg5 harg5 arg6 harg6 arg7 harg7 arg8 harg8 arg9 harg9 arg10 harg10 hc0 hc1 hc2 hc3 hc4 hc5 x0 x1 x2 x3 xo4 xo5 xs0 xs1).2.2.2.1, y ∈ pc.1.set :=
  View.cover_of_tiledL (kernelRun1_B c i arg3 harg3 arg4 harg4 arg5 harg5 arg6 harg6 arg7 harg7 arg8 harg8 arg9 harg9 arg10 harg10 hc0 hc1 hc2 hc3 hc4 hc5 x0 x1 x2 x3 xo4 xo5 xs0 xs1).2.2.2.1 S64x64.size (by sl_kernel_rfl) y

/-- Case B leaves the state accumulator at its contents before plus k^T v. -/
theorem rb1_B_S1 (c : Dev nD) (i : grid1.Coords) (arg3 : Memref sig .tc .vmem S1x1024x64 .bf16) (harg3 : arg3.IsWhole) (arg4 : Memref sig .tc .vmem S1x1024x64 .bf16) (harg4 : arg4.IsWhole) (arg5 : Memref sig .tc .vmem S1x1024x64 .bf16) (harg5 : arg5.IsWhole) (arg6 : Memref sig .tc .vmem S1x64x64 .f32) (harg6 : arg6.IsWhole) (arg7 : Memref sig .tc .vmem S1x1024x64 .f32) (harg7 : arg7.IsWhole) (arg8 : Memref sig .tc .vmem S1x64x64 .f32) (harg8 : arg8.IsWhole) (arg9 : Memref sig .tc .vmem S1024x64 .f32) (harg9 : arg9.IsWhole) (arg10 : Memref sig .tc .vmem S64x64 .f32) (harg10 : arg10.IsWhole) (hc0 : ¬cond1_0 i) (hc1 : ¬cond1_1 i) (hc2 : ¬cond1_2 i) (hc3 : cond1_3 i) (hc4 : ¬cond1_4 i) (hc5 : ¬cond1_5 i) (x0 x1 x2 : Vec F S1x1024x64 .bf16) (x3 : Vec F S1x64x64 .f32) (xo4 : Vec F S1x1024x64 .f32) (xo5 : Vec F S1x64x64 .f32) (xs0 : Vec F S1024x64 .f32) (xs1 : Vec F S64x64 .f32) (f : arg10.view.ty.Contents (Elt F)) :
    arg10.view.read (Elt F) (arg10.view.writes (Elt F) f (kernelRun1_B c i arg3 harg3 arg4 harg4 arg5 harg5 arg6 harg6 arg7 harg7 arg8 harg8 arg9 harg9 arg10 harg10 hc0 hc1 hc2 hc3 hc4 hc5 x0 x1 x2 x3 xo4 xo5 xs0 xs1).2.2.2.1) = k1_pay4 xs1 x1 x2 := by
  rw [View.read_writes_eq_canon _ _ _ (cov1_B_S1 c i arg3 harg3 arg4 harg4 arg5 harg5 arg6 harg6 arg7 harg7 arg8 harg8 arg9 harg9 arg10 harg10 hc0 hc1 hc2 hc3 hc4 hc5 x0 x1 x2 x3 xo4 xo5 xs0 xs1)]
  unfold kernelRun1_B
  dsimp only
  sl_unfold_words
  rw [View.canon_unit_zero (S := S64x64) hz2]
  simp only [View.readAt_eq_ld, harg3.read_unread, harg4.read_unread, harg5.read_unread, harg6.read_unread, harg9.read_unread, harg10.read_unread, View.ld_unit_zero (S := S1x1024x64) hz3, View.ld_unit_zero (S := S1x64x64) hz3, View.ld_unit_zero (S := S1024x64) hz2, View.ld_unit_zero (S := S64x64) hz2]

/-- The pieces case C finds for arg7 tile it, so they cover it. -/
theorem cov1_C_O4 (c : Dev nD) (i : grid1.Coords) (arg3 : Memref sig .tc .vmem S1x1024x64 .bf16) (harg3 : arg3.IsWhole) (arg4 : Memref sig .tc .vmem S1x1024x64 .bf16) (harg4 : arg4.IsWhole) (arg5 : Memref sig .tc .vmem S1x1024x64 .bf16) (harg5 : arg5.IsWhole) (arg6 : Memref sig .tc .vmem S1x64x64 .f32) (harg6 : arg6.IsWhole) (arg7 : Memref sig .tc .vmem S1x1024x64 .f32) (harg7 : arg7.IsWhole) (arg8 : Memref sig .tc .vmem S1x64x64 .f32) (harg8 : arg8.IsWhole) (arg9 : Memref sig .tc .vmem S1024x64 .f32) (harg9 : arg9.IsWhole) (arg10 : Memref sig .tc .vmem S64x64 .f32) (harg10 : arg10.IsWhole) (hc0 : ¬cond1_0 i) (hc1 : ¬cond1_1 i) (hc2 : ¬cond1_2 i) (hc3 : cond1_3 i) (hc4 : cond1_4 i) (hc5 : ¬cond1_5 i) (x0 x1 x2 : Vec F S1x1024x64 .bf16) (x3 : Vec F S1x64x64 .f32) (xo4 : Vec F S1x1024x64 .f32) (xo5 : Vec F S1x64x64 .f32) (xs0 : Vec F S1024x64 .f32) (xs1 : Vec F S64x64 .f32) (y : S1x1024x64.Idx) :
    ∃ pc ∈ (kernelRun1_C c i arg3 harg3 arg4 harg4 arg5 harg5 arg6 harg6 arg7 harg7 arg8 harg8 arg9 harg9 arg10 harg10 hc0 hc1 hc2 hc3 hc4 hc5 x0 x1 x2 x3 xo4 xo5 xs0 xs1).1, y ∈ pc.1.set :=
  View.cover_of_tiledL (kernelRun1_C c i arg3 harg3 arg4 harg4 arg5 harg5 arg6 harg6 arg7 harg7 arg8 harg8 arg9 harg9 arg10 harg10 hc0 hc1 hc2 hc3 hc4 hc5 x0 x1 x2 x3 xo4 xo5 xs0 xs1).1 S1x1024x64.size (by sl_kernel_rfl) y

/-- Case C leaves the output block at the output accumulator's contents. -/
theorem rb1_C_O4 (c : Dev nD) (i : grid1.Coords) (arg3 : Memref sig .tc .vmem S1x1024x64 .bf16) (harg3 : arg3.IsWhole) (arg4 : Memref sig .tc .vmem S1x1024x64 .bf16) (harg4 : arg4.IsWhole) (arg5 : Memref sig .tc .vmem S1x1024x64 .bf16) (harg5 : arg5.IsWhole) (arg6 : Memref sig .tc .vmem S1x64x64 .f32) (harg6 : arg6.IsWhole) (arg7 : Memref sig .tc .vmem S1x1024x64 .f32) (harg7 : arg7.IsWhole) (arg8 : Memref sig .tc .vmem S1x64x64 .f32) (harg8 : arg8.IsWhole) (arg9 : Memref sig .tc .vmem S1024x64 .f32) (harg9 : arg9.IsWhole) (arg10 : Memref sig .tc .vmem S64x64 .f32) (harg10 : arg10.IsWhole) (hc0 : ¬cond1_0 i) (hc1 : ¬cond1_1 i) (hc2 : ¬cond1_2 i) (hc3 : cond1_3 i) (hc4 : cond1_4 i) (hc5 : ¬cond1_5 i) (x0 x1 x2 : Vec F S1x1024x64 .bf16) (x3 : Vec F S1x64x64 .f32) (xo4 : Vec F S1x1024x64 .f32) (xo5 : Vec F S1x64x64 .f32) (xs0 : Vec F S1024x64 .f32) (xs1 : Vec F S64x64 .f32) (f : arg7.view.ty.Contents (Elt F)) :
    arg7.view.read (Elt F) (arg7.view.writes (Elt F) f (kernelRun1_C c i arg3 harg3 arg4 harg4 arg5 harg5 arg6 harg6 arg7 harg7 arg8 harg8 arg9 harg9 arg10 harg10 hc0 hc1 hc2 hc3 hc4 hc5 x0 x1 x2 x3 xo4 xo5 xs0 xs1).1) = k1_pay5 xs0 := by
  rw [View.read_writes_eq_canon _ _ _ (cov1_C_O4 c i arg3 harg3 arg4 harg4 arg5 harg5 arg6 harg6 arg7 harg7 arg8 harg8 arg9 harg9 arg10 harg10 hc0 hc1 hc2 hc3 hc4 hc5 x0 x1 x2 x3 xo4 xo5 xs0 xs1)]
  unfold kernelRun1_C
  dsimp only
  sl_unfold_words
  rw [View.canon_unit_zero (S := S1x1024x64) hz3]
  simp only [View.readAt_eq_ld, harg3.read_unread, harg4.read_unread, harg5.read_unread, harg6.read_unread, harg9.read_unread, harg10.read_unread, View.ld_unit_zero (S := S1x1024x64) hz3, View.ld_unit_zero (S := S1x64x64) hz3, View.ld_unit_zero (S := S1024x64) hz2, View.ld_unit_zero (S := S64x64) hz2]

/-- The pieces case C finds for arg10 tile it, so they cover it. -/
theorem cov1_C_S1 (c : Dev nD) (i : grid1.Coords) (arg3 : Memref sig .tc .vmem S1x1024x64 .bf16) (harg3 : arg3.IsWhole) (arg4 : Memref sig .tc .vmem S1x1024x64 .bf16) (harg4 : arg4.IsWhole) (arg5 : Memref sig .tc .vmem S1x1024x64 .bf16) (harg5 : arg5.IsWhole) (arg6 : Memref sig .tc .vmem S1x64x64 .f32) (harg6 : arg6.IsWhole) (arg7 : Memref sig .tc .vmem S1x1024x64 .f32) (harg7 : arg7.IsWhole) (arg8 : Memref sig .tc .vmem S1x64x64 .f32) (harg8 : arg8.IsWhole) (arg9 : Memref sig .tc .vmem S1024x64 .f32) (harg9 : arg9.IsWhole) (arg10 : Memref sig .tc .vmem S64x64 .f32) (harg10 : arg10.IsWhole) (hc0 : ¬cond1_0 i) (hc1 : ¬cond1_1 i) (hc2 : ¬cond1_2 i) (hc3 : cond1_3 i) (hc4 : cond1_4 i) (hc5 : ¬cond1_5 i) (x0 x1 x2 : Vec F S1x1024x64 .bf16) (x3 : Vec F S1x64x64 .f32) (xo4 : Vec F S1x1024x64 .f32) (xo5 : Vec F S1x64x64 .f32) (xs0 : Vec F S1024x64 .f32) (xs1 : Vec F S64x64 .f32) (y : S64x64.Idx) :
    ∃ pc ∈ (kernelRun1_C c i arg3 harg3 arg4 harg4 arg5 harg5 arg6 harg6 arg7 harg7 arg8 harg8 arg9 harg9 arg10 harg10 hc0 hc1 hc2 hc3 hc4 hc5 x0 x1 x2 x3 xo4 xo5 xs0 xs1).2.2.2.1, y ∈ pc.1.set :=
  View.cover_of_tiledL (kernelRun1_C c i arg3 harg3 arg4 harg4 arg5 harg5 arg6 harg6 arg7 harg7 arg8 harg8 arg9 harg9 arg10 harg10 hc0 hc1 hc2 hc3 hc4 hc5 x0 x1 x2 x3 xo4 xo5 xs0 xs1).2.2.2.1 S64x64.size (by sl_kernel_rfl) y

/-- Case C leaves the state accumulator at its contents before plus k^T v. -/
theorem rb1_C_S1 (c : Dev nD) (i : grid1.Coords) (arg3 : Memref sig .tc .vmem S1x1024x64 .bf16) (harg3 : arg3.IsWhole) (arg4 : Memref sig .tc .vmem S1x1024x64 .bf16) (harg4 : arg4.IsWhole) (arg5 : Memref sig .tc .vmem S1x1024x64 .bf16) (harg5 : arg5.IsWhole) (arg6 : Memref sig .tc .vmem S1x64x64 .f32) (harg6 : arg6.IsWhole) (arg7 : Memref sig .tc .vmem S1x1024x64 .f32) (harg7 : arg7.IsWhole) (arg8 : Memref sig .tc .vmem S1x64x64 .f32) (harg8 : arg8.IsWhole) (arg9 : Memref sig .tc .vmem S1024x64 .f32) (harg9 : arg9.IsWhole) (arg10 : Memref sig .tc .vmem S64x64 .f32) (harg10 : arg10.IsWhole) (hc0 : ¬cond1_0 i) (hc1 : ¬cond1_1 i) (hc2 : ¬cond1_2 i) (hc3 : cond1_3 i) (hc4 : cond1_4 i) (hc5 : ¬cond1_5 i) (x0 x1 x2 : Vec F S1x1024x64 .bf16) (x3 : Vec F S1x64x64 .f32) (xo4 : Vec F S1x1024x64 .f32) (xo5 : Vec F S1x64x64 .f32) (xs0 : Vec F S1024x64 .f32) (xs1 : Vec F S64x64 .f32) (f : arg10.view.ty.Contents (Elt F)) :
    arg10.view.read (Elt F) (arg10.view.writes (Elt F) f (kernelRun1_C c i arg3 harg3 arg4 harg4 arg5 harg5 arg6 harg6 arg7 harg7 arg8 harg8 arg9 harg9 arg10 harg10 hc0 hc1 hc2 hc3 hc4 hc5 x0 x1 x2 x3 xo4 xo5 xs0 xs1).2.2.2.1) = k1_pay4 xs1 x1 x2 := by
  rw [View.read_writes_eq_canon _ _ _ (cov1_C_S1 c i arg3 harg3 arg4 harg4 arg5 harg5 arg6 harg6 arg7 harg7 arg8 harg8 arg9 harg9 arg10 harg10 hc0 hc1 hc2 hc3 hc4 hc5 x0 x1 x2 x3 xo4 xo5 xs0 xs1)]
  unfold kernelRun1_C
  dsimp only
  sl_unfold_words
  rw [View.canon_unit_zero (S := S64x64) hz2]
  simp only [View.readAt_eq_ld, harg3.read_unread, harg4.read_unread, harg5.read_unread, harg6.read_unread, harg9.read_unread, harg10.read_unread, View.ld_unit_zero (S := S1x1024x64) hz3, View.ld_unit_zero (S := S1x64x64) hz3, View.ld_unit_zero (S := S1024x64) hz2, View.ld_unit_zero (S := S64x64) hz2]

/-- The pieces case G finds for arg7 tile it, so they cover it. -/
theorem cov1_G_O4 (c : Dev nD) (i : grid1.Coords) (arg3 : Memref sig .tc .vmem S1x1024x64 .bf16) (harg3 : arg3.IsWhole) (arg4 : Memref sig .tc .vmem S1x1024x64 .bf16) (harg4 : arg4.IsWhole) (arg5 : Memref sig .tc .vmem S1x1024x64 .bf16) (harg5 : arg5.IsWhole) (arg6 : Memref sig .tc .vmem S1x64x64 .f32) (harg6 : arg6.IsWhole) (arg7 : Memref sig .tc .vmem S1x1024x64 .f32) (harg7 : arg7.IsWhole) (arg8 : Memref sig .tc .vmem S1x64x64 .f32) (harg8 : arg8.IsWhole) (arg9 : Memref sig .tc .vmem S1024x64 .f32) (harg9 : arg9.IsWhole) (arg10 : Memref sig .tc .vmem S64x64 .f32) (harg10 : arg10.IsWhole) (hc0 : ¬cond1_0 i) (hc1 : ¬cond1_1 i) (hc2 : ¬cond1_2 i) (hc3 : ¬cond1_3 i) (hc4 : cond1_4 i) (hc5 : ¬cond1_5 i) (x0 x1 x2 : Vec F S1x1024x64 .bf16) (x3 : Vec F S1x64x64 .f32) (xo4 : Vec F S1x1024x64 .f32) (xo5 : Vec F S1x64x64 .f32) (xs0 : Vec F S1024x64 .f32) (xs1 : Vec F S64x64 .f32) (y : S1x1024x64.Idx) :
    ∃ pc ∈ (kernelRun1_G c i arg3 harg3 arg4 harg4 arg5 harg5 arg6 harg6 arg7 harg7 arg8 harg8 arg9 harg9 arg10 harg10 hc0 hc1 hc2 hc3 hc4 hc5 x0 x1 x2 x3 xo4 xo5 xs0 xs1).1, y ∈ pc.1.set :=
  View.cover_of_tiledL (kernelRun1_G c i arg3 harg3 arg4 harg4 arg5 harg5 arg6 harg6 arg7 harg7 arg8 harg8 arg9 harg9 arg10 harg10 hc0 hc1 hc2 hc3 hc4 hc5 x0 x1 x2 x3 xo4 xo5 xs0 xs1).1 S1x1024x64.size (by sl_kernel_rfl) y

/-- Case G leaves the output block at the output accumulator's contents. -/
theorem rb1_G_O4 (c : Dev nD) (i : grid1.Coords) (arg3 : Memref sig .tc .vmem S1x1024x64 .bf16) (harg3 : arg3.IsWhole) (arg4 : Memref sig .tc .vmem S1x1024x64 .bf16) (harg4 : arg4.IsWhole) (arg5 : Memref sig .tc .vmem S1x1024x64 .bf16) (harg5 : arg5.IsWhole) (arg6 : Memref sig .tc .vmem S1x64x64 .f32) (harg6 : arg6.IsWhole) (arg7 : Memref sig .tc .vmem S1x1024x64 .f32) (harg7 : arg7.IsWhole) (arg8 : Memref sig .tc .vmem S1x64x64 .f32) (harg8 : arg8.IsWhole) (arg9 : Memref sig .tc .vmem S1024x64 .f32) (harg9 : arg9.IsWhole) (arg10 : Memref sig .tc .vmem S64x64 .f32) (harg10 : arg10.IsWhole) (hc0 : ¬cond1_0 i) (hc1 : ¬cond1_1 i) (hc2 : ¬cond1_2 i) (hc3 : ¬cond1_3 i) (hc4 : cond1_4 i) (hc5 : ¬cond1_5 i) (x0 x1 x2 : Vec F S1x1024x64 .bf16) (x3 : Vec F S1x64x64 .f32) (xo4 : Vec F S1x1024x64 .f32) (xo5 : Vec F S1x64x64 .f32) (xs0 : Vec F S1024x64 .f32) (xs1 : Vec F S64x64 .f32) (f : arg7.view.ty.Contents (Elt F)) :
    arg7.view.read (Elt F) (arg7.view.writes (Elt F) f (kernelRun1_G c i arg3 harg3 arg4 harg4 arg5 harg5 arg6 harg6 arg7 harg7 arg8 harg8 arg9 harg9 arg10 harg10 hc0 hc1 hc2 hc3 hc4 hc5 x0 x1 x2 x3 xo4 xo5 xs0 xs1).1) = k1_pay5 xs0 := by
  rw [View.read_writes_eq_canon _ _ _ (cov1_G_O4 c i arg3 harg3 arg4 harg4 arg5 harg5 arg6 harg6 arg7 harg7 arg8 harg8 arg9 harg9 arg10 harg10 hc0 hc1 hc2 hc3 hc4 hc5 x0 x1 x2 x3 xo4 xo5 xs0 xs1)]
  unfold kernelRun1_G
  dsimp only
  sl_unfold_words
  rw [View.canon_unit_zero (S := S1x1024x64) hz3]
  simp only [View.readAt_eq_ld, harg3.read_unread, harg4.read_unread, harg5.read_unread, harg6.read_unread, harg9.read_unread, harg10.read_unread, View.ld_unit_zero (S := S1x1024x64) hz3, View.ld_unit_zero (S := S1x64x64) hz3, View.ld_unit_zero (S := S1024x64) hz2, View.ld_unit_zero (S := S64x64) hz2]

/-- The pieces case H finds for arg9 tile it, so they cover it. -/
theorem cov1_H_S0 (c : Dev nD) (i : grid1.Coords) (arg3 : Memref sig .tc .vmem S1x1024x64 .bf16) (harg3 : arg3.IsWhole) (arg4 : Memref sig .tc .vmem S1x1024x64 .bf16) (harg4 : arg4.IsWhole) (arg5 : Memref sig .tc .vmem S1x1024x64 .bf16) (harg5 : arg5.IsWhole) (arg6 : Memref sig .tc .vmem S1x64x64 .f32) (harg6 : arg6.IsWhole) (arg7 : Memref sig .tc .vmem S1x1024x64 .f32) (harg7 : arg7.IsWhole) (arg8 : Memref sig .tc .vmem S1x64x64 .f32) (harg8 : arg8.IsWhole) (arg9 : Memref sig .tc .vmem S1024x64 .f32) (harg9 : arg9.IsWhole) (arg10 : Memref sig .tc .vmem S64x64 .f32) (harg10 : arg10.IsWhole) (hc0 : ¬cond1_0 i) (hc1 : ¬cond1_1 i) (hc2 : cond1_2 i) (hc3 : ¬cond1_3 i) (hc4 : cond1_4 i) (hc5 : cond1_5 i) (x0 x1 x2 : Vec F S1x1024x64 .bf16) (x3 : Vec F S1x64x64 .f32) (xo4 : Vec F S1x1024x64 .f32) (xo5 : Vec F S1x64x64 .f32) (xs0 : Vec F S1024x64 .f32) (xs1 : Vec F S64x64 .f32) (y : S1024x64.Idx) :
    ∃ pc ∈ (kernelRun1_H c i arg3 harg3 arg4 harg4 arg5 harg5 arg6 harg6 arg7 harg7 arg8 harg8 arg9 harg9 arg10 harg10 hc0 hc1 hc2 hc3 hc4 hc5 x0 x1 x2 x3 xo4 xo5 xs0 xs1).2.2.1, y ∈ pc.1.set :=
  View.cover_of_tiledL (kernelRun1_H c i arg3 harg3 arg4 harg4 arg5 harg5 arg6 harg6 arg7 harg7 arg8 harg8 arg9 harg9 arg10 harg10 hc0 hc1 hc2 hc3 hc4 hc5 x0 x1 x2 x3 xo4 xo5 xs0 xs1).2.2.1 S1024x64.size (by sl_kernel_rfl) y

/-- Case H leaves the output accumulator at its contents before plus the masked q k^T times v. -/
theorem rb1_H_S0 (c : Dev nD) (i : grid1.Coords) (arg3 : Memref sig .tc .vmem S1x1024x64 .bf16) (harg3 : arg3.IsWhole) (arg4 : Memref sig .tc .vmem S1x1024x64 .bf16) (harg4 : arg4.IsWhole) (arg5 : Memref sig .tc .vmem S1x1024x64 .bf16) (harg5 : arg5.IsWhole) (arg6 : Memref sig .tc .vmem S1x64x64 .f32) (harg6 : arg6.IsWhole) (arg7 : Memref sig .tc .vmem S1x1024x64 .f32) (harg7 : arg7.IsWhole) (arg8 : Memref sig .tc .vmem S1x64x64 .f32) (harg8 : arg8.IsWhole) (arg9 : Memref sig .tc .vmem S1024x64 .f32) (harg9 : arg9.IsWhole) (arg10 : Memref sig .tc .vmem S64x64 .f32) (harg10 : arg10.IsWhole) (hc0 : ¬cond1_0 i) (hc1 : ¬cond1_1 i) (hc2 : cond1_2 i) (hc3 : ¬cond1_3 i) (hc4 : cond1_4 i) (hc5 : cond1_5 i) (x0 x1 x2 : Vec F S1x1024x64 .bf16) (x3 : Vec F S1x64x64 .f32) (xo4 : Vec F S1x1024x64 .f32) (xo5 : Vec F S1x64x64 .f32) (xs0 : Vec F S1024x64 .f32) (xs1 : Vec F S64x64 .f32) (f : arg9.view.ty.Contents (Elt F)) :
    arg9.view.read (Elt F) (arg9.view.writes (Elt F) f (kernelRun1_H c i arg3 harg3 arg4 harg4 arg5 harg5 arg6 harg6 arg7 harg7 arg8 harg8 arg9 harg9 arg10 harg10 hc0 hc1 hc2 hc3 hc4 hc5 x0 x1 x2 x3 xo4 xo5 xs0 xs1).2.2.1) = k1_pay3 i x0 x1 xs0 x2 := by
  rw [View.read_writes_eq_canon _ _ _ (cov1_H_S0 c i arg3 harg3 arg4 harg4 arg5 harg5 arg6 harg6 arg7 harg7 arg8 harg8 arg9 harg9 arg10 harg10 hc0 hc1 hc2 hc3 hc4 hc5 x0 x1 x2 x3 xo4 xo5 xs0 xs1)]
  unfold kernelRun1_H
  dsimp only
  sl_unfold_words
  rw [View.canon_unit_zero (S := S1024x64) hz2]
  simp only [View.readAt_eq_ld, harg3.read_unread, harg4.read_unread, harg5.read_unread, harg6.read_unread, harg9.read_unread, harg10.read_unread, View.ld_unit_zero (S := S1x1024x64) hz3, View.ld_unit_zero (S := S1x64x64) hz3, View.ld_unit_zero (S := S1024x64) hz2, View.ld_unit_zero (S := S64x64) hz2]

/-- The pieces case H finds for arg8 tile it, so they cover it. -/
theorem cov1_H_O5 (c : Dev nD) (i : grid1.Coords) (arg3 : Memref sig .tc .vmem S1x1024x64 .bf16) (harg3 : arg3.IsWhole) (arg4 : Memref sig .tc .vmem S1x1024x64 .bf16) (harg4 : arg4.IsWhole) (arg5 : Memref sig .tc .vmem S1x1024x64 .bf16) (harg5 : arg5.IsWhole) (arg6 : Memref sig .tc .vmem S1x64x64 .f32) (harg6 : arg6.IsWhole) (arg7 : Memref sig .tc .vmem S1x1024x64 .f32) (harg7 : arg7.IsWhole) (arg8 : Memref sig .tc .vmem S1x64x64 .f32) (harg8 : arg8.IsWhole) (arg9 : Memref sig .tc .vmem S1024x64 .f32) (harg9 : arg9.IsWhole) (arg10 : Memref sig .tc .vmem S64x64 .f32) (harg10 : arg10.IsWhole) (hc0 : ¬cond1_0 i) (hc1 : ¬cond1_1 i) (hc2 : cond1_2 i) (hc3 : ¬cond1_3 i) (hc4 : cond1_4 i) (hc5 : cond1_5 i) (x0 x1 x2 : Vec F S1x1024x64 .bf16) (x3 : Vec F S1x64x64 .f32) (xo4 : Vec F S1x1024x64 .f32) (xo5 : Vec F S1x64x64 .f32) (xs0 : Vec F S1024x64 .f32) (xs1 : Vec F S64x64 .f32) (y : S1x64x64.Idx) :
    ∃ pc ∈ (kernelRun1_H c i arg3 harg3 arg4 harg4 arg5 harg5 arg6 harg6 arg7 harg7 arg8 harg8 arg9 harg9 arg10 harg10 hc0 hc1 hc2 hc3 hc4 hc5 x0 x1 x2 x3 xo4 xo5 xs0 xs1).2.1, y ∈ pc.1.set :=
  View.cover_of_tiledL (kernelRun1_H c i arg3 harg3 arg4 harg4 arg5 harg5 arg6 harg6 arg7 harg7 arg8 harg8 arg9 harg9 arg10 harg10 hc0 hc1 hc2 hc3 hc4 hc5 x0 x1 x2 x3 xo4 xo5 xs0 xs1).2.1 S1x64x64.size (by sl_kernel_rfl) y

/-- Case H leaves the new-state block at the state accumulator's contents. -/
theorem rb1_H_O5 (c : Dev nD) (i : grid1.Coords) (arg3 : Memref sig .tc .vmem S1x1024x64 .bf16) (harg3 : arg3.IsWhole) (arg4 : Memref sig .tc .vmem S1x1024x64 .bf16) (harg4 : arg4.IsWhole) (arg5 : Memref sig .tc .vmem S1x1024x64 .bf16) (harg5 : arg5.IsWhole) (arg6 : Memref sig .tc .vmem S1x64x64 .f32) (harg6 : arg6.IsWhole) (arg7 : Memref sig .tc .vmem S1x1024x64 .f32) (harg7 : arg7.IsWhole) (arg8 : Memref sig .tc .vmem S1x64x64 .f32) (harg8 : arg8.IsWhole) (arg9 : Memref sig .tc .vmem S1024x64 .f32) (harg9 : arg9.IsWhole) (arg10 : Memref sig .tc .vmem S64x64 .f32) (harg10 : arg10.IsWhole) (hc0 : ¬cond1_0 i) (hc1 : ¬cond1_1 i) (hc2 : cond1_2 i) (hc3 : ¬cond1_3 i) (hc4 : cond1_4 i) (hc5 : cond1_5 i) (x0 x1 x2 : Vec F S1x1024x64 .bf16) (x3 : Vec F S1x64x64 .f32) (xo4 : Vec F S1x1024x64 .f32) (xo5 : Vec F S1x64x64 .f32) (xs0 : Vec F S1024x64 .f32) (xs1 : Vec F S64x64 .f32) (f : arg8.view.ty.Contents (Elt F)) :
    arg8.view.read (Elt F) (arg8.view.writes (Elt F) f (kernelRun1_H c i arg3 harg3 arg4 harg4 arg5 harg5 arg6 harg6 arg7 harg7 arg8 harg8 arg9 harg9 arg10 harg10 hc0 hc1 hc2 hc3 hc4 hc5 x0 x1 x2 x3 xo4 xo5 xs0 xs1).2.1) = k1_pay6 xs1 := by
  rw [View.read_writes_eq_canon _ _ _ (cov1_H_O5 c i arg3 harg3 arg4 harg4 arg5 harg5 arg6 harg6 arg7 harg7 arg8 harg8 arg9 harg9 arg10 harg10 hc0 hc1 hc2 hc3 hc4 hc5 x0 x1 x2 x3 xo4 xo5 xs0 xs1)]
  unfold kernelRun1_H
  dsimp only
  sl_unfold_words
  rw [View.canon_unit_zero (S := S1x64x64) hz3]
  simp only [View.readAt_eq_ld, harg3.read_unread, harg4.read_unread, harg5.read_unread, harg6.read_unread, harg9.read_unread, harg10.read_unread, View.ld_unit_zero (S := S1x1024x64) hz3, View.ld_unit_zero (S := S1x64x64) hz3, View.ld_unit_zero (S := S1024x64) hz2, View.ld_unit_zero (S := S64x64) hz2]

/-- The pieces case H finds for arg7 tile it, so they cover it. -/
theorem cov1_H_O4 (c : Dev nD) (i : grid1.Coords) (arg3 : Memref sig .tc .vmem S1x1024x64 .bf16) (harg3 : arg3.IsWhole) (arg4 : Memref sig .tc .vmem S1x1024x64 .bf16) (harg4 : arg4.IsWhole) (arg5 : Memref sig .tc .vmem S1x1024x64 .bf16) (harg5 : arg5.IsWhole) (arg6 : Memref sig .tc .vmem S1x64x64 .f32) (harg6 : arg6.IsWhole) (arg7 : Memref sig .tc .vmem S1x1024x64 .f32) (harg7 : arg7.IsWhole) (arg8 : Memref sig .tc .vmem S1x64x64 .f32) (harg8 : arg8.IsWhole) (arg9 : Memref sig .tc .vmem S1024x64 .f32) (harg9 : arg9.IsWhole) (arg10 : Memref sig .tc .vmem S64x64 .f32) (harg10 : arg10.IsWhole) (hc0 : ¬cond1_0 i) (hc1 : ¬cond1_1 i) (hc2 : cond1_2 i) (hc3 : ¬cond1_3 i) (hc4 : cond1_4 i) (hc5 : cond1_5 i) (x0 x1 x2 : Vec F S1x1024x64 .bf16) (x3 : Vec F S1x64x64 .f32) (xo4 : Vec F S1x1024x64 .f32) (xo5 : Vec F S1x64x64 .f32) (xs0 : Vec F S1024x64 .f32) (xs1 : Vec F S64x64 .f32) (y : S1x1024x64.Idx) :
    ∃ pc ∈ (kernelRun1_H c i arg3 harg3 arg4 harg4 arg5 harg5 arg6 harg6 arg7 harg7 arg8 harg8 arg9 harg9 arg10 harg10 hc0 hc1 hc2 hc3 hc4 hc5 x0 x1 x2 x3 xo4 xo5 xs0 xs1).1, y ∈ pc.1.set :=
  View.cover_of_tiledL (kernelRun1_H c i arg3 harg3 arg4 harg4 arg5 harg5 arg6 harg6 arg7 harg7 arg8 harg8 arg9 harg9 arg10 harg10 hc0 hc1 hc2 hc3 hc4 hc5 x0 x1 x2 x3 xo4 xo5 xs0 xs1).1 S1x1024x64.size (by sl_kernel_rfl) y

/-- Case H leaves the output block at the output accumulator's NEW contents: the store to the block reads the accumulator after this case's own store into it. -/
theorem rb1_H_O4 (c : Dev nD) (i : grid1.Coords) (arg3 : Memref sig .tc .vmem S1x1024x64 .bf16) (harg3 : arg3.IsWhole) (arg4 : Memref sig .tc .vmem S1x1024x64 .bf16) (harg4 : arg4.IsWhole) (arg5 : Memref sig .tc .vmem S1x1024x64 .bf16) (harg5 : arg5.IsWhole) (arg6 : Memref sig .tc .vmem S1x64x64 .f32) (harg6 : arg6.IsWhole) (arg7 : Memref sig .tc .vmem S1x1024x64 .f32) (harg7 : arg7.IsWhole) (arg8 : Memref sig .tc .vmem S1x64x64 .f32) (harg8 : arg8.IsWhole) (arg9 : Memref sig .tc .vmem S1024x64 .f32) (harg9 : arg9.IsWhole) (arg10 : Memref sig .tc .vmem S64x64 .f32) (harg10 : arg10.IsWhole) (hc0 : ¬cond1_0 i) (hc1 : ¬cond1_1 i) (hc2 : cond1_2 i) (hc3 : ¬cond1_3 i) (hc4 : cond1_4 i) (hc5 : cond1_5 i) (x0 x1 x2 : Vec F S1x1024x64 .bf16) (x3 : Vec F S1x64x64 .f32) (xo4 : Vec F S1x1024x64 .f32) (xo5 : Vec F S1x64x64 .f32) (xs0 : Vec F S1024x64 .f32) (xs1 : Vec F S64x64 .f32) (f : arg7.view.ty.Contents (Elt F)) :
    arg7.view.read (Elt F) (arg7.view.writes (Elt F) f (kernelRun1_H c i arg3 harg3 arg4 harg4 arg5 harg5 arg6 harg6 arg7 harg7 arg8 harg8 arg9 harg9 arg10 harg10 hc0 hc1 hc2 hc3 hc4 hc5 x0 x1 x2 x3 xo4 xo5 xs0 xs1).1) = k1_pay5 (k1_pay3 i x0 x1 xs0 x2) := by
  rw [View.read_writes_eq_canon _ _ _ (cov1_H_O4 c i arg3 harg3 arg4 harg4 arg5 harg5 arg6 harg6 arg7 harg7 arg8 harg8 arg9 harg9 arg10 harg10 hc0 hc1 hc2 hc3 hc4 hc5 x0 x1 x2 x3 xo4 xo5 xs0 xs1)]
  unfold kernelRun1_H
  dsimp only
  sl_unfold_words
  rw [View.canon_unit_zero (S := S1x1024x64) hz3, View.readCov_unit_zero (S := S1024x64) _ hz2]
  simp only [View.readAt_eq_ld, harg3.read_unread, harg4.read_unread, harg5.read_unread, harg6.read_unread, harg9.read_unread, harg10.read_unread, View.ld_unit_zero (S := S1x1024x64) hz3, View.ld_unit_zero (S := S1x64x64) hz3, View.ld_unit_zero (S := S1024x64) hz2, View.ld_unit_zero (S := S64x64) hz2]

/-- The pieces case A finds for arg9 tile it, so they cover it. -/
theorem cov1_A_S0 (c : Dev nD) (i : grid1.Coords) (arg3 : Memref sig .tc .vmem S1x1024x64 .bf16) (harg3 : arg3.IsWhole) (arg4 : Memref sig .tc .vmem S1x1024x64 .bf16) (harg4 : arg4.IsWhole) (arg5 : Memref sig .tc .vmem S1x1024x64 .bf16) (harg5 : arg5.IsWhole) (arg6 : Memref sig .tc .vmem S1x64x64 .f32) (harg6 : arg6.IsWhole) (arg7 : Memref sig .tc .vmem S1x1024x64 .f32) (harg7 : arg7.IsWhole) (arg8 : Memref sig .tc .vmem S1x64x64 .f32) (harg8 : arg8.IsWhole) (arg9 : Memref sig .tc .vmem S1024x64 .f32) (harg9 : arg9.IsWhole) (arg10 : Memref sig .tc .vmem S64x64 .f32) (harg10 : arg10.IsWhole) (hc0 : cond1_0 i) (hc1 : cond1_1 i) (hc2 : cond1_2 i) (hc3 : cond1_3 i) (hc4 : ¬cond1_4 i) (hc5 : ¬cond1_5 i) (x0 x1 x2 : Vec F S1x1024x64 .bf16) (x3 : Vec F S1x64x64 .f32) (xo4 : Vec F S1x1024x64 .f32) (xo5 : Vec F S1x64x64 .f32) (xs0 : Vec F S1024x64 .f32) (xs1 : Vec F S64x64 .f32) (y : S1024x64.Idx) :
    ∃ pc ∈ (kernelRun1_A c i arg3 harg3 arg4 harg4 arg5 harg5 arg6 harg6 arg7 harg7 arg8 harg8 arg9 harg9 arg10 harg10 hc0 hc1 hc2 hc3 hc4 hc5 x0 x1 x2 x3 xo4 xo5 xs0 xs1).2.2.1, y ∈ pc.1.set :=
  View.cover_of_tiledL (kernelRun1_A c i arg3 harg3 arg4 harg4 arg5 harg5 arg6 harg6 arg7 harg7 arg8 harg8 arg9 harg9 arg10 harg10 hc0 hc1 hc2 hc3 hc4 hc5 x0 x1 x2 x3 xo4 xo5 xs0 xs1).2.2.1 S1024x64.size (by sl_kernel_rfl) y

/-- Case A leaves the output accumulator at q times the initial state plus the masked q k^T times v: the second store reads the first back. -/
theorem rb1_A_S0 (c : Dev nD) (i : grid1.Coords) (arg3 : Memref sig .tc .vmem S1x1024x64 .bf16) (harg3 : arg3.IsWhole) (arg4 : Memref sig .tc .vmem S1x1024x64 .bf16) (harg4 : arg4.IsWhole) (arg5 : Memref sig .tc .vmem S1x1024x64 .bf16) (harg5 : arg5.IsWhole) (arg6 : Memref sig .tc .vmem S1x64x64 .f32) (harg6 : arg6.IsWhole) (arg7 : Memref sig .tc .vmem S1x1024x64 .f32) (harg7 : arg7.IsWhole) (arg8 : Memref sig .tc .vmem S1x64x64 .f32) (harg8 : arg8.IsWhole) (arg9 : Memref sig .tc .vmem S1024x64 .f32) (harg9 : arg9.IsWhole) (arg10 : Memref sig .tc .vmem S64x64 .f32) (harg10 : arg10.IsWhole) (hc0 : cond1_0 i) (hc1 : cond1_1 i) (hc2 : cond1_2 i) (hc3 : cond1_3 i) (hc4 : ¬cond1_4 i) (hc5 : ¬cond1_5 i) (x0 x1 x2 : Vec F S1x1024x64 .bf16) (x3 : Vec F S1x64x64 .f32) (xo4 : Vec F S1x1024x64 .f32) (xo5 : Vec F S1x64x64 .f32) (xs0 : Vec F S1024x64 .f32) (xs1 : Vec F S64x64 .f32) (f : arg9.view.ty.Contents (Elt F)) :
    arg9.view.read (Elt F) (arg9.view.writes (Elt F) f (kernelRun1_A c i arg3 harg3 arg4 harg4 arg5 harg5 arg6 harg6 arg7 harg7 arg8 harg8 arg9 harg9 arg10 harg10 hc0 hc1 hc2 hc3 hc4 hc5 x0 x1 x2 x3 xo4 xo5 xs0 xs1).2.2.1) = k1_pay3 i x0 x1 (k1_pay2 x3 x0) x2 := by
  rw [View.read_writes_eq_canon _ _ _ (cov1_A_S0 c i arg3 harg3 arg4 harg4 arg5 harg5 arg6 harg6 arg7 harg7 arg8 harg8 arg9 harg9 arg10 harg10 hc0 hc1 hc2 hc3 hc4 hc5 x0 x1 x2 x3 xo4 xo5 xs0 xs1)]
  unfold kernelRun1_A
  dsimp only
  sl_unfold_words
  rw [View.canon_cons_unit_zero (S := S1024x64) hz2, View.readCov_unit_zero (S := S1024x64) _ hz2]
  simp only [View.readAt_eq_ld, harg3.read_unread, harg4.read_unread, harg5.read_unread, harg6.read_unread, harg9.read_unread, harg10.read_unread, View.ld_unit_zero (S := S1x1024x64) hz3, View.ld_unit_zero (S := S1x64x64) hz3, View.ld_unit_zero (S := S1024x64) hz2, View.ld_unit_zero (S := S64x64) hz2]

/-- The pieces case A finds for arg10 tile it, so they cover it. -/
theorem cov1_A_S1 (c : Dev nD) (i : grid1.Coords) (arg3 : Memref sig .tc .vmem S1x1024x64 .bf16) (harg3 : arg3.IsWhole) (arg4 : Memref sig .tc .vmem S1x1024x64 .bf16) (harg4 : arg4.IsWhole) (arg5 : Memref sig .tc .vmem S1x1024x64 .bf16) (harg5 : arg5.IsWhole) (arg6 : Memref sig .tc .vmem S1x64x64 .f32) (harg6 : arg6.IsWhole) (arg7 : Memref sig .tc .vmem S1x1024x64 .f32) (harg7 : arg7.IsWhole) (arg8 : Memref sig .tc .vmem S1x64x64 .f32) (harg8 : arg8.IsWhole) (arg9 : Memref sig .tc .vmem S1024x64 .f32) (harg9 : arg9.IsWhole) (arg10 : Memref sig .tc .vmem S64x64 .f32) (harg10 : arg10.IsWhole) (hc0 : cond1_0 i) (hc1 : cond1_1 i) (hc2 : cond1_2 i) (hc3 : cond1_3 i) (hc4 : ¬cond1_4 i) (hc5 : ¬cond1_5 i) (x0 x1 x2 : Vec F S1x1024x64 .bf16) (x3 : Vec F S1x64x64 .f32) (xo4 : Vec F S1x1024x64 .f32) (xo5 : Vec F S1x64x64 .f32) (xs0 : Vec F S1024x64 .f32) (xs1 : Vec F S64x64 .f32) (y : S64x64.Idx) :
    ∃ pc ∈ (kernelRun1_A c i arg3 harg3 arg4 harg4 arg5 harg5 arg6 harg6 arg7 harg7 arg8 harg8 arg9 harg9 arg10 harg10 hc0 hc1 hc2 hc3 hc4 hc5 x0 x1 x2 x3 xo4 xo5 xs0 xs1).2.2.2.1, y ∈ pc.1.set :=
  View.cover_of_tiledL (kernelRun1_A c i arg3 harg3 arg4 harg4 arg5 harg5 arg6 harg6 arg7 harg7 arg8 harg8 arg9 harg9 arg10 harg10 hc0 hc1 hc2 hc3 hc4 hc5 x0 x1 x2 x3 xo4 xo5 xs0 xs1).2.2.2.1 S64x64.size (by sl_kernel_rfl) y

/-- Case A leaves the state accumulator at the initial state plus k^T v: the second store reads the first back. -/
theorem rb1_A_S1 (c : Dev nD) (i : grid1.Coords) (arg3 : Memref sig .tc .vmem S1x1024x64 .bf16) (harg3 : arg3.IsWhole) (arg4 : Memref sig .tc .vmem S1x1024x64 .bf16) (harg4 : arg4.IsWhole) (arg5 : Memref sig .tc .vmem S1x1024x64 .bf16) (harg5 : arg5.IsWhole) (arg6 : Memref sig .tc .vmem S1x64x64 .f32) (harg6 : arg6.IsWhole) (arg7 : Memref sig .tc .vmem S1x1024x64 .f32) (harg7 : arg7.IsWhole) (arg8 : Memref sig .tc .vmem S1x64x64 .f32) (harg8 : arg8.IsWhole) (arg9 : Memref sig .tc .vmem S1024x64 .f32) (harg9 : arg9.IsWhole) (arg10 : Memref sig .tc .vmem S64x64 .f32) (harg10 : arg10.IsWhole) (hc0 : cond1_0 i) (hc1 : cond1_1 i) (hc2 : cond1_2 i) (hc3 : cond1_3 i) (hc4 : ¬cond1_4 i) (hc5 : ¬cond1_5 i) (x0 x1 x2 : Vec F S1x1024x64 .bf16) (x3 : Vec F S1x64x64 .f32) (xo4 : Vec F S1x1024x64 .f32) (xo5 : Vec F S1x64x64 .f32) (xs0 : Vec F S1024x64 .f32) (xs1 : Vec F S64x64 .f32) (f : arg10.view.ty.Contents (Elt F)) :
    arg10.view.read (Elt F) (arg10.view.writes (Elt F) f (kernelRun1_A c i arg3 harg3 arg4 harg4 arg5 harg5 arg6 harg6 arg7 harg7 arg8 harg8 arg9 harg9 arg10 harg10 hc0 hc1 hc2 hc3 hc4 hc5 x0 x1 x2 x3 xo4 xo5 xs0 xs1).2.2.2.1) = k1_pay4 (k1_pay1 x3) x1 x2 := by
  rw [View.read_writes_eq_canon _ _ _ (cov1_A_S1 c i arg3 harg3 arg4 harg4 arg5 harg5 arg6 harg6 arg7 harg7 arg8 harg8 arg9 harg9 arg10 harg10 hc0 hc1 hc2 hc3 hc4 hc5 x0 x1 x2 x3 xo4 xo5 xs0 xs1)]
  unfold kernelRun1_A
  dsimp only
  sl_unfold_words
  rw [View.canon_cons_unit_zero (S := S64x64) hz2, View.readCov_unit_zero (S := S64x64) _ hz2]
  simp only [View.readAt_eq_ld, harg3.read_unread, harg4.read_unread, harg5.read_unread, harg6.read_unread, harg9.read_unread, harg10.read_unread, View.ld_unit_zero (S := S1x1024x64) hz3, View.ld_unit_zero (S := S1x64x64) hz3, View.ld_unit_zero (S := S1024x64) hz2, View.ld_unit_zero (S := S64x64) hz2]

/-- The pieces case D finds for arg9 tile it, so they cover it. -/
theorem cov1_D_S0 (c : Dev nD) (i : grid1.Coords) (arg3 : Memref sig .tc .vmem S1x1024x64 .bf16) (harg3 : arg3.IsWhole) (arg4 : Memref sig .tc .vmem S1x1024x64 .bf16) (harg4 : arg4.IsWhole) (arg5 : Memref sig .tc .vmem S1x1024x64 .bf16) (harg5 : arg5.IsWhole) (arg6 : Memref sig .tc .vmem S1x64x64 .f32) (harg6 : arg6.IsWhole) (arg7 : Memref sig .tc .vmem S1x1024x64 .f32) (harg7 : arg7.IsWhole) (arg8 : Memref sig .tc .vmem S1x64x64 .f32) (harg8 : arg8.IsWhole) (arg9 : Memref sig .tc .vmem S1024x64 .f32) (harg9 : arg9.IsWhole) (arg10 : Memref sig .tc .vmem S64x64 .f32) (harg10 : arg10.IsWhole) (hc0 : ¬cond1_0 i) (hc1 : cond1_1 i) (hc2 : cond1_2 i) (hc3 : ¬cond1_3 i) (hc4 : ¬cond1_4 i) (hc5 : ¬cond1_5 i) (x0 x1 x2 : Vec F S1x1024x64 .bf16) (x3 : Vec F S1x64x64 .f32) (xo4 : Vec F S1x1024x64 .f32) (xo5 : Vec F S1x64x64 .f32) (xs0 : Vec F S1024x64 .f32) (xs1 : Vec F S64x64 .f32) (y : S1024x64.Idx) :
    ∃ pc ∈ (kernelRun1_D c i arg3 harg3 arg4 harg4 arg5 harg5 arg6 harg6 arg7 harg7 arg8 harg8 arg9 harg9 arg10 harg10 hc0 hc1 hc2 hc3 hc4 hc5 x0 x1 x2 x3 xo4 xo5 xs0 xs1).2.2.1, y ∈ pc.1.set :=
  View.cover_of_tiledL (kernelRun1_D c i arg3 harg3 arg4 harg4 arg5 harg5 arg6 harg6 arg7 harg7 arg8 harg8 arg9 harg9 arg10 harg10 hc0 hc1 hc2 hc3 hc4 hc5 x0 x1 x2 x3 xo4 xo5 xs0 xs1).2.2.1 S1024x64.size (by sl_kernel_rfl) y

/-- Case D leaves the output accumulator at q times the initial state plus the masked q k^T times v: the second store reads the first back. -/
theorem rb1_D_S0 (c : Dev nD) (i : grid1.Coords) (arg3 : Memref sig .tc .vmem S1x1024x64 .bf16) (harg3 : arg3.IsWhole) (arg4 : Memref sig .tc .vmem S1x1024x64 .bf16) (harg4 : arg4.IsWhole) (arg5 : Memref sig .tc .vmem S1x1024x64 .bf16) (harg5 : arg5.IsWhole) (arg6 : Memref sig .tc .vmem S1x64x64 .f32) (harg6 : arg6.IsWhole) (arg7 : Memref sig .tc .vmem S1x1024x64 .f32) (harg7 : arg7.IsWhole) (arg8 : Memref sig .tc .vmem S1x64x64 .f32) (harg8 : arg8.IsWhole) (arg9 : Memref sig .tc .vmem S1024x64 .f32) (harg9 : arg9.IsWhole) (arg10 : Memref sig .tc .vmem S64x64 .f32) (harg10 : arg10.IsWhole) (hc0 : ¬cond1_0 i) (hc1 : cond1_1 i) (hc2 : cond1_2 i) (hc3 : ¬cond1_3 i) (hc4 : ¬cond1_4 i) (hc5 : ¬cond1_5 i) (x0 x1 x2 : Vec F S1x1024x64 .bf16) (x3 : Vec F S1x64x64 .f32) (xo4 : Vec F S1x1024x64 .f32) (xo5 : Vec F S1x64x64 .f32) (xs0 : Vec F S1024x64 .f32) (xs1 : Vec F S64x64 .f32) (f : arg9.view.ty.Contents (Elt F)) :
    arg9.view.read (Elt F) (arg9.view.writes (Elt F) f (kernelRun1_D c i arg3 harg3 arg4 harg4 arg5 harg5 arg6 harg6 arg7 harg7 arg8 harg8 arg9 harg9 arg10 harg10 hc0 hc1 hc2 hc3 hc4 hc5 x0 x1 x2 x3 xo4 xo5 xs0 xs1).2.2.1) = k1_pay3 i x0 x1 (k1_pay2 x3 x0) x2 := by
  rw [View.read_writes_eq_canon _ _ _ (cov1_D_S0 c i arg3 harg3 arg4 harg4 arg5 harg5 arg6 harg6 arg7 harg7 arg8 harg8 arg9 harg9 arg10 harg10 hc0 hc1 hc2 hc3 hc4 hc5 x0 x1 x2 x3 xo4 xo5 xs0 xs1)]
  unfold kernelRun1_D
  dsimp only
  sl_unfold_words
  rw [View.canon_cons_unit_zero (S := S1024x64) hz2, View.readCov_unit_zero (S := S1024x64) _ hz2]
  simp only [View.readAt_eq_ld, harg3.read_unread, harg4.read_unread, harg5.read_unread, harg6.read_unread, harg9.read_unread, harg10.read_unread, View.ld_unit_zero (S := S1x1024x64) hz3, View.ld_unit_zero (S := S1x64x64) hz3, View.ld_unit_zero (S := S1024x64) hz2, View.ld_unit_zero (S := S64x64) hz2]

end Cert.KernelIdeal.Hand

end
-- ==== Proof.AttnRunAll.lean ====
/- The attention body at any grid point, in payload form: from the eight cases' runs and what each leaves in the
   buffers it stores. The point's linear index t gives qi = (t / 4) % 4 and kj = t % 4; those decide the six
   conditionals, hence the case; in each case the accumulators come back at one step of the recursion over the
   payloads, the output block at the new output accumulator where kj = 3, the new-state block at the new state
   accumulator where qi = 3 and kj = 3, and every other buffer at the contents it was given. -/
import proofs.«151280_j41747082117805_1_alg».proof.Proof.AttnReadback
import proofs.«151280_j41747082117805_1_alg».proof.Proof.AttnData

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The body at a point of case A: the case's run, each stored buffer handed back at its payload. -/
theorem run1_all_A (c : Dev nD) (t : Fin cfg1.N) (arg3 : Memref sig .tc .vmem S1x1024x64 .bf16) (harg3 : arg3.IsWhole) (arg4 : Memref sig .tc .vmem S1x1024x64 .bf16) (harg4 : arg4.IsWhole) (arg5 : Memref sig .tc .vmem S1x1024x64 .bf16) (harg5 : arg5.IsWhole) (arg6 : Memref sig .tc .vmem S1x64x64 .f32) (harg6 : arg6.IsWhole) (arg7 : Memref sig .tc .vmem S1x1024x64 .f32) (harg7 : arg7.IsWhole) (arg8 : Memref sig .tc .vmem S1x64x64 .f32) (harg8 : arg8.IsWhole) (arg9 : Memref sig .tc .vmem S1024x64 .f32) (harg9 : arg9.IsWhole) (arg10 : Memref sig .tc .vmem S64x64 .f32) (harg10 : arg10.IsWhole)
    (x0 x1 x2 : Vec F S1x1024x64 .bf16) (x3 : Vec F S1x64x64 .f32) (xo4 : Vec F S1x1024x64 .f32) (xo5 : Vec F S1x64x64 .f32) (xs0 : Vec F S1024x64 .f32) (xs1 : Vec F S64x64 .f32) (E : Set ℕ) (K : PUnit → sProp 𝕄)
    (p1 : t.val % 4 = 0) (p2 : t.val % 4 ≤ (t.val / 4) % 4) (p3 : (t.val / 4) % 4 = 0) (p4 : ¬t.val % 4 = 3) :
    iprop(owns (c : Thread nD τ) arg3 fullShare x0 ∗ owns (c : Thread nD τ) arg4 fullShare x1 ∗ owns (c : Thread nD τ) arg5 fullShare x2 ∗ owns (c : Thread nD τ) arg6 fullShare x3
        ∗ owns (c : Thread nD τ) arg7 fullShare xo4 ∗ owns (c : Thread nD τ) arg8 fullShare xo5 ∗ owns (c : Thread nD τ) arg9 fullShare xs0 ∗ owns (c : Thread nD τ) arg10 fullShare xs1
        ∗ (iprop(owns (c : Thread nD τ) arg3 fullShare x0 ∗ owns (c : Thread nD τ) arg4 fullShare x1 ∗ owns (c : Thread nD τ) arg5 fullShare x2 ∗ owns (c : Thread nD τ) arg6 fullShare x3
            ∗ owns (c : Thread nD τ) arg7 fullShare (if t.val % 4 = 3 then k1_pay5 (accStep (grid1.coords t) x0 x1 x2 x3 (xs0, xs1)).1 else xo4)
            ∗ owns (c : Thread nD τ) arg8 fullShare (if (t.val / 4) % 4 = 3 ∧ t.val % 4 = 3 then k1_pay6 (accStep (grid1.coords t) x0 x1 x2 x3 (xs0, xs1)).2 else xo5)
            ∗ owns (c : Thread nD τ) arg9 fullShare (accStep (grid1.coords t) x0 x1 x2 x3 (xs0, xs1)).1
            ∗ owns (c : Thread nD τ) arg10 fullShare (accStep (grid1.coords t) x0 x1 x2 x3 (xs0, xs1)).2) -∗ K ⟨⟩))
      ⊢ wp frame (wpE (defs₀ (F := F)) Variants.none c none) E (cc1__attn_kernel (grid1.coords t) arg3 harg3 arg4 harg4 arg5 harg5 arg6 harg6 arg7 harg7 arg8 harg8 arg9 harg9 arg10 harg10) K := by
  have hN : t.val < 256 := lt_of_lt_of_eq t.isLt (show cfg1.N = 256 from N_1)
  have hc0 : cond1_0 (grid1.coords t) := (hcond1_0 t).mpr (by omega)
  have hc1 : cond1_1 (grid1.coords t) := (hcond1_1 t).mpr (by omega)
  have hc2 : cond1_2 (grid1.coords t) := (hcond1_2 t).mpr (by omega)
  have hc3 : cond1_3 (grid1.coords t) := (hcond1_3 t).mpr (by omega)
  have hc4 : ¬cond1_4 (grid1.coords t) := fun h => absurd ((hcond1_4 t).mp h) (by omega)
  have hc5 : ¬cond1_5 (grid1.coords t) := fun h => absurd ((hcond1_5 t).mp h) (by omega)
  simp only [accStep, coords1_1 t, coords1_2 t, eq_true p1, eq_true p2, eq_true p3, eq_false p4, true_and, and_true, false_and, and_false, and_self, ↓reduceIte]
  iintro ⟨H3, H4, H5, H6, H7, H8, H9, H10, Hk⟩
  iapply ((kernelRun1_A c (grid1.coords t) arg3 harg3 arg4 harg4 arg5 harg5 arg6 harg6 arg7 harg7 arg8 harg8 arg9 harg9 arg10 harg10 hc0 hc1 hc2 hc3 hc4 hc5 x0 x1 x2 x3 xo4 xo5 xs0 xs1).2.2.2.2 E _)
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  iintro ⟨H3, H4, H5, H6, H7, H8, ⟨%eH9, H9⟩, ⟨%eH10, H10⟩⟩
  iapply Hk
  isplitl [H3]; · iexact H3
  isplitl [H4]; · iexact H4
  isplitl [H5]; · iexact H5
  isplitl [H6]; · iexact H6
  isplitl [H7]
  · iexact H7
  isplitl [H8]
  · iexact H8
  isplitl [H9]
  · unfold owns; iexists _; isplitr
    swap; · iexact H9
    ipureintro; exact rb1_A_S0 c (grid1.coords t) arg3 harg3 arg4 harg4 arg5 harg5 arg6 harg6 arg7 harg7 arg8 harg8 arg9 harg9 arg10 harg10 hc0 hc1 hc2 hc3 hc4 hc5 x0 x1 x2 x3 xo4 xo5 xs0 xs1 _
  unfold owns; iexists _; isplitr
  swap; · iexact H10
  ipureintro; exact rb1_A_S1 c (grid1.coords t) arg3 harg3 arg4 harg4 arg5 harg5 arg6 harg6 arg7 harg7 arg8 harg8 arg9 harg9 arg10 harg10 hc0 hc1 hc2 hc3 hc4 hc5 x0 x1 x2 x3 xo4 xo5 xs0 xs1 _

/-- The body at a point of case B: the case's run, each stored buffer handed back at its payload. -/
theorem run1_all_B (c : Dev nD) (t : Fin cfg1.N) (arg3 : Memref sig .tc .vmem S1x1024x64 .bf16) (harg3 : arg3.IsWhole) (arg4 : Memref sig .tc .vmem S1x1024x64 .bf16) (harg4 : arg4.IsWhole) (arg5 : Memref sig .tc .vmem S1x1024x64 .bf16) (harg5 : arg5.IsWhole) (arg6 : Memref sig .tc .vmem S1x64x64 .f32) (harg6 : arg6.IsWhole) (arg7 : Memref sig .tc .vmem S1x1024x64 .f32) (harg7 : arg7.IsWhole) (arg8 : Memref sig .tc .vmem S1x64x64 .f32) (harg8 : arg8.IsWhole) (arg9 : Memref sig .tc .vmem S1024x64 .f32) (harg9 : arg9.IsWhole) (arg10 : Memref sig .tc .vmem S64x64 .f32) (harg10 : arg10.IsWhole)
    (x0 x1 x2 : Vec F S1x1024x64 .bf16) (x3 : Vec F S1x64x64 .f32) (xo4 : Vec F S1x1024x64 .f32) (xo5 : Vec F S1x64x64 .f32) (xs0 : Vec F S1024x64 .f32) (xs1 : Vec F S64x64 .f32) (E : Set ℕ) (K : PUnit → sProp 𝕄)
    (p1 : ¬t.val % 4 = 0) (p2 : ¬t.val % 4 ≤ (t.val / 4) % 4) (p3 : (t.val / 4) % 4 = 0) (p4 : ¬t.val % 4 = 3) :
    iprop(owns (c : Thread nD τ) arg3 fullShare x0 ∗ owns (c : Thread nD τ) arg4 fullShare x1 ∗ owns (c : Thread nD τ) arg5 fullShare x2 ∗ owns (c : Thread nD τ) arg6 fullShare x3
        ∗ owns (c : Thread nD τ) arg7 fullShare xo4 ∗ owns (c : Thread nD τ) arg8 fullShare xo5 ∗ owns (c : Thread nD τ) arg9 fullShare xs0 ∗ owns (c : Thread nD τ) arg10 fullShare xs1
        ∗ (iprop(owns (c : Thread nD τ) arg3 fullShare x0 ∗ owns (c : Thread nD τ) arg4 fullShare x1 ∗ owns (c : Thread nD τ) arg5 fullShare x2 ∗ owns (c : Thread nD τ) arg6 fullShare x3
            ∗ owns (c : Thread nD τ) arg7 fullShare (if t.val % 4 = 3 then k1_pay5 (accStep (grid1.coords t) x0 x1 x2 x3 (xs0, xs1)).1 else xo4)
            ∗ owns (c : Thread nD τ) arg8 fullShare (if (t.val / 4) % 4 = 3 ∧ t.val % 4 = 3 then k1_pay6 (accStep (grid1.coords t) x0 x1 x2 x3 (xs0, xs1)).2 else xo5)
            ∗ owns (c : Thread nD τ) arg9 fullShare (accStep (grid1.coords t) x0 x1 x2 x3 (xs0, xs1)).1
            ∗ owns (c : Thread nD τ) arg10 fullShare (accStep (grid1.coords t) x0 x1 x2 x3 (xs0, xs1)).2) -∗ K ⟨⟩))
      ⊢ wp frame (wpE (defs₀ (F := F)) Variants.none c none) E (cc1__attn_kernel (grid1.coords t) arg3 harg3 arg4 harg4 arg5 harg5 arg6 harg6 arg7 harg7 arg8 harg8 arg9 harg9 arg10 harg10) K := by
  have hN : t.val < 256 := lt_of_lt_of_eq t.isLt (show cfg1.N = 256 from N_1)
  have hc0 : ¬cond1_0 (grid1.coords t) := fun h => absurd ((hcond1_0 t).mp h) (by omega)
  have hc1 : ¬cond1_1 (grid1.coords t) := fun h => absurd ((hcond1_1 t).mp h) (by omega)
  have hc2 : ¬cond1_2 (grid1.coords t) := fun h => absurd ((hcond1_2 t).mp h) (by omega)
  have hc3 : cond1_3 (grid1.coords t) := (hcond1_3 t).mpr (by omega)
  have hc4 : ¬cond1_4 (grid1.coords t) := fun h => absurd ((hcond1_4 t).mp h) (by omega)
  have hc5 : ¬cond1_5 (grid1.coords t) := fun h => absurd ((hcond1_5 t).mp h) (by omega)
  simp only [accStep, coords1_1 t, coords1_2 t, eq_false p1, eq_false p2, eq_true p3, eq_false p4, true_and, and_true, false_and, and_false, and_self, ↓reduceIte]
  iintro ⟨H3, H4, H5, H6, H7, H8, H9, H10, Hk⟩
  iapply ((kernelRun1_B c (grid1.coords t) arg3 harg3 arg4 harg4 arg5 harg5 arg6 harg6 arg7 harg7 arg8 harg8 arg9 harg9 arg10 harg10 hc0 hc1 hc2 hc3 hc4 hc5 x0 x1 x2 x3 xo4 xo5 xs0 xs1).2.2.2.2 E _)
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  iintro ⟨H3, H4, H5, H6, H7, H8, H9, ⟨%eH10, H10⟩⟩
  iapply Hk
  isplitl [H3]; · iexact H3
  isplitl [H4]; · iexact H4
  isplitl [H5]; · iexact H5
  isplitl [H6]; · iexact H6
  isplitl [H7]
  · iexact H7
  isplitl [H8]
  · iexact H8
  isplitl [H9]
  · iexact H9
  unfold owns; iexists _; isplitr
  swap; · iexact H10
  ipureintro; exact rb1_B_S1 c (grid1.coords t) arg3 harg3 arg4 harg4 arg5 harg5 arg6 harg6 arg7 harg7 arg8 harg8 arg9 harg9 arg10 harg10 hc0 hc1 hc2 hc3 hc4 hc5 x0 x1 x2 x3 xo4 xo5 xs0 xs1 _

/-- The body at a point of case C: the case's run, each stored buffer handed back at its payload. -/
theorem run1_all_C (c : Dev nD) (t : Fin cfg1.N) (arg3 : Memref sig .tc .vmem S1x1024x64 .bf16) (harg3 : arg3.IsWhole) (arg4 : Memref sig .tc .vmem S1x1024x64 .bf16) (harg4 : arg4.IsWhole) (arg5 : Memref sig .tc .vmem S1x1024x64 .bf16) (harg5 : arg5.IsWhole) (arg6 : Memref sig .tc .vmem S1x64x64 .f32) (harg6 : arg6.IsWhole) (arg7 : Memref sig .tc .vmem S1x1024x64 .f32) (harg7 : arg7.IsWhole) (arg8 : Memref sig .tc .vmem S1x64x64 .f32) (harg8 : arg8.IsWhole) (arg9 : Memref sig .tc .vmem S1024x64 .f32) (harg9 : arg9.IsWhole) (arg10 : Memref sig .tc .vmem S64x64 .f32) (harg10 : arg10.IsWhole)
    (x0 x1 x2 : Vec F S1x1024x64 .bf16) (x3 : Vec F S1x64x64 .f32) (xo4 : Vec F S1x1024x64 .f32) (xo5 : Vec F S1x64x64 .f32) (xs0 : Vec F S1024x64 .f32) (xs1 : Vec F S64x64 .f32) (E : Set ℕ) (K : PUnit → sProp 𝕄)
    (p1 : ¬t.val % 4 = 0) (p2 : ¬t.val % 4 ≤ (t.val / 4) % 4) (p3 : (t.val / 4) % 4 = 0) (p4 : t.val % 4 = 3) (p6 : ¬(t.val / 4) % 4 = 3) :
    iprop(owns (c : Thread nD τ) arg3 fullShare x0 ∗ owns (c : Thread nD τ) arg4 fullShare x1 ∗ owns (c : Thread nD τ) arg5 fullShare x2 ∗ owns (c : Thread nD τ) arg6 fullShare x3
        ∗ owns (c : Thread nD τ) arg7 fullShare xo4 ∗ owns (c : Thread nD τ) arg8 fullShare xo5 ∗ owns (c : Thread nD τ) arg9 fullShare xs0 ∗ owns (c : Thread nD τ) arg10 fullShare xs1
        ∗ (iprop(owns (c : Thread nD τ) arg3 fullShare x0 ∗ owns (c : Thread nD τ) arg4 fullShare x1 ∗ owns (c : Thread nD τ) arg5 fullShare x2 ∗ owns (c : Thread nD τ) arg6 fullShare x3
            ∗ owns (c : Thread nD τ) arg7 fullShare (if t.val % 4 = 3 then k1_pay5 (accStep (grid1.coords t) x0 x1 x2 x3 (xs0, xs1)).1 else xo4)
            ∗ owns (c : Thread nD τ) arg8 fullShare (if (t.val / 4) % 4 = 3 ∧ t.val % 4 = 3 then k1_pay6 (accStep (grid1.coords t) x0 x1 x2 x3 (xs0, xs1)).2 else xo5)
            ∗ owns (c : Thread nD τ) arg9 fullShare (accStep (grid1.coords t) x0 x1 x2 x3 (xs0, xs1)).1
            ∗ owns (c : Thread nD τ) arg10 fullShare (accStep (grid1.coords t) x0 x1 x2 x3 (xs0, xs1)).2) -∗ K ⟨⟩))
      ⊢ wp frame (wpE (defs₀ (F := F)) Variants.none c none) E (cc1__attn_kernel (grid1.coords t) arg3 harg3 arg4 harg4 arg5 harg5 arg6 harg6 arg7 harg7 arg8 harg8 arg9 harg9 arg10 harg10) K := by
  have hN : t.val < 256 := lt_of_lt_of_eq t.isLt (show cfg1.N = 256 from N_1)
  have hc0 : ¬cond1_0 (grid1.coords t) := fun h => absurd ((hcond1_0 t).mp h) (by omega)
  have hc1 : ¬cond1_1 (grid1.coords t) := fun h => absurd ((hcond1_1 t).mp h) (by omega)
  have hc2 : ¬cond1_2 (grid1.coords t) := fun h => absurd ((hcond1_2 t).mp h) (by omega)
  have hc3 : cond1_3 (grid1.coords t) := (hcond1_3 t).mpr (by omega)
  have hc4 : cond1_4 (grid1.coords t) := (hcond1_4 t).mpr (by omega)
  have hc5 : ¬cond1_5 (grid1.coords t) := fun h => absurd ((hcond1_5 t).mp h) (by omega)
  simp only [accStep, coords1_1 t, coords1_2 t, eq_false p1, eq_false p2, eq_true p3, eq_true p4, eq_false p6, true_and, and_true, false_and, and_false, and_self, ↓reduceIte]
  iintro ⟨H3, H4, H5, H6, H7, H8, H9, H10, Hk⟩
  iapply ((kernelRun1_C c (grid1.coords t) arg3 harg3 arg4 harg4 arg5 harg5 arg6 harg6 arg7 harg7 arg8 harg8 arg9 harg9 arg10 harg10 hc0 hc1 hc2 hc3 hc4 hc5 x0 x1 x2 x3 xo4 xo5 xs0 xs1).2.2.2.2 E _)
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  iintro ⟨H3, H4, H5, H6, ⟨%eH7, H7⟩, H8, H9, ⟨%eH10, H10⟩⟩
  iapply Hk
  isplitl [H3]; · iexact H3
  isplitl [H4]; · iexact H4
  isplitl [H5]; · iexact H5
  isplitl [H6]; · iexact H6
  isplitl [H7]
  · unfold owns; iexists _; isplitr
    swap; · iexact H7
    ipureintro; exact rb1_C_O4 c (grid1.coords t) arg3 harg3 arg4 harg4 arg5 harg5 arg6 harg6 arg7 harg7 arg8 harg8 arg9 harg9 arg10 harg10 hc0 hc1 hc2 hc3 hc4 hc5 x0 x1 x2 x3 xo4 xo5 xs0 xs1 _
  isplitl [H8]
  · iexact H8
  isplitl [H9]
  · iexact H9
  unfold owns; iexists _; isplitr
  swap; · iexact H10
  ipureintro; exact rb1_C_S1 c (grid1.coords t) arg3 harg3 arg4 harg4 arg5 harg5 arg6 harg6 arg7 harg7 arg8 harg8 arg9 harg9 arg10 harg10 hc0 hc1 hc2 hc3 hc4 hc5 x0 x1 x2 x3 xo4 xo5 xs0 xs1 _

/-- The body at a point of case D: the case's run, each stored buffer handed back at its payload. -/
theorem run1_all_D (c : Dev nD) (t : Fin cfg1.N) (arg3 : Memref sig .tc .vmem S1x1024x64 .bf16) (harg3 : arg3.IsWhole) (arg4 : Memref sig .tc .vmem S1x1024x64 .bf16) (harg4 : arg4.IsWhole) (arg5 : Memref sig .tc .vmem S1x1024x64 .bf16) (harg5 : arg5.IsWhole) (arg6 : Memref sig .tc .vmem S1x64x64 .f32) (harg6 : arg6.IsWhole) (arg7 : Memref sig .tc .vmem S1x1024x64 .f32) (harg7 : arg7.IsWhole) (arg8 : Memref sig .tc .vmem S1x64x64 .f32) (harg8 : arg8.IsWhole) (arg9 : Memref sig .tc .vmem S1024x64 .f32) (harg9 : arg9.IsWhole) (arg10 : Memref sig .tc .vmem S64x64 .f32) (harg10 : arg10.IsWhole)
    (x0 x1 x2 : Vec F S1x1024x64 .bf16) (x3 : Vec F S1x64x64 .f32) (xo4 : Vec F S1x1024x64 .f32) (xo5 : Vec F S1x64x64 .f32) (xs0 : Vec F S1024x64 .f32) (xs1 : Vec F S64x64 .f32) (E : Set ℕ) (K : PUnit → sProp 𝕄)
    (p1 : t.val % 4 = 0) (p2 : t.val % 4 ≤ (t.val / 4) % 4) (p3 : ¬(t.val / 4) % 4 = 0) (p4 : ¬t.val % 4 = 3) :
    iprop(owns (c : Thread nD τ) arg3 fullShare x0 ∗ owns (c : Thread nD τ) arg4 fullShare x1 ∗ owns (c : Thread nD τ) arg5 fullShare x2 ∗ owns (c : Thread nD τ) arg6 fullShare x3
        ∗ owns (c : Thread nD τ) arg7 fullShare xo4 ∗ owns (c : Thread nD τ) arg8 fullShare xo5 ∗ owns (c : Thread nD τ) arg9 fullShare xs0 ∗ owns (c : Thread nD τ) arg10 fullShare xs1
        ∗ (iprop(owns (c : Thread nD τ) arg3 fullShare x0 ∗ owns (c : Thread nD τ) arg4 fullShare x1 ∗ owns (c : Thread nD τ) arg5 fullShare x2 ∗ owns (c : Thread nD τ) arg6 fullShare x3
            ∗ owns (c : Thread nD τ) arg7 fullShare (if t.val % 4 = 3 then k1_pay5 (accStep (grid1.coords t) x0 x1 x2 x3 (xs0, xs1)).1 else xo4)
            ∗ owns (c : Thread nD τ) arg8 fullShare (if (t.val / 4) % 4 = 3 ∧ t.val % 4 = 3 then k1_pay6 (accStep (grid1.coords t) x0 x1 x2 x3 (xs0, xs1)).2 else xo5)
            ∗ owns (c : Thread nD τ) arg9 fullShare (accStep (grid1.coords t) x0 x1 x2 x3 (xs0, xs1)).1
            ∗ owns (c : Thread nD τ) arg10 fullShare (accStep (grid1.coords t) x0 x1 x2 x3 (xs0, xs1)).2) -∗ K ⟨⟩))
      ⊢ wp frame (wpE (defs₀ (F := F)) Variants.none c none) E (cc1__attn_kernel (grid1.coords t) arg3 harg3 arg4 harg4 arg5 harg5 arg6 harg6 arg7 harg7 arg8 harg8 arg9 harg9 arg10 harg10) K := by
  have hN : t.val < 256 := lt_of_lt_of_eq t.isLt (show cfg1.N = 256 from N_1)
  have hc0 : ¬cond1_0 (grid1.coords t) := fun h => absurd ((hcond1_0 t).mp h) (by omega)
  have hc1 : cond1_1 (grid1.coords t) := (hcond1_1 t).mpr (by omega)
  have hc2 : cond1_2 (grid1.coords t) := (hcond1_2 t).mpr (by omega)
  have hc3 : ¬cond1_3 (grid1.coords t) := fun h => absurd ((hcond1_3 t).mp h) (by omega)
  have hc4 : ¬cond1_4 (grid1.coords t) := fun h => absurd ((hcond1_4 t).mp h) (by omega)
  have hc5 : ¬cond1_5 (grid1.coords t) := fun h => absurd ((hcond1_5 t).mp h) (by omega)
  simp only [accStep, coords1_1 t, coords1_2 t, eq_true p1, eq_true p2, eq_false p3, eq_false p4, true_and, and_true, false_and, and_false, and_self, ↓reduceIte]
  iintro ⟨H3, H4, H5, H6, H7, H8, H9, H10, Hk⟩
  iapply ((kernelRun1_D c (grid1.coords t) arg3 harg3 arg4 harg4 arg5 harg5 arg6 harg6 arg7 harg7 arg8 harg8 arg9 harg9 arg10 harg10 hc0 hc1 hc2 hc3 hc4 hc5 x0 x1 x2 x3 xo4 xo5 xs0 xs1).2.2.2.2 E _)
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  iintro ⟨H3, H4, H5, H6, H7, H8, ⟨%eH9, H9⟩, H10⟩
  iapply Hk
  isplitl [H3]; · iexact H3
  isplitl [H4]; · iexact H4
  isplitl [H5]; · iexact H5
  isplitl [H6]; · iexact H6
  isplitl [H7]
  · iexact H7
  isplitl [H8]
  · iexact H8
  isplitl [H9]
  · unfold owns; iexists _; isplitr
    swap; · iexact H9
    ipureintro; exact rb1_D_S0 c (grid1.coords t) arg3 harg3 arg4 harg4 arg5 harg5 arg6 harg6 arg7 harg7 arg8 harg8 arg9 harg9 arg10 harg10 hc0 hc1 hc2 hc3 hc4 hc5 x0 x1 x2 x3 xo4 xo5 xs0 xs1 _
  iexact H10

/-- The body at a point of case E: the case's run, each stored buffer handed back at its payload. -/
theorem run1_all_E (c : Dev nD) (t : Fin cfg1.N) (arg3 : Memref sig .tc .vmem S1x1024x64 .bf16) (harg3 : arg3.IsWhole) (arg4 : Memref sig .tc .vmem S1x1024x64 .bf16) (harg4 : arg4.IsWhole) (arg5 : Memref sig .tc .vmem S1x1024x64 .bf16) (harg5 : arg5.IsWhole) (arg6 : Memref sig .tc .vmem S1x64x64 .f32) (harg6 : arg6.IsWhole) (arg7 : Memref sig .tc .vmem S1x1024x64 .f32) (harg7 : arg7.IsWhole) (arg8 : Memref sig .tc .vmem S1x64x64 .f32) (harg8 : arg8.IsWhole) (arg9 : Memref sig .tc .vmem S1024x64 .f32) (harg9 : arg9.IsWhole) (arg10 : Memref sig .tc .vmem S64x64 .f32) (harg10 : arg10.IsWhole)
    (x0 x1 x2 : Vec F S1x1024x64 .bf16) (x3 : Vec F S1x64x64 .f32) (xo4 : Vec F S1x1024x64 .f32) (xo5 : Vec F S1x64x64 .f32) (xs0 : Vec F S1024x64 .f32) (xs1 : Vec F S64x64 .f32) (E : Set ℕ) (K : PUnit → sProp 𝕄)
    (p1 : ¬t.val % 4 = 0) (p2 : t.val % 4 ≤ (t.val / 4) % 4) (p3 : ¬(t.val / 4) % 4 = 0) (p4 : ¬t.val % 4 = 3) :
    iprop(owns (c : Thread nD τ) arg3 fullShare x0 ∗ owns (c : Thread nD τ) arg4 fullShare x1 ∗ owns (c : Thread nD τ) arg5 fullShare x2 ∗ owns (c : Thread nD τ) arg6 fullShare x3
        ∗ owns (c : Thread nD τ) arg7 fullShare xo4 ∗ owns (c : Thread nD τ) arg8 fullShare xo5 ∗ owns (c : Thread nD τ) arg9 fullShare xs0 ∗ owns (c : Thread nD τ) arg10 fullShare xs1
        ∗ (iprop(owns (c : Thread nD τ) arg3 fullShare x0 ∗ owns (c : Thread nD τ) arg4 fullShare x1 ∗ owns (c : Thread nD τ) arg5 fullShare x2 ∗ owns (c : Thread nD τ) arg6 fullShare x3
            ∗ owns (c : Thread nD τ) arg7 fullShare (if t.val % 4 = 3 then k1_pay5 (accStep (grid1.coords t) x0 x1 x2 x3 (xs0, xs1)).1 else xo4)
            ∗ owns (c : Thread nD τ) arg8 fullShare (if (t.val / 4) % 4 = 3 ∧ t.val % 4 = 3 then k1_pay6 (accStep (grid1.coords t) x0 x1 x2 x3 (xs0, xs1)).2 else xo5)
            ∗ owns (c : Thread nD τ) arg9 fullShare (accStep (grid1.coords t) x0 x1 x2 x3 (xs0, xs1)).1
            ∗ owns (c : Thread nD τ) arg10 fullShare (accStep (grid1.coords t) x0 x1 x2 x3 (xs0, xs1)).2) -∗ K ⟨⟩))
      ⊢ wp frame (wpE (defs₀ (F := F)) Variants.none c none) E (cc1__attn_kernel (grid1.coords t) arg3 harg3 arg4 harg4 arg5 harg5 arg6 harg6 arg7 harg7 arg8 harg8 arg9 harg9 arg10 harg10) K := by
  have hN : t.val < 256 := lt_of_lt_of_eq t.isLt (show cfg1.N = 256 from N_1)
  have hc0 : ¬cond1_0 (grid1.coords t) := fun h => absurd ((hcond1_0 t).mp h) (by omega)
  have hc1 : ¬cond1_1 (grid1.coords t) := fun h => absurd ((hcond1_1 t).mp h) (by omega)
  have hc2 : cond1_2 (grid1.coords t) := (hcond1_2 t).mpr (by omega)
  have hc3 : ¬cond1_3 (grid1.coords t) := fun h => absurd ((hcond1_3 t).mp h) (by omega)
  have hc4 : ¬cond1_4 (grid1.coords t) := fun h => absurd ((hcond1_4 t).mp h) (by omega)
  have hc5 : ¬cond1_5 (grid1.coords t) := fun h => absurd ((hcond1_5 t).mp h) (by omega)
  simp only [accStep, coords1_1 t, coords1_2 t, eq_false p1, eq_true p2, eq_false p3, eq_false p4, true_and, and_true, false_and, and_false, and_self, ↓reduceIte]
  iintro ⟨H3, H4, H5, H6, H7, H8, H9, H10, Hk⟩
  iapply ((kernelRun1_E c (grid1.coords t) arg3 harg3 arg4 harg4 arg5 harg5 arg6 harg6 arg7 harg7 arg8 harg8 arg9 harg9 arg10 harg10 hc0 hc1 hc2 hc3 hc4 hc5 x0 x1 x2 x3 xo4 xo5 xs0 xs1).2.2.2.2 E _)
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  iintro ⟨H3, H4, H5, H6, H7, H8, ⟨%eH9, H9⟩, H10⟩
  iapply Hk
  isplitl [H3]; · iexact H3
  isplitl [H4]; · iexact H4
  isplitl [H5]; · iexact H5
  isplitl [H6]; · iexact H6
  isplitl [H7]
  · iexact H7
  isplitl [H8]
  · iexact H8
  isplitl [H9]
  · unfold owns; iexists _; isplitr
    swap; · iexact H9
    ipureintro; exact rb1_E_S0 c (grid1.coords t) arg3 harg3 arg4 harg4 arg5 harg5 arg6 harg6 arg7 harg7 arg8 harg8 arg9 harg9 arg10 harg10 hc0 hc1 hc2 hc3 hc4 hc5 x0 x1 x2 x3 xo4 xo5 xs0 xs1 _
  iexact H10

/-- The body at a point of case F: the case's run, each stored buffer handed back at its payload. -/
theorem run1_all_F (c : Dev nD) (t : Fin cfg1.N) (arg3 : Memref sig .tc .vmem S1x1024x64 .bf16) (harg3 : arg3.IsWhole) (arg4 : Memref sig .tc .vmem S1x1024x64 .bf16) (harg4 : arg4.IsWhole) (arg5 : Memref sig .tc .vmem S1x1024x64 .bf16) (harg5 : arg5.IsWhole) (arg6 : Memref sig .tc .vmem S1x64x64 .f32) (harg6 : arg6.IsWhole) (arg7 : Memref sig .tc .vmem S1x1024x64 .f32) (harg7 : arg7.IsWhole) (arg8 : Memref sig .tc .vmem S1x64x64 .f32) (harg8 : arg8.IsWhole) (arg9 : Memref sig .tc .vmem S1024x64 .f32) (harg9 : arg9.IsWhole) (arg10 : Memref sig .tc .vmem S64x64 .f32) (harg10 : arg10.IsWhole)
    (x0 x1 x2 : Vec F S1x1024x64 .bf16) (x3 : Vec F S1x64x64 .f32) (xo4 : Vec F S1x1024x64 .f32) (xo5 : Vec F S1x64x64 .f32) (xs0 : Vec F S1024x64 .f32) (xs1 : Vec F S64x64 .f32) (E : Set ℕ) (K : PUnit → sProp 𝕄)
    (p1 : ¬t.val % 4 = 0) (p2 : ¬t.val % 4 ≤ (t.val / 4) % 4) (p3 : ¬(t.val / 4) % 4 = 0) (p4 : ¬t.val % 4 = 3) :
    iprop(owns (c : Thread nD τ) arg3 fullShare x0 ∗ owns (c : Thread nD τ) arg4 fullShare x1 ∗ owns (c : Thread nD τ) arg5 fullShare x2 ∗ owns (c : Thread nD τ) arg6 fullShare x3
        ∗ owns (c : Thread nD τ) arg7 fullShare xo4 ∗ owns (c : Thread nD τ) arg8 fullShare xo5 ∗ owns (c : Thread nD τ) arg9 fullShare xs0 ∗ owns (c : Thread nD τ) arg10 fullShare xs1
        ∗ (iprop(owns (c : Thread nD τ) arg3 fullShare x0 ∗ owns (c : Thread nD τ) arg4 fullShare x1 ∗ owns (c : Thread nD τ) arg5 fullShare x2 ∗ owns (c : Thread nD τ) arg6 fullShare x3
            ∗ owns (c : Thread nD τ) arg7 fullShare (if t.val % 4 = 3 then k1_pay5 (accStep (grid1.coords t) x0 x1 x2 x3 (xs0, xs1)).1 else xo4)
            ∗ owns (c : Thread nD τ) arg8 fullShare (if (t.val / 4) % 4 = 3 ∧ t.val % 4 = 3 then k1_pay6 (accStep (grid1.coords t) x0 x1 x2 x3 (xs0, xs1)).2 else xo5)
            ∗ owns (c : Thread nD τ) arg9 fullShare (accStep (grid1.coords t) x0 x1 x2 x3 (xs0, xs1)).1
            ∗ owns (c : Thread nD τ) arg10 fullShare (accStep (grid1.coords t) x0 x1 x2 x3 (xs0, xs1)).2) -∗ K ⟨⟩))
      ⊢ wp frame (wpE (defs₀ (F := F)) Variants.none c none) E (cc1__attn_kernel (grid1.coords t) arg3 harg3 arg4 harg4 arg5 harg5 arg6 harg6 arg7 harg7 arg8 harg8 arg9 harg9 arg10 harg10) K := by
  have hN : t.val < 256 := lt_of_lt_of_eq t.isLt (show cfg1.N = 256 from N_1)
  have hc0 : ¬cond1_0 (grid1.coords t) := fun h => absurd ((hcond1_0 t).mp h) (by omega)
  have hc1 : ¬cond1_1 (grid1.coords t) := fun h => absurd ((hcond1_1 t).mp h) (by omega)
  have hc2 : ¬cond1_2 (grid1.coords t) := fun h => absurd ((hcond1_2 t).mp h) (by omega)
  have hc3 : ¬cond1_3 (grid1.coords t) := fun h => absurd ((hcond1_3 t).mp h) (by omega)
  have hc4 : ¬cond1_4 (grid1.coords t) := fun h => absurd ((hcond1_4 t).mp h) (by omega)
  have hc5 : ¬cond1_5 (grid1.coords t) := fun h => absurd ((hcond1_5 t).mp h) (by omega)
  simp only [accStep, coords1_1 t, coords1_2 t, eq_false p1, eq_false p2, eq_false p3, eq_false p4, true_and, and_true, false_and, and_false, and_self, ↓reduceIte]
  iintro ⟨H3, H4, H5, H6, H7, H8, H9, H10, Hk⟩
  iapply ((kernelRun1_F c (grid1.coords t) arg3 harg3 arg4 harg4 arg5 harg5 arg6 harg6 arg7 harg7 arg8 harg8 arg9 harg9 arg10 harg10 hc0 hc1 hc2 hc3 hc4 hc5 x0 x1 x2 x3 xo4 xo5 xs0 xs1).2.2.2.2 E _)
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  iintro ⟨H3, H4, H5, H6, H7, H8, H9, H10⟩
  iapply Hk
  isplitl [H3]; · iexact H3
  isplitl [H4]; · iexact H4
  isplitl [H5]; · iexact H5
  isplitl [H6]; · iexact H6
  isplitl [H7]
  · iexact H7
  isplitl [H8]
  · iexact H8
  isplitl [H9]
  · iexact H9
  iexact H10

/-- The body at a point of case G: the case's run, each stored buffer handed back at its payload. -/
theorem run1_all_G (c : Dev nD) (t : Fin cfg1.N) (arg3 : Memref sig .tc .vmem S1x1024x64 .bf16) (harg3 : arg3.IsWhole) (arg4 : Memref sig .tc .vmem S1x1024x64 .bf16) (harg4 : arg4.IsWhole) (arg5 : Memref sig .tc .vmem S1x1024x64 .bf16) (harg5 : arg5.IsWhole) (arg6 : Memref sig .tc .vmem S1x64x64 .f32) (harg6 : arg6.IsWhole) (arg7 : Memref sig .tc .vmem S1x1024x64 .f32) (harg7 : arg7.IsWhole) (arg8 : Memref sig .tc .vmem S1x64x64 .f32) (harg8 : arg8.IsWhole) (arg9 : Memref sig .tc .vmem S1024x64 .f32) (harg9 : arg9.IsWhole) (arg10 : Memref sig .tc .vmem S64x64 .f32) (harg10 : arg10.IsWhole)
    (x0 x1 x2 : Vec F S1x1024x64 .bf16) (x3 : Vec F S1x64x64 .f32) (xo4 : Vec F S1x1024x64 .f32) (xo5 : Vec F S1x64x64 .f32) (xs0 : Vec F S1024x64 .f32) (xs1 : Vec F S64x64 .f32) (E : Set ℕ) (K : PUnit → sProp 𝕄)
    (p1 : ¬t.val % 4 = 0) (p2 : ¬t.val % 4 ≤ (t.val / 4) % 4) (p3 : ¬(t.val / 4) % 4 = 0) (p4 : t.val % 4 = 3) (p6 : ¬(t.val / 4) % 4 = 3) :
    iprop(owns (c : Thread nD τ) arg3 fullShare x0 ∗ owns (c : Thread nD τ) arg4 fullShare x1 ∗ owns (c : Thread nD τ) arg5 fullShare x2 ∗ owns (c : Thread nD τ) arg6 fullShare x3
        ∗ owns (c : Thread nD τ) arg7 fullShare xo4 ∗ owns (c : Thread nD τ) arg8 fullShare xo5 ∗ owns (c : Thread nD τ) arg9 fullShare xs0 ∗ owns (c : Thread nD τ) arg10 fullShare xs1
        ∗ (iprop(owns (c : Thread nD τ) arg3 fullShare x0 ∗ owns (c : Thread nD τ) arg4 fullShare x1 ∗ owns (c : Thread nD τ) arg5 fullShare x2 ∗ owns (c : Thread nD τ) arg6 fullShare x3
            ∗ owns (c : Thread nD τ) arg7 fullShare (if t.val % 4 = 3 then k1_pay5 (accStep (grid1.coords t) x0 x1 x2 x3 (xs0, xs1)).1 else xo4)
            ∗ owns (c : Thread nD τ) arg8 fullShare (if (t.val / 4) % 4 = 3 ∧ t.val % 4 = 3 then k1_pay6 (accStep (grid1.coords t) x0 x1 x2 x3 (xs0, xs1)).2 else xo5)
            ∗ owns (c : Thread nD τ) arg9 fullShare (accStep (grid1.coords t) x0 x1 x2 x3 (xs0, xs1)).1
            ∗ owns (c : Thread nD τ) arg10 fullShare (accStep (grid1.coords t) x0 x1 x2 x3 (xs0, xs1)).2) -∗ K ⟨⟩))
      ⊢ wp frame (wpE (defs₀ (F := F)) Variants.none c none) E (cc1__attn_kernel (grid1.coords t) arg3 harg3 arg4 harg4 arg5 harg5 arg6 harg6 arg7 harg7 arg8 harg8 arg9 harg9 arg10 harg10) K := by
  have hN : t.val < 256 := lt_of_lt_of_eq t.isLt (show cfg1.N = 256 from N_1)
  have hc0 : ¬cond1_0 (grid1.coords t) := fun h => absurd ((hcond1_0 t).mp h) (by omega)
  have hc1 : ¬cond1_1 (grid1.coords t) := fun h => absurd ((hcond1_1 t).mp h) (by omega)
  have hc2 : ¬cond1_2 (grid1.coords t) := fun h => absurd ((hcond1_2 t).mp h) (by omega)
  have hc3 : ¬cond1_3 (grid1.coords t) := fun h => absurd ((hcond1_3 t).mp h) (by omega)
  have hc4 : cond1_4 (grid1.coords t) := (hcond1_4 t).mpr (by omega)
  have hc5 : ¬cond1_5 (grid1.coords t) := fun h => absurd ((hcond1_5 t).mp h) (by omega)
  simp only [accStep, coords1_1 t, coords1_2 t, eq_false p1, eq_false p2, eq_false p3, eq_true p4, eq_false p6, true_and, and_true, false_and, and_false, and_self, ↓reduceIte]
  iintro ⟨H3, H4, H5, H6, H7, H8, H9, H10, Hk⟩
  iapply ((kernelRun1_G c (grid1.coords t) arg3 harg3 arg4 harg4 arg5 harg5 arg6 harg6 arg7 harg7 arg8 harg8 arg9 harg9 arg10 harg10 hc0 hc1 hc2 hc3 hc4 hc5 x0 x1 x2 x3 xo4 xo5 xs0 xs1).2.2.2.2 E _)
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  iintro ⟨H3, H4, H5, H6, ⟨%eH7, H7⟩, H8, H9, H10⟩
  iapply Hk
  isplitl [H3]; · iexact H3
  isplitl [H4]; · iexact H4
  isplitl [H5]; · iexact H5
  isplitl [H6]; · iexact H6
  isplitl [H7]
  · unfold owns; iexists _; isplitr
    swap; · iexact H7
    ipureintro; exact rb1_G_O4 c (grid1.coords t) arg3 harg3 arg4 harg4 arg5 harg5 arg6 harg6 arg7 harg7 arg8 harg8 arg9 harg9 arg10 harg10 hc0 hc1 hc2 hc3 hc4 hc5 x0 x1 x2 x3 xo4 xo5 xs0 xs1 _
  isplitl [H8]
  · iexact H8
  isplitl [H9]
  · iexact H9
  iexact H10

/-- The body at a point of case H: the case's run, each stored buffer handed back at its payload. -/
theorem run1_all_H (c : Dev nD) (t : Fin cfg1.N) (arg3 : Memref sig .tc .vmem S1x1024x64 .bf16) (harg3 : arg3.IsWhole) (arg4 : Memref sig .tc .vmem S1x1024x64 .bf16) (harg4 : arg4.IsWhole) (arg5 : Memref sig .tc .vmem S1x1024x64 .bf16) (harg5 : arg5.IsWhole) (arg6 : Memref sig .tc .vmem S1x64x64 .f32) (harg6 : arg6.IsWhole) (arg7 : Memref sig .tc .vmem S1x1024x64 .f32) (harg7 : arg7.IsWhole) (arg8 : Memref sig .tc .vmem S1x64x64 .f32) (harg8 : arg8.IsWhole) (arg9 : Memref sig .tc .vmem S1024x64 .f32) (harg9 : arg9.IsWhole) (arg10 : Memref sig .tc .vmem S64x64 .f32) (harg10 : arg10.IsWhole)
    (x0 x1 x2 : Vec F S1x1024x64 .bf16) (x3 : Vec F S1x64x64 .f32) (xo4 : Vec F S1x1024x64 .f32) (xo5 : Vec F S1x64x64 .f32) (xs0 : Vec F S1024x64 .f32) (xs1 : Vec F S64x64 .f32) (E : Set ℕ) (K : PUnit → sProp 𝕄)
    (p1 : ¬t.val % 4 = 0) (p2 : t.val % 4 ≤ (t.val / 4) % 4) (p3 : ¬(t.val / 4) % 4 = 0) (p4 : t.val % 4 = 3) (p6 : (t.val / 4) % 4 = 3) :
    iprop(owns (c : Thread nD τ) arg3 fullShare x0 ∗ owns (c : Thread nD τ) arg4 fullShare x1 ∗ owns (c : Thread nD τ) arg5 fullShare x2 ∗ owns (c : Thread nD τ) arg6 fullShare x3
        ∗ owns (c : Thread nD τ) arg7 fullShare xo4 ∗ owns (c : Thread nD τ) arg8 fullShare xo5 ∗ owns (c : Thread nD τ) arg9 fullShare xs0 ∗ owns (c : Thread nD τ) arg10 fullShare xs1
        ∗ (iprop(owns (c : Thread nD τ) arg3 fullShare x0 ∗ owns (c : Thread nD τ) arg4 fullShare x1 ∗ owns (c : Thread nD τ) arg5 fullShare x2 ∗ owns (c : Thread nD τ) arg6 fullShare x3
            ∗ owns (c : Thread nD τ) arg7 fullShare (if t.val % 4 = 3 then k1_pay5 (accStep (grid1.coords t) x0 x1 x2 x3 (xs0, xs1)).1 else xo4)
            ∗ owns (c : Thread nD τ) arg8 fullShare (if (t.val / 4) % 4 = 3 ∧ t.val % 4 = 3 then k1_pay6 (accStep (grid1.coords t) x0 x1 x2 x3 (xs0, xs1)).2 else xo5)
            ∗ owns (c : Thread nD τ) arg9 fullShare (accStep (grid1.coords t) x0 x1 x2 x3 (xs0, xs1)).1
            ∗ owns (c : Thread nD τ) arg10 fullShare (accStep (grid1.coords t) x0 x1 x2 x3 (xs0, xs1)).2) -∗ K ⟨⟩))
      ⊢ wp frame (wpE (defs₀ (F := F)) Variants.none c none) E (cc1__attn_kernel (grid1.coords t) arg3 harg3 arg4 harg4 arg5 harg5 arg6 harg6 arg7 harg7 arg8 harg8 arg9 harg9 arg10 harg10) K := by
  have hN : t.val < 256 := lt_of_lt_of_eq t.isLt (show cfg1.N = 256 from N_1)
  have hc0 : ¬cond1_0 (grid1.coords t) := fun h => absurd ((hcond1_0 t).mp h) (by omega)
  have hc1 : ¬cond1_1 (grid1.coords t) := fun h => absurd ((hcond1_1 t).mp h) (by omega)
  have hc2 : cond1_2 (grid1.coords t) := (hcond1_2 t).mpr (by omega)
  have hc3 : ¬cond1_3 (grid1.coords t) := fun h => absurd ((hcond1_3 t).mp h) (by omega)
  have hc4 : cond1_4 (grid1.coords t) := (hcond1_4 t).mpr (by omega)
  have hc5 : cond1_5 (grid1.coords t) := (hcond1_5 t).mpr (by omega)
  simp only [accStep, coords1_1 t, coords1_2 t, eq_false p1, eq_true p2, eq_false p3, eq_true p4, eq_true p6, true_and, and_true, false_and, and_false, and_self, ↓reduceIte]
  iintro ⟨H3, H4, H5, H6, H7, H8, H9, H10, Hk⟩
  iapply ((kernelRun1_H c (grid1.coords t) arg3 harg3 arg4 harg4 arg5 harg5 arg6 harg6 arg7 harg7 arg8 harg8 arg9 harg9 arg10 harg10 hc0 hc1 hc2 hc3 hc4 hc5 x0 x1 x2 x3 xo4 xo5 xs0 xs1).2.2.2.2 E _)
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  iintro ⟨H3, H4, H5, H6, ⟨%eH7, H7⟩, ⟨%eH8, H8⟩, ⟨%eH9, H9⟩, H10⟩
  iapply Hk
  isplitl [H3]; · iexact H3
  isplitl [H4]; · iexact H4
  isplitl [H5]; · iexact H5
  isplitl [H6]; · iexact H6
  isplitl [H7]
  · unfold owns; iexists _; isplitr
    swap; · iexact H7
    ipureintro; exact rb1_H_O4 c (grid1.coords t) arg3 harg3 arg4 harg4 arg5 harg5 arg6 harg6 arg7 harg7 arg8 harg8 arg9 harg9 arg10 harg10 hc0 hc1 hc2 hc3 hc4 hc5 x0 x1 x2 x3 xo4 xo5 xs0 xs1 _
  isplitl [H8]
  · unfold owns; iexists _; isplitr
    swap; · iexact H8
    ipureintro; exact rb1_H_O5 c (grid1.coords t) arg3 harg3 arg4 harg4 arg5 harg5 arg6 harg6 arg7 harg7 arg8 harg8 arg9 harg9 arg10 harg10 hc0 hc1 hc2 hc3 hc4 hc5 x0 x1 x2 x3 xo4 xo5 xs0 xs1 _
  isplitl [H9]
  · unfold owns; iexists _; isplitr
    swap; · iexact H9
    ipureintro; exact rb1_H_S0 c (grid1.coords t) arg3 harg3 arg4 harg4 arg5 harg5 arg6 harg6 arg7 harg7 arg8 harg8 arg9 harg9 arg10 harg10 hc0 hc1 hc2 hc3 hc4 hc5 x0 x1 x2 x3 xo4 xo5 xs0 xs1 _
  iexact H10

/-- The body on whole memrefs at given contents, at any point: the four inputs come back as they were, the two
    accumulators at one step of the recursion, the output block at the new output accumulator where kj = 3 and the
    new-state block at the new state accumulator where (qi, kj) = (3, 3), each left as it was elsewhere. -/
theorem run1_all (c : Dev nD) (t : Fin cfg1.N) (arg3 : Memref sig .tc .vmem S1x1024x64 .bf16) (harg3 : arg3.IsWhole) (arg4 : Memref sig .tc .vmem S1x1024x64 .bf16) (harg4 : arg4.IsWhole) (arg5 : Memref sig .tc .vmem S1x1024x64 .bf16) (harg5 : arg5.IsWhole) (arg6 : Memref sig .tc .vmem S1x64x64 .f32) (harg6 : arg6.IsWhole) (arg7 : Memref sig .tc .vmem S1x1024x64 .f32) (harg7 : arg7.IsWhole) (arg8 : Memref sig .tc .vmem S1x64x64 .f32) (harg8 : arg8.IsWhole) (arg9 : Memref sig .tc .vmem S1024x64 .f32) (harg9 : arg9.IsWhole) (arg10 : Memref sig .tc .vmem S64x64 .f32) (harg10 : arg10.IsWhole)
    (x0 x1 x2 : Vec F S1x1024x64 .bf16) (x3 : Vec F S1x64x64 .f32) (xo4 : Vec F S1x1024x64 .f32) (xo5 : Vec F S1x64x64 .f32) (xs0 : Vec F S1024x64 .f32) (xs1 : Vec F S64x64 .f32) (E : Set ℕ) (K : PUnit → sProp 𝕄) :
    iprop(owns (c : Thread nD τ) arg3 fullShare x0 ∗ owns (c : Thread nD τ) arg4 fullShare x1 ∗ owns (c : Thread nD τ) arg5 fullShare x2 ∗ owns (c : Thread nD τ) arg6 fullShare x3
        ∗ owns (c : Thread nD τ) arg7 fullShare xo4 ∗ owns (c : Thread nD τ) arg8 fullShare xo5 ∗ owns (c : Thread nD τ) arg9 fullShare xs0 ∗ owns (c : Thread nD τ) arg10 fullShare xs1
        ∗ (iprop(owns (c : Thread nD τ) arg3 fullShare x0 ∗ owns (c : Thread nD τ) arg4 fullShare x1 ∗ owns (c : Thread nD τ) arg5 fullShare x2 ∗ owns (c : Thread nD τ) arg6 fullShare x3
            ∗ owns (c : Thread nD τ) arg7 fullShare (if t.val % 4 = 3 then k1_pay5 (accStep (grid1.coords t) x0 x1 x2 x3 (xs0, xs1)).1 else xo4)
            ∗ owns (c : Thread nD τ) arg8 fullShare (if (t.val / 4) % 4 = 3 ∧ t.val % 4 = 3 then k1_pay6 (accStep (grid1.coords t) x0 x1 x2 x3 (xs0, xs1)).2 else xo5)
            ∗ owns (c : Thread nD τ) arg9 fullShare (accStep (grid1.coords t) x0 x1 x2 x3 (xs0, xs1)).1
            ∗ owns (c : Thread nD τ) arg10 fullShare (accStep (grid1.coords t) x0 x1 x2 x3 (xs0, xs1)).2) -∗ K ⟨⟩))
      ⊢ wp frame (wpE (defs₀ (F := F)) Variants.none c none) E (cc1__attn_kernel (grid1.coords t) arg3 harg3 arg4 harg4 arg5 harg5 arg6 harg6 arg7 harg7 arg8 harg8 arg9 harg9 arg10 harg10) K := by
  have hN : t.val < 256 := lt_of_lt_of_eq t.isLt (show cfg1.N = 256 from N_1)
  by_cases p3 : (t.val / 4) % 4 = 0
  · by_cases p1 : t.val % 4 = 0
    · exact run1_all_A c t arg3 harg3 arg4 harg4 arg5 harg5 arg6 harg6 arg7 harg7 arg8 harg8 arg9 harg9 arg10 harg10 x0 x1 x2 x3 xo4 xo5 xs0 xs1 E K p1 (by omega) p3 (by omega)
    · by_cases p4 : t.val % 4 = 3
      · exact run1_all_C c t arg3 harg3 arg4 harg4 arg5 harg5 arg6 harg6 arg7 harg7 arg8 harg8 arg9 harg9 arg10 harg10 x0 x1 x2 x3 xo4 xo5 xs0 xs1 E K p1 (by omega) p3 p4 (by omega)
      · exact run1_all_B c t arg3 harg3 arg4 harg4 arg5 harg5 arg6 harg6 arg7 harg7 arg8 harg8 arg9 harg9 arg10 harg10 x0 x1 x2 x3 xo4 xo5 xs0 xs1 E K p1 (by omega) p3 p4
  · by_cases p1 : t.val % 4 = 0
    · exact run1_all_D c t arg3 harg3 arg4 harg4 arg5 harg5 arg6 harg6 arg7 harg7 arg8 harg8 arg9 harg9 arg10 harg10 x0 x1 x2 x3 xo4 xo5 xs0 xs1 E K p1 (by omega) p3 (by omega)
    · by_cases p2 : t.val % 4 ≤ (t.val / 4) % 4
      · by_cases p4 : t.val % 4 = 3
        · exact run1_all_H c t arg3 harg3 arg4 harg4 arg5 harg5 arg6 harg6 arg7 harg7 arg8 harg8 arg9 harg9 arg10 harg10 x0 x1 x2 x3 xo4 xo5 xs0 xs1 E K p1 p2 p3 p4 (by omega)
        · exact run1_all_E c t arg3 harg3 arg4 harg4 arg5 harg5 arg6 harg6 arg7 harg7 arg8 harg8 arg9 harg9 arg10 harg10 x0 x1 x2 x3 xo4 xo5 xs0 xs1 E K p1 p2 p3 p4
      · by_cases p4 : t.val % 4 = 3
        · exact run1_all_G c t arg3 harg3 arg4 harg4 arg5 harg5 arg6 harg6 arg7 harg7 arg8 harg8 arg9 harg9 arg10 harg10 x0 x1 x2 x3 xo4 xo5 xs0 xs1 E K p1 p2 p3 p4 (by omega)
        · exact run1_all_F c t arg3 harg3 arg4 harg4 arg5 harg5 arg6 harg6 arg7 harg7 arg8 harg8 arg9 harg9 arg10 harg10 x0 x1 x2 x3 xo4 xo5 xs0 xs1 E K p1 p2 p3 p4

end Cert.KernelIdeal.Hand

end
-- ==== Proof.AttnRegion.lean ====
/-
  The attention region's body obligation: at every point the body, run on the current staging buffers and the two
  accumulators, takes the region invariant before the point to the invariant after it and leaves every window's
  buffer as the proof data say — the inputs at their blocks, the output block at the new output accumulator where it
  is stored (kj = 3) and untouched elsewhere, the new-state block at the new state accumulator where it is stored
  ((qi, kj) = (3, 3)) and untouched elsewhere.
-/
import proofs.«151280_j41747082117805_1_alg».proof.Proof.AttnData
import proofs.«151280_j41747082117805_1_alg».proof.Proof.AttnRunAll

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered
variable (V : (c : Dev nD) → (b : Ref sig .tc) → Buf (Elt F) ((c : Thread nD τ).loc b))

/-! ## What the body leaves in each window's buffer -/

theorem leaves1_0 (c : Dev nD) (t : Fin cfg1.N) :
    (dat1 V c).leavesExact 0 t = owns (c : Thread nD τ) (ms1_0 t) fullShare (iblk1 V c 0 t) := by
  unfold Dat.leavesExact; rw [liveAt1_0 t, after1_0]
theorem leaves1_1 (c : Dev nD) (t : Fin cfg1.N) :
    (dat1 V c).leavesExact 1 t = owns (c : Thread nD τ) (ms1_1 t) fullShare (iblk1 V c 1 t) := by
  unfold Dat.leavesExact; rw [liveAt1_1 t, after1_1]
theorem leaves1_2 (c : Dev nD) (t : Fin cfg1.N) :
    (dat1 V c).leavesExact 2 t = owns (c : Thread nD τ) (ms1_2 t) fullShare (iblk1 V c 2 t) := by
  unfold Dat.leavesExact; rw [liveAt1_2 t, after1_2]
theorem leaves1_3 (c : Dev nD) (t : Fin cfg1.N) :
    (dat1 V c).leavesExact 3 t = owns (c : Thread nD τ) (ms1_3 t) fullShare (iblk1 V c 3 t) := by
  unfold Dat.leavesExact; rw [liveAt1_3 t, after1_3]

/-- The output block: the new output accumulator where kj = 3, untouched elsewhere. -/
theorem leaves1_4 (c : Dev nD) (t : Fin cfg1.N) :
    (dat1 V c).leavesExact 4 t = (if t.val % 4 = 3 then owns (c : Thread nD τ) (ms1_4 t) fullShare (k1_pay5 (accAt (blk1 V c) t.val t.isLt).1)
      else iprop(∃ d, owns (c : Thread nD τ) (ms1_4 t) fullShare ((dat1 V c).before 4 t d))) := by
  by_cases h : t.val % 4 = 3
  · rw [if_pos h]; unfold Dat.leavesExact; rw [live1_4 t ((hcond1_4 t).mpr h), after1_4]
  · rw [if_neg h]
    exact Dat.leavesExact_idle (dat1 V c) 4 t (idle1_4 t (fun hc => h ((hcond1_4 t).mp hc))) (noFlush1_4 t (fun hc => h ((hcond1_4 t).mp hc)))

/-- The new-state block: the new state accumulator where (qi, kj) = (3, 3), untouched elsewhere. -/
theorem leaves1_5 (c : Dev nD) (t : Fin cfg1.N) :
    (dat1 V c).leavesExact 5 t = (if (t.val / 4) % 4 = 3 ∧ t.val % 4 = 3 then owns (c : Thread nD τ) (ms1_5 t) fullShare (k1_pay6 (accAt (blk1 V c) t.val t.isLt).2)
      else iprop(∃ d, owns (c : Thread nD τ) (ms1_5 t) fullShare ((dat1 V c).before 5 t d))) := by
  by_cases h : (t.val / 4) % 4 = 3 ∧ t.val % 4 = 3
  · rw [if_pos h]; unfold Dat.leavesExact; rw [live1_5 t ((hcond1_5 t).mpr h), after1_5]
  · rw [if_neg h]
    exact Dat.leavesExact_idle (dat1 V c) 5 t (idle1_5 t (fun hc => h ((hcond1_5 t).mp hc))) (noFlush1_5 t (fun hc => h ((hcond1_5 t).mp hc)))

/-- Handing the output block back: the new output accumulator where kj = 3, the contents it was handed elsewhere. -/
theorem give1_4 (c : Dev nD) (t : Fin cfg1.N) (d4 : Vec F S1x1024x64 .f32) (a : Vec F S1x1024x64 .f32) :
    owns (c : Thread nD τ) (ms1_4 t) fullShare (if t.val % 4 = 3 then a else (dat1 V c).before 4 t d4)
      ⊢ (if t.val % 4 = 3 then owns (c : Thread nD τ) (ms1_4 t) fullShare a
          else iprop(∃ d, owns (c : Thread nD τ) (ms1_4 t) fullShare ((dat1 V c).before 4 t d)) : sProp 𝕄) := by
  by_cases h : t.val % 4 = 3
  · rw [if_pos h, if_pos h]; try exact Idealize.SL.BI.Entails.refl _
  · rw [if_neg h, if_neg h]; iintro H; iexists _; iexact H

/-- Handing the new-state block back: the new state accumulator where (qi, kj) = (3, 3), the contents it was handed elsewhere. -/
theorem give1_5 (c : Dev nD) (t : Fin cfg1.N) (d5 : Vec F S1x64x64 .f32) (a : Vec F S1x64x64 .f32) :
    owns (c : Thread nD τ) (ms1_5 t) fullShare (if (t.val / 4) % 4 = 3 ∧ t.val % 4 = 3 then a else (dat1 V c).before 5 t d5)
      ⊢ (if (t.val / 4) % 4 = 3 ∧ t.val % 4 = 3 then owns (c : Thread nD τ) (ms1_5 t) fullShare a
          else iprop(∃ d, owns (c : Thread nD τ) (ms1_5 t) fullShare ((dat1 V c).before 5 t d)) : sProp 𝕄) := by
  by_cases h : (t.val / 4) % 4 = 3 ∧ t.val % 4 = 3
  · rw [if_pos h, if_pos h]; try exact Idealize.SL.BI.Entails.refl _
  · rw [if_neg h, if_neg h]; iintro H; iexists _; iexact H

/-- The accumulators' contents forgotten: the invariant after a point gives the class's back. -/
theorem accs_forget (c : Dev nD) (a : Vec F S1024x64 .f32) (b : Vec F S64x64 .f32) :
    iprop(owns (c : Thread nD τ) scM1_0 fullShare a ∗ owns (c : Thread nD τ) scM1_1 fullShare b ∗ others1 c ∗ (∃ r, prngReg c r))
      ⊢ (Pipeline.ΦA spec1 c : sProp 𝕄) := by
  have h : iprop(owns (c : Thread nD τ) scM1_0 fullShare a ∗ owns (c : Thread nD τ) scM1_1 fullShare b ∗ others1 c ∗ (∃ r, prngReg c r))
      ⊢ (iprop((∃ d, owns (c : Thread nD τ) scM1_0 fullShare d) ∗ (∃ d, owns (c : Thread nD τ) scM1_1 fullShare d) ∗ others1 c ∗ (∃ r, prngReg c r)) : sProp 𝕄) := by
    iintro ⟨HS0, HS1, Hoth, Hg⟩
    isplitl [HS0]; · iexists _; iexact HS0
    isplitl [HS1]; · iexists _; iexact HS1
    isplitl [Hoth]; · iexact Hoth
    iexact Hg
  exact h.trans (PhiA1_join c)

/-! ## The body obligation -/

/-- What the body is called with at point `t`: the invariant, the core owing nothing, each window's current buffer at
    what the pipeline left in it. -/
def bodyPre1 (c : Dev nD) (t : Fin cfg1.N) : sProp 𝕄 :=
  iprop((dat1 V c).Φ t.castSucc ∗ (dat1 V c).owesAt () t.castSucc
    ∗ (∃ d, owns (c : Thread nD τ) (ms1_0 t) fullShare ((dat1 V c).before 0 t d))
    ∗ (∃ d, owns (c : Thread nD τ) (ms1_1 t) fullShare ((dat1 V c).before 1 t d))
    ∗ (∃ d, owns (c : Thread nD τ) (ms1_2 t) fullShare ((dat1 V c).before 2 t d))
    ∗ (∃ d, owns (c : Thread nD τ) (ms1_3 t) fullShare ((dat1 V c).before 3 t d))
    ∗ (∃ d, owns (c : Thread nD τ) (ms1_4 t) fullShare ((dat1 V c).before 4 t d))
    ∗ (∃ d, owns (c : Thread nD τ) (ms1_5 t) fullShare ((dat1 V c).before 5 t d)))

/-- And what it returns. -/
def bodyPost1 (c : Dev nD) (t : Fin cfg1.N) : sProp 𝕄 :=
  iprop((dat1 V c).Φ t.succ ∗ (dat1 V c).owesAt () t.succ
    ∗ (dat1 V c).leavesExact 0 t ∗ (dat1 V c).leavesExact 1 t ∗ (dat1 V c).leavesExact 2 t
    ∗ (dat1 V c).leavesExact 3 t ∗ (dat1 V c).leavesExact 4 t ∗ (dat1 V c).leavesExact 5 t)

/-- The step of the recursion at a point, from given accumulators, IS the recursion's value there: at the first point
    whatever the accumulators held is overwritten, at a later one they hold what the point before left. -/
theorem accAt_step_first (c : Dev nD) (t : Fin cfg1.N) (hz : t.val = 0) (a : Acc F) :
    accStep (grid1.coords t) (iblk1 V c 0 t) (iblk1 V c 1 t) (iblk1 V c 2 t) (iblk1 V c 3 t) a = accAt (blk1 V c) t.val t.isLt := by
  rw [accAt_first (blk1 V c) t hz]
  exact accStep_reset _ _ _ _ _ _ _ (by rw [coords1_1 t, hz]) (by rw [coords1_2 t, hz])

theorem accAt_step_pos (c : Dev nD) (t : Fin cfg1.N) (hz : t.val ≠ 0) :
    accStep (grid1.coords t) (iblk1 V c 0 t) (iblk1 V c 1 t) (iblk1 V c 2 t) (iblk1 V c 3 t)
        ((accAt (blk1 V c) (t.val - 1) (Nat.lt_of_lt_of_le (Nat.sub_lt (Nat.pos_of_ne_zero hz) Nat.one_pos) (Nat.le_of_lt t.isLt))).1,
         (accAt (blk1 V c) (t.val - 1) (Nat.lt_of_lt_of_le (Nat.sub_lt (Nat.pos_of_ne_zero hz) Nat.one_pos) (Nat.le_of_lt t.isLt))).2)
      = accAt (blk1 V c) t.val t.isLt := by
  rw [accAt_pos (blk1 V c) t hz]; rfl

set_option maxHeartbeats 1600000 in
/-- The body at any point. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3]
  rw [show (dat1 V c).owesAt () t.succ = (dat1 V c).owesAt () t.castSucc from rfl]
  rw [show (dat1 V c).Φ t.succ = PhiS1 V c (t.val + 1) t.isLt from rfl, PhiS1_succ]
  rw [leaves1_0, leaves1_1, leaves1_2, leaves1_3, leaves1_4, leaves1_5, PhiS1_castSucc]
  by_cases hz : t.val = 0
  · rw [PhiS1_zero V c _ _ hz]
    iintro ⟨HΦ, Ho, ⟨%d0, H0⟩, ⟨%d1, H1⟩, ⟨%d2, H2⟩, ⟨%d3, H3⟩, ⟨%d4, H4⟩, ⟨%d5, H5⟩⟩
    ihave HΦ' := (PhiA1_split c) $$ HΦ
    icases HΦ' with ⟨⟨%a0, HS0⟩, ⟨%a1, HS1⟩, Hoth, Hg⟩
    iapply (run1_all c t _ _ _ _ _ _ _ _ _ _ _ _ _ _ _ _ (iblk1 V c 0 t) (iblk1 V c 1 t) (iblk1 V c 2 t) (iblk1 V c 3 t)
      ((dat1 V c).before 4 t d4) ((dat1 V c).before 5 t d5) a0 a1 Set.univ _)
    isplitl [H0]; · iexact H0
    isplitl [H1]; · iexact H1
    isplitl [H2]; · iexact H2
    isplitl [H3]; · iexact H3
    isplitl [H4]; · iexact H4
    isplitl [H5]; · iexact H5
    isplitl [HS0]; · iexact HS0
    isplitl [HS1]; · iexact HS1
    rw [accAt_step_first V c t hz (a0, a1)]
    iintro ⟨H0, H1, H2, H3, H4, H5, HS0, HS1⟩
    isplitl [HS0 HS1 Hoth Hg]
    · isplitl [HS0]; · iexact HS0
      isplitl [HS1]; · iexact HS1
      isplitl [Hoth]; · iexact Hoth
      iexact Hg
    isplitl [Ho]; · iexact Ho
    isplitl [H0]; · iexact H0
    isplitl [H1]; · iexact H1
    isplitl [H2]; · iexact H2
    isplitl [H3]; · iexact H3
    isplitl [H4]
    · iapply (give1_4 V c t d4 _); iexact H4
    · iapply (give1_5 V c t d5 _); iexact H5
  · rw [PhiS1_pos V c _ _ hz]
    iintro ⟨⟨HS0, HS1, Hoth, Hg⟩, Ho, ⟨%d0, H0⟩, ⟨%d1, H1⟩, ⟨%d2, H2⟩, ⟨%d3, H3⟩, ⟨%d4, H4⟩, ⟨%d5, H5⟩⟩
    iapply (run1_all c t _ _ _ _ _ _ _ _ _ _ _ _ _ _ _ _ (iblk1 V c 0 t) (iblk1 V c 1 t) (iblk1 V c 2 t) (iblk1 V c 3 t)
      ((dat1 V c).before 4 t d4) ((dat1 V c).before 5 t d5) _ _ Set.univ _)
    isplitl [H0]; · iexact H0
    isplitl [H1]; · iexact H1
    isplitl [H2]; · iexact H2
    isplitl [H3]; · iexact H3
    isplitl [H4]; · iexact H4
    isplitl [H5]; · iexact H5
    isplitl [HS0]; · iexact HS0
    isplitl [HS1]; · iexact HS1
    rw [accAt_step_pos V c t hz]
    iintro ⟨H0, H1, H2, H3, H4, H5, HS0, HS1⟩
    isplitl [HS0 HS1 Hoth Hg]
    · isplitl [HS0]; · iexact HS0
      isplitl [HS1]; · iexact HS1
      isplitl [Hoth]; · iexact Hoth
      iexact Hg
    isplitl [Ho]; · iexact Ho
    isplitl [H0]; · iexact H0
    isplitl [H1]; · iexact H1
    isplitl [H2]; · iexact H2
    isplitl [H3]; · iexact H3
    isplitl [H4]
    · iapply (give1_4 V c t d4 _); iexact H4
    · iapply (give1_5 V c t d5 _); iexact H5

/-- The library's body obligation, at every point. -/
theorem body_obligation1 (c : Dev nD) : BodyObligation (dat1 (F := F) V c) (defs₀ (F := F)) Variants.none () Set.univ := fun t => by
  rw [bigSep_W1, bigSep_W1]
  exact sound_body1 V c t

/-- What the launch hands the region is the invariant before the first point. -/
theorem hin1 (c : Dev nD) : Pipeline.ΦA spec1 c ⊢ (dat1 V c).Φ 0 := by
  rw [show (dat1 V c).Φ 0 = PhiS1 V c 0 (Nat.zero_le _) from rfl, PhiS1_zero V c 0 _ rfl]
  try exact Idealize.SL.BI.Entails.refl _

/-- After the last point the invariant gives it back: the accumulators' contents are forgotten. -/
theorem hout1 (c : Dev nD) : (dat1 V c).Φ (Fin.last cfg1.N) ⊢ Pipeline.ΦA spec1 c := by
  rw [show (dat1 V c).Φ (Fin.last cfg1.N) = PhiS1 V c (Fin.last cfg1.N).val (Nat.le_of_lt_succ (Fin.last cfg1.N).isLt) from rfl,
    PhiS1_pos V c _ _ (by rw [Fin.val_last]; exact (by decide : cfg1.N ≠ 0))]
  exact accs_forget c _ _

end Cert.KernelIdeal.Hand

end
-- ==== Proof.MainRun.lean ====
/-
  The whole run of the program: a stretch of layout operations, the projection launch, the stretch that re-lays its
  result into per-head queries, keys and values, the attention launch, the stretch that re-lays the attention output
  into rows, and the output-projection launch. Each boundary between two of these six pieces gets a name for what
  every buffer holds there; the run is assembled from the three launches' proof data over those names, and its
  conclusion says what every buffer holds at the end. From that: the arguments end as they were launched, and the two
  results are what the second and third launches' write-backs leave.
-/
import proofs.«151280_j41747082117805_1_alg».proof.Proof.RegionQkv
import proofs.«151280_j41747082117805_1_alg».proof.Proof.RegionOut
import proofs.«151280_j41747082117805_1_alg».proof.Proof.AttnRegion
import proofs.«151280_j41747082117805_1_alg».proof.Proof.Gen.KernelIdeal.Regions

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## What the buffers hold at each boundary -/

/-- At launch. -/
abbrev W0 : Dev nD → Valuation τ sig (Elt F) := fun c b => (s₀ m ρ).mem ((c : Dev nD), b)
/-- After the first stretch of layout operations: what the projection launch is entered with. -/
abbrev W1 : Dev nD → Valuation τ sig (Elt F) := fun c => StableHlo.after hostOps0 (W0 m ρ c)
abbrev E1 : (c : Dev nD) → (b : Ref sig .tc) → Buf (Elt F) ((c : Thread nD τ).loc b) := fun c b => W1 m ρ c b
/-- When the projection launch is left: its windows' arrays at what the write-backs leave, every other buffer as it was entered. -/
def W2 (c : Dev nD) : Valuation τ sig (Elt F) :=
  Pipeline.withArrays spec0 c (W1 m ρ c) fun w => (dat0 (E1 m ρ) c).arrAt w cfg0.N
theorem W2_arr (c : Dev nD) (w : Fin cfg0.W) :
    W2 m ρ c (Proc.devRef .tc (Pipeline.arrRef spec0 w)) = (dat0 (E1 m ρ) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m ρ c (Proc.devRef .tc b) = W1 m ρ c (Proc.devRef .tc b) := by
  unfold W2; exact Pipeline.withArrays_of_ne spec0 c _ _ b hb
/-- An input window's array is left as it was entered. -/
theorem W2_in (c : Dev nD) (w : Fin cfg0.W) (hin : (cfg0.win w).isOut = false) :
    W2 m ρ c (Proc.devRef .tc (Pipeline.arrRef spec0 w)) = W1 m ρ c (Proc.devRef .tc (Pipeline.arrRef spec0 w)) :=
  (W2_arr m ρ c w).trans (((dat0 (E1 m ρ) c).arrAt_in w hin _).trans (A_eq0 (E1 m ρ) c w))
/-- The same read at the TensorCore's references. -/
abbrev E2 : (c : Dev nD) → (b : Ref sig .tc) → Buf (Elt F) ((c : Thread nD τ).loc b) := fun c b => W2 m ρ c b
theorem hF0 (c : Dev nD) (w : Fin cfg0.W) : (dat0 (E1 m ρ) c).arrAt w cfg0.N = E2 m ρ c (Pipeline.arrRef spec0 w) :=
  (W2_arr m ρ c w).symm
theorem hrest0 (c : Dev nD) : ∀ b, b ∉ Finset.univ.image (Pipeline.arrRef spec0) → E2 m ρ c b = E1 m ρ c b :=
  fun b hb => W2_of_ne m ρ c b fun w e => hb (Finset.mem_image.mpr ⟨w, Finset.mem_univ _, e⟩)

/-- After the second stretch: what the attention launch is entered with. -/
abbrev W3 : Dev nD → Valuation τ sig (Elt F) := fun c => StableHlo.after hostOps1 (W2 m ρ c)
abbrev E3 : (c : Dev nD) → (b : Ref sig .tc) → Buf (Elt F) ((c : Thread nD τ).loc b) := fun c b => W3 m ρ c b
/-- When the attention launch is left: its windows' arrays at what the write-backs leave, every other buffer as it was entered. -/
def W4 (c : Dev nD) : Valuation τ sig (Elt F) :=
  Pipeline.withArrays spec1 c (W3 m ρ c) fun w => (dat1 (E3 m ρ) c).arrAt w cfg1.N
theorem W4_arr (c : Dev nD) (w : Fin cfg1.W) :
    W4 m ρ c (Proc.devRef .tc (Pipeline.arrRef spec1 w)) = (dat1 (E3 m ρ) c).arrAt w cfg1.N := by
  unfold W4; exact Pipeline.withArrays_arr spec1 launch1.win.arr_inj c _ _ w
theorem W4_of_ne (c : Dev nD) (b : Ref sig .tc) (hb : ∀ w, Pipeline.arrRef spec1 w ≠ b) :
    W4 m ρ c (Proc.devRef .tc b) = W3 m ρ c (Proc.devRef .tc b) := by
  unfold W4; exact Pipeline.withArrays_of_ne spec1 c _ _ b hb
/-- An input window's array is left as it was entered. -/
theorem W4_in (c : Dev nD) (w : Fin cfg1.W) (hin : (cfg1.win w).isOut = false) :
    W4 m ρ c (Proc.devRef .tc (Pipeline.arrRef spec1 w)) = W3 m ρ c (Proc.devRef .tc (Pipeline.arrRef spec1 w)) :=
  (W4_arr m ρ c w).trans (((dat1 (E3 m ρ) c).arrAt_in w hin _).trans (A_eq1 (E3 m ρ) c w))
/-- The same read at the TensorCore's references. -/
abbrev E4 : (c : Dev nD) → (b : Ref sig .tc) → Buf (Elt F) ((c : Thread nD τ).loc b) := fun c b => W4 m ρ c b
theorem hF1 (c : Dev nD) (w : Fin cfg1.W) : (dat1 (E3 m ρ) c).arrAt w cfg1.N = E4 m ρ c (Pipeline.arrRef spec1 w) :=
  (W4_arr m ρ c w).symm
theorem hrest1 (c : Dev nD) : ∀ b, b ∉ Finset.univ.image (Pipeline.arrRef spec1) → E4 m ρ c b = E3 m ρ c b :=
  fun b hb => W4_of_ne m ρ c b fun w e => hb (Finset.mem_image.mpr ⟨w, Finset.mem_univ _, e⟩)

/-- After the third stretch: what the output-projection launch is entered with. -/
abbrev W5 : Dev nD → Valuation τ sig (Elt F) := fun c => StableHlo.after hostOps2 (W4 m ρ c)
abbrev E5 : (c : Dev nD) → (b : Ref sig .tc) → Buf (Elt F) ((c : Thread nD τ).loc b) := fun c b => W5 m ρ c b
/-- When the output-projection launch is left: its windows' arrays at what the write-backs leave, every other buffer as it was entered. -/
def W6 (c : Dev nD) : Valuation τ sig (Elt F) :=
  Pipeline.withArrays spec2 c (W5 m ρ c) fun w => (dat2 (E5 m ρ) c).arrAt w cfg2.N
theorem W6_arr (c : Dev nD) (w : Fin cfg2.W) :
    W6 m ρ c (Proc.devRef .tc (Pipeline.arrRef spec2 w)) = (dat2 (E5 m ρ) c).arrAt w cfg2.N := by
  unfold W6; exact Pipeline.withArrays_arr spec2 launch2.win.arr_inj c _ _ w
theorem W6_of_ne (c : Dev nD) (b : Ref sig .tc) (hb : ∀ w, Pipeline.arrRef spec2 w ≠ b) :
    W6 m ρ c (Proc.devRef .tc b) = W5 m ρ c (Proc.devRef .tc b) := by
  unfold W6; exact Pipeline.withArrays_of_ne spec2 c _ _ b hb
/-- An input window's array is left as it was entered. -/
theorem W6_in (c : Dev nD) (w : Fin cfg2.W) (hin : (cfg2.win w).isOut = false) :
    W6 m ρ c (Proc.devRef .tc (Pipeline.arrRef spec2 w)) = W5 m ρ c (Proc.devRef .tc (Pipeline.arrRef spec2 w)) :=
  (W6_arr m ρ c w).trans (((dat2 (E5 m ρ) c).arrAt_in w hin _).trans (A_eq2 (E5 m ρ) c w))
/-- The same read at the TensorCore's references. -/
abbrev E6 : (c : Dev nD) → (b : Ref sig .tc) → Buf (Elt F) ((c : Thread nD τ).loc b) := fun c b => W6 m ρ c b
theorem hF2 (c : Dev nD) (w : Fin cfg2.W) : (dat2 (E5 m ρ) c).arrAt w cfg2.N = E6 m ρ c (Pipeline.arrRef spec2 w) :=
  (W6_arr m ρ c w).symm
theorem hrest2 (c : Dev nD) : ∀ b, b ∉ Finset.univ.image (Pipeline.arrRef spec2) → E6 m ρ c b = E5 m ρ c b :=
  fun b hb => W6_of_ne m ρ c b fun w e => hb (Finset.mem_image.mpr ⟨w, Finset.mem_univ _, e⟩)

/-! ## The arguments end as launched

No layout operation writes an argument, and a launch only reads one (through an input window) or does not touch it. -/

theorem W1_main_arg0 (c : Dev nD) : W1 m ρ c (Proc.devRef .tc main_arg0) = m ((c : Thread nD τ).loc main_arg0) :=
  calc W1 m ρ c (Proc.devRef .tc main_arg0)
    _ = W0 m ρ c (Proc.devRef .tc main_arg0) := StableHlo.after_of_writes_sub hostOps0 _ hostOps0_writes (by decide)
    _ = m ((c : Thread nD τ).loc main_arg0) := rfl
theorem W2_main_arg0 (c : Dev nD) : W2 m ρ c (Proc.devRef .tc main_arg0) = m ((c : Thread nD τ).loc main_arg0) :=
  calc W2 m ρ c (Proc.devRef .tc main_arg0)
    _ = W1 m ρ c (Proc.devRef .tc main_arg0) := W2_of_ne m ρ c main_arg0 (by decide)
    _ = m ((c : Thread nD τ).loc main_arg0) := W1_main_arg0 m ρ c
theorem W3_main_arg0 (c : Dev nD) : W3 m ρ c (Proc.devRef .tc main_arg0) = m ((c : Thread nD τ).loc main_arg0) :=
  calc W3 m ρ c (Proc.devRef .tc main_arg0)
    _ = W2 m ρ c (Proc.devRef .tc main_arg0) := StableHlo.after_of_writes_sub hostOps1 _ hostOps1_writes (by decide)
    _ = m ((c : Thread nD τ).loc main_arg0) := W2_main_arg0 m ρ c
theorem W4_main_arg0 (c : Dev nD) : W4 m ρ c (Proc.devRef .tc main_arg0) = m ((c : Thread nD τ).loc main_arg0) :=
  calc W4 m ρ c (Proc.devRef .tc main_arg0)
    _ = W3 m ρ c (Proc.devRef .tc main_arg0) := W4_in m ρ c 3 rfl
    _ = m ((c : Thread nD τ).loc main_arg0) := W3_main_arg0 m ρ c
theorem W5_main_arg0 (c : Dev nD) : W5 m ρ c (Proc.devRef .tc main_arg0) = m ((c : Thread nD τ).loc main_arg0) :=
  calc W5 m ρ c (Proc.devRef .tc main_arg0)
    _ = W4 m ρ c (Proc.devRef .tc main_arg0) := StableHlo.after_of_writes_sub hostOps2 _ hostOps2_writes (by decide)
    _ = m ((c : Thread nD τ).loc main_arg0) := W4_main_arg0 m ρ c
theorem W6_main_arg0 (c : Dev nD) : W6 m ρ c (Proc.devRef .tc main_arg0) = m ((c : Thread nD τ).loc main_arg0) :=
  calc W6 m ρ c (Proc.devRef .tc main_arg0)
    _ = W5 m ρ c (Proc.devRef .tc main_arg0) := W6_of_ne m ρ c main_arg0 (by decide)
    _ = m ((c : Thread nD τ).loc main_arg0) := W5_main_arg0 m ρ c

theorem W1_main_arg1 (c : Dev nD) : W1 m ρ c (Proc.devRef .tc main_arg1) = m ((c : Thread nD τ).loc main_arg1) :=
  calc W1 m ρ c (Proc.devRef .tc main_arg1)
    _ = W0 m ρ c (Proc.devRef .tc main_arg1) := StableHlo.after_of_writes_sub hostOps0 _ hostOps0_writes (by decide)
    _ = m ((c : Thread nD τ).loc main_arg1) := rfl
theorem W2_main_arg1 (c : Dev nD) : W2 m ρ c (Proc.devRef .tc main_arg1) = m ((c : Thread nD τ).loc main_arg1) :=
  calc W2 m ρ c (Proc.devRef .tc main_arg1)
    _ = W1 m ρ c (Proc.devRef .tc main_arg1) := W2_in m ρ c 0 rfl
    _ = m ((c : Thread nD τ).loc main_arg1) := W1_main_arg1 m ρ c
theorem W3_main_arg1 (c : Dev nD) : W3 m ρ c (Proc.devRef .tc main_arg1) = m ((c : Thread nD τ).loc main_arg1) :=
  calc W3 m ρ c (Proc.devRef .tc main_arg1)
    _ = W2 m ρ c (Proc.devRef .tc main_arg1) := StableHlo.after_of_writes_sub hostOps1 _ hostOps1_writes (by decide)
    _ = m ((c : Thread nD τ).loc main_arg1) := W2_main_arg1 m ρ c
theorem W4_main_arg1 (c : Dev nD) : W4 m ρ c (Proc.devRef .tc main_arg1) = m ((c : Thread nD τ).loc main_arg1) :=
  calc W4 m ρ c (Proc.devRef .tc main_arg1)
    _ = W3 m ρ c (Proc.devRef .tc main_arg1) := W4_of_ne m ρ c main_arg1 (by decide)
    _ = m ((c : Thread nD τ).loc main_arg1) := W3_main_arg1 m ρ c
theorem W5_main_arg1 (c : Dev nD) : W5 m ρ c (Proc.devRef .tc main_arg1) = m ((c : Thread nD τ).loc main_arg1) :=
  calc W5 m ρ c (Proc.devRef .tc main_arg1)
    _ = W4 m ρ c (Proc.devRef .tc main_arg1) := StableHlo.after_of_writes_sub hostOps2 _ hostOps2_writes (by decide)
    _ = m ((c : Thread nD τ).loc main_arg1) := W4_main_arg1 m ρ c
theorem W6_main_arg1 (c : Dev nD) : W6 m ρ c (Proc.devRef .tc main_arg1) = m ((c : Thread nD τ).loc main_arg1) :=
  calc W6 m ρ c (Proc.devRef .tc main_arg1)
    _ = W5 m ρ c (Proc.devRef .tc main_arg1) := W6_of_ne m ρ c main_arg1 (by decide)
    _ = m ((c : Thread nD τ).loc main_arg1) := W5_main_arg1 m ρ c

theorem W1_main_arg2 (c : Dev nD) : W1 m ρ c (Proc.devRef .tc main_arg2) = m ((c : Thread nD τ).loc main_arg2) :=
  calc W1 m ρ c (Proc.devRef .tc main_arg2)
    _ = W0 m ρ c (Proc.devRef .tc main_arg2) := StableHlo.after_of_writes_sub hostOps0 _ hostOps0_writes (by decide)
    _ = m ((c : Thread nD τ).loc main_arg2) := rfl
theorem W2_main_arg2 (c : Dev nD) : W2 m ρ c (Proc.devRef .tc main_arg2) = m ((c : Thread nD τ).loc main_arg2) :=
  calc W2 m ρ c (Proc.devRef .tc main_arg2)
    _ = W1 m ρ c (Proc.devRef .tc main_arg2) := W2_in m ρ c 1 rfl
    _ = m ((c : Thread nD τ).loc main_arg2) := W1_main_arg2 m ρ c
theorem W3_main_arg2 (c : Dev nD) : W3 m ρ c (Proc.devRef .tc main_arg2) = m ((c : Thread nD τ).loc main_arg2) :=
  calc W3 m ρ c (Proc.devRef .tc main_arg2)
    _ = W2 m ρ c (Proc.devRef .tc main_arg2) := StableHlo.after_of_writes_sub hostOps1 _ hostOps1_writes (by decide)
    _ = m ((c : Thread nD τ).loc main_arg2) := W2_main_arg2 m ρ c
theorem W4_main_arg2 (c : Dev nD) : W4 m ρ c (Proc.devRef .tc main_arg2) = m ((c : Thread nD τ).loc main_arg2) :=
  calc W4 m ρ c (Proc.devRef .tc main_arg2)
    _ = W3 m ρ c (Proc.devRef .tc main_arg2) := W4_of_ne m ρ c main_arg2 (by decide)
    _ = m ((c : Thread nD τ).loc main_arg2) := W3_main_arg2 m ρ c
theorem W5_main_arg2 (c : Dev nD) : W5 m ρ c (Proc.devRef .tc main_arg2) = m ((c : Thread nD τ).loc main_arg2) :=
  calc W5 m ρ c (Proc.devRef .tc main_arg2)
    _ = W4 m ρ c (Proc.devRef .tc main_arg2) := StableHlo.after_of_writes_sub hostOps2 _ hostOps2_writes (by decide)
    _ = m ((c : Thread nD τ).loc main_arg2) := W4_main_arg2 m ρ c
theorem W6_main_arg2 (c : Dev nD) : W6 m ρ c (Proc.devRef .tc main_arg2) = m ((c : Thread nD τ).loc main_arg2) :=
  calc W6 m ρ c (Proc.devRef .tc main_arg2)
    _ = W5 m ρ c (Proc.devRef .tc main_arg2) := W6_of_ne m ρ c main_arg2 (by decide)
    _ = m ((c : Thread nD τ).loc main_arg2) := W5_main_arg2 m ρ c

theorem W1_main_arg3 (c : Dev nD) : W1 m ρ c (Proc.devRef .tc main_arg3) = m ((c : Thread nD τ).loc main_arg3) :=
  calc W1 m ρ c (Proc.devRef .tc main_arg3)
    _ = W0 m ρ c (Proc.devRef .tc main_arg3) := StableHlo.after_of_writes_sub hostOps0 _ hostOps0_writes (by decide)
    _ = m ((c : Thread nD τ).loc main_arg3) := rfl
theorem W2_main_arg3 (c : Dev nD) : W2 m ρ c (Proc.devRef .tc main_arg3) = m ((c : Thread nD τ).loc main_arg3) :=
  calc W2 m ρ c (Proc.devRef .tc main_arg3)
    _ = W1 m ρ c (Proc.devRef .tc main_arg3) := W2_of_ne m ρ c main_arg3 (by decide)
    _ = m ((c : Thread nD τ).loc main_arg3) := W1_main_arg3 m ρ c
theorem W3_main_arg3 (c : Dev nD) : W3 m ρ c (Proc.devRef .tc main_arg3) = m ((c : Thread nD τ).loc main_arg3) :=
  calc W3 m ρ c (Proc.devRef .tc main_arg3)
    _ = W2 m ρ c (Proc.devRef .tc main_arg3) := StableHlo.after_of_writes_sub hostOps1 _ hostOps1_writes (by decide)
    _ = m ((c : Thread nD τ).loc main_arg3) := W2_main_arg3 m ρ c
theorem W4_main_arg3 (c : Dev nD) : W4 m ρ c (Proc.devRef .tc main_arg3) = m ((c : Thread nD τ).loc main_arg3) :=
  calc W4 m ρ c (Proc.devRef .tc main_arg3)
    _ = W3 m ρ c (Proc.devRef .tc main_arg3) := W4_of_ne m ρ c main_arg3 (by decide)
    _ = m ((c : Thread nD τ).loc main_arg3) := W3_main_arg3 m ρ c
theorem W5_main_arg3 (c : Dev nD) : W5 m ρ c (Proc.devRef .tc main_arg3) = m ((c : Thread nD τ).loc main_arg3) :=
  calc W5 m ρ c (Proc.devRef .tc main_arg3)
    _ = W4 m ρ c (Proc.devRef .tc main_arg3) := StableHlo.after_of_writes_sub hostOps2 _ hostOps2_writes (by decide)
    _ = m ((c : Thread nD τ).loc main_arg3) := W4_main_arg3 m ρ c
theorem W6_main_arg3 (c : Dev nD) : W6 m ρ c (Proc.devRef .tc main_arg3) = m ((c : Thread nD τ).loc main_arg3) :=
  calc W6 m ρ c (Proc.devRef .tc main_arg3)
    _ = W5 m ρ c (Proc.devRef .tc main_arg3) := W6_of_ne m ρ c main_arg3 (by decide)
    _ = m ((c : Thread nD τ).loc main_arg3) := W5_main_arg3 m ρ c

theorem W1_main_arg4 (c : Dev nD) : W1 m ρ c (Proc.devRef .tc main_arg4) = m ((c : Thread nD τ).loc main_arg4) :=
  calc W1 m ρ c (Proc.devRef .tc main_arg4)
    _ = W0 m ρ c (Proc.devRef .tc main_arg4) := StableHlo.after_of_writes_sub hostOps0 _ hostOps0_writes (by decide)
    _ = m ((c : Thread nD τ).loc main_arg4) := rfl
theorem W2_main_arg4 (c : Dev nD) : W2 m ρ c (Proc.devRef .tc main_arg4) = m ((c : Thread nD τ).loc main_arg4) :=
  calc W2 m ρ c (Proc.devRef .tc main_arg4)
    _ = W1 m ρ c (Proc.devRef .tc main_arg4) := W2_of_ne m ρ c main_arg4 (by decide)
    _ = m ((c : Thread nD τ).loc main_arg4) := W1_main_arg4 m ρ c
theorem W3_main_arg4 (c : Dev nD) : W3 m ρ c (Proc.devRef .tc main_arg4) = m ((c : Thread nD τ).loc main_arg4) :=
  calc W3 m ρ c (Proc.devRef .tc main_arg4)
    _ = W2 m ρ c (Proc.devRef .tc main_arg4) := StableHlo.after_of_writes_sub hostOps1 _ hostOps1_writes (by decide)
    _ = m ((c : Thread nD τ).loc main_arg4) := W2_main_arg4 m ρ c
theorem W4_main_arg4 (c : Dev nD) : W4 m ρ c (Proc.devRef .tc main_arg4) = m ((c : Thread nD τ).loc main_arg4) :=
  calc W4 m ρ c (Proc.devRef .tc main_arg4)
    _ = W3 m ρ c (Proc.devRef .tc main_arg4) := W4_of_ne m ρ c main_arg4 (by decide)
    _ = m ((c : Thread nD τ).loc main_arg4) := W3_main_arg4 m ρ c
theorem W5_main_arg4 (c : Dev nD) : W5 m ρ c (Proc.devRef .tc main_arg4) = m ((c : Thread nD τ).loc main_arg4) :=
  calc W5 m ρ c (Proc.devRef .tc main_arg4)
    _ = W4 m ρ c (Proc.devRef .tc main_arg4) := StableHlo.after_of_writes_sub hostOps2 _ hostOps2_writes (by decide)
    _ = m ((c : Thread nD τ).loc main_arg4) := W4_main_arg4 m ρ c
theorem W6_main_arg4 (c : Dev nD) : W6 m ρ c (Proc.devRef .tc main_arg4) = m ((c : Thread nD τ).loc main_arg4) :=
  calc W6 m ρ c (Proc.devRef .tc main_arg4)
    _ = W5 m ρ c (Proc.devRef .tc main_arg4) := W6_in m ρ c 1 rfl
    _ = m ((c : Thread nD τ).loc main_arg4) := W5_main_arg4 m ρ c

theorem W1_main_arg5 (c : Dev nD) : W1 m ρ c (Proc.devRef .tc main_arg5) = m ((c : Thread nD τ).loc main_arg5) :=
  calc W1 m ρ c (Proc.devRef .tc main_arg5)
    _ = W0 m ρ c (Proc.devRef .tc main_arg5) := StableHlo.after_of_writes_sub hostOps0 _ hostOps0_writes (by decide)
    _ = m ((c : Thread nD τ).loc main_arg5) := rfl
theorem W2_main_arg5 (c : Dev nD) : W2 m ρ c (Proc.devRef .tc main_arg5) = m ((c : Thread nD τ).loc main_arg5) :=
  calc W2 m ρ c (Proc.devRef .tc main_arg5)
    _ = W1 m ρ c (Proc.devRef .tc main_arg5) := W2_of_ne m ρ c main_arg5 (by decide)
    _ = m ((c : Thread nD τ).loc main_arg5) := W1_main_arg5 m ρ c
theorem W3_main_arg5 (c : Dev nD) : W3 m ρ c (Proc.devRef .tc main_arg5) = m ((c : Thread nD τ).loc main_arg5) :=
  calc W3 m ρ c (Proc.devRef .tc main_arg5)
    _ = W2 m ρ c (Proc.devRef .tc main_arg5) := StableHlo.after_of_writes_sub hostOps1 _ hostOps1_writes (by decide)
    _ = m ((c : Thread nD τ).loc main_arg5) := W2_main_arg5 m ρ c
theorem W4_main_arg5 (c : Dev nD) : W4 m ρ c (Proc.devRef .tc main_arg5) = m ((c : Thread nD τ).loc main_arg5) :=
  calc W4 m ρ c (Proc.devRef .tc main_arg5)
    _ = W3 m ρ c (Proc.devRef .tc main_arg5) := W4_of_ne m ρ c main_arg5 (by decide)
    _ = m ((c : Thread nD τ).loc main_arg5) := W3_main_arg5 m ρ c
theorem W5_main_arg5 (c : Dev nD) : W5 m ρ c (Proc.devRef .tc main_arg5) = m ((c : Thread nD τ).loc main_arg5) :=
  calc W5 m ρ c (Proc.devRef .tc main_arg5)
    _ = W4 m ρ c (Proc.devRef .tc main_arg5) := StableHlo.after_of_writes_sub hostOps2 _ hostOps2_writes (by decide)
    _ = m ((c : Thread nD τ).loc main_arg5) := W4_main_arg5 m ρ c
theorem W6_main_arg5 (c : Dev nD) : W6 m ρ c (Proc.devRef .tc main_arg5) = m ((c : Thread nD τ).loc main_arg5) :=
  calc W6 m ρ c (Proc.devRef .tc main_arg5)
    _ = W5 m ρ c (Proc.devRef .tc main_arg5) := W6_of_ne m ρ c main_arg5 (by decide)
    _ = m ((c : Thread nD τ).loc main_arg5) := W5_main_arg5 m ρ c

/-! ## The two results

The new state is the attention launch's sixth window; nothing after that launch writes it. The output rows are the
last launch's fourth window. -/

theorem W6_newState (c : Dev nD) : W6 m ρ c (Proc.devRef .tc main_v10_1) = (dat1 (E3 m ρ) c).arrAt 5 cfg1.N :=
  calc W6 m ρ c (Proc.devRef .tc main_v10_1)
    _ = W5 m ρ c (Proc.devRef .tc main_v10_1) := W6_of_ne m ρ c main_v10_1 (by decide)
    _ = W4 m ρ c (Proc.devRef .tc main_v10_1) := StableHlo.after_of_writes_sub hostOps2 _ hostOps2_writes (by decide)
    _ = (dat1 (E3 m ρ) c).arrAt 5 cfg1.N := W4_arr m ρ c 5

theorem W6_y (c : Dev nD) : W6 m ρ c (Proc.devRef .tc main_v14) = (dat2 (E5 m ρ) c).arrAt 3 cfg2.N := W6_arr m ρ c 3

/-! ## What each launch is entered with, at the arrays its windows stage

The projection launch reads the activations and the weights as launched and the bias as a one-row matrix. The attention
launch reads the three slices of the projection's result, re-laid as [part, head, row, feature], each as a
[head, row, feature] array, and the state as launched. The output-projection launch reads the attention output with
its head axis moved inside the row, the weights as launched and the bias as a one-row matrix. -/

theorem E1_main_arg1 (c : Dev nD) : E1 m ρ c main_arg1 = m ((c : Thread nD τ).loc main_arg1) := W1_main_arg1 m ρ c
theorem E1_main_arg2 (c : Dev nD) : E1 m ρ c main_arg2 = m ((c : Thread nD τ).loc main_arg2) := W1_main_arg2 m ρ c
theorem E1_main_v0 (c : Dev nD) :
    E1 m ρ c main_v0 = shapeCast _ (m ((c : Thread nD τ).loc main_arg3)) shapeCasts_S3072_S1x3072 := by
  show StableHlo.after hostOps0 (W0 m ρ c) (Proc.devRef .tc main_v0) = _
  after_results
  rfl

/-- The projection's result as the launch leaves it. -/
theorem W2_main_v1 (c : Dev nD) : W2 m ρ c (Proc.devRef .tc main_v1) = (dat0 (E1 m ρ) c).arrAt 3 cfg0.N := W2_arr m ρ c 3

theorem E3_main_v5 (c : Dev nD) :
    E3 m ρ c main_v5 = shapeCast _ (extractStridedSlice S1x16x4096x64 ![0, 0, 0, 0] (transpose S3x16x4096x64 [1, 2, 0, 3]
      (shapeCast _ ((dat0 (E1 m ρ) c).arrAt 3 cfg0.N) shapeCasts_S4096x3072_S4096x3x16x64)
      transposes_S4096x3x16x64_S3x16x4096x64_1_2_0_3) slices_S3x16x4096x64_S1x16x4096x64_0_0_0_0) shapeCasts_S1x16x4096x64_S16x4096x64 := by
  show StableHlo.after hostOps1 (W2 m ρ c) (Proc.devRef .tc main_v5) = _
  after_results
  rw [W2_main_v1]
  rfl
theorem E3_main_v7 (c : Dev nD) :
    E3 m ρ c main_v7 = shapeCast _ (extractStridedSlice S1x16x4096x64 ![1, 0, 0, 0] (transpose S3x16x4096x64 [1, 2, 0, 3]
      (shapeCast _ ((dat0 (E1 m ρ) c).arrAt 3 cfg0.N) shapeCasts_S4096x3072_S4096x3x16x64)
      transposes_S4096x3x16x64_S3x16x4096x64_1_2_0_3) slices_S3x16x4096x64_S1x16x4096x64_1_0_0_0) shapeCasts_S1x16x4096x64_S16x4096x64 := by
  show StableHlo.after hostOps1 (W2 m ρ c) (Proc.devRef .tc main_v7) = _
  after_results
  rw [W2_main_v1]
  rfl
theorem E3_main_v9 (c : Dev nD) :
    E3 m ρ c main_v9 = shapeCast _ (extractStridedSlice S1x16x4096x64 ![2, 0, 0, 0] (transpose S3x16x4096x64 [1, 2, 0, 3]
      (shapeCast _ ((dat0 (E1 m ρ) c).arrAt 3 cfg0.N) shapeCasts_S4096x3072_S4096x3x16x64)
      transposes_S4096x3x16x64_S3x16x4096x64_1_2_0_3) slices_S3x16x4096x64_S1x16x4096x64_2_0_0_0) shapeCasts_S1x16x4096x64_S16x4096x64 := by
  show StableHlo.after hostOps1 (W2 m ρ c) (Proc.devRef .tc main_v9) = _
  after_results
  rw [W2_main_v1]
  rfl
theorem E3_main_arg0 (c : Dev nD) : E3 m ρ c main_arg0 = m ((c : Thread nD τ).loc main_arg0) := W3_main_arg0 m ρ c

/-- The attention output as the launch leaves it. -/
theorem W4_main_v10_0 (c : Dev nD) : W4 m ρ c (Proc.devRef .tc main_v10_0) = (dat1 (E3 m ρ) c).arrAt 4 cfg1.N := W4_arr m ρ c 4

theorem E5_main_v12 (c : Dev nD) :
    E5 m ρ c main_v12 = shapeCast _ (transpose S4096x16x64 [1, 0, 2] ((dat1 (E3 m ρ) c).arrAt 4 cfg1.N)
      transposes_S16x4096x64_S4096x16x64_1_0_2) shapeCasts_S4096x16x64_S4096x1024 := by
  show StableHlo.after hostOps2 (W4 m ρ c) (Proc.devRef .tc main_v12) = _
  after_results
  rw [W4_main_v10_0]
  rfl
theorem E5_main_arg4 (c : Dev nD) : E5 m ρ c main_arg4 = m ((c : Thread nD τ).loc main_arg4) := W5_main_arg4 m ρ c
theorem E5_main_v13 (c : Dev nD) :
    E5 m ρ c main_v13 = shapeCast _ (m ((c : Thread nD τ).loc main_arg5)) shapeCasts_S1024_S1x1024 := by
  show StableHlo.after hostOps2 (W4 m ρ c) (Proc.devRef .tc main_v13) = _
  after_results
  rw [W4_main_arg5]
  rfl

/-! ## The proof data per launch and the state a core carries between pieces -/

/-- Each launch's proof data at the contents it is entered with. -/
def pdats : (p : Fin 3) → (c : Dev nD) → Dat τ (Elt F) Unit ℕ (UR sig nD τ) ℕ (Pipeline.pin (pcfgs (F := F)) adm p) c
  | ⟨0, _⟩ => fun c => dat0 (E1 m ρ) c
  | ⟨1, _⟩ => fun c => dat1 (E3 m ρ) c
  | ⟨2, _⟩ => fun c => dat2 (E5 m ρ) c
abbrev 𝒱₀ : Variants := Variants.none
/-- No core owes another anything. -/
abbrev L : GSem nD τ sig → Finset Unit := fun _ => ∅
abbrev lv : GSem nD τ sig → Unit → ℕ := fun _ _ => 0
/-- Beside the buffers a core carries its generator register, at some state, and owes nothing. -/
abbrev R (c : Dev nD) : sProp 𝕄 := iprop((∃ r, prngReg c r) ∗ ∃ W, owes (c : Thread nD τ) (0 : CellTallies nD τ sig Unit) W)
/-- A stretch of layout operations run from the contents `W`: it leaves every buffer at the operations' results. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last state: every buffer at the last boundary's contents, the generator register at some state. -/
abbrev Tₙ (c : Dev nD) : sProp 𝕄 := iprop(StableHlo.held (c : Thread nD τ) (Pipeline.ucRefs τ sig) (W6 m ρ c) ∗ ∃ r, prngReg c r)

/-! ## The three launches

Each is entered from every buffer at the boundary before it and left at the boundary after it: its windows' arrays are
split out of the buffers and put back at what the write-backs leave. The first and third keep nothing from point to
point beyond the generator register; the attention launch's invariant also carries its two accumulators, and is
entered from and left at the plain invariant by the two lemmas its module proves. -/

-- `iapply` of a library lemma stated over the pinned configuration unifies only when unification may unfold plain
-- definitions in a metavariable's type
set_option backward.isDefEq.respectTransparency.types false in
def reg0 : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (body_obligation0 (E1 m ρ) c).loose
  hwaits := Pipeline.hwaits_of_owed_zero _ _ _ _ L lv 0 fun _ _ => rfl
  pre c := iprop(StableHlo.held (c : Thread nD τ) (Pipeline.ucRefs τ sig) (W1 m ρ c) ∗ R c)
  post c := iprop(StableHlo.held (c : Thread nD τ) (Pipeline.ucRefs τ sig) (W2 m ρ c) ∗ R c)
  X c := iprop(∃ r, prngReg c r)
  Y c := iprop(∃ r, prngReg c r)
  Z c := Pipeline.unscopedRest (Ix := Unit) (Name := ℕ) (U := UR sig nD τ) (Lvl := ℕ) spec0 c (E1 m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (E1 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m ρ 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (E1 m ρ c) (E2 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

-- `iapply` of a library lemma stated over the pinned configuration unifies only when unification may unfold plain
-- definitions in a metavariable's type
set_option backward.isDefEq.respectTransparency.types false in
def reg1 : Pipeline.RegionSeg (pcfgs (F := F)) adm (pdats m ρ) () defs₀ 𝒱₀ L lv 1 where
  win := launch1.win.to₀
  block_pos := launch1.block_pos
  stage_whole := launch1.stage_whole
  K := PEmpty
  osem k := k.elim
  ho := Pipeline.OwnSemFacts.none _
  hbody c := (body_obligation1 (E3 m ρ) c).loose
  hwaits := Pipeline.hwaits_of_owed_zero _ _ _ _ L lv 1 fun _ _ => rfl
  pre c := iprop(StableHlo.held (c : Thread nD τ) (Pipeline.ucRefs τ sig) (W3 m ρ c) ∗ R c)
  post c := iprop(StableHlo.held (c : Thread nD τ) (Pipeline.ucRefs τ sig) (W4 m ρ c) ∗ R c)
  X c := iprop(∃ r, prngReg c r)
  Y c := iprop(∃ r, prngReg c r)
  Z c := Pipeline.unscopedRest (Ix := Unit) (Name := ℕ) (U := UR sig nD τ) (Lvl := ℕ) spec1 c (E3 m ρ c)
  hentry c := by
    rw [Pipeline.ownSems0_none]
    have hsplit := Pipeline.arrays_of_unscopedBufs (p := 1) (pcfgs (F := F)) adm (pdats m ρ) launch1.win launch1.arr_whole c
      ((pdats m ρ 1 c).share_full fun _ => rfl) (E3 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine (?_ : _ ⊢ Pipeline.ΦA spec1 c).trans (hin1 (E3 m ρ) c)
    unfold Pipeline.ΦA
    iintro ⟨Hp, -, Hr⟩
    isplitl [Hr]; · iexact Hr
    iexact Hp
  hout c := by
    rw [Pipeline.ownSems0_none]
    refine (hout1 (E3 m ρ) c).trans (?_ : Pipeline.ΦA spec1 c ⊢ _)
    unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m ρ) ((pdats m ρ 1 c).share_full fun _ => rfl)
      (E3 m ρ c) (E4 m ρ c) ((pdats m ρ 1 c).arrAt · cfg1.N) (hF1 m ρ c) (hrest1 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

-- `iapply` of a library lemma stated over the pinned configuration unifies only when unification may unfold plain
-- definitions in a metavariable's type
set_option backward.isDefEq.respectTransparency.types false in
def reg2 : Pipeline.RegionSeg (pcfgs (F := F)) adm (pdats m ρ) () defs₀ 𝒱₀ L lv 2 where
  win := launch2.win.to₀
  block_pos := launch2.block_pos
  stage_whole := launch2.stage_whole
  K := PEmpty
  osem k := k.elim
  ho := Pipeline.OwnSemFacts.none _
  hbody c := (body_obligation2 (E5 m ρ) c).loose
  hwaits := Pipeline.hwaits_of_owed_zero _ _ _ _ L lv 2 fun _ _ => rfl
  pre c := iprop(StableHlo.held (c : Thread nD τ) (Pipeline.ucRefs τ sig) (W5 m ρ c) ∗ R c)
  post c := iprop(Tₙ m ρ c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec2 c (E5 m ρ c)
  hentry c := by
    rw [Pipeline.ownSems0_none]
    have hsplit := Pipeline.arrays_of_unscopedBufs (p := 2) (pcfgs (F := F)) adm (pdats m ρ) launch2.win launch2.arr_whole c
      ((pdats m ρ 2 c).share_full fun _ => rfl) (E5 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 2 c).Φ 0 = Pipeline.ΦA spec2 c from rfl]; unfold Pipeline.ΦA
    iintro ⟨Hp, -, Hr⟩
    isplitl [Hr]; · iexact Hr
    iexact Hp
  hout c := by
    rw [Pipeline.ownSems0_none, show (pdats m ρ 2 c).Φ (Fin.last _) = Pipeline.ΦA spec2 c from rfl]; unfold Pipeline.ΦA
    iintro ⟨Hr, Hp⟩
    isplitl [Hp]; · iexact Hp
    isplitr; · iempintro
    iexact Hr
  hexit c := by
    have hjoin := Pipeline.unscopedBufs_of_arrays (p := 2) (pcfgs (F := F)) adm (Ix := Unit) (Name := ℕ) (U := UR sig nD τ) (Lvl := ℕ)
      launch2.win launch2.arr_whole c (pdats m ρ) ((pdats m ρ 2 c).share_full fun _ => rfl)
      (E5 m ρ c) (E6 m ρ c) ((pdats m ρ 2 c).arrAt · cfg2.N) (hF2 m ρ c) (hrest2 m ρ c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

/-! ## The program as its six pieces, and the run -/

abbrev mainSegs : List (Pipeline.Seg (pcfgs (F := F)) adm (pdats m ρ) () defs₀ 𝒱₀ L lv) :=
  [ .host (hseg hostOps0 hostOps0_sub hostOps0_fresh (W0 m ρ)),
    .region (reg0 m ρ),
    .host (hseg hostOps1 hostOps1_sub hostOps1_fresh (W2 m ρ)),
    .region (reg1 m ρ),
    .host (hseg hostOps2 hostOps2_sub hostOps2_fresh (W4 m ρ)),
    .region (reg2 m ρ) ]
theorem main_run (c : Dev nD) : main (F := F) c = Pipeline.Seg.run (mainSegs m ρ) := (main_chain c).trans (by chain_rfl)

set_option backward.isDefEq.respectTransparency.types false in
/-- Every weakly fair execution of the program from memory `m` with zero counters terminates without a fault, and at
    the end every buffer holds the last boundary's contents. -/
theorem run_all : θ_run defs (onTc (τ := τ) (main (F := F))) ⟨m, fun _ => 0, ρ⟩ (fun r => ∀ c : Dev nD,
      ∀ b ∈ Pipeline.ucRefs τ sig, r.2.mem ((c : Thread nD τ).1, b) = W6 m ρ c b) :=
  Pipeline.θ_run_regions_kit (pcfgs (F := F)) adm (pdats m ρ) () cellOf_inj emb₁ defs₀ 𝒱₀ L lv m ρ main (mainSegs m ρ)
    (fun c Q => by rw [main_run m ρ c])
    (by simp only [mainSegs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W6 m ρ c b)
    (hfin := fun c s' => by
      iintro ⟨⟨Hh, -⟩, HSI⟩
      unfold StableHlo.held
      imodintro
      iapply (pointsTo_read_all (Pipeline.ucRefs τ sig) (fun b => (((c : Thread nD τ)).1, b)) (W6 m ρ c) s')
      isplitl [Hh] <;> iassumption)
    (hQ := fun _ h => h)

/-- The arguments end as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  (θ_run defs _ _).mono (fun r h c =>
    ⟨(h c _ (mem_uc main_arg0 (by decide))).trans (W6_main_arg0 m ρ c),
     (h c _ (mem_uc main_arg1 (by decide))).trans (W6_main_arg1 m ρ c),
     (h c _ (mem_uc main_arg2 (by decide))).trans (W6_main_arg2 m ρ c),
     (h c _ (mem_uc main_arg3 (by decide))).trans (W6_main_arg3 m ρ c),
     (h c _ (mem_uc main_arg4 (by decide))).trans (W6_main_arg4 m ρ c),
     (h c _ (mem_uc main_arg5 (by decide))).trans (W6_main_arg5 m ρ c)⟩) (run_all m ρ)

end Cert.KernelIdeal.Hand

end
-- ==== Proof.Spec.lean ====
/-
  The function both programs compute, index by index, on the extended reals.

  From a state `S : [16, 64, 64]`, activations `x : [4096, 1024]`, projection weights `Wqkv : [1024, 3072]` with bias
  `bqkv : [3072]`, and output weights `Wout : [1024, 1024]` with bias `bout : [1024]`:

  * the projection `qkv t n = (∑ k, x t k · Wqkv k n) + bqkv n`; its 3072 columns are laid out as
    (part, head, feature) with part 0 the queries, 1 the keys, 2 the values: column `part · 1024 + head · 64 + feature`;
  * the causal score `score h t s = ∑ d, q h t d · k h s d` for `s ≤ t` and `0` for `s > t`;
  * the attention output `out h t e = (∑ s, score h t s · v h s e) + ∑ d, q h t d · S h d e`;
  * the new state `S' h d e = S h d e + ∑ t, k h t d · v h t e`;
  * the result `y t n = (∑ j, out (j / 64) t (j % 64) · Wout j n) + bout n`, the heads laid side by side along `j`.

  Every sum is a finite sum on the extended reals, where addition is commutative and associative and `0 · a = 0`;
  nothing here needs an entry to be finite.
-/
import Idealize.ShloMosaic.PureOps.Ideal
import Idealize.ShloMosaic.Lib.ValueIdx

noncomputable section

open scoped BigOperators

namespace Cert.Spec

open Idealize.ShloMosaic Idealize.ShloMosaic.ValueIdx

/-- Arrays of extended reals over literal shapes. -/
abbrev Arr3 (a b c : Nat) : Type := (⟨3, ![a, b, c]⟩ : Shape).Idx → EReal
abbrev Arr2 (a b : Nat) : Type := (⟨2, ![a, b]⟩ : Shape).Idx → EReal
abbrev Arr1 (a : Nat) : Type := (⟨1, ![a]⟩ : Shape).Idx → EReal

/-- The projection at row `t`, column `n`: the row of `x` against the column of the weights, then the bias. -/
def qkv (x : Arr2 4096 1024) (wqkv : Arr2 1024 3072) (bqkv : Arr1 3072) (t : Fin 4096) (n : Fin 3072) : EReal :=
  (∑ k : Fin 1024, x (ix2 t k) * wqkv (ix2 k n)) + bqkv (ix1 n)

/-- The projection's column that holds part `p` (0 query, 1 key, 2 value), head `h`, feature `d`. -/
def col (p : Fin 3) (h : Fin 16) (d : Fin 64) : Fin 3072 :=
  ⟨p.val * 1024 + h.val * 64 + d.val, by have := p.isLt; have := h.isLt; have := d.isLt; omega⟩

/-- Part `p` of the projection as a `[16, 4096, 64]` array: head, position, feature. -/
def part (x : Arr2 4096 1024) (wqkv : Arr2 1024 3072) (bqkv : Arr1 3072) (p : Fin 3) (h : Fin 16) (t : Fin 4096)
    (d : Fin 64) : EReal :=
  qkv x wqkv bqkv t (col p h d)

/-- The causal score of query position `t` against key position `s` in head `h`: their inner product when `s ≤ t`,
    zero after it. -/
def score (x : Arr2 4096 1024) (wqkv : Arr2 1024 3072) (bqkv : Arr1 3072) (h : Fin 16) (t s : Fin 4096) : EReal :=
  if s.val ≤ t.val then ∑ d : Fin 64, part x wqkv bqkv 0 h t d * part x wqkv bqkv 1 h s d else 0

/-- The attention output: the scores against the values, plus the query against the carried state. -/
def out (state : Arr3 16 64 64) (x : Arr2 4096 1024) (wqkv : Arr2 1024 3072) (bqkv : Arr1 3072) (h : Fin 16)
    (t : Fin 4096) (e : Fin 64) : EReal :=
  (∑ s : Fin 4096, score x wqkv bqkv h t s * part x wqkv bqkv 2 h s e)
    + ∑ d : Fin 64, part x wqkv bqkv 0 h t d * state (ix3 h d e)

/-- The new state: the old one plus the keys against the values over every position. -/
def newState (state : Arr3 16 64 64) (x : Arr2 4096 1024) (wqkv : Arr2 1024 3072) (bqkv : Arr1 3072) (h : Fin 16)
    (d e : Fin 64) : EReal :=
  state (ix3 h d e) + ∑ t : Fin 4096, part x wqkv bqkv 1 h t d * part x wqkv bqkv 2 h t e

/-- The head and the feature that column `j` of the re-laid attention output holds. -/
def headOf (j : Fin 1024) : Fin 16 := ⟨j.val / 64, by have := j.isLt; omega⟩
def featOf (j : Fin 1024) : Fin 64 := ⟨j.val % 64, by omega⟩

/-- The result: the re-laid attention output against the output weights, then the bias. -/
def y (state : Arr3 16 64 64) (x : Arr2 4096 1024) (wqkv : Arr2 1024 3072) (bqkv : Arr1 3072) (wout : Arr2 1024 1024)
    (bout : Arr1 1024) (t : Fin 4096) (n : Fin 1024) : EReal :=
  (∑ j : Fin 1024, out state x wqkv bqkv (headOf j) t (featOf j) * wout (ix2 j n)) + bout (ix1 n)

end Cert.Spec

end
-- ==== Proof.HostLayout.lean ====
/-
  The layout steps the host performs between the three kernel launches, each read at an index given by its coordinates,
  over arrays of any element type. Before the first launch the bias vector becomes a one-row matrix. After it the
  4096 x 3072 projection is split: column `n` of a row is (part, head, lane) with `n = part * 1024 + head * 64 + lane`, the
  array is viewed as [4096, 3, 16, 64], permuted to [3, 16, 4096, 64], and each of the three parts is cut out and its unit
  axis dropped, giving [16, 4096, 64]. After the second launch the per-head result [16, 4096, 64] is permuted to
  [4096, 16, 64] and the last two axes are merged, so column `j` of a row is (head `j / 64`, lane `j % 64`).
-/
import proofs.«151280_j41747082117805_1_alg».proof.Proof.Gen.KernelIdeal
import Idealize.ShloMosaic.Lib.Pipeline.Value
import Idealize.ShloMosaic.Lib.ValueIdx
import Idealize.ShloMosaic.Lib.ValueLayout

set_option maxRecDepth 16384

noncomputable section

namespace Cert.KernelIdeal.Hand

open Cert.KernelIdeal Cert.KernelIdeal.Gen
open Idealize.ShloMosaic
open Idealize.ShloMosaic.ValueIdx

variable {α : Type}

/-! ## A vector as a one-row matrix -/

/-- The 3072-long bias viewed as a 1 x 3072 matrix reads, at `(u, n)`, the vector at `n`. -/
theorem biasRow_apply (X : S3072.Idx → α) (u : Fin 1) (n : Fin 3072) :
    shapeCast S1x3072 X shapeCasts_S3072_S1x3072 (ix2 u n) = X (ix1 n) :=
  shapeCast_a_1a_apply X shapeCasts_S3072_S1x3072 u n

/-- The 1024-long bias viewed as a 1 x 1024 matrix reads, at `(u, n)`, the vector at `n`. -/
theorem outBiasRow_apply (X : S1024.Idx → α) (u : Fin 1) (n : Fin 1024) :
    shapeCast S1x1024 X shapeCasts_S1024_S1x1024 (ix2 u n) = X (ix1 n) :=
  shapeCast_a_1a_apply X shapeCasts_S1024_S1x1024 u n

/-! ## The projection split into its three parts, by head -/

/-- The 4096 x 3072 array viewed as [4096, 3, 16, 64] reads, at `(t, p, h, d)`, the array at row `t` and column
    `p * 1024 + h * 64 + d`: both are the same row-major position. -/
theorem splitCols_apply (X : S4096x3072.Idx → α) (t : Fin 4096) (p : Fin 3) (h : Fin 16) (d : Fin 64) :
    shapeCast S4096x3x16x64 X shapeCasts_S4096x3072_S4096x3x16x64 (ix4 t p h d)
      = X (ix2 t ⟨p.val * 1024 + h.val * 64 + d.val, by have := p.isLt; have := h.isLt; have := d.isLt; omega⟩) :=
  shapeCast_apply X shapeCasts_S4096x3072_S4096x3x16x64 _ _ (by
    rw [Shape.rowMajor_val_two, Shape.rowMajor_val_four]
    show t.val * 3072 + (p.val * 1024 + h.val * 64 + d.val) = ((t.val * 3 + p.val) * 16 + h.val) * 64 + d.val
    omega)

/-- The permutation [1, 2, 0, 3] of a [4096, 3, 16, 64] array reads, at `(p, h, t, d)`, the operand at `(t, p, h, d)`. -/
theorem permuteParts_apply (Y : S4096x3x16x64.Idx → α) (p : Fin 3) (h : Fin 16) (t : Fin 4096) (d : Fin 64) :
    transpose S3x16x4096x64 [1, 2, 0, 3] Y transposes_S4096x3x16x64_S3x16x4096x64_1_2_0_3 (ix4 p h t d) = Y (ix4 t p h d) :=
  transpose_apply [1, 2, 0, 3] Y transposes_S4096x3x16x64_S3x16x4096x64_1_2_0_3 (ix4 p h t d) (ix4 t p h d) fun b =>
    match b with
    | ⟨0, _⟩ => rfl
    | ⟨1, _⟩ => rfl
    | ⟨2, _⟩ => rfl
    | ⟨3, _⟩ => rfl

/-- Part 0 (the queries): the view as [4096, 3, 16, 64], the permutation to [3, 16, 4096, 64], the cut at part 0 and the
    dropped unit axis read, at head `h`, row `t`, lane `d`, the projection at row `t`, column `h * 64 + d`. -/
theorem qkvPart0_apply (X : S4096x3072.Idx → α) (h : Fin 16) (t : Fin 4096) (d : Fin 64) :
    shapeCast S16x4096x64
        (extractStridedSlice S1x16x4096x64 ![0, 0, 0, 0]
          (transpose S3x16x4096x64 [1, 2, 0, 3] (shapeCast S4096x3x16x64 X shapeCasts_S4096x3072_S4096x3x16x64)
            transposes_S4096x3x16x64_S3x16x4096x64_1_2_0_3)
          slices_S3x16x4096x64_S1x16x4096x64_0_0_0_0)
        shapeCasts_S1x16x4096x64_S16x4096x64 (ix3 h t d)
      = X (ix2 t ⟨0 * 1024 + h.val * 64 + d.val, by have := h.isLt; have := d.isLt; omega⟩) := by
  refine (shapeCast_1abc_abc_apply _ shapeCasts_S1x16x4096x64_S16x4096x64 h t d).trans ?_
  refine (extractStridedSlice_apply ![0, 0, 0, 0] _ slices_S3x16x4096x64_S1x16x4096x64_0_0_0_0 (ix4 (0 : Fin 1) h t d)
    (ix4 (0 : Fin 3) h t d) fun a => ?_).trans ?_
  · match a with
    | ⟨0, _⟩ => rfl
    | ⟨1, _⟩ => show h.val = 0 + h.val; omega
    | ⟨2, _⟩ => show t.val = 0 + t.val; omega
    | ⟨3, _⟩ => show d.val = 0 + d.val; omega
  · exact (permuteParts_apply _ 0 h t d).trans (splitCols_apply X t 0 h d)

/-- Part 1 (the keys): the same steps cut at part 1 read the projection at row `t`, column `1024 + h * 64 + d`. -/
theorem qkvPart1_apply (X : S4096x3072.Idx → α) (h : Fin 16) (t : Fin 4096) (d : Fin 64) :
    shapeCast S16x4096x64
        (extractStridedSlice S1x16x4096x64 ![1, 0, 0, 0]
          (transpose S3x16x4096x64 [1, 2, 0, 3] (shapeCast S4096x3x16x64 X shapeCasts_S4096x3072_S4096x3x16x64)
            transposes_S4096x3x16x64_S3x16x4096x64_1_2_0_3)
          slices_S3x16x4096x64_S1x16x4096x64_1_0_0_0)
        shapeCasts_S1x16x4096x64_S16x4096x64 (ix3 h t d)
      = X (ix2 t ⟨1 * 1024 + h.val * 64 + d.val, by have := h.isLt; have := d.isLt; omega⟩) := by
  refine (shapeCast_1abc_abc_apply _ shapeCasts_S1x16x4096x64_S16x4096x64 h t d).trans ?_
  refine (extractStridedSlice_apply ![1, 0, 0, 0] _ slices_S3x16x4096x64_S1x16x4096x64_1_0_0_0 (ix4 (0 : Fin 1) h t d)
    (ix4 (1 : Fin 3) h t d) fun a => ?_).trans ?_
  · match a with
    | ⟨0, _⟩ => rfl
    | ⟨1, _⟩ => show h.val = 0 + h.val; omega
    | ⟨2, _⟩ => show t.val = 0 + t.val; omega
    | ⟨3, _⟩ => show d.val = 0 + d.val; omega
  · exact (permuteParts_apply _ 1 h t d).trans (splitCols_apply X t 1 h d)

/-- Part 2 (the values): the same steps cut at part 2 read the projection at row `t`, column `2048 + h * 64 + d`. -/
theorem qkvPart2_apply (X : S4096x3072.Idx → α) (h : Fin 16) (t : Fin 4096) (d : Fin 64) :
    shapeCast S16x4096x64
        (extractStridedSlice S1x16x4096x64 ![2, 0, 0, 0]
          (transpose S3x16x4096x64 [1, 2, 0, 3] (shapeCast S4096x3x16x64 X shapeCasts_S4096x3072_S4096x3x16x64)
            transposes_S4096x3x16x64_S3x16x4096x64_1_2_0_3)
          slices_S3x16x4096x64_S1x16x4096x64_2_0_0_0)
        shapeCasts_S1x16x4096x64_S16x4096x64 (ix3 h t d)
      = X (ix2 t ⟨2 * 1024 + h.val * 64 + d.val, by have := h.isLt; have := d.isLt; omega⟩) := by
  refine (shapeCast_1abc_abc_apply _ shapeCasts_S1x16x4096x64_S16x4096x64 h t d).trans ?_
  refine (extractStridedSlice_apply ![2, 0, 0, 0] _ slices_S3x16x4096x64_S1x16x4096x64_2_0_0_0 (ix4 (0 : Fin 1) h t d)
    (ix4 (2 : Fin 3) h t d) fun a => ?_).trans ?_
  · match a with
    | ⟨0, _⟩ => rfl
    | ⟨1, _⟩ => show h.val = 0 + h.val; omega
    | ⟨2, _⟩ => show t.val = 0 + t.val; omega
    | ⟨3, _⟩ => show d.val = 0 + d.val; omega
  · exact (permuteParts_apply _ 2 h t d).trans (splitCols_apply X t 2 h d)

/-! ## The per-head result merged back into rows -/

/-- The permutation [1, 0, 2] of a [16, 4096, 64] array reads, at `(t, h, d)`, the operand at `(h, t, d)`. -/
theorem swapHeadRow_apply (X : S16x4096x64.Idx → α) (t : Fin 4096) (h : Fin 16) (d : Fin 64) :
    transpose S4096x16x64 [1, 0, 2] X transposes_S16x4096x64_S4096x16x64_1_0_2 (ix3 t h d) = X (ix3 h t d) :=
  transpose_apply [1, 0, 2] X transposes_S16x4096x64_S4096x16x64_1_0_2 (ix3 t h d) (ix3 h t d) fun b =>
    match b with
    | ⟨0, _⟩ => rfl
    | ⟨1, _⟩ => rfl
    | ⟨2, _⟩ => rfl

/-- The per-head result permuted to [4096, 16, 64] and its last two axes merged reads, at row `t` and column `j`, the
    operand at head `j / 64`, row `t`, lane `j % 64`. -/
theorem headsMerge_apply (X : S16x4096x64.Idx → α) (t : Fin 4096) (j : Fin 1024) :
    shapeCast S4096x1024 (transpose S4096x16x64 [1, 0, 2] X transposes_S16x4096x64_S4096x16x64_1_0_2)
        shapeCasts_S4096x16x64_S4096x1024 (ix2 t j)
      = X (ix3 ⟨j.val / 64, by have := j.isLt; omega⟩ t ⟨j.val % 64, Nat.mod_lt _ (by decide)⟩) := by
  refine (shapeCast_apply _ shapeCasts_S4096x16x64_S4096x1024 (ix2 t j)
    (ix3 t ⟨j.val / 64, by have := j.isLt; omega⟩ ⟨j.val % 64, Nat.mod_lt _ (by decide)⟩) ?_).trans ?_
  · rw [Shape.rowMajor_val_three, Shape.rowMajor_val_two]
    show (t.val * 16 + j.val / 64) * 64 + j.val % 64 = t.val * 1024 + j.val
    omega
  · exact swapHeadRow_apply X t _ _

/-- The same at a column written by its head `h` and lane `d`: column `h * 64 + d` reads the operand at `(h, t, d)`. -/
theorem headsMerge_apply' (X : S16x4096x64.Idx → α) (t : Fin 4096) (h : Fin 16) (d : Fin 64) :
    shapeCast S4096x1024 (transpose S4096x16x64 [1, 0, 2] X transposes_S16x4096x64_S4096x16x64_1_0_2)
        shapeCasts_S4096x16x64_S4096x1024 (ix2 t ⟨h.val * 64 + d.val, by have := h.isLt; have := d.isLt; omega⟩)
      = X (ix3 h t d) := by
  refine (shapeCast_apply _ shapeCasts_S4096x16x64_S4096x1024
    (ix2 t ⟨h.val * 64 + d.val, by have := h.isLt; have := d.isLt; omega⟩) (ix3 t h d) ?_).trans ?_
  · rw [Shape.rowMajor_val_three, Shape.rowMajor_val_two]
    show (t.val * 16 + h.val) * 64 + d.val = t.val * 1024 + (h.val * 64 + d.val)
    omega
  · exact swapHeadRow_apply X t h d

end Cert.KernelIdeal.Hand

end
-- ==== Proof.QkvValue.lean ====
/-
  The projection region's output array after the run, as one function of the arrays the region is entered with:
  entry (r, n) of the 4096 x 3072 result is the sum over k of x(r, k) * w(k, n), plus the bias row at n. On the extended
  reals the changes of float format are identities and the product into the zero accumulator is that sum. Grid point
  (i, j) writes the 1024 x 1024 block at block row i, block column j, computed from block row i of x, block column j of
  w and block j of the bias row; the twelve blocks tile the array, so the array ends holding the function everywhere.
-/
import proofs.«151280_j41747082117805_1_alg».proof.Proof.RegionQkv
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

open scoped BigOperators

namespace Cert.KernelIdeal.Hand

open Cert.KernelIdeal Cert.KernelIdeal.Gen
open Idealize.ShloMosaic Idealize.ShloMosaic.TcCoe Idealize.SL.Sem
open Idealize.ShloMosaic.ValueIdx
open Idealize.ShloMosaic.Pipeline (Dat)

/-! ## The body's arithmetic at an index -/

/-- The 1024 x 1024 by 1024 x 1024 product into the zero accumulator, read at row `p` and column `q`: the sum over the
    contracted coordinate `k` of the left factor at `(p, k)` times the right factor at `(k, q)`. -/
theorem matmul0_apply (a b : FVec Ideal S1024x1024 .bf16) (p q : Fin 1024) :
    matmul dot_S1024x1024_S1024x1024_S1024x1024_1_0_0_1_n_n none a b (constant (F := Ideal) S1024x1024 .f32 0x00000000#32) (ix2 p q)
      = ∑ k : Fin 1024, a (ix2 p k) * b (ix2 k q) := by
  refine (Ideal.matmul_constant_zero_apply dot_S1024x1024_S1024x1024_S1024x1024_1_0_0_1_n_n none a b (ix2 p q)).trans ?_
  rw [← Equiv.sum_comp (contrEquiv1 dot_S1024x1024_S1024x1024_S1024x1024_1_0_0_1_n_n 1024 rfl rfl).symm]
  refine Finset.sum_congr rfl fun k _ => ?_
  have hk := contrEquiv1_symm_val dot_S1024x1024_S1024x1024_S1024x1024_1_0_0_1_n_n 1024 rfl rfl k
  generalize (contrEquiv1 dot_S1024x1024_S1024x1024_S1024x1024_1_0_0_1_n_n 1024 rfl rfl).symm k = κ at hk ⊢
  have l0 : (dot_S1024x1024_S1024x1024_S1024x1024_1_0_0_1_n_n.lhsIdx (ix2 p q) κ 0).val = p.val := by
    unfold DotDims.lhsIdx
    rw [dif_neg (show ¬(0 : Fin S1024x1024.rank) ∈ dot_S1024x1024_S1024x1024_S1024x1024_1_0_0_1_n_n.lhsBatch by decide),
      dif_pos (show (0 : Fin S1024x1024.rank) ∈ dot_S1024x1024_S1024x1024_S1024x1024_1_0_0_1_n_n.lhsNonContracting by decide)]
    rfl
  have l1 : (dot_S1024x1024_S1024x1024_S1024x1024_1_0_0_1_n_n.lhsIdx (ix2 p q) κ 1).val = k.val :=
    (dot_S1024x1024_S1024x1024_S1024x1024_1_0_0_1_n_n.lhsIdx_val_of_single rfl (ix2 p q) κ).trans hk
  have r0 : (dot_S1024x1024_S1024x1024_S1024x1024_1_0_0_1_n_n.rhsIdx (ix2 p q) κ 0).val = k.val :=
    (dot_S1024x1024_S1024x1024_S1024x1024_1_0_0_1_n_n.rhsIdx_val_of_single rfl (ix2 p q) κ).trans hk
  have r1 : (dot_S1024x1024_S1024x1024_S1024x1024_1_0_0_1_n_n.rhsIdx (ix2 p q) κ 1).val = q.val := by
    unfold DotDims.rhsIdx
    rw [dif_neg (show ¬(1 : Fin S1024x1024.rank) ∈ dot_S1024x1024_S1024x1024_S1024x1024_1_0_0_1_n_n.rhsBatch by decide),
      dif_pos (show (1 : Fin S1024x1024.rank) ∈ dot_S1024x1024_S1024x1024_S1024x1024_1_0_0_1_n_n.rhsNonContracting by decide)]
    rfl
  have el : dot_S1024x1024_S1024x1024_S1024x1024_1_0_0_1_n_n.lhsIdx (ix2 p q) κ = ix2 p k :=
    funext fun ax => Fin.ext (by
      match ax with
      | ⟨0, _⟩ => exact l0
      | ⟨1, _⟩ => exact l1)
  have er : dot_S1024x1024_S1024x1024_S1024x1024_1_0_0_1_n_n.rhsIdx (ix2 p q) κ = ix2 k q :=
    funext fun ax => Fin.ext (by
      match ax with
      | ⟨0, _⟩ => exact r0
      | ⟨1, _⟩ => exact r1)
  rw [el, er]

/-- The body's arithmetic at row `p` and column `q` of the block: the changes of float format are identities on the
    extended reals, the product into the zero accumulator is the sum over the contracted coordinate, and the one bias
    row is broadcast down the rows. -/
theorem pay0_apply (x0 x1 : Vec Ideal S1024x1024 .f32) (x2 : Vec Ideal S1x1024 .f32) (p q : Fin 1024) :
    k0_pay1 (F := Ideal) x0 x1 x2 (ix2 p q) = (∑ k : Fin 1024, x0 (ix2 p k) * x1 (ix2 k q)) + x2 (ix2 (0 : Fin 1) q) := by
  unfold k0_pay1
  show (matmul dot_S1024x1024_S1024x1024_S1024x1024_1_0_0_1_n_n none
        (truncf .bf16 x0 bitsLt_bf16_f32 : FVec Ideal S1024x1024 .bf16) (truncf .bf16 x1 bitsLt_bf16_f32 : FVec Ideal S1024x1024 .bf16)
        (constant (F := Ideal) S1024x1024 .f32 0x00000000#32) (ix2 p q))
      + broadcastTo S1024x1024 (shapeCast S1x1024 x2 shapeCasts_S1x1024_S1x1024) broadcasts_S1x1024_S1024x1024 (ix2 p q) = _
  rw [matmul0_apply, shapeCast_self]
  exact congrArg (_ + ·) (broadcastTo_1b_ab_apply x2 broadcasts_S1x1024_S1024x1024 p q)

/-! ## From the blocks to the array -/

-- the TensorCore's buffer contents when the region is entered, on the extended reals
variable (V : (c : Dev nD) → (b : Ref sig .tc) → Buf (Elt Ideal) ((c : Thread nD τ).loc b))

theorem hz0 : (![0, 0] : Fin 2 → Nat) = fun _ => 0 := funext fun a => by fin_cases a <;> rfl

/-- The projection at row `r` and column `n`: the row of the activations against the column of the weights, plus the
    bias row at `n`. -/
abbrev qkvAt (x : S4096x1024.Idx → EReal) (w : S1024x3072.Idx → EReal) (b : S1x3072.Idx → EReal) (r : Fin 4096) (n : Fin 3072) : EReal :=
  (∑ k : Fin 1024, x (ix2 r k) * w (ix2 k n)) + b (ix2 (0 : Fin 1) n)

/-- The projection as one function of the activations, the weights and the bias row, index by index. -/
abbrev qkvOf (x : S4096x1024.Idx → EReal) (w : S1024x3072.Idx → EReal) (b : S1x3072.Idx → EReal) : S4096x3072.Idx → EReal :=
  fun i => (∑ k : Fin 1024, x (ix2 (i 0) k) * w (ix2 k (i 1))) + b (ix2 (0 : Fin 1) (i 1))

/-- The body's arithmetic on three blocks whose entries are entries of three arrays is the projection of the arrays. -/
theorem pay0_eq_qkvOf (x0 x1 : Vec Ideal S1024x1024 .f32) (x2 : Vec Ideal S1x1024 .f32)
    (x : S4096x1024.Idx → EReal) (w : S1024x3072.Idx → EReal) (b : S1x3072.Idx → EReal) (p q : Fin 1024) (i : S4096x3072.Idx)
    (hx : ∀ k : Fin 1024, x0 (ix2 p k) = x (ix2 (i 0) k)) (hw : ∀ k : Fin 1024, x1 (ix2 k q) = w (ix2 k (i 1)))
    (hb : x2 (ix2 (0 : Fin 1) q) = b (ix2 (0 : Fin 1) (i 1))) :
    k0_pay1 (F := Ideal) x0 x1 x2 (ix2 p q) = qkvOf x w b i := by
  refine (pay0_apply x0 x1 x2 p q).trans ?_
  show (∑ k : Fin 1024, x0 (ix2 p k) * x1 (ix2 k q)) + x2 (ix2 (0 : Fin 1) q) = (∑ k : Fin 1024, x (ix2 (i 0) k) * w (ix2 k (i 1))) + b (ix2 (0 : Fin 1) (i 1))
  rw [hb]
  exact congrArg (· + b (ix2 (0 : Fin 1) (i 1))) (Finset.sum_congr rfl fun k _ => by rw [hx k, hw k])

/-- The printed index maps, decided over the twelve grid points: the activations' block moves with the output's block
    row and stays at block column 0, the weights' and the bias row's blocks stay at block row 0 and move with the
    output's block column, and the output's block indices stay in their ranges. -/
theorem idx_facts0 : ∀ t : Fin cfg0.N, win0_0.index t (0 : Fin 2) = win0_3.index t (0 : Fin 2)
    ∧ win0_0.index t (1 : Fin 2) = 0
    ∧ win0_1.index t (0 : Fin 2) = 0
    ∧ win0_1.index t (1 : Fin 2) = win0_3.index t (1 : Fin 2)
    ∧ win0_2.index t (0 : Fin 2) = 0
    ∧ win0_2.index t (1 : Fin 2) = win0_3.index t (1 : Fin 2)
    ∧ win0_3.index t (0 : Fin 2) ≤ 3 ∧ win0_3.index t (1 : Fin 2) ≤ 2 :=
  (by decide +kernel : ∀ t : Fin grid0.N, _)

/-- Every block of the output is some point's. -/
theorem idx_onto0 : ∀ (q0 : Fin 4) (q1 : Fin 3), ∃ t : Fin cfg0.N, win0_3.index t = ![q0.val, q1.val] :=
  (by decide +kernel : ∀ (q0 : Fin 4) (q1 : Fin 3), ∃ t : Fin grid0.N, win0_3.index t = ![q0.val, q1.val])

/-- The activations' block at a point, read at a block index, is the array at the block's offsets plus that index. -/
theorem iblk0_0_apply (c : Dev nD) (t : Fin cfg0.N) (y : S1024x1024.Idx) (i : S4096x1024.Idx)
    (h0 : (i 0).val = win0_0.index t (0 : Fin 2) * 1024 + (y 0).val) (h1 : (i 1).val = win0_0.index t (1 : Fin 2) * 1024 + (y 1).val) :
    (iblk0 V c 0 t : Vec Ideal S1024x1024 .f32) y = (V c main_arg1 : S4096x1024.Idx → EReal) i := by
  unfold iblk0
  rw [View.read_apply]
  show V c main_arg1 _ = V c main_arg1 _
  congr 1
  funext a
  apply Fin.ext
  match a with
  | ⟨0, _⟩ => show win0_0.index t (0 : Fin 2) * 1024 + 1 * (y 0).val = (i 0).val; omega
  | ⟨1, _⟩ => show win0_0.index t (1 : Fin 2) * 1024 + 1 * (y 1).val = (i 1).val; omega

/-- The same of the weights' block. -/
theorem iblk0_1_apply (c : Dev nD) (t : Fin cfg0.N) (y : S1024x1024.Idx) (i : S1024x3072.Idx)
    (h0 : (i 0).val = win0_1.index t (0 : Fin 2) * 1024 + (y 0).val) (h1 : (i 1).val = win0_1.index t (1 : Fin 2) * 1024 + (y 1).val) :
    (iblk0 V c 1 t : Vec Ideal S1024x1024 .f32) y = (V c main_arg2 : S1024x3072.Idx → EReal) i := by
  unfold iblk0
  rw [View.read_apply]
  show V c main_arg2 _ = V c main_arg2 _
  congr 1
  funext a
  apply Fin.ext
  match a with
  | ⟨0, _⟩ => show win0_1.index t (0 : Fin 2) * 1024 + 1 * (y 0).val = (i 0).val; omega
  | ⟨1, _⟩ => show win0_1.index t (1 : Fin 2) * 1024 + 1 * (y 1).val = (i 1).val; omega

/-- The same of the bias row's block. -/
theorem iblk0_2_apply (c : Dev nD) (t : Fin cfg0.N) (y : S1x1024.Idx) (i : S1x3072.Idx)
    (h0 : (i 0).val = win0_2.index t (0 : Fin 2) * 1 + (y 0).val) (h1 : (i 1).val = win0_2.index t (1 : Fin 2) * 1024 + (y 1).val) :
    (iblk0 V c 2 t : Vec Ideal S1x1024 .f32) y = (V c main_v0 : S1x3072.Idx → EReal) i := by
  unfold iblk0
  rw [View.read_apply]
  show V c main_v0 _ = V c main_v0 _
  congr 1
  funext a
  apply Fin.ext
  match a with
  | ⟨0, _⟩ => show win0_2.index t (0 : Fin 2) * 1 + 1 * (y 0).val = (i 0).val; omega
  | ⟨1, _⟩ => show win0_2.index t (1 : Fin 2) * 1024 + 1 * (y 1).val = (i 1).val; omega

/-- The body's result at a point, read at `(p, q)` of the block, is the projection at the array index `i` that lies
    `(p, q)` inside the point's output block. -/
theorem block0_eq (c : Dev nD) (t : Fin cfg0.N) (p q : Fin 1024) (i : S4096x3072.Idx)
    (h0 : (i 0).val = win0_3.index t (0 : Fin 2) * 1024 + p.val) (h1 : (i 1).val = win0_3.index t (1 : Fin 2) * 1024 + q.val) :
    k0_pay1 (F := Ideal) (iblk0 V c 0 t) (iblk0 V c 1 t) (iblk0 V c 2 t) (ix2 p q)
      = qkvOf (V c main_arg1) (V c main_arg2) (V c main_v0) i := by
  obtain ⟨e0, e1, e2, e3, e4, e5, -, -⟩ := idx_facts0 t
  refine pay0_eq_qkvOf (iblk0 V c 0 t) (iblk0 V c 1 t) (iblk0 V c 2 t) (V c main_arg1) (V c main_arg2) (V c main_v0) p q i
    (fun k => ?_) (fun k => ?_) ?_
  · exact iblk0_0_apply V c t (ix2 p k) (ix2 (i 0) k) (by show (i 0).val = _ + p.val; omega) (by show k.val = _ + k.val; omega)
  · exact iblk0_1_apply V c t (ix2 k q) (ix2 k (i 1)) (by show k.val = _ + k.val; omega) (by show (i 1).val = _ + q.val; omega)
  · exact iblk0_2_apply V c t (ix2 (0 : Fin 1) q) (ix2 (0 : Fin 1) (i 1)) (by show (0 : Nat) = _ + 0; omega) (by show (i 1).val = _ + q.val; omega)

/-- What point `t` writes back is block `t` of the projection of the arrays as the region finds them. -/
theorem flushed0_eq (c : Dev nD) (t : Fin cfg0.N) :
    (dat0 (F := Ideal) V c).flushed 3 t
      = ((cfg0.win 3).blk t).view.read (Elt Ideal) (qkvOf (V c main_arg1) (V c main_arg2) (V c main_v0)) := by
  show (cfg0.win 3).cut (grid0.coords t) ((dat0 V c).after 3 t) = _
  rw [after0_3]
  unfold out0_3
  rw [View.canon_unit_zero hz0]
  simp only [View.ld_unit_zero (S := S1024x1024) hz0, View.ld_unit_zero (S := S1x1024) hz0]
  funext j
  have hp : (j 0).val < 1024 := (j 0).isLt
  have hq : (j 1).val < 1024 := (j 1).isLt
  have hx : (cfg0.win 3).xinj (grid0.coords t) j = ix2 (⟨(j 0).val, hp⟩ : Fin 1024) (⟨(j 1).val, hq⟩ : Fin 1024) :=
    funext fun a => match a with | ⟨0, _⟩ => rfl | ⟨1, _⟩ => rfl
  show k0_pay1 (F := Ideal) (iblk0 V c 0 t) (iblk0 V c 1 t) (iblk0 V c 2 t) ((cfg0.win 3).xinj (grid0.coords t) j)
      = qkvOf (V c main_arg1) (V c main_arg2) (V c main_v0) (((cfg0.win 3).blk t).view.emb j)
  rw [hx]
  exact block0_eq V c t ⟨(j 0).val, hp⟩ ⟨(j 1).val, hq⟩ (((cfg0.win 3).blk t).view.emb j)
    (by show win0_3.index t (0 : Fin 2) * 1024 + 1 * (j 0).val = _ + (j 0).val; omega)
    (by show win0_3.index t (1 : Fin 2) * 1024 + 1 * (j 1).val = _ + (j 1).val; omega)

/-- An index of the array is in point `t`'s block iff each coordinate is in the block's range on its axis. -/
theorem mem_blk0 (t : Fin cfg0.N) (i : S4096x3072.Idx) :
    i ∈ ((cfg0.win 3).blk t).view.set ↔ ∀ a : Fin 2, win0_3.index t a * S1024x1024.size a ≤ (i a).val ∧ (i a).val < win0_3.index t a * S1024x1024.size a + S1024x1024.size a := by
  show i ∈ ((View.whole main_v1).slice (win0_3.rect t)).set ↔ _
  rw [View.set_slice_whole, Rect.mem_set_unit]
  exact Iff.rfl

/-- The twelve blocks cover the array: index `(r, n)` lies in the block of the point with block row `r / 1024` and
    block column `n / 1024`. -/
theorem cover0 (i : S4096x3072.Idx) : ∃ t : Fin cfg0.N, (cfg0.win 3).flush t = true ∧ i ∈ ((cfg0.win 3).blk t).view.set := by
  have hi0 : (i 0).val < 4096 := (i 0).isLt
  have hi1 : (i 1).val < 3072 := (i 1).isLt
  obtain ⟨t, ht⟩ := idx_onto0 ⟨(i 0).val / 1024, by omega⟩ ⟨(i 1).val / 1024, by omega⟩
  have q0 : win0_3.index t (0 : Fin 2) = (i 0).val / 1024 := congrFun ht 0
  have q1 : win0_3.index t (1 : Fin 2) = (i 1).val / 1024 := congrFun ht 1
  refine ⟨t, flush0_3 t, ?_⟩
  rw [mem_blk0]
  intro a
  match a with
  | ⟨0, _⟩ => show win0_3.index t (0 : Fin 2) * 1024 ≤ (i 0).val ∧ (i 0).val < win0_3.index t (0 : Fin 2) * 1024 + 1024; omega
  | ⟨1, _⟩ => show win0_3.index t (1 : Fin 2) * 1024 ≤ (i 1).val ∧ (i 1).val < win0_3.index t (1 : Fin 2) * 1024 + 1024; omega

/-- The output array after the run: at `(r, n)` the sum over `k` of the activations at `(r, k)` times the weights at
    `(k, n)`, plus the bias row at `n`. -/
theorem final0 (c : Dev nD) : (dat0 (F := Ideal) V c).arrAt 3 cfg0.N = qkvOf (V c main_arg1) (V c main_arg2) (V c main_v0) :=
  (dat0 (F := Ideal) V c).arrAt_eq_of_cover 3 (qkvOf (V c main_arg1) (V c main_arg2) (V c main_v0))
    (fun t _ => flushed0_eq V c t) cover0

/-- The same read at row `r` and column `n`. -/
theorem final0_apply (c : Dev nD) (r : Fin 4096) (n : Fin 3072) :
    ((dat0 (F := Ideal) V c).arrAt 3 cfg0.N : S4096x3072.Idx → EReal) (ix2 r n)
      = qkvAt (V c main_arg1) (V c main_arg2) (V c main_v0) r n :=
  congrFun (final0 V c) (ix2 r n)

end Cert.KernelIdeal.Hand

end
-- ==== Proof.QkvJoin.lean ====
/-
  The projection region's array, cut into its three parts by the host's layout steps, is the specification's query,
  key and value arrays; and the attention result, its heads laid side by side by the host's layout steps, multiplied by
  the output weights and added to the bias row, is the specification's last step. Both are statements about plain arrays
  of extended reals: a column `p * 1024 + h * 64 + d` of the projection is part `p`, head `h`, lane `d`, and a column `j`
  of the merged attention result is head `j / 64`, lane `j % 64`.
-/
import proofs.«151280_j41747082117805_1_alg».proof.Proof.QkvValue
import proofs.«151280_j41747082117805_1_alg».proof.Proof.HostLayout
import proofs.«151280_j41747082117805_1_alg».proof.Proof.Spec

set_option maxRecDepth 16384

noncomputable section

open scoped BigOperators

namespace Cert.KernelIdeal.Hand

open Cert.KernelIdeal Cert.KernelIdeal.Gen
open Idealize.ShloMosaic
open Idealize.ShloMosaic.ValueIdx

/-! ## The three parts of the projection -/

/-- Part 0 (the queries) cut out of the projection of `x`, `w` and the bias viewed as one row is the specification's part 0:
    column `0 * 1024 + h * 64 + d` of row `t`. -/
theorem part_of_qkv0 (x : S4096x1024.Idx → EReal) (w : S1024x3072.Idx → EReal) (bq : S3072.Idx → EReal)
    (h : Fin 16) (t : Fin 4096) (d : Fin 64) :
    shapeCast S16x4096x64
        (extractStridedSlice S1x16x4096x64 ![0, 0, 0, 0]
          (transpose S3x16x4096x64 [1, 2, 0, 3]
            (shapeCast S4096x3x16x64 (qkvOf x w (shapeCast S1x3072 bq shapeCasts_S3072_S1x3072)) shapeCasts_S4096x3072_S4096x3x16x64)
            transposes_S4096x3x16x64_S3x16x4096x64_1_2_0_3)
          slices_S3x16x4096x64_S1x16x4096x64_0_0_0_0)
        shapeCasts_S1x16x4096x64_S16x4096x64 (ix3 h t d)
      = Cert.Spec.part x w bq 0 h t d := by
  refine (qkvPart0_apply (qkvOf x w (shapeCast S1x3072 bq shapeCasts_S3072_S1x3072)) h t d).trans ?_
  have hc : (⟨0 * 1024 + h.val * 64 + d.val, by have := h.isLt; have := d.isLt; omega⟩ : Fin 3072) = Cert.Spec.col 0 h d :=
    Fin.ext rfl
  rw [hc]
  unfold Cert.Spec.part Cert.Spec.qkv
  show (∑ k : Fin 1024, x (ix2 t k) * w (ix2 k (Cert.Spec.col 0 h d)))
        + shapeCast S1x3072 bq shapeCasts_S3072_S1x3072 (ix2 (0 : Fin 1) (Cert.Spec.col 0 h d))
      = (∑ k : Fin 1024, x (ix2 t k) * w (ix2 k (Cert.Spec.col 0 h d))) + bq (ix1 (Cert.Spec.col 0 h d))
  rw [biasRow_apply]

/-- Part 1 (the keys) cut out of the projection of `x`, `w` and the bias viewed as one row is the specification's part 1:
    column `1 * 1024 + h * 64 + d` of row `t`. -/
theorem part_of_qkv1 (x : S4096x1024.Idx → EReal) (w : S1024x3072.Idx → EReal) (bq : S3072.Idx → EReal)
    (h : Fin 16) (t : Fin 4096) (d : Fin 64) :
    shapeCast S16x4096x64
        (extractStridedSlice S1x16x4096x64 ![1, 0, 0, 0]
          (transpose S3x16x4096x64 [1, 2, 0, 3]
            (shapeCast S4096x3x16x64 (qkvOf x w (shapeCast S1x3072 bq shapeCasts_S3072_S1x3072)) shapeCasts_S4096x3072_S4096x3x16x64)
            transposes_S4096x3x16x64_S3x16x4096x64_1_2_0_3)
          slices_S3x16x4096x64_S1x16x4096x64_1_0_0_0)
        shapeCasts_S1x16x4096x64_S16x4096x64 (ix3 h t d)
      = Cert.Spec.part x w bq 1 h t d := by
  refine (qkvPart1_apply (qkvOf x w (shapeCast S1x3072 bq shapeCasts_S3072_S1x3072)) h t d).trans ?_
  have hc : (⟨1 * 1024 + h.val * 64 + d.val, by have := h.isLt; have := d.isLt; omega⟩ : Fin 3072) = Cert.Spec.col 1 h d :=
    Fin.ext rfl
  rw [hc]
  unfold Cert.Spec.part Cert.Spec.qkv
  show (∑ k : Fin 1024, x (ix2 t k) * w (ix2 k (Cert.Spec.col 1 h d)))
        + shapeCast S1x3072 bq shapeCasts_S3072_S1x3072 (ix2 (0 : Fin 1) (Cert.Spec.col 1 h d))
      = (∑ k : Fin 1024, x (ix2 t k) * w (ix2 k (Cert.Spec.col 1 h d))) + bq (ix1 (Cert.Spec.col 1 h d))
  rw [biasRow_apply]

/-- Part 2 (the values) cut out of the projection of `x`, `w` and the bias viewed as one row is the specification's part 2:
    column `2 * 1024 + h * 64 + d` of row `t`. -/
theorem part_of_qkv2 (x : S4096x1024.Idx → EReal) (w : S1024x3072.Idx → EReal) (bq : S3072.Idx → EReal)
    (h : Fin 16) (t : Fin 4096) (d : Fin 64) :
    shapeCast S16x4096x64
        (extractStridedSlice S1x16x4096x64 ![2, 0, 0, 0]
          (transpose S3x16x4096x64 [1, 2, 0, 3]
            (shapeCast S4096x3x16x64 (qkvOf x w (shapeCast S1x3072 bq shapeCasts_S3072_S1x3072)) shapeCasts_S4096x3072_S4096x3x16x64)
            transposes_S4096x3x16x64_S3x16x4096x64_1_2_0_3)
          slices_S3x16x4096x64_S1x16x4096x64_2_0_0_0)
        shapeCasts_S1x16x4096x64_S16x4096x64 (ix3 h t d)
      = Cert.Spec.part x w bq 2 h t d := by
  refine (qkvPart2_apply (qkvOf x w (shapeCast S1x3072 bq shapeCasts_S3072_S1x3072)) h t d).trans ?_
  have hc : (⟨2 * 1024 + h.val * 64 + d.val, by have := h.isLt; have := d.isLt; omega⟩ : Fin 3072) = Cert.Spec.col 2 h d :=
    Fin.ext rfl
  rw [hc]
  unfold Cert.Spec.part Cert.Spec.qkv
  show (∑ k : Fin 1024, x (ix2 t k) * w (ix2 k (Cert.Spec.col 2 h d)))
        + shapeCast S1x3072 bq shapeCasts_S3072_S1x3072 (ix2 (0 : Fin 1) (Cert.Spec.col 2 h d))
      = (∑ k : Fin 1024, x (ix2 t k) * w (ix2 k (Cert.Spec.col 2 h d))) + bq (ix1 (Cert.Spec.col 2 h d))
  rw [biasRow_apply]

/-! ## The merged attention result against the output weights -/

/-- Row `t`, column `n` of the last step: the heads laid side by side along `j` (column `j` is head `j / 64`, lane
    `j % 64`) against the output weights, plus the bias viewed as one row. -/
theorem merged_row_eq (o : S16x4096x64.Idx → EReal) (wo : S1024x1024.Idx → EReal) (bo : S1024.Idx → EReal)
    (t : Fin 4096) (n : Fin 1024) :
    (∑ j : Fin 1024,
        shapeCast S4096x1024 (transpose S4096x16x64 [1, 0, 2] o transposes_S16x4096x64_S4096x16x64_1_0_2)
          shapeCasts_S4096x16x64_S4096x1024 (ix2 t j) * wo (ix2 j n))
        + shapeCast S1x1024 bo shapeCasts_S1024_S1x1024 (ix2 (0 : Fin 1) n)
      = (∑ j : Fin 1024, o (ix3 (Cert.Spec.headOf j) t (Cert.Spec.featOf j)) * wo (ix2 j n)) + bo (ix1 n) := by
  rw [outBiasRow_apply]
  refine congrArg (· + bo (ix1 n)) (Finset.sum_congr rfl fun j _ => ?_)
  rw [headsMerge_apply]
  rfl

end Cert.KernelIdeal.Hand

end
-- ==== Proof.OutValue.lean ====
/-
  The output projection's value. One grid point of the last kernel launch multiplies a 1024-row block of its left
  operand by the whole 1024 x 1024 weight matrix and adds the bias row to every row of the product. The four points'
  row blocks tile the 4096 x 1024 result, so the result array ends holding, at row r and column s, the sum over j of
  left[r, j] * weight[j, s], plus bias[s]. On the extended reals the changes of float format are identities and the
  product accumulates onto zero, so each entry is exactly that sum.
-/
import proofs.«151280_j41747082117805_1_alg».proof.Proof.RegionOut
import Idealize.ShloMosaic.Lib.Pipeline.Value
import Idealize.ShloMosaic.Lib.ValueIdx
import Idealize.ShloMosaic.PureOps.Ideal.Laws

set_option maxRecDepth 16384

noncomputable section

open scoped BigOperators

namespace Cert.KernelIdeal.Hand

open Cert.KernelIdeal Cert.KernelIdeal.Gen
open Idealize.ShloMosaic Idealize.ShloMosaic.TcCoe Idealize.ShloMosaic.ValueIdx
open Idealize.SL.Sem
open Idealize.ShloMosaic.Pipeline (Dat)

/-- The projection as one function of the three arrays: entry (r, s) is row r of the left operand against column s
    of the weights, plus the bias at column s. -/
def outProj (a : S4096x1024.Idx → EReal) (w : S1024x1024.Idx → EReal) (b : S1x1024.Idx → EReal) : S4096x1024.Idx → EReal :=
  fun i => (∑ j : Fin 1024, a (ix2 (i 0) j) * w (ix2 j (i 1))) + b (ix2 0 (i 1))

/-- The projection at an entry, spelt out. -/
theorem outProj_apply (a : S4096x1024.Idx → EReal) (w : S1024x1024.Idx → EReal) (b : S1x1024.Idx → EReal) (i : S4096x1024.Idx) :
    outProj a w b i = (∑ j : Fin 1024, a (ix2 (i 0) j) * w (ix2 j (i 1))) + b (ix2 0 (i 1)) := rfl

theorem zero_offsets : (![0, 0] : Fin 2 → Nat) = fun _ => 0 := funext fun a => by fin_cases a <;> rfl

/-! ## The body's arithmetic at an entry -/

/-- The left operand of the product is read at the output's row, -/
theorem outDot_lhs_row (i : S1024x1024.Idx) (k : dot_S1024x1024_S1024x1024_S1024x1024_1_0_0_1_n_n.contr.Idx) :
    (dot_S1024x1024_S1024x1024_S1024x1024_1_0_0_1_n_n.lhsIdx i k 0).val = (i 0).val := by
  unfold DotDims.lhsIdx
  rw [dif_neg (show ¬(0 : Fin S1024x1024.rank) ∈ dot_S1024x1024_S1024x1024_S1024x1024_1_0_0_1_n_n.lhsBatch by decide), dif_pos (show (0 : Fin S1024x1024.rank) ∈ dot_S1024x1024_S1024x1024_S1024x1024_1_0_0_1_n_n.lhsNonContracting by decide)]
  rfl
/-- and the right operand at the output's column. -/
theorem outDot_rhs_col (i : S1024x1024.Idx) (k : dot_S1024x1024_S1024x1024_S1024x1024_1_0_0_1_n_n.contr.Idx) :
    (dot_S1024x1024_S1024x1024_S1024x1024_1_0_0_1_n_n.rhsIdx i k 1).val = (i 1).val := by
  unfold DotDims.rhsIdx
  rw [dif_neg (show ¬(1 : Fin S1024x1024.rank) ∈ dot_S1024x1024_S1024x1024_S1024x1024_1_0_0_1_n_n.rhsBatch by decide), dif_pos (show (1 : Fin S1024x1024.rank) ∈ dot_S1024x1024_S1024x1024_S1024x1024_1_0_0_1_n_n.rhsNonContracting by decide)]
  rfl

/-- One entry of a block's result: the block row of the left operand against the weight column, plus the bias. -/
theorem outPay_apply (x0 x1 : FVec Ideal S1024x1024 .f32) (x2 : FVec Ideal S1x1024 .f32) (p q : Fin 1024) :
    k2_pay1 (F := Ideal) x0 x1 x2 (ix2 p q) = (∑ j : Fin 1024, x0 (ix2 p j) * x1 (ix2 j q)) + x2 (ix2 0 q) := by
  unfold k2_pay1
  simp only [shapeCast_self]
  refine (addf_apply _ _ _).trans ?_
  refine congrArg₂ (· + ·) ?_ ?_
  · refine (Ideal.matmul_constant_zero_apply _ none _ _ _).trans ?_
    rw [← Equiv.sum_comp (contrEquiv1 dot_S1024x1024_S1024x1024_S1024x1024_1_0_0_1_n_n 1024 rfl rfl).symm]
    refine Finset.sum_congr rfl fun k _ => ?_
    have hk := contrEquiv1_symm_val dot_S1024x1024_S1024x1024_S1024x1024_1_0_0_1_n_n 1024 rfl rfl k
    have el : dot_S1024x1024_S1024x1024_S1024x1024_1_0_0_1_n_n.lhsIdx (ix2 p q) ((contrEquiv1 dot_S1024x1024_S1024x1024_S1024x1024_1_0_0_1_n_n 1024 rfl rfl).symm k) = ix2 p k := funext fun a => Fin.ext (by
      match a with
      | ⟨0, _⟩ => exact outDot_lhs_row _ _
      | ⟨1, _⟩ => exact (dot_S1024x1024_S1024x1024_S1024x1024_1_0_0_1_n_n.lhsIdx_val_of_single rfl _ _).trans hk)
    have er : dot_S1024x1024_S1024x1024_S1024x1024_1_0_0_1_n_n.rhsIdx (ix2 p q) ((contrEquiv1 dot_S1024x1024_S1024x1024_S1024x1024_1_0_0_1_n_n 1024 rfl rfl).symm k) = ix2 k q := funext fun a => Fin.ext (by
      match a with
      | ⟨0, _⟩ => exact (dot_S1024x1024_S1024x1024_S1024x1024_1_0_0_1_n_n.rhsIdx_val_of_single rfl _ _).trans hk
      | ⟨1, _⟩ => exact outDot_rhs_col _ _)
    rw [el, er]
    rfl
  · exact broadcastTo_apply _ _ _ (ix2 0 q) (fun a => match a with
      | ⟨0, _⟩ => by show (0 : Nat) = if (1 : Nat) = 1 then 0 else _; rw [if_pos rfl]
      | ⟨1, _⟩ => by show q.val = if (1024 : Nat) = 1 then 0 else q.val; rw [if_neg (by decide)])

/-! ## From blocks to the array -/

/-- The block index of every window at a point, decided over the four points: the left operand's and the result's row
    block is the point's number, the weights and the bias are one block. -/
theorem outIdx_facts : ∀ t : Fin cfg2.N, win2_0.index t (0 : Fin 2) = t.val ∧ win2_0.index t (1 : Fin 2) = 0
    ∧ win2_1.index t (0 : Fin 2) = 0 ∧ win2_1.index t (1 : Fin 2) = 0
    ∧ win2_2.index t (0 : Fin 2) = 0 ∧ win2_2.index t (1 : Fin 2) = 0
    ∧ win2_3.index t (0 : Fin 2) = t.val ∧ win2_3.index t (1 : Fin 2) = 0 :=
  (by decide +kernel : ∀ t : Fin grid2.N, _)

variable (V : (c : Dev nD) → (b : Ref sig .tc) → Buf (Elt Ideal) ((c : Thread nD τ).loc b))

/-- What point `t` writes back is rows 1024 t … 1024 t + 1023 of the projection of the arrays the region is entered with. -/
theorem outFlushed_eq (c : Dev nD) (t : Fin cfg2.N) :
    (dat2 (F := Ideal) V c).flushed 3 t
      = ((cfg2.win 3).blk t).view.read (Elt Ideal) (outProj (V c main_v12) (V c main_arg4) (V c main_v13)) := by
  show (cfg2.win 3).cut (grid2.coords t) ((dat2 V c).after 3 t) = _
  rw [after2_3]
  unfold out2_3
  rw [View.canon_unit_zero zero_offsets]
  simp only [View.ld_unit_zero (S := S1024x1024) zero_offsets, View.ld_unit_zero (S := S1x1024) zero_offsets]
  obtain ⟨e00, e01, e10, e11, e20, e21, e30, e31⟩ := outIdx_facts t
  have ht : t.val < 4 := Nat.lt_of_lt_of_eq t.isLt N_2
  funext j
  obtain ⟨p, q, rfl⟩ : ∃ (p q : Fin 1024), j = ix2 p q := ⟨j 0, j 1, eq_ix2 j⟩
  have hp : p.val < 1024 := p.isLt
  show k2_pay1 (F := Ideal) (iblk2 V c 0 t) (iblk2 V c 1 t) (iblk2 V c 2 t) (ix2 p q)
    = outProj (V c main_v12) (V c main_arg4) (V c main_v13) (((cfg2.win 3).blk t).view.emb (ix2 p q))
  have he : ((cfg2.win 3).blk t).view.emb (ix2 p q) = ix2 (⟨t.val * 1024 + p.val, by omega⟩ : Fin 4096) q := by
    funext a; apply Fin.ext
    match a with
    | ⟨0, _⟩ => show win2_3.index t (0 : Fin 2) * 1024 + 1 * p.val = t.val * 1024 + p.val; omega
    | ⟨1, _⟩ => show win2_3.index t (1 : Fin 2) * 1024 + 1 * q.val = q.val; omega
  rw [he]
  refine (outPay_apply (iblk2 V c 0 t) (iblk2 V c 1 t) (iblk2 V c 2 t) p q).trans ?_
  unfold outProj
  refine congrArg₂ (· + ·) (Finset.sum_congr rfl fun k _ => congrArg₂ (· * ·) ?_ ?_) ?_
  · show V c main_v12 (((cfg2.win 0).blk t).view.emb (ix2 p k)) = V c main_v12 (ix2 (⟨t.val * 1024 + p.val, by omega⟩ : Fin 4096) k)
    refine congrArg (V c main_v12) (funext fun a => Fin.ext ?_)
    match a with
    | ⟨0, _⟩ => show win2_0.index t (0 : Fin 2) * 1024 + 1 * p.val = t.val * 1024 + p.val; omega
    | ⟨1, _⟩ => show win2_0.index t (1 : Fin 2) * 1024 + 1 * k.val = k.val; omega
  · show V c main_arg4 (((cfg2.win 1).blk t).view.emb (ix2 k q)) = V c main_arg4 (ix2 k q)
    refine congrArg (V c main_arg4) (funext fun a => Fin.ext ?_)
    match a with
    | ⟨0, _⟩ => show win2_1.index t (0 : Fin 2) * 1024 + 1 * k.val = k.val; omega
    | ⟨1, _⟩ => show win2_1.index t (1 : Fin 2) * 1024 + 1 * q.val = q.val; omega
  · show V c main_v13 (((cfg2.win 2).blk t).view.emb (ix2 0 q)) = V c main_v13 (ix2 0 q)
    refine congrArg (V c main_v13) (funext fun a => Fin.ext ?_)
    match a with
    | ⟨0, _⟩ => show win2_2.index t (0 : Fin 2) * 1 + 1 * 0 = 0; omega
    | ⟨1, _⟩ => show win2_2.index t (1 : Fin 2) * 1024 + 1 * q.val = q.val; omega

/-- An index of the result array is in point `t`'s block iff each coordinate is in the block's range on its axis. -/
theorem outMem_blk (t : Fin cfg2.N) (i : S4096x1024.Idx) :
    i ∈ ((cfg2.win 3).blk t).view.set ↔ ∀ a : Fin 2, win2_3.index t a * S1024x1024.size a ≤ (i a).val ∧ (i a).val < win2_3.index t a * S1024x1024.size a + S1024x1024.size a := by
  show i ∈ ((View.whole main_v14).slice (win2_3.rect t)).set ↔ _
  rw [View.set_slice_whole, Rect.mem_set_unit]
  exact Iff.rfl

/-- Row r of the result lies in the block of point r / 1024, and every point writes its block back. -/
theorem outCover (i : S4096x1024.Idx) : ∃ t : Fin cfg2.N, (cfg2.win 3).flush t = true ∧ i ∈ ((cfg2.win 3).blk t).view.set := by
  have hi0 : (i 0).val < 4096 := idx2_lt0 i
  have hi1 : (i 1).val < 1024 := idx2_lt1 i
  have hN : cfg2.N = 4 := N_2
  obtain ⟨e00, e01, e10, e11, e20, e21, e30, e31⟩ := outIdx_facts ⟨(i 0).val / 1024, by rw [hN]; omega⟩
  refine ⟨⟨(i 0).val / 1024, by rw [hN]; omega⟩, flush2_3 _, ?_⟩
  rw [outMem_blk]
  intro a
  match a with
  | ⟨0, _⟩ =>
    show win2_3.index ⟨(i 0).val / 1024, _⟩ (0 : Fin 2) * 1024 ≤ (i 0).val ∧ (i 0).val < win2_3.index ⟨(i 0).val / 1024, _⟩ (0 : Fin 2) * 1024 + 1024
    rw [e30]; show (i 0).val / 1024 * 1024 ≤ (i 0).val ∧ (i 0).val < (i 0).val / 1024 * 1024 + 1024; omega
  | ⟨1, _⟩ =>
    show win2_3.index ⟨(i 0).val / 1024, _⟩ (1 : Fin 2) * 1024 ≤ (i 1).val ∧ (i 1).val < win2_3.index ⟨(i 0).val / 1024, _⟩ (1 : Fin 2) * 1024 + 1024
    rw [e31]; omega

/-- The result array after the region: the projection of the arrays the region is entered with, entry by entry. -/
theorem final2 (c : Dev nD) :
    (dat2 (F := Ideal) V c).arrAt 3 cfg2.N = outProj (V c main_v12) (V c main_arg4) (V c main_v13) :=
  (dat2 (F := Ideal) V c).arrAt_eq_of_cover 3 (outProj (V c main_v12) (V c main_arg4) (V c main_v13))
    (fun t _ => outFlushed_eq V c t) outCover

end Cert.KernelIdeal.Hand

end
-- ==== Proof.AttnPayload.lean ====
/-
  The attention body's arithmetic read at an index, on the extended reals.

  The body holds a query tile, a key tile and a value tile of 1024 rows by 64 features, the head's 64 by 64 state, and
  two accumulators. Each of its six stores writes one value; here each is read entry by entry:
  the state copied; the query tile against the state, `∑ d, q r d · st d e`; the masked scores against the values added
  to the output accumulator, where the score of row `r` and column `c` is `∑ d, q r d · k c d` when the column's position
  `kj · 1024 + c` is at most the row's position `qi · 1024 + r` and `0` otherwise; the keys against the values,
  `∑ c, k c d · v c e`, added to the state accumulator; and the two accumulators copied out under a leading unit axis.
  A change of float format is the identity on the extended reals, and a product into the zero accumulator is the plain
  sum over the contracted axis.
-/
import proofs.«151280_j41747082117805_1_alg».proof.Proof.AttnAcc
import Idealize.ShloMosaic.Lib.ValueIdx
import Idealize.ShloMosaic.Lib.ValueLayout
import Idealize.ShloMosaic.Lib.Pipeline.Value
import Idealize.ShloMosaic.PureOps.Ideal.Laws

noncomputable section

open scoped BigOperators

namespace Cert.KernelIdeal.Hand

open Cert.KernelIdeal Cert.KernelIdeal.Gen
open Idealize.ShloMosaic Idealize.ShloMosaic.ValueIdx

/-- The state block copied into the state accumulator: the leading unit axis dropped. -/
theorem pay1_apply (st : Vec Ideal S1x64x64 .f32) (d e : Fin 64) :
    k1_pay1 (F := Ideal) st (ix2 d e) = st (ix3 (0 : Fin 1) d e) := by
  unfold k1_pay1
  rw [shapeCast_self]
  exact shapeCast_1ab_ab_apply st _ d e

/-- The output accumulator copied to the output block: a leading unit axis added. -/
theorem pay5_apply (o : Vec Ideal S1024x64 .f32) (u : Fin 1) (r : Fin 1024) (e : Fin 64) :
    k1_pay5 (F := Ideal) o (ix3 u r e) = o (ix2 r e) := by
  unfold k1_pay5
  exact shapeCast_ab_1ab_apply o _ u r e

/-- The state accumulator copied to the new-state block: a leading unit axis added. -/
theorem pay6_apply (s : Vec Ideal S64x64 .f32) (u : Fin 1) (d e : Fin 64) :
    k1_pay6 (F := Ideal) s (ix3 u d e) = s (ix2 d e) := by
  unfold k1_pay6
  exact shapeCast_ab_1ab_apply s _ u d e

/-- The query tile against the state, into the zero accumulator: row `p` of the tile against column `q` of the state. -/
theorem mm_query_state (x : FVec Ideal S1024x64 .bf16) (y : FVec Ideal S64x64 .bf16) (p : Fin 1024) (q : Fin 64) :
    matmul dot_S1024x64_S64x64_S1024x64_1_0_0_1_n_n none x y (constant (F := Ideal) S1024x64 .f32 0x00000000#32) (ix2 p q)
      = ∑ k : Fin 64, x (ix2 p k) * y (ix2 k q) := by
  simp only [matmul]
  rw [Ideal.matmul_constant_zero_apply, ← Equiv.sum_comp (contrEquiv1 dot_S1024x64_S64x64_S1024x64_1_0_0_1_n_n 64 rfl rfl).symm]
  refine Finset.sum_congr rfl fun k _ => ?_
  have hk := contrEquiv1_symm_val dot_S1024x64_S64x64_S1024x64_1_0_0_1_n_n 64 rfl rfl k
  have l0 : (dot_S1024x64_S64x64_S1024x64_1_0_0_1_n_n.lhsIdx (ix2 p q) ((contrEquiv1 dot_S1024x64_S64x64_S1024x64_1_0_0_1_n_n 64 rfl rfl).symm k) 0).val = p.val := by
    unfold DotDims.lhsIdx
    rw [dif_neg (show ¬(0 : Fin S1024x64.rank) ∈ dot_S1024x64_S64x64_S1024x64_1_0_0_1_n_n.lhsBatch by decide),
      dif_pos (show (0 : Fin S1024x64.rank) ∈ dot_S1024x64_S64x64_S1024x64_1_0_0_1_n_n.lhsNonContracting by decide)]
    rfl
  have r1 : (dot_S1024x64_S64x64_S1024x64_1_0_0_1_n_n.rhsIdx (ix2 p q) ((contrEquiv1 dot_S1024x64_S64x64_S1024x64_1_0_0_1_n_n 64 rfl rfl).symm k) 1).val = q.val := by
    unfold DotDims.rhsIdx
    rw [dif_neg (show ¬(1 : Fin S64x64.rank) ∈ dot_S1024x64_S64x64_S1024x64_1_0_0_1_n_n.rhsBatch by decide),
      dif_pos (show (1 : Fin S64x64.rank) ∈ dot_S1024x64_S64x64_S1024x64_1_0_0_1_n_n.rhsNonContracting by decide)]
    rfl
  have el : dot_S1024x64_S64x64_S1024x64_1_0_0_1_n_n.lhsIdx (ix2 p q) ((contrEquiv1 dot_S1024x64_S64x64_S1024x64_1_0_0_1_n_n 64 rfl rfl).symm k) = ix2 p k :=
    funext fun a => Fin.ext (by
      match a with
      | ⟨0, _⟩ => exact l0
      | ⟨1, _⟩ => exact (dot_S1024x64_S64x64_S1024x64_1_0_0_1_n_n.lhsIdx_val_of_single rfl _ _).trans hk)
  have er : dot_S1024x64_S64x64_S1024x64_1_0_0_1_n_n.rhsIdx (ix2 p q) ((contrEquiv1 dot_S1024x64_S64x64_S1024x64_1_0_0_1_n_n 64 rfl rfl).symm k) = ix2 k q :=
    funext fun a => Fin.ext (by
      match a with
      | ⟨0, _⟩ => exact (dot_S1024x64_S64x64_S1024x64_1_0_0_1_n_n.rhsIdx_val_of_single rfl _ _).trans hk
      | ⟨1, _⟩ => exact r1)
  rw [el, er]

/-- The query tile against the transposed key tile, into the zero accumulator: the unmasked scores. -/
theorem mm_scores (x : FVec Ideal S1024x64 .bf16) (y : FVec Ideal S64x1024 .bf16) (p : Fin 1024) (q : Fin 1024) :
    matmul dot_S1024x64_S64x1024_S1024x1024_1_0_0_1_n_n none x y (constant (F := Ideal) S1024x1024 .f32 0x00000000#32) (ix2 p q)
      = ∑ k : Fin 64, x (ix2 p k) * y (ix2 k q) := by
  simp only [matmul]
  rw [Ideal.matmul_constant_zero_apply, ← Equiv.sum_comp (contrEquiv1 dot_S1024x64_S64x1024_S1024x1024_1_0_0_1_n_n 64 rfl rfl).symm]
  refine Finset.sum_congr rfl fun k _ => ?_
  have hk := contrEquiv1_symm_val dot_S1024x64_S64x1024_S1024x1024_1_0_0_1_n_n 64 rfl rfl k
  have l0 : (dot_S1024x64_S64x1024_S1024x1024_1_0_0_1_n_n.lhsIdx (ix2 p q) ((contrEquiv1 dot_S1024x64_S64x1024_S1024x1024_1_0_0_1_n_n 64 rfl rfl).symm k) 0).val = p.val := by
    unfold DotDims.lhsIdx
    rw [dif_neg (show ¬(0 : Fin S1024x64.rank) ∈ dot_S1024x64_S64x1024_S1024x1024_1_0_0_1_n_n.lhsBatch by decide),
      dif_pos (show (0 : Fin S1024x64.rank) ∈ dot_S1024x64_S64x1024_S1024x1024_1_0_0_1_n_n.lhsNonContracting by decide)]
    rfl
  have r1 : (dot_S1024x64_S64x1024_S1024x1024_1_0_0_1_n_n.rhsIdx (ix2 p q) ((contrEquiv1 dot_S1024x64_S64x1024_S1024x1024_1_0_0_1_n_n 64 rfl rfl).symm k) 1).val = q.val := by
    unfold DotDims.rhsIdx
    rw [dif_neg (show ¬(1 : Fin S64x1024.rank) ∈ dot_S1024x64_S64x1024_S1024x1024_1_0_0_1_n_n.rhsBatch by decide),
      dif_pos (show (1 : Fin S64x1024.rank) ∈ dot_S1024x64_S64x1024_S1024x1024_1_0_0_1_n_n.rhsNonContracting by decide)]
    rfl
  have el : dot_S1024x64_S64x1024_S1024x1024_1_0_0_1_n_n.lhsIdx (ix2 p q) ((contrEquiv1 dot_S1024x64_S64x1024_S1024x1024_1_0_0_1_n_n 64 rfl rfl).symm k) = ix2 p k :=
    funext fun a => Fin.ext (by
      match a with
      | ⟨0, _⟩ => exact l0
      | ⟨1, _⟩ => exact (dot_S1024x64_S64x1024_S1024x1024_1_0_0_1_n_n.lhsIdx_val_of_single rfl _ _).trans hk)
  have er : dot_S1024x64_S64x1024_S1024x1024_1_0_0_1_n_n.rhsIdx (ix2 p q) ((contrEquiv1 dot_S1024x64_S64x1024_S1024x1024_1_0_0_1_n_n 64 rfl rfl).symm k) = ix2 k q :=
    funext fun a => Fin.ext (by
      match a with
      | ⟨0, _⟩ => exact (dot_S1024x64_S64x1024_S1024x1024_1_0_0_1_n_n.rhsIdx_val_of_single rfl _ _).trans hk
      | ⟨1, _⟩ => exact r1)
  rw [el, er]

/-- A 1024 by 1024 matrix against the value tile, into the zero accumulator. -/
theorem mm_scores_values (x : FVec Ideal S1024x1024 .bf16) (y : FVec Ideal S1024x64 .bf16) (p : Fin 1024) (q : Fin 64) :
    matmul dot_S1024x1024_S1024x64_S1024x64_1_0_0_1_n_n none x y (constant (F := Ideal) S1024x64 .f32 0x00000000#32) (ix2 p q)
      = ∑ k : Fin 1024, x (ix2 p k) * y (ix2 k q) := by
  simp only [matmul]
  rw [Ideal.matmul_constant_zero_apply, ← Equiv.sum_comp (contrEquiv1 dot_S1024x1024_S1024x64_S1024x64_1_0_0_1_n_n 1024 rfl rfl).symm]
  refine Finset.sum_congr rfl fun k _ => ?_
  have hk := contrEquiv1_symm_val dot_S1024x1024_S1024x64_S1024x64_1_0_0_1_n_n 1024 rfl rfl k
  have l0 : (dot_S1024x1024_S1024x64_S1024x64_1_0_0_1_n_n.lhsIdx (ix2 p q) ((contrEquiv1 dot_S1024x1024_S1024x64_S1024x64_1_0_0_1_n_n 1024 rfl rfl).symm k) 0).val = p.val := by
    unfold DotDims.lhsIdx
    rw [dif_neg (show ¬(0 : Fin S1024x1024.rank) ∈ dot_S1024x1024_S1024x64_S1024x64_1_0_0_1_n_n.lhsBatch by decide),
      dif_pos (show (0 : Fin S1024x1024.rank) ∈ dot_S1024x1024_S1024x64_S1024x64_1_0_0_1_n_n.lhsNonContracting by decide)]
    rfl
  have r1 : (dot_S1024x1024_S1024x64_S1024x64_1_0_0_1_n_n.rhsIdx (ix2 p q) ((contrEquiv1 dot_S1024x1024_S1024x64_S1024x64_1_0_0_1_n_n 1024 rfl rfl).symm k) 1).val = q.val := by
    unfold DotDims.rhsIdx
    rw [dif_neg (show ¬(1 : Fin S1024x64.rank) ∈ dot_S1024x1024_S1024x64_S1024x64_1_0_0_1_n_n.rhsBatch by decide),
      dif_pos (show (1 : Fin S1024x64.rank) ∈ dot_S1024x1024_S1024x64_S1024x64_1_0_0_1_n_n.rhsNonContracting by decide)]
    rfl
  have el : dot_S1024x1024_S1024x64_S1024x64_1_0_0_1_n_n.lhsIdx (ix2 p q) ((contrEquiv1 dot_S1024x1024_S1024x64_S1024x64_1_0_0_1_n_n 1024 rfl rfl).symm k) = ix2 p k :=
    funext fun a => Fin.ext (by
      match a with
      | ⟨0, _⟩ => exact l0
      | ⟨1, _⟩ => exact (dot_S1024x1024_S1024x64_S1024x64_1_0_0_1_n_n.lhsIdx_val_of_single rfl _ _).trans hk)
  have er : dot_S1024x1024_S1024x64_S1024x64_1_0_0_1_n_n.rhsIdx (ix2 p q) ((contrEquiv1 dot_S1024x1024_S1024x64_S1024x64_1_0_0_1_n_n 1024 rfl rfl).symm k) = ix2 k q :=
    funext fun a => Fin.ext (by
      match a with
      | ⟨0, _⟩ => exact (dot_S1024x1024_S1024x64_S1024x64_1_0_0_1_n_n.rhsIdx_val_of_single rfl _ _).trans hk
      | ⟨1, _⟩ => exact r1)
  rw [el, er]

/-- The transposed key tile against the value tile, into the zero accumulator. -/
theorem mm_keys_values (x : FVec Ideal S64x1024 .bf16) (y : FVec Ideal S1024x64 .bf16) (p : Fin 64) (q : Fin 64) :
    matmul dot_S64x1024_S1024x64_S64x64_1_0_0_1_n_n none x y (constant (F := Ideal) S64x64 .f32 0x00000000#32) (ix2 p q)
      = ∑ k : Fin 1024, x (ix2 p k) * y (ix2 k q) := by
  simp only [matmul]
  rw [Ideal.matmul_constant_zero_apply, ← Equiv.sum_comp (contrEquiv1 dot_S64x1024_S1024x64_S64x64_1_0_0_1_n_n 1024 rfl rfl).symm]
  refine Finset.sum_congr rfl fun k _ => ?_
  have hk := contrEquiv1_symm_val dot_S64x1024_S1024x64_S64x64_1_0_0_1_n_n 1024 rfl rfl k
  have l0 : (dot_S64x1024_S1024x64_S64x64_1_0_0_1_n_n.lhsIdx (ix2 p q) ((contrEquiv1 dot_S64x1024_S1024x64_S64x64_1_0_0_1_n_n 1024 rfl rfl).symm k) 0).val = p.val := by
    unfold DotDims.lhsIdx
    rw [dif_neg (show ¬(0 : Fin S64x1024.rank) ∈ dot_S64x1024_S1024x64_S64x64_1_0_0_1_n_n.lhsBatch by decide),
      dif_pos (show (0 : Fin S64x1024.rank) ∈ dot_S64x1024_S1024x64_S64x64_1_0_0_1_n_n.lhsNonContracting by decide)]
    rfl
  have r1 : (dot_S64x1024_S1024x64_S64x64_1_0_0_1_n_n.rhsIdx (ix2 p q) ((contrEquiv1 dot_S64x1024_S1024x64_S64x64_1_0_0_1_n_n 1024 rfl rfl).symm k) 1).val = q.val := by
    unfold DotDims.rhsIdx
    rw [dif_neg (show ¬(1 : Fin S1024x64.rank) ∈ dot_S64x1024_S1024x64_S64x64_1_0_0_1_n_n.rhsBatch by decide),
      dif_pos (show (1 : Fin S1024x64.rank) ∈ dot_S64x1024_S1024x64_S64x64_1_0_0_1_n_n.rhsNonContracting by decide)]
    rfl
  have el : dot_S64x1024_S1024x64_S64x64_1_0_0_1_n_n.lhsIdx (ix2 p q) ((contrEquiv1 dot_S64x1024_S1024x64_S64x64_1_0_0_1_n_n 1024 rfl rfl).symm k) = ix2 p k :=
    funext fun a => Fin.ext (by
      match a with
      | ⟨0, _⟩ => exact l0
      | ⟨1, _⟩ => exact (dot_S64x1024_S1024x64_S64x64_1_0_0_1_n_n.lhsIdx_val_of_single rfl _ _).trans hk)
  have er : dot_S64x1024_S1024x64_S64x64_1_0_0_1_n_n.rhsIdx (ix2 p q) ((contrEquiv1 dot_S64x1024_S1024x64_S64x64_1_0_0_1_n_n 1024 rfl rfl).symm k) = ix2 k q :=
    funext fun a => Fin.ext (by
      match a with
      | ⟨0, _⟩ => exact (dot_S64x1024_S1024x64_S64x64_1_0_0_1_n_n.rhsIdx_val_of_single rfl _ _).trans hk
      | ⟨1, _⟩ => exact r1)
  rw [el, er]

/-- The query tile against the head's state: entry `(r, e)` is row `r` of the tile against column `e` of the state. -/
theorem pay2_apply (st : Vec Ideal S1x64x64 .f32) (q : Vec Ideal S1x1024x64 .bf16) (r : Fin 1024) (e : Fin 64) :
    k1_pay2 (F := Ideal) st q (ix2 r e) = ∑ d : Fin 64, q (ix3 (0 : Fin 1) r d) * st (ix3 (0 : Fin 1) d e) := by
  unfold k1_pay2
  rw [shapeCast_self, mm_query_state]
  refine Finset.sum_congr rfl fun d _ => ?_
  rw [shapeCast_1ab_ab_apply, truncf_apply, shapeCast_1ab_ab_apply]

/-- The keys against the values added to the state accumulator: entry `(d, e)` gains `∑ c, k c d · v c e`. -/
theorem pay4_apply (s : Vec Ideal S64x64 .f32) (k v : Vec Ideal S1x1024x64 .bf16) (d e : Fin 64) :
    k1_pay4 (F := Ideal) s k v (ix2 d e)
      = s (ix2 d e) + ∑ c : Fin 1024, k (ix3 (0 : Fin 1) c d) * v (ix3 (0 : Fin 1) c e) := by
  unfold k1_pay4
  rw [shapeCast_self, addf_apply, mm_keys_values]
  congr 1
  refine Finset.sum_congr rfl fun c _ => ?_
  rw [transpose_ix2_apply, shapeCast_1ab_ab_apply, shapeCast_1ab_ab_apply]

/-! ## The causal mask: a comparison of 32-bit position words -/

/-- Tile number `a < 4` times 1024 plus an offset `r < 1024`, computed on 32-bit words, is the word of that number. -/
theorem word_pos (a r : ℕ) (ha : a < 4) (hr : r < 1024) :
    IntOp.addi (Scalar.muli (BitVec.ofNat 32 a) 1024#32) (BitVec.ofNat 32 r) = BitVec.ofNat 32 (a * 1024 + r) := by
  unfold IntOp.addi Scalar.muli IntOp.muli
  apply BitVec.eq_of_toNat_eq
  simp only [BitVec.toNat_add, BitVec.toNat_mul, BitVec.toNat_ofNat]
  omega

/-- The signed comparison "row position ≥ column position" of two such words is the comparison of the numbers: both
    are below 4096, far from the sign bit. -/
theorem mask_word (a b r c : ℕ) (ha : a < 4) (hb : b < 4) (hr : r < 1024) (hc : c < 1024) :
    IntOp.cmpi .sge (IntOp.addi (Scalar.muli (BitVec.ofNat 32 a) 1024#32) (BitVec.ofNat 32 r))
        (IntOp.addi (Scalar.muli (BitVec.ofNat 32 b) 1024#32) (BitVec.ofNat 32 c))
      = if b * 1024 + c ≤ a * 1024 + r then 1#1 else 0#1 := by
  rw [word_pos a r ha hr, word_pos b c hb hc]
  unfold IntOp.cmpi
  dsimp only
  have h1 : (BitVec.ofNat 32 (a * 1024 + r)).toInt = ((a * 1024 + r : ℕ) : ℤ) := by
    rw [BitVec.toInt_eq_toNat_of_lt (by rw [BitVec.toNat_ofNat]; omega), BitVec.toNat_ofNat]; congr 1; omega
  have h2 : (BitVec.ofNat 32 (b * 1024 + c)).toInt = ((b * 1024 + c : ℕ) : ℤ) := by
    rw [BitVec.toInt_eq_toNat_of_lt (by rw [BitVec.toNat_ofNat]; omega), BitVec.toNat_ofNat]; congr 1; omega
  rw [BitVec.sle, h1, h2]
  by_cases h : b * 1024 + c ≤ a * 1024 + r
  · rw [if_pos h, decide_eq_true (by exact_mod_cast h)]; rfl
  · rw [if_neg h, decide_eq_false (by exact_mod_cast h)]; rfl

/-- The masked scores against the values, added to the output accumulator. The score of row `r` against column `c` is
    kept when the column's position `kj · 1024 + c` is at most the row's position `qi · 1024 + r`, and is `0` otherwise. -/
theorem pay3_apply (i : grid1.Coords) (q k : Vec Ideal S1x1024x64 .bf16) (o : Vec Ideal S1024x64 .f32)
    (v : Vec Ideal S1x1024x64 .bf16) (r : Fin 1024) (e : Fin 64) :
    k1_pay3 (F := Ideal) i q k o v (ix2 r e)
      = o (ix2 r e) + ∑ c : Fin 1024,
          (if (i 2).val * 1024 + c.val ≤ (i 1).val * 1024 + r.val
            then ∑ d : Fin 64, q (ix3 (0 : Fin 1) r d) * k (ix3 (0 : Fin 1) c d) else 0) * v (ix3 (0 : Fin 1) c e) := by
  have h1 : (i 1).val < 4 := (i 1).isLt
  have h2 : (i 2).val < 4 := (i 2).isLt
  unfold k1_pay3
  dsimp only
  rw [shapeCast_self, addf_apply, mm_scores_values]
  congr 1
  refine Finset.sum_congr rfl fun c _ => ?_
  rw [shapeCast_1ab_ab_apply, truncf_apply, select_apply, cmpi, addi, addi, broadcast_apply, broadcast_apply,
    iota_single_apply, iota_single_apply]
  congr 1
  rw [mm_scores, broadcast_apply]
  show Scalar.select (IntOp.cmpi .sge
      (IntOp.addi (Scalar.muli (BitVec.ofNat 32 (i 1).val) 1024#32) (BitVec.ofNat 32 r.val))
      (IntOp.addi (Scalar.muli (BitVec.ofNat 32 (i 2).val) 1024#32) (BitVec.ofNat 32 c.val))) _ _ = _
  rw [mask_word _ _ _ _ h1 h2 r.isLt c.isLt]
  by_cases h : (i 2).val * 1024 + c.val ≤ (i 1).val * 1024 + r.val
  · rw [if_pos h, if_pos h, select_one]
    refine Finset.sum_congr rfl fun d _ => ?_
    rw [shapeCast_1ab_ab_apply, transpose_ix2_apply, shapeCast_1ab_ab_apply]
  · rw [if_neg h, if_neg h, select_zero]
    exact Ideal.ofBits_zero_f32

/-! ## One point's effect on the two accumulators, entry by entry -/

/-- The output accumulator after a point: the query tile against the state where the key tile is the first (else what
    it held), plus the masked scores against the values where the key tile is not after the query tile. -/
theorem accStep_out (i : grid1.Coords) (q k v : Vec Ideal S1x1024x64 .bf16) (st : Vec Ideal S1x64x64 .f32)
    (a : Acc Ideal) (r : Fin 1024) (e : Fin 64) :
    (accStep i q k v st a).1 (ix2 r e)
      = (if (i 2).val = 0 then ∑ d : Fin 64, q (ix3 (0 : Fin 1) r d) * st (ix3 (0 : Fin 1) d e) else a.1 (ix2 r e))
        + (if (i 2).val ≤ (i 1).val then
            ∑ c : Fin 1024,
              (if (i 2).val * 1024 + c.val ≤ (i 1).val * 1024 + r.val
                then ∑ d : Fin 64, q (ix3 (0 : Fin 1) r d) * k (ix3 (0 : Fin 1) c d) else 0) * v (ix3 (0 : Fin 1) c e)
          else 0) := by
  unfold accStep
  dsimp only
  by_cases hle : (i 2).val ≤ (i 1).val
  · rw [if_pos hle, if_pos hle, pay3_apply]
    congr 1
    by_cases h0 : (i 2).val = 0
    · rw [if_pos h0, if_pos h0, pay2_apply]
    · rw [if_neg h0, if_neg h0]
  · rw [if_neg hle, if_neg hle, add_zero]
    by_cases h0 : (i 2).val = 0
    · rw [if_pos h0, if_pos h0, pay2_apply]
    · rw [if_neg h0, if_neg h0]

/-- The state accumulator after a point: the head's state at the head's first point (else what it held), plus the keys
    against the values in the first row of query tiles. -/
theorem accStep_state (i : grid1.Coords) (q k v : Vec Ideal S1x1024x64 .bf16) (st : Vec Ideal S1x64x64 .f32)
    (a : Acc Ideal) (d e : Fin 64) :
    (accStep i q k v st a).2 (ix2 d e)
      = (if (i 1).val = 0 ∧ (i 2).val = 0 then st (ix3 (0 : Fin 1) d e) else a.2 (ix2 d e))
        + (if (i 1).val = 0 then ∑ c : Fin 1024, k (ix3 (0 : Fin 1) c d) * v (ix3 (0 : Fin 1) c e) else 0) := by
  unfold accStep
  dsimp only
  by_cases hq : (i 1).val = 0
  · rw [if_pos hq, if_pos hq, pay4_apply]
    congr 1
    by_cases h0 : (i 1).val = 0 ∧ (i 2).val = 0
    · rw [if_pos h0, if_pos h0, pay1_apply]
    · rw [if_neg h0, if_neg h0]
  · rw [if_neg hq, if_neg hq, add_zero, if_neg (fun h => hq h.1), if_neg (fun h => hq h.1)]

end Cert.KernelIdeal.Hand

end
-- ==== Proof.AttnClosed.lean ====
/-
  The attention region's two accumulators in closed form, over whole arrays on the extended reals.

  Queries, keys and values are arrays `Q K V : [16, 4096, 64]` (head, position, feature) and the carried state is
  `S : [16, 64, 64]`. Grid point `n` of the 256 is (head, query tile, key tile) = `(n / 16, n / 4 % 4, n % 4)`; it is
  handed rows `qi · 1024 …` of the head's queries, rows `kj · 1024 …` of its keys and values, and the head's state.

  Output accumulator. After the point with key tile `kj` in the row of query tile `qi`, entry `(r, e)` holds, for the
  position `t = qi · 1024 + r`, the query against the state `∑ d, Q t d · S d e` plus the causal scores against the values
  over the key tiles `j ≤ kj`, `j ≤ qi`. A key tile after the query tile contributes nothing: every one of its positions is
  after `t`, so every score there is masked to `0` and `0 · a = 0`. At `kj = 3` the four tiles' sums are the sum over
  all 4096 positions.

  State accumulator. It is set to the head's state at the head's first point, gains the keys against the values of
  key tile `kj` at each point of the first row of query tiles, and is untouched afterwards: at step `m = n % 16` of a head
  it holds `S d e` plus the tiles `j ≤ m`, which from `m = 3` on is the sum over all positions.

  Only commutativity and associativity of addition and `0 · a = 0` are used; no entry needs to be finite.
-/
import proofs.«151280_j41747082117805_1_alg».proof.Proof.AttnPayload
import proofs.«151280_j41747082117805_1_alg».proof.Proof.Spec

noncomputable section

open scoped BigOperators

namespace Cert.KernelIdeal.Hand

open Cert.KernelIdeal Cert.KernelIdeal.Gen
open Idealize.ShloMosaic Idealize.ShloMosaic.ValueIdx
open Cert.Spec (Arr3)

/-! ## Finite sums over four tiles -/

/-- A sum over 4096 positions is the sum over the four tiles of the sums over each tile's 1024 positions. -/
theorem sum_tiles (f : Fin 4096 → EReal) :
    ∑ s : Fin 4096, f s = ∑ j : Fin 4, ∑ c : Fin 1024, f ⟨j.val * 1024 + c.val, by have := j.isLt; have := c.isLt; omega⟩ := by
  show ∑ s : Fin (4 * 1024), f s = _
  rw [← Equiv.sum_comp (finProdFinEquiv (m := 4) (n := 1024)) f, Fintype.sum_prod_type]
  refine Finset.sum_congr rfl fun j _ => Finset.sum_congr rfl fun c _ => congrArg f (Fin.ext ?_)
  show c.val + 1024 * j.val = j.val * 1024 + c.val
  omega

/-- Adding tile `B`'s term (where `P B` holds) to the terms of the tiles before `B` gives the terms up to `B`. -/
theorem sum_upto_succ (f : Fin 4 → EReal) (P : Fin 4 → Prop) [DecidablePred P] (B : Fin 4) (hB : B.val ≠ 0) :
    (∑ j : Fin 4, if j.val ≤ B.val - 1 ∧ P j then f j else 0) + (if P B then f B else 0)
      = ∑ j : Fin 4, if j.val ≤ B.val ∧ P j then f j else 0 := by
  have h : ∀ j : Fin 4, (if j.val ≤ B.val ∧ P j then f j else 0)
      = (if j.val ≤ B.val - 1 ∧ P j then f j else 0) + (if j = B then (if P B then f B else 0) else 0) := by
    intro j
    by_cases hj : j = B
    · subst hj
      have hlt : ¬(j.val ≤ j.val - 1 ∧ P j) := fun h => by omega
      rw [if_neg hlt, if_pos rfl, zero_add]
      by_cases hp : P j
      · rw [if_pos ⟨le_refl _, hp⟩, if_pos hp]
      · rw [if_neg (fun h => hp h.2), if_neg hp]
    · have hv : j.val ≠ B.val := fun h => hj (Fin.ext h)
      rw [if_neg hj, add_zero]
      by_cases hc : j.val ≤ B.val - 1 ∧ P j
      · rw [if_pos hc, if_pos ⟨by omega, hc.2⟩]
      · rw [if_neg hc, if_neg (fun h => hc ⟨by omega, h.2⟩)]
  simp only [h, Finset.sum_add_distrib, Finset.sum_ite_eq', Finset.mem_univ, if_true]

/-- The same without a side condition. -/
theorem sum_le_succ (f : Fin 4 → EReal) (B : Fin 4) (hB : B.val ≠ 0) :
    (∑ j : Fin 4, if j.val ≤ B.val - 1 then f j else 0) + f B = ∑ j : Fin 4, if j.val ≤ B.val then f j else 0 := by
  have h : ∀ j : Fin 4, (if j.val ≤ B.val then f j else 0)
      = (if j.val ≤ B.val - 1 then f j else 0) + (if j = B then f B else 0) := by
    intro j
    by_cases hj : j = B
    · subst hj
      have hlt : ¬(j.val ≤ j.val - 1) := fun h => by omega
      rw [if_neg hlt, if_pos rfl, zero_add, if_pos (le_refl _)]
    · have hv : j.val ≠ B.val := fun h => hj (Fin.ext h)
      rw [if_neg hj, add_zero]
      by_cases hc : j.val ≤ B.val - 1
      · rw [if_pos hc, if_pos (by omega)]
      · rw [if_neg hc, if_neg (by omega)]
  simp only [h, Finset.sum_add_distrib, Finset.sum_ite_eq', Finset.mem_univ, if_true]

/-- Only tile `0` is at most tile `0`. -/
theorem sum_upto_zero (f : Fin 4 → EReal) (P : Fin 4 → Prop) [DecidablePred P] (B : Fin 4) (hB : B.val = 0) (hP : P B) :
    ∑ j : Fin 4, (if j.val ≤ B.val ∧ P j then f j else 0) = f B := by
  rw [Finset.sum_eq_single B (fun j _ hj => if_neg (fun h => hj (Fin.ext (by omega)))) (fun h => absurd (Finset.mem_univ _) h),
    if_pos ⟨le_refl _, hP⟩]

/-! ## The grid's points and the blocks they are handed -/

/-- Point `n`'s head, query tile and key tile. -/
def hd (n : ℕ) : Fin 16 := ⟨n / 16 % 16, Nat.mod_lt _ (by decide)⟩
def qi (n : ℕ) : Fin 4 := ⟨n / 4 % 4, Nat.mod_lt _ (by decide)⟩
def kj (n : ℕ) : Fin 4 := ⟨n % 4, Nat.mod_lt _ (by decide)⟩

theorem grid1_N : grid1.N = 256 := by decide

/-- The grid's own coordinates of point `n` are these. -/
theorem coords_facts : ∀ t : Fin grid1.N,
    (grid1.coords t 0).val = t.val / 16 % 16 ∧ (grid1.coords t 1).val = t.val / 4 % 4 ∧ (grid1.coords t 2).val = t.val % 4 := by
  decide +kernel

theorem coords0_val (n : ℕ) (hn : n < grid1.N) : (grid1.coords ⟨n, hn⟩ 0).val = (hd n).val := (coords_facts ⟨n, hn⟩).1
theorem coords1_val (n : ℕ) (hn : n < grid1.N) : (grid1.coords ⟨n, hn⟩ 1).val = (qi n).val := (coords_facts ⟨n, hn⟩).2.1
theorem coords2_val (n : ℕ) (hn : n < grid1.N) : (grid1.coords ⟨n, hn⟩ 2).val = (kj n).val := (coords_facts ⟨n, hn⟩).2.2

/-- Position `c` of tile `j`. -/
def row (j : Fin 4) (c : Fin 1024) : Fin 4096 := ⟨j.val * 1024 + c.val, by have := j.isLt; have := c.isLt; omega⟩

theorem row_val (j : Fin 4) (c : Fin 1024) : (row j c).val = j.val * 1024 + c.val := rfl

/-- Tile `b` of head `h` of a `[16, 4096, 64]` array, as the `[1, 1024, 64]` block a point is handed. -/
def tileOf (X : Arr3 16 4096 64) (h : Fin 16) (b : Fin 4) : Vec Ideal S1x1024x64 .bf16 :=
  fun j => X (ix3 h (row b ⟨(j 1).val, (j 1).isLt⟩) ⟨(j 2).val, (j 2).isLt⟩)

/-- Head `h` of the state, as the `[1, 64, 64]` block a point is handed. -/
def stOf (S : Arr3 16 64 64) (h : Fin 16) : Vec Ideal S1x64x64 .f32 :=
  fun j => S (ix3 h ⟨(j 1).val, (j 1).isLt⟩ ⟨(j 2).val, (j 2).isLt⟩)

theorem tileOf_apply (X : Arr3 16 4096 64) (h : Fin 16) (b : Fin 4) (u : Fin 1) (r : Fin 1024) (d : Fin 64) :
    tileOf X h b (ix3 u r d) = X (ix3 h (row b r) d) := rfl

theorem stOf_apply (S : Arr3 16 64 64) (h : Fin 16) (u : Fin 1) (d e : Fin 64) :
    stOf S h (ix3 u d e) = S (ix3 h d e) := rfl

/-- The blocks point `n` is handed: the query tile `qi`, the key and value tiles `kj`, and the state, all of head `h`. -/
def blkOf (Q K V : Arr3 16 4096 64) (S : Arr3 16 64 64) (n : ℕ) (hn : n < grid1.N) : Blocks Ideal :=
  (tileOf Q (hd n) (qi n), tileOf K (hd n) (kj n), tileOf V (hd n) (kj n), stOf S (hd n))

/-! ## The pieces of the two closed forms -/

variable (Q K V : Arr3 16 4096 64) (S : Arr3 16 64 64)

/-- The query at position `t` against the state. -/
def qs (h : Fin 16) (t : Fin 4096) (e : Fin 64) : EReal := ∑ d : Fin 64, Q (ix3 h t d) * S (ix3 h d e)

/-- The causal score of query position `t` against key position `s`. -/
def sc (h : Fin 16) (t s : Fin 4096) : EReal :=
  if s.val ≤ t.val then ∑ d : Fin 64, Q (ix3 h t d) * K (ix3 h s d) else 0

/-- Key tile `j`'s share of the scores against the values. -/
def outBlock (h : Fin 16) (t : Fin 4096) (e : Fin 64) (j : Fin 4) : EReal :=
  ∑ c : Fin 1024, sc Q K h t (row j c) * V (ix3 h (row j c) e)

/-- Tile `j`'s share of the keys against the values. -/
def kvBlock (h : Fin 16) (d e : Fin 64) (j : Fin 4) : EReal :=
  ∑ c : Fin 1024, K (ix3 h (row j c) d) * V (ix3 h (row j c) e)

/-- The output accumulator's entry after key tile `b` in the row of query tile `A`. -/
def outUpto (h : Fin 16) (A : Fin 4) (b : ℕ) (r : Fin 1024) (e : Fin 64) : EReal :=
  qs Q S h (row A r) e + ∑ j : Fin 4, if j.val ≤ b ∧ j.val ≤ A.val then outBlock Q K V h (row A r) e j else 0

/-- The state accumulator's entry at step `m` of a head. -/
def stUpto (h : Fin 16) (m : ℕ) (d e : Fin 64) : EReal :=
  S (ix3 h d e) + ∑ j : Fin 4, if j.val ≤ m then kvBlock K V h d e j else 0

/-- A key tile after the query tile contributes nothing: every score in it is masked. -/
theorem outBlock_eq_zero (h : Fin 16) (A : Fin 4) (r : Fin 1024) (e : Fin 64) (j : Fin 4) (hj : A.val < j.val) :
    outBlock Q K V h (row A r) e j = 0 := by
  unfold outBlock
  refine Finset.sum_eq_zero fun c _ => ?_
  unfold sc
  rw [if_neg (by rw [row_val, row_val]; have := r.isLt; omega), zero_mul]

/-! ## One point's step on the closed forms -/

theorem out_step (i : grid1.Coords) (h : Fin 16) (A B : Fin 4) (hA : (i 1).val = A.val) (hB : (i 2).val = B.val)
    (a : Acc Ideal) (ha : B.val ≠ 0 → ∀ r e, a.1 (ix2 r e) = outUpto Q K V S h A (B.val - 1) r e)
    (r : Fin 1024) (e : Fin 64) :
    (accStep i (tileOf Q h A) (tileOf K h B) (tileOf V h B) (stOf S h) a).1 (ix2 r e) = outUpto Q K V S h A B.val r e := by
  rw [accStep_out, hA, hB]
  simp only [tileOf_apply, stOf_apply]
  have e1 : (∑ d : Fin 64, Q (ix3 h (row A r) d) * S (ix3 h d e)) = qs Q S h (row A r) e := rfl
  have e2 : (∑ c : Fin 1024, (if B.val * 1024 + c.val ≤ A.val * 1024 + r.val
      then ∑ d : Fin 64, Q (ix3 h (row A r) d) * K (ix3 h (row B c) d) else 0) * V (ix3 h (row B c) e))
      = outBlock Q K V h (row A r) e B := rfl
  rw [e1, e2]
  unfold outUpto
  by_cases hB0 : B.val = 0
  · rw [if_pos hB0, if_pos (by omega)]
    congr 1
    exact (sum_upto_zero (fun j => outBlock Q K V h (row A r) e j) (fun j => j.val ≤ A.val) B hB0 (by omega)).symm
  · rw [if_neg hB0, ha hB0 r e]
    unfold outUpto
    rw [add_assoc]
    congr 1
    exact sum_upto_succ (fun j => outBlock Q K V h (row A r) e j) (fun j => j.val ≤ A.val) B hB0

theorem st_step (i : grid1.Coords) (h : Fin 16) (A B : Fin 4) (hA : (i 1).val = A.val) (hB : (i 2).val = B.val)
    (a : Acc Ideal) (ha : A.val * 4 + B.val ≠ 0 → ∀ d e, a.2 (ix2 d e) = stUpto K V S h (A.val * 4 + B.val - 1) d e)
    (d e : Fin 64) :
    (accStep i (tileOf Q h A) (tileOf K h B) (tileOf V h B) (stOf S h) a).2 (ix2 d e)
      = stUpto K V S h (A.val * 4 + B.val) d e := by
  rw [accStep_state, hA, hB]
  simp only [tileOf_apply, stOf_apply]
  have e2 : (∑ c : Fin 1024, K (ix3 h (row B c) d) * V (ix3 h (row B c) e)) = kvBlock K V h d e B := rfl
  rw [e2]
  unfold stUpto
  by_cases hA0 : A.val = 0
  · have hm : A.val * 4 + B.val = B.val := by omega
    rw [if_pos hA0]
    by_cases hB0 : B.val = 0
    · rw [if_pos ⟨hA0, hB0⟩, hm]
      congr 1
      have := sum_upto_zero (fun j => kvBlock K V h d e j) (fun _ => True) B hB0 trivial
      simp only [and_true] at this
      exact this.symm
    · rw [if_neg (fun h => hB0 h.2), ha (by omega) d e]
      unfold stUpto
      rw [add_assoc, hm]
      congr 1
      exact sum_le_succ (fun j => kvBlock K V h d e j) B hB0
  · rw [if_neg hA0, add_zero, if_neg (fun h => hA0 h.1), ha (by omega) d e]
    unfold stUpto
    congr 1
    refine Finset.sum_congr rfl fun j _ => ?_
    rw [if_pos (by have := j.isLt; omega), if_pos (by have := j.isLt; omega)]

/-! ## The invariant at every point -/

/-- At every point: the output accumulator holds the query against the state plus the key tiles so far (those not after
    the query tile), and the state accumulator holds the state plus the tiles' keys against values so far. -/
theorem acc_inv (n : ℕ) (hn : n < grid1.N) :
    (∀ r e, (accAt (blkOf Q K V S) n hn).1 (ix2 r e) = outUpto Q K V S (hd n) (qi n) (kj n).val r e)
      ∧ (∀ d e, (accAt (blkOf Q K V S) n hn).2 (ix2 d e) = stUpto K V S (hd n) (n % 16) d e) := by
  induction n with
  | zero =>
    rw [accAt_zero]
    dsimp only [blkOf]
    refine ⟨fun r e => ?_, fun d e => ?_⟩
    · exact out_step Q K V S _ (hd 0) (qi 0) (kj 0) (coords1_val 0 hn) (coords2_val 0 hn) acc0 (fun h => absurd rfl h) r e
    · exact st_step Q K V S _ (hd 0) (qi 0) (kj 0) (coords1_val 0 hn) (coords2_val 0 hn) acc0 (fun h => absurd rfl h) d e
  | succ n ih =>
    have hn' : n < grid1.N := Nat.lt_of_succ_lt hn
    have h256 : n + 1 < 256 := grid1_N ▸ hn
    obtain ⟨iho, ihs⟩ := ih hn'
    rw [accAt_succ]
    dsimp only [blkOf]
    refine ⟨fun r e => ?_, fun d e => ?_⟩
    · refine out_step Q K V S _ (hd (n + 1)) (qi (n + 1)) (kj (n + 1)) (coords1_val _ hn) (coords2_val _ hn) _
        (fun hB r e => ?_) r e
      have hB' : (n + 1) % 4 ≠ 0 := hB
      have h1 : hd (n + 1) = hd n := Fin.ext (by show (n + 1) / 16 % 16 = n / 16 % 16; omega)
      have h2 : qi (n + 1) = qi n := Fin.ext (by show (n + 1) / 4 % 4 = n / 4 % 4; omega)
      have h3 : (kj (n + 1)).val - 1 = (kj n).val := by show (n + 1) % 4 - 1 = n % 4; omega
      rw [h1, h2, h3]
      exact iho r e
    · have hm : (qi (n + 1)).val * 4 + (kj (n + 1)).val = (n + 1) % 16 := by
        show (n + 1) / 4 % 4 * 4 + (n + 1) % 4 = (n + 1) % 16; omega
      rw [← hm]
      refine st_step Q K V S _ (hd (n + 1)) (qi (n + 1)) (kj (n + 1)) (coords1_val _ hn) (coords2_val _ hn) _
        (fun hB d e => ?_) d e
      rw [hm] at hB ⊢
      have h1 : hd (n + 1) = hd n := Fin.ext (by show (n + 1) / 16 % 16 = n / 16 % 16; omega)
      have h3 : (n + 1) % 16 - 1 = n % 16 := by omega
      rw [h1, h3]
      exact ihs d e

/-! ## The two closed forms the region stores -/

/-- At a point with the last key tile (`n % 4 = 3`) the output accumulator holds the whole causal row of position
    `t = qi · 1024 + r`: the query against the state plus the scores against the values over all 4096 positions. -/
theorem accAt_out_row (n : ℕ) (hn : n < grid1.N) (h3 : n % 4 = 3) (r : Fin 1024) (e : Fin 64) :
    (accAt (blkOf Q K V S) n hn).1 (ix2 r e)
      = (∑ d : Fin 64, Q (ix3 (hd n) (row (qi n) r) d) * S (ix3 (hd n) d e))
        + ∑ s : Fin 4096,
            (if s.val ≤ (row (qi n) r).val then ∑ d : Fin 64, Q (ix3 (hd n) (row (qi n) r) d) * K (ix3 (hd n) s d) else 0)
              * V (ix3 (hd n) s e) := by
  rw [(acc_inv Q K V S n hn).1 r e]
  unfold outUpto
  congr 1
  rw [sum_tiles]
  refine Finset.sum_congr rfl fun j _ => ?_
  by_cases hj : j.val ≤ (qi n).val
  · rw [if_pos ⟨by show j.val ≤ n % 4; have := j.isLt; omega, hj⟩]
    rfl
  · rw [if_neg (fun h => hj h.2)]
    exact (outBlock_eq_zero Q K V (hd n) (qi n) r e j (by omega)).symm

/-- At the last point of a head (`n % 16 = 15`) the state accumulator holds the head's new state: the state plus the
    keys against the values over all 4096 positions. -/
theorem accAt_state_last (n : ℕ) (hn : n < grid1.N) (h15 : n % 16 = 15) (d e : Fin 64) :
    (accAt (blkOf Q K V S) n hn).2 (ix2 d e)
      = S (ix3 (hd n) d e) + ∑ t : Fin 4096, K (ix3 (hd n) t d) * V (ix3 (hd n) t e) := by
  rw [(acc_inv Q K V S n hn).2 d e]
  unfold stUpto
  congr 1
  rw [sum_tiles, h15]
  refine Finset.sum_congr rfl fun j _ => ?_
  rw [if_pos (by have := j.isLt; omega)]
  rfl

end Cert.KernelIdeal.Hand

end
-- ==== Proof.AttnValue.lean ====
/-
  The attention region's two result arrays, as functions of the arrays the region is entered with.

  The output block is written back only at the points with kj = 3 and the new-state block only at the last point of a
  head; there the body's stored block is the output accumulator (the whole causal row of the query tile) and the state
  accumulator (the head's state plus the keys against the values over every position). Each input block is its
  window's tile of the whole array: an element of a block sits, on each axis, at block index × block size + its
  coordinate in the block, and the block indices are (head, qi, 0) for queries and output, (head, kj, 0) for keys and
  values, (head, 0, 0) for the state and the new state. So what a flushing point writes back is its block of ONE
  whole-array function; the flushing points' blocks cover each array (entry (h, r, e) of the output by the point
  (h, r / 1024, 3), entry (h, d, e) of the new state by (h, 3, 3)); hence each array ends holding that function.
-/
import proofs.«151280_j41747082117805_1_alg».proof.Proof.AttnData
import proofs.«151280_j41747082117805_1_alg».proof.Proof.AttnClosed
import Idealize.ShloMosaic.Lib.Pipeline.Value
import Idealize.ShloMosaic.Lib.ValueIdx

set_option maxRecDepth 16384

noncomputable section

open scoped BigOperators

namespace Cert.KernelIdeal.Hand

open Cert.KernelIdeal Cert.KernelIdeal.Gen
open Idealize.ShloMosaic Idealize.ShloMosaic.TcCoe Idealize.ShloMosaic.ValueIdx
open Idealize.ShloMosaic.Pipeline (Dat Cfg Window)
open Cert.Spec (Arr3)

-- the TensorCore's buffer contents when the region is entered, on the extended reals
variable (V : (c : Dev nD) → (b : Ref sig .tc) → Buf (Elt Ideal) ((c : Thread nD τ).loc b))

/-! ## Where each window's block sits at a point

A point is `t = 16 · head + 4 · qi + kj`. The query tile and the output tile are block (head, qi, 0) of their arrays,
the key and value tiles block (head, kj, 0), the state and the new state block (head, 0, 0). -/

theorem idx1_0 : ∀ t : Fin cfg1.N, win1_0.index t (0 : Fin 3) = t.val / 16 ∧ win1_0.index t (1 : Fin 3) = t.val / 4 % 4 ∧ win1_0.index t (2 : Fin 3) = 0 :=
  (by decide +kernel : ∀ t : Fin grid1.N, _)
theorem idx1_1 : ∀ t : Fin cfg1.N, win1_1.index t (0 : Fin 3) = t.val / 16 ∧ win1_1.index t (1 : Fin 3) = t.val % 4 ∧ win1_1.index t (2 : Fin 3) = 0 :=
  (by decide +kernel : ∀ t : Fin grid1.N, _)
theorem idx1_2 : ∀ t : Fin cfg1.N, win1_2.index t (0 : Fin 3) = t.val / 16 ∧ win1_2.index t (1 : Fin 3) = t.val % 4 ∧ win1_2.index t (2 : Fin 3) = 0 :=
  (by decide +kernel : ∀ t : Fin grid1.N, _)
theorem idx1_3 : ∀ t : Fin cfg1.N, win1_3.index t (0 : Fin 3) = t.val / 16 ∧ win1_3.index t (1 : Fin 3) = 0 ∧ win1_3.index t (2 : Fin 3) = 0 :=
  (by decide +kernel : ∀ t : Fin grid1.N, _)
theorem idx1_4 : ∀ t : Fin cfg1.N, win1_4.index t (0 : Fin 3) = t.val / 16 ∧ win1_4.index t (1 : Fin 3) = t.val / 4 % 4 ∧ win1_4.index t (2 : Fin 3) = 0 :=
  (by decide +kernel : ∀ t : Fin grid1.N, _)
theorem idx1_5 : ∀ t : Fin cfg1.N, win1_5.index t (0 : Fin 3) = t.val / 16 ∧ win1_5.index t (1 : Fin 3) = 0 ∧ win1_5.index t (2 : Fin 3) = 0 :=
  (by decide +kernel : ∀ t : Fin grid1.N, _)

/-! ## The input blocks, read off the whole arrays

An element of a block sits in its array, on each axis, at block index × block size + its coordinate in the block. -/

theorem iblk1_0_apply (c : Dev nD) (t : Fin cfg1.N) (j : S1x1024x64.Idx) (i : S16x4096x64.Idx)
    (h0 : (i 0).val = t.val / 16) (h1 : (i 1).val = t.val / 4 % 4 * 1024 + (j 1).val) (h2 : (i 2).val = (j 2).val) :
    iblk1 V c 0 t j = V c main_v5 i := by
  obtain ⟨e0, e1, e2⟩ := idx1_0 t
  show V c main_v5 (((cfg1.win 0).blk t).view.emb j) = V c main_v5 i
  refine congrArg _ (funext fun a => Fin.ext ?_)
  have hj : (j 0).val < 1 := (j 0).isLt
  match a with
  | ⟨0, _⟩ => show win1_0.index t (0 : Fin 3) * 1 + 1 * (j 0).val = (i 0).val; omega
  | ⟨1, _⟩ => show win1_0.index t (1 : Fin 3) * 1024 + 1 * (j 1).val = (i 1).val; omega
  | ⟨2, _⟩ => show win1_0.index t (2 : Fin 3) * 64 + 1 * (j 2).val = (i 2).val; omega

theorem iblk1_1_apply (c : Dev nD) (t : Fin cfg1.N) (j : S1x1024x64.Idx) (i : S16x4096x64.Idx)
    (h0 : (i 0).val = t.val / 16) (h1 : (i 1).val = t.val % 4 * 1024 + (j 1).val) (h2 : (i 2).val = (j 2).val) :
    iblk1 V c 1 t j = V c main_v7 i := by
  obtain ⟨e0, e1, e2⟩ := idx1_1 t
  show V c main_v7 (((cfg1.win 1).blk t).view.emb j) = V c main_v7 i
  refine congrArg _ (funext fun a => Fin.ext ?_)
  have hj : (j 0).val < 1 := (j 0).isLt
  match a with
  | ⟨0, _⟩ => show win1_1.index t (0 : Fin 3) * 1 + 1 * (j 0).val = (i 0).val; omega
  | ⟨1, _⟩ => show win1_1.index t (1 : Fin 3) * 1024 + 1 * (j 1).val = (i 1).val; omega
  | ⟨2, _⟩ => show win1_1.index t (2 : Fin 3) * 64 + 1 * (j 2).val = (i 2).val; omega

theorem iblk1_2_apply (c : Dev nD) (t : Fin cfg1.N) (j : S1x1024x64.Idx) (i : S16x4096x64.Idx)
    (h0 : (i 0).val = t.val / 16) (h1 : (i 1).val = t.val % 4 * 1024 + (j 1).val) (h2 : (i 2).val = (j 2).val) :
    iblk1 V c 2 t j = V c main_v9 i := by
  obtain ⟨e0, e1, e2⟩ := idx1_2 t
  show V c main_v9 (((cfg1.win 2).blk t).view.emb j) = V c main_v9 i
  refine congrArg _ (funext fun a => Fin.ext ?_)
  have hj : (j 0).val < 1 := (j 0).isLt
  match a with
  | ⟨0, _⟩ => show win1_2.index t (0 : Fin 3) * 1 + 1 * (j 0).val = (i 0).val; omega
  | ⟨1, _⟩ => show win1_2.index t (1 : Fin 3) * 1024 + 1 * (j 1).val = (i 1).val; omega
  | ⟨2, _⟩ => show win1_2.index t (2 : Fin 3) * 64 + 1 * (j 2).val = (i 2).val; omega

theorem iblk1_3_apply (c : Dev nD) (t : Fin cfg1.N) (j : S1x64x64.Idx) (i : S16x64x64.Idx)
    (h0 : (i 0).val = t.val / 16) (h1 : (i 1).val = (j 1).val) (h2 : (i 2).val = (j 2).val) :
    iblk1 V c 3 t j = V c main_arg0 i := by
  obtain ⟨e0, e1, e2⟩ := idx1_3 t
  show V c main_arg0 (((cfg1.win 3).blk t).view.emb j) = V c main_arg0 i
  refine congrArg _ (funext fun a => Fin.ext ?_)
  have hj : (j 0).val < 1 := (j 0).isLt
  match a with
  | ⟨0, _⟩ => show win1_3.index t (0 : Fin 3) * 1 + 1 * (j 0).val = (i 0).val; omega
  | ⟨1, _⟩ => show win1_3.index t (1 : Fin 3) * 64 + 1 * (j 1).val = (i 1).val; omega
  | ⟨2, _⟩ => show win1_3.index t (2 : Fin 3) * 64 + 1 * (j 2).val = (i 2).val; omega

/-- The blocks every point is handed are the tiles of the four whole arrays. -/
theorem blk1_eq (c : Dev nD) :
    blk1 V c = blkOf (V c main_v5) (V c main_v7) (V c main_v9) (V c main_arg0) := by
  funext n hn
  have hN : grid1.N = 256 := N_1
  have hh : (hd n).val = n / 16 := by show n / 16 % 16 = n / 16; omega
  exact Prod.ext
    (funext fun j => iblk1_0_apply V c ⟨n, hn⟩ j (ix3 (hd n) (row (qi n) ⟨(j 1).val, (j 1).isLt⟩) ⟨(j 2).val, (j 2).isLt⟩) hh rfl rfl)
    (Prod.ext
      (funext fun j => iblk1_1_apply V c ⟨n, hn⟩ j (ix3 (hd n) (row (kj n) ⟨(j 1).val, (j 1).isLt⟩) ⟨(j 2).val, (j 2).isLt⟩) hh rfl rfl)
      (Prod.ext
        (funext fun j => iblk1_2_apply V c ⟨n, hn⟩ j (ix3 (hd n) (row (kj n) ⟨(j 1).val, (j 1).isLt⟩) ⟨(j 2).val, (j 2).isLt⟩) hh rfl rfl)
        (funext fun j => iblk1_3_apply V c ⟨n, hn⟩ j (ix3 (hd n) ⟨(j 1).val, (j 1).isLt⟩ ⟨(j 2).val, (j 2).isLt⟩) hh rfl rfl)))

/-! ## The two results as functions of the whole arrays -/

/-- The attention output of whole arrays: the query row against the state, plus the causal scores against the values. -/
def attnOut (Q K Vv : Arr3 16 4096 64) (S : Arr3 16 64 64) : S16x4096x64.Idx → EReal := fun i =>
  (∑ d : Fin 64, Q (ix3 (i 0) (i 1) d) * S (ix3 (i 0) d (i 2)))
    + ∑ s : Fin 4096, (if s.val ≤ (i 1).val then ∑ d : Fin 64, Q (ix3 (i 0) (i 1) d) * K (ix3 (i 0) s d) else 0)
        * Vv (ix3 (i 0) s (i 2))

/-- The new state of whole arrays: the old state plus the keys against the values over every position. -/
def attnState (K Vv : Arr3 16 4096 64) (S : Arr3 16 64 64) : S16x64x64.Idx → EReal := fun i =>
  S (ix3 (i 0) (i 1) (i 2)) + ∑ t : Fin 4096, K (ix3 (i 0) t (i 1)) * Vv (ix3 (i 0) t (i 2))

/-- What a point with kj = 3 stores in the output block: rows `qi · 1024 …` of the head's attention output. -/
theorem out_point (Q K Vv : Arr3 16 4096 64) (S : Arr3 16 64 64) (n : ℕ) (hn : n < grid1.N) (h3 : n % 4 = 3)
    (u : Fin 1) (r : Fin 1024) (e : Fin 64) :
    k1_pay5 (F := Ideal) (accAt (blkOf Q K Vv S) n hn).1 (ix3 u r e) = attnOut Q K Vv S (ix3 (hd n) (row (qi n) r) e) := by
  rw [pay5_apply, accAt_out_row Q K Vv S n hn h3 r e]
  rfl

/-- What the last point of a head stores in the new-state block: the head's new state. -/
theorem state_point (Q K Vv : Arr3 16 4096 64) (S : Arr3 16 64 64) (n : ℕ) (hn : n < grid1.N) (h15 : n % 16 = 15)
    (u : Fin 1) (d e : Fin 64) :
    k1_pay6 (F := Ideal) (accAt (blkOf Q K Vv S) n hn).2 (ix3 u d e) = attnState K Vv S (ix3 (hd n) d e) := by
  rw [pay6_apply, accAt_state_last Q K Vv S n hn h15 d e]
  rfl

/-! ## What a flushing point writes back is its block of the whole-array function -/

theorem flushed1_4 (c : Dev nD) (t : Fin cfg1.N) (hf : (cfg1.win 4).flush t = true) :
    (dat1 V c).flushed 4 t
      = ((cfg1.win 4).blk t).view.read (Elt Ideal) (attnOut (V c main_v5) (V c main_v7) (V c main_v9) (V c main_arg0)) := by
  have h3 : t.val % 4 = 3 := (flush1_4 t).mp hf
  have hN : grid1.N = 256 := N_1
  have ht : t.val < grid1.N := t.isLt
  obtain ⟨e0, e1, e2⟩ := idx1_4 t
  show (cfg1.win 4).cut (grid1.coords t) ((dat1 V c).after 4 t) = _
  rw [after1_4, blk1_eq]
  funext j
  have hj0 : (j 0).val < 1 := (j 0).isLt
  have hj1 : (j 1).val < 1024 := (j 1).isLt
  have hj2 : (j 2).val < 64 := (j 2).isLt
  have hx : (cfg1.win 4).xinj (grid1.coords t) j
      = ix3 (⟨(j 0).val, hj0⟩ : Fin 1) (⟨(j 1).val, hj1⟩ : Fin 1024) (⟨(j 2).val, hj2⟩ : Fin 64) :=
    funext fun a => by match a with | ⟨0, _⟩ => rfl | ⟨1, _⟩ => rfl | ⟨2, _⟩ => rfl
  show k1_pay5 (F := Ideal) (accAt (blkOf (V c main_v5) (V c main_v7) (V c main_v9) (V c main_arg0)) t.val t.isLt).1
      ((cfg1.win 4).xinj (grid1.coords t) j)
    = attnOut (V c main_v5) (V c main_v7) (V c main_v9) (V c main_arg0) (((cfg1.win 4).blk t).view.emb j)
  rw [hx, out_point _ _ _ _ t.val t.isLt h3]
  refine congrArg _ (funext fun a => Fin.ext ?_)
  match a with
  | ⟨0, _⟩ => show t.val / 16 % 16 = win1_4.index t (0 : Fin 3) * 1 + 1 * (j 0).val; omega
  | ⟨1, _⟩ => show t.val / 4 % 4 * 1024 + (j 1).val = win1_4.index t (1 : Fin 3) * 1024 + 1 * (j 1).val; omega
  | ⟨2, _⟩ => show (j 2).val = win1_4.index t (2 : Fin 3) * 64 + 1 * (j 2).val; omega

theorem flushed1_5 (c : Dev nD) (t : Fin cfg1.N) (hf : (cfg1.win 5).flush t = true) :
    (dat1 V c).flushed 5 t
      = ((cfg1.win 5).blk t).view.read (Elt Ideal) (attnState (V c main_v7) (V c main_v9) (V c main_arg0)) := by
  have h15 : t.val % 16 = 15 := (flush1_5 t).mp hf
  have hN : grid1.N = 256 := N_1
  have ht : t.val < grid1.N := t.isLt
  obtain ⟨e0, e1, e2⟩ := idx1_5 t
  show (cfg1.win 5).cut (grid1.coords t) ((dat1 V c).after 5 t) = _
  rw [after1_5, blk1_eq]
  funext j
  have hj0 : (j 0).val < 1 := (j 0).isLt
  have hj1 : (j 1).val < 64 := (j 1).isLt
  have hj2 : (j 2).val < 64 := (j 2).isLt
  have hx : (cfg1.win 5).xinj (grid1.coords t) j
      = ix3 (⟨(j 0).val, hj0⟩ : Fin 1) (⟨(j 1).val, hj1⟩ : Fin 64) (⟨(j 2).val, hj2⟩ : Fin 64) :=
    funext fun a => by match a with | ⟨0, _⟩ => rfl | ⟨1, _⟩ => rfl | ⟨2, _⟩ => rfl
  show k1_pay6 (F := Ideal) (accAt (blkOf (V c main_v5) (V c main_v7) (V c main_v9) (V c main_arg0)) t.val t.isLt).2
      ((cfg1.win 5).xinj (grid1.coords t) j)
    = attnState (V c main_v7) (V c main_v9) (V c main_arg0) (((cfg1.win 5).blk t).view.emb j)
  rw [hx, state_point _ _ _ _ t.val t.isLt h15]
  refine congrArg _ (funext fun a => Fin.ext ?_)
  match a with
  | ⟨0, _⟩ => show t.val / 16 % 16 = win1_5.index t (0 : Fin 3) * 1 + 1 * (j 0).val; omega
  | ⟨1, _⟩ => show (j 1).val = win1_5.index t (1 : Fin 3) * 64 + 1 * (j 1).val; omega
  | ⟨2, _⟩ => show (j 2).val = win1_5.index t (2 : Fin 3) * 64 + 1 * (j 2).val; omega

/-! ## Every entry is in some flushing point's block -/

/-- Entry (head, row, feature) of the output array lies in the block written back at the point
    (head, qi = row / 1024, kj = 3). -/
theorem cover1_4 (i : S16x4096x64.Idx) :
    ∃ t : Fin cfg1.N, (cfg1.win 4).flush t = true ∧ i ∈ ((cfg1.win 4).blk t).view.set := by
  have hN : grid1.N = 256 := N_1
  have h0 : (i 0).val < 16 := (i 0).isLt
  have h1 : (i 1).val < 4096 := (i 1).isLt
  have h2 : (i 2).val < 64 := (i 2).isLt
  have hlt : 16 * (i 0).val + 4 * ((i 1).val / 1024) + 3 < grid1.N := by omega
  refine ⟨⟨16 * (i 0).val + 4 * ((i 1).val / 1024) + 3, hlt⟩, (flush1_4 _).mpr (by
    show (16 * (i 0).val + 4 * ((i 1).val / 1024) + 3) % 4 = 3; omega), ?_⟩
  obtain ⟨e0, e1, e2⟩ := idx1_4 ⟨16 * (i 0).val + 4 * ((i 1).val / 1024) + 3, hlt⟩
  have e0' : win1_4.index ⟨16 * (i 0).val + 4 * ((i 1).val / 1024) + 3, hlt⟩ (0 : Fin 3)
      = (16 * (i 0).val + 4 * ((i 1).val / 1024) + 3) / 16 := e0
  have e1' : win1_4.index ⟨16 * (i 0).val + 4 * ((i 1).val / 1024) + 3, hlt⟩ (1 : Fin 3)
      = (16 * (i 0).val + 4 * ((i 1).val / 1024) + 3) / 4 % 4 := e1
  show i ∈ ((View.whole main_v10_0).slice (win1_4.rect ⟨16 * (i 0).val + 4 * ((i 1).val / 1024) + 3, hlt⟩)).set
  rw [View.set_slice_whole, Rect.mem_set_unit]
  intro a
  match a with
  | ⟨0, _⟩ =>
    show win1_4.index ⟨16 * (i 0).val + 4 * ((i 1).val / 1024) + 3, hlt⟩ (0 : Fin 3) * 1 ≤ (i 0).val
      ∧ (i 0).val < win1_4.index ⟨16 * (i 0).val + 4 * ((i 1).val / 1024) + 3, hlt⟩ (0 : Fin 3) * 1 + 1
    omega
  | ⟨1, _⟩ =>
    show win1_4.index ⟨16 * (i 0).val + 4 * ((i 1).val / 1024) + 3, hlt⟩ (1 : Fin 3) * 1024 ≤ (i 1).val
      ∧ (i 1).val < win1_4.index ⟨16 * (i 0).val + 4 * ((i 1).val / 1024) + 3, hlt⟩ (1 : Fin 3) * 1024 + 1024
    omega
  | ⟨2, _⟩ =>
    show win1_4.index ⟨16 * (i 0).val + 4 * ((i 1).val / 1024) + 3, hlt⟩ (2 : Fin 3) * 64 ≤ (i 2).val
      ∧ (i 2).val < win1_4.index ⟨16 * (i 0).val + 4 * ((i 1).val / 1024) + 3, hlt⟩ (2 : Fin 3) * 64 + 64
    omega

/-- Entry (head, d, e) of the new-state array lies in the block written back at the head's last point. -/
theorem cover1_5 (i : S16x64x64.Idx) :
    ∃ t : Fin cfg1.N, (cfg1.win 5).flush t = true ∧ i ∈ ((cfg1.win 5).blk t).view.set := by
  have hN : grid1.N = 256 := N_1
  have h0 : (i 0).val < 16 := (i 0).isLt
  have h1 : (i 1).val < 64 := (i 1).isLt
  have h2 : (i 2).val < 64 := (i 2).isLt
  have hlt : 16 * (i 0).val + 15 < grid1.N := by omega
  refine ⟨⟨16 * (i 0).val + 15, hlt⟩, (flush1_5 _).mpr (by show (16 * (i 0).val + 15) % 16 = 15; omega), ?_⟩
  obtain ⟨e0, e1, e2⟩ := idx1_5 ⟨16 * (i 0).val + 15, hlt⟩
  have e0' : win1_5.index ⟨16 * (i 0).val + 15, hlt⟩ (0 : Fin 3) = (16 * (i 0).val + 15) / 16 := e0
  show i ∈ ((View.whole main_v10_1).slice (win1_5.rect ⟨16 * (i 0).val + 15, hlt⟩)).set
  rw [View.set_slice_whole, Rect.mem_set_unit]
  intro a
  match a with
  | ⟨0, _⟩ =>
    show win1_5.index ⟨16 * (i 0).val + 15, hlt⟩ (0 : Fin 3) * 1 ≤ (i 0).val
      ∧ (i 0).val < win1_5.index ⟨16 * (i 0).val + 15, hlt⟩ (0 : Fin 3) * 1 + 1
    omega
  | ⟨1, _⟩ =>
    show win1_5.index ⟨16 * (i 0).val + 15, hlt⟩ (1 : Fin 3) * 64 ≤ (i 1).val
      ∧ (i 1).val < win1_5.index ⟨16 * (i 0).val + 15, hlt⟩ (1 : Fin 3) * 64 + 64
    omega
  | ⟨2, _⟩ =>
    show win1_5.index ⟨16 * (i 0).val + 15, hlt⟩ (2 : Fin 3) * 64 ≤ (i 2).val
      ∧ (i 2).val < win1_5.index ⟨16 * (i 0).val + 15, hlt⟩ (2 : Fin 3) * 64 + 64
    omega

/-! ## The two arrays after the region -/

/-- The output array after the region is the attention output of the arrays the region was entered with. -/
theorem final1_4 (c : Dev nD) :
    (dat1 V c).arrAt 4 cfg1.N = attnOut (V c main_v5) (V c main_v7) (V c main_v9) (V c main_arg0) :=
  (dat1 V c).arrAt_eq_of_cover 4 (attnOut (V c main_v5) (V c main_v7) (V c main_v9) (V c main_arg0))
    (flushed1_4 V c) cover1_4

/-- The new-state array after the region is the new state of the arrays the region was entered with. -/
theorem final1_5 (c : Dev nD) :
    (dat1 V c).arrAt 5 cfg1.N = attnState (V c main_v7) (V c main_v9) (V c main_arg0) :=
  (dat1 V c).arrAt_eq_of_cover 5 (attnState (V c main_v7) (V c main_v9) (V c main_arg0))
    (flushed1_5 V c) cover1_5

end Cert.KernelIdeal.Hand

end
-- ==== Proof.KernelValue.lean ====
/-
  What the program computes, joined to the specification. At the end of the run the new-state buffer holds what the
  attention launch's write-backs leave in its sixth window and the result buffer what the last launch's leave in its
  fourth. Each launch's output array is a function of the arrays it is entered with; those are the launch arguments or
  layout steps of an earlier launch's output. Reading everything at one index:

  * the projection at (t, n) is the row of the activations against the column of the weights, plus the bias at n;
  * the queries, keys and values at (h, t, d) are the projection at row t, column part * 1024 + h * 64 + d;
  * the new state at (h, d, e) is the old one plus the sum over positions of key times value: the specification verbatim;
  * the attention output at (h, t, e) is the query against the state plus the masked scores against the values: the
    specification's two summands in the other order, which commutativity of addition on the extended reals mends;
  * the re-laid attention output at (t, j) is the attention output at head j / 64, position t, feature j % 64;
  * the result at (t, n) is that row against the column of the output weights, plus the output bias at n.
-/
import proofs.«151280_j41747082117805_1_alg».proof.Proof.MainRun
import proofs.«151280_j41747082117805_1_alg».proof.Proof.Spec
import proofs.«151280_j41747082117805_1_alg».proof.Proof.HostLayout
import proofs.«151280_j41747082117805_1_alg».proof.Proof.QkvValue
import proofs.«151280_j41747082117805_1_alg».proof.Proof.QkvJoin
import proofs.«151280_j41747082117805_1_alg».proof.Proof.OutValue
import proofs.«151280_j41747082117805_1_alg».proof.Proof.AttnValue

set_option maxRecDepth 16384

noncomputable section

open scoped BigOperators

namespace Cert.KernelIdeal.Hand

open Cert.KernelIdeal Cert.KernelIdeal.Gen
open Idealize.ShloMosaic Idealize.ShloMosaic.TcCoe Idealize.SL.Sem
open Idealize.ShloMosaic.ValueIdx
open Idealize.ShloMosaic.Pipeline (Dat)
open Cert.Spec (Arr1 Arr2 Arr3)

variable (m : (ℓ : Loc nD τ sig) → Buf (Elt Ideal) ℓ) (ρ : Dev nD → PrngReg)

/-! ## The launch arguments on a core, as the specification's arrays -/

abbrev argState (c : Dev nD) : Arr3 16 64 64 := m ((c.tc : Thread nD τ).loc main_arg0)
abbrev argX (c : Dev nD) : Arr2 4096 1024 := m ((c.tc : Thread nD τ).loc main_arg1)
abbrev argWqkv (c : Dev nD) : Arr2 1024 3072 := m ((c.tc : Thread nD τ).loc main_arg2)
abbrev argBqkv (c : Dev nD) : Arr1 3072 := m ((c.tc : Thread nD τ).loc main_arg3)
abbrev argWout (c : Dev nD) : Arr2 1024 1024 := m ((c.tc : Thread nD τ).loc main_arg4)
abbrev argBout (c : Dev nD) : Arr1 1024 := m ((c.tc : Thread nD τ).loc main_arg5)

/-! ## The projection and its three parts -/

/-- The projection launch's output as a function of the launch arguments: it reads the activations and weights as
    launched and the bias as a one-row matrix. -/
theorem proj_eq (c : Dev nD) :
    (dat0 (F := Ideal) (E1 m ρ) c).arrAt 3 cfg0.N
      = qkvOf (argX m c) (argWqkv m c) (shapeCast S1x3072 (argBqkv m c) shapeCasts_S3072_S1x3072) := by
  rw [final0 (E1 m ρ) c, E1_main_arg1, E1_main_arg2, E1_main_v0]

/-- The queries the attention launch is entered with, at head `h`, position `t`, feature `d`. -/
theorem q_at (c : Dev nD) (h : Fin 16) (t : Fin 4096) (d : Fin 64) :
    (E3 m ρ c main_v5 : Arr3 16 4096 64) (ix3 h t d) = Cert.Spec.part (argX m c) (argWqkv m c) (argBqkv m c) 0 h t d := by
  refine (congrFun (E3_main_v5 m ρ c) (ix3 h t d)).trans ?_
  rw [proj_eq m ρ c]
  exact part_of_qkv0 (argX m c) (argWqkv m c) (argBqkv m c) h t d

/-- The keys the attention launch is entered with, at head `h`, position `t`, feature `d`. -/
theorem k_at (c : Dev nD) (h : Fin 16) (t : Fin 4096) (d : Fin 64) :
    (E3 m ρ c main_v7 : Arr3 16 4096 64) (ix3 h t d) = Cert.Spec.part (argX m c) (argWqkv m c) (argBqkv m c) 1 h t d := by
  refine (congrFun (E3_main_v7 m ρ c) (ix3 h t d)).trans ?_
  rw [proj_eq m ρ c]
  exact part_of_qkv1 (argX m c) (argWqkv m c) (argBqkv m c) h t d

/-- The values the attention launch is entered with, at head `h`, position `t`, feature `d`. -/
theorem v_at (c : Dev nD) (h : Fin 16) (t : Fin 4096) (d : Fin 64) :
    (E3 m ρ c main_v9 : Arr3 16 4096 64) (ix3 h t d) = Cert.Spec.part (argX m c) (argWqkv m c) (argBqkv m c) 2 h t d := by
  refine (congrFun (E3_main_v9 m ρ c) (ix3 h t d)).trans ?_
  rw [proj_eq m ρ c]
  exact part_of_qkv2 (argX m c) (argWqkv m c) (argBqkv m c) h t d

/-! ## The attention launch's two outputs, over any arrays that hold the three parts -/

/-- The new state of arrays holding the keys and values is the specification's, term by term. -/
theorem attnState_spec (K Vv : Arr3 16 4096 64) (S : Arr3 16 64 64) (x : Arr2 4096 1024) (w : Arr2 1024 3072) (bq : Arr1 3072)
    (hK : ∀ h t d, K (ix3 h t d) = Cert.Spec.part x w bq 1 h t d) (hV : ∀ h t d, Vv (ix3 h t d) = Cert.Spec.part x w bq 2 h t d)
    (h : Fin 16) (d e : Fin 64) : attnState K Vv S (ix3 h d e) = Cert.Spec.newState S x w bq h d e := by
  show S (ix3 h d e) + ∑ t : Fin 4096, K (ix3 h t d) * Vv (ix3 h t e) = _
  unfold Cert.Spec.newState
  exact congrArg (S (ix3 h d e) + ·) (Finset.sum_congr rfl fun t _ => congrArg₂ (· * ·) (hK h t d) (hV h t e))

/-- The attention output of arrays holding the three parts: the launch adds the query against the state first and the
    masked scores against the values second; the specification has them in the other order. -/
theorem attnOut_spec (Q K Vv : Arr3 16 4096 64) (S : Arr3 16 64 64) (x : Arr2 4096 1024) (w : Arr2 1024 3072) (bq : Arr1 3072)
    (hQ : ∀ h t d, Q (ix3 h t d) = Cert.Spec.part x w bq 0 h t d) (hK : ∀ h t d, K (ix3 h t d) = Cert.Spec.part x w bq 1 h t d)
    (hV : ∀ h t d, Vv (ix3 h t d) = Cert.Spec.part x w bq 2 h t d)
    (h : Fin 16) (t : Fin 4096) (e : Fin 64) : attnOut Q K Vv S (ix3 h t e) = Cert.Spec.out S x w bq h t e := by
  show (∑ d : Fin 64, Q (ix3 h t d) * S (ix3 h d e))
      + ∑ s : Fin 4096, (if s.val ≤ t.val then ∑ d : Fin 64, Q (ix3 h t d) * K (ix3 h s d) else 0) * Vv (ix3 h s e) = _
  unfold Cert.Spec.out Cert.Spec.score
  rw [add_comm]
  refine congrArg₂ (· + ·) (Finset.sum_congr rfl fun s _ => congrArg₂ (· * ·) ?_ (hV h s e))
    (Finset.sum_congr rfl fun d _ => congrArg (· * S (ix3 h d e)) (hQ h t d))
  by_cases hs : s.val ≤ t.val
  · rw [if_pos hs, if_pos hs]
    exact Finset.sum_congr rfl fun d _ => congrArg₂ (· * ·) (hQ h t d) (hK h s d)
  · rw [if_neg hs, if_neg hs]

/-- The new state the attention launch leaves, at `(h, d, e)`. -/
theorem newState_at (c : Dev nD) (h : Fin 16) (d e : Fin 64) :
    ((dat1 (F := Ideal) (E3 m ρ) c).arrAt 5 cfg1.N : Arr3 16 64 64) (ix3 h d e)
      = Cert.Spec.newState (argState m c) (argX m c) (argWqkv m c) (argBqkv m c) h d e := by
  refine (congrFun (final1_5 (E3 m ρ) c) (ix3 h d e)).trans ?_
  rw [E3_main_arg0]
  exact attnState_spec _ _ _ _ _ _ (k_at m ρ c) (v_at m ρ c) h d e

/-- The attention output the launch leaves, at `(h, t, e)`. -/
theorem out_at (c : Dev nD) (h : Fin 16) (t : Fin 4096) (e : Fin 64) :
    ((dat1 (F := Ideal) (E3 m ρ) c).arrAt 4 cfg1.N : Arr3 16 4096 64) (ix3 h t e)
      = Cert.Spec.out (argState m c) (argX m c) (argWqkv m c) (argBqkv m c) h t e := by
  refine (congrFun (final1_4 (E3 m ρ) c) (ix3 h t e)).trans ?_
  rw [E3_main_arg0]
  exact attnOut_spec _ _ _ _ _ _ _ (q_at m ρ c) (k_at m ρ c) (v_at m ρ c) h t e

/-! ## The last launch's output -/

/-- The last launch's output as a function of the attention output and the launch arguments: it reads the attention
    output with its head axis moved inside the row, the output weights as launched and the output bias as a one-row
    matrix. -/
theorem yArr_eq (c : Dev nD) :
    (dat2 (F := Ideal) (E5 m ρ) c).arrAt 3 cfg2.N
      = outProj (shapeCast S4096x1024 (transpose S4096x16x64 [1, 0, 2] ((dat1 (F := Ideal) (E3 m ρ) c).arrAt 4 cfg1.N)
          transposes_S16x4096x64_S4096x16x64_1_0_2) shapeCasts_S4096x16x64_S4096x1024)
        (argWout m c) (shapeCast S1x1024 (argBout m c) shapeCasts_S1024_S1x1024) := by
  rw [final2 (E5 m ρ) c, E5_main_v12, E5_main_arg4, E5_main_v13]

/-- The result at row `t`, column `n`: column `j` of the re-laid row is head `j / 64`, feature `j % 64` of the
    attention output at position `t`. -/
theorem y_at (c : Dev nD) (t : Fin 4096) (n : Fin 1024) :
    ((dat2 (F := Ideal) (E5 m ρ) c).arrAt 3 cfg2.N : Arr2 4096 1024) (ix2 t n)
      = Cert.Spec.y (argState m c) (argX m c) (argWqkv m c) (argBqkv m c) (argWout m c) (argBout m c) t n := by
  refine (congrFun (yArr_eq m ρ c) (ix2 t n)).trans ?_
  refine (merged_row_eq _ (argWout m c) (argBout m c) t n).trans ?_
  unfold Cert.Spec.y
  exact congrArg (· + argBout m c (ix1 n)) (Finset.sum_congr rfl fun j _ =>
    congrArg (· * argWout m c (ix2 j n)) (out_at m ρ c (Cert.Spec.headOf j) t (Cert.Spec.featOf j)))

/-! ## The run -/

/-- Every weakly fair execution of the program terminates without a fault; at the end the new-state buffer holds the
    specification's new state, the result buffer the specification's result, and the arguments what they were launched
    with. -/
theorem run_spec_kernel : θ_run (defs (F := Ideal)) (onTc (τ := τ) (main (F := Ideal))) ⟨m, fun _ => 0, ρ⟩ (fun r => ∀ c : Dev nD,
      r.2.mem ((c.tc : Thread nD τ).loc main_v10_1)
        = (fun i => Cert.Spec.newState (m ((c.tc : Thread nD τ).loc main_arg0)) (m ((c.tc : Thread nD τ).loc main_arg1)) (m ((c.tc : Thread nD τ).loc main_arg2)) (m ((c.tc : Thread nD τ).loc main_arg3)) (i 0) (i 1) (i 2))
      ∧ r.2.mem ((c.tc : Thread nD τ).loc main_v14)
        = (fun i => Cert.Spec.y (m ((c.tc : Thread nD τ).loc main_arg0)) (m ((c.tc : Thread nD τ).loc main_arg1)) (m ((c.tc : Thread nD τ).loc main_arg2)) (m ((c.tc : Thread nD τ).loc main_arg3))
            (m ((c.tc : Thread nD τ).loc main_arg4)) (m ((c.tc : Thread nD τ).loc main_arg5)) (i 0) (i 1))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  (θ_run defs _ _).mono (fun r h c =>
    ⟨((h c _ (mem_uc main_v10_1 (by decide))).trans (W6_newState m ρ c)).trans (funext fun i => by
        obtain ⟨a, b, e, rfl⟩ : ∃ (a : Fin 16) (b e : Fin 64), i = ix3 a b e := ⟨i 0, i 1, i 2, eq_ix3 i⟩
        exact newState_at m ρ c a b e),
     ((h c _ (mem_uc main_v14 (by decide))).trans (W6_y m ρ c)).trans (funext fun i => by
        obtain ⟨t, n, rfl⟩ : ∃ (t : Fin 4096) (n : Fin 1024), i = ix2 t n := ⟨i 0, i 1, eq_ix2 i⟩
        exact y_at m ρ c t n),
     (h c _ (mem_uc main_arg0 (by decide))).trans (W6_main_arg0 m ρ c),
     (h c _ (mem_uc main_arg1 (by decide))).trans (W6_main_arg1 m ρ c),
     (h c _ (mem_uc main_arg2 (by decide))).trans (W6_main_arg2 m ρ c),
     (h c _ (mem_uc main_arg3 (by decide))).trans (W6_main_arg3 m ρ c),
     (h c _ (mem_uc main_arg4 (by decide))).trans (W6_main_arg4 m ρ c),
     (h c _ (mem_uc main_arg5 (by decide))).trans (W6_main_arg5 m ρ c)⟩) (run_all m ρ)

end Cert.KernelIdeal.Hand

end
-- ==== Proof.RefValue.lean ====
/-
  The reference program, read index by index, is the specification.

  Every operation of the reference is read at one index: the projection `x · Wqkv + bqkv`; its re-laying
  [4096, 3072] → [4096, 3, 16, 64] → [3, 16, 4096, 64] and the three slices, which put column
  `p · 1024 + h · 64 + d` of the projection at (head `h`, position `t`, feature `d`) of part `p`; the lower-triangle
  mask built from two iotas and a signed comparison, which holds at (row `t`, column `s`) exactly when `s ≤ t`; the
  masked scores, the attention output, the new state; the re-laying [16, 4096, 64] → [4096, 16, 64] → [4096, 1024], which
  puts head `j / 64`, feature `j % 64` at column `j`; and the output projection. Each contraction is a finite sum on the
  extended reals and each addition is theirs, so the two results are the specification's `newState` and `y` term by
  term: no law of arithmetic is used, only the arithmetic of the row-major offsets.
-/
import proofs.«151280_j41747082117805_1_alg».proof.Proof.Gen.ReferenceIdeal.Read
import proofs.«151280_j41747082117805_1_alg».proof.Proof.Spec

noncomputable section

open scoped BigOperators

namespace Cert.ReferenceIdeal.RefValue

open Cert.ReferenceIdeal Cert.ReferenceIdeal.Gen Cert.ReferenceIdeal.Read Idealize.ShloMosaic Idealize.ShloMosaic.ValueIdx

variable (a0 : (⟨S16x64x64, .f32⟩ : BufTy).Contents (Elt Ideal))
  (a1 : (⟨S4096x1024, .f32⟩ : BufTy).Contents (Elt Ideal))
  (a2 : (⟨S1024x3072, .f32⟩ : BufTy).Contents (Elt Ideal))
  (a3 : (⟨S3072, .f32⟩ : BufTy).Contents (Elt Ideal))
  (a4 : (⟨S1024x1024, .f32⟩ : BufTy).Contents (Elt Ideal))
  (a5 : (⟨S1024, .f32⟩ : BufTy).Contents (Elt Ideal))

/-! ## The projection and its three parts -/

/-- The projection read at row `t`, column `n`: the row of the activations against the column of the weights, plus
    the bias entry of that column (the bias is broadcast along the rows). -/
theorem qkv_at (t : Fin 4096) (n : Fin 3072) :
    val_main_v3 (F := Ideal) a1 a2 a3 (ix2 t n) = Cert.Spec.qkv a1 a2 a3 t n := by
  have el : ∀ k : Fin 1024, lidx_main_v0 (ix2 t n) k = ix2 t k := fun k => funext fun a => by
    match a with | ⟨0, _⟩ => rfl | ⟨1, _⟩ => rfl
  have er : ∀ k : Fin 1024, ridx_main_v0 (ix2 t n) k = ix2 k n := fun k => funext fun a => by
    match a with | ⟨0, _⟩ => rfl | ⟨1, _⟩ => rfl
  have eb : idx_main_v1 (idx_main_v2 (ix2 t n)) = ix1 n := funext fun a => by
    match a with | ⟨0, _⟩ => rfl
  rw [val_main_v3_apply, val_main_v0_apply, val_main_v2_apply, val_main_v1_apply, eb]
  simp only [el, er, Ideal.addf_def]
  rfl

/-- Row-major re-laying, in numbers: entry (head `h`, position `t`, feature `d`) of a [16, 4096, 64] array, read
    back through [1, 16, 4096, 64], the transposition to [4096, 3, 16, 64] with part `p`, and the flattening to
    [4096, 3072], sits at flat offset `t · 3072 + (p · 1024 + h · 64 + d)`. -/
theorem relay (p h t d : Nat) (hp : p < 3) (hh : h < 16) (ht : t < 4096) (hd : d < 64) :
    ((((h * 4096 + t) * 64 + d) / 64 % 4096 * 3 + p) * 16 + ((h * 4096 + t) * 64 + d) / 262144 % 16) * 64
      + ((h * 4096 + t) * 64 + d) % 64 = t * 3072 + (p * 1024 + h * 64 + d) := by
  have h1 : ((h * 4096 + t) * 64 + d) / 64 % 4096 = t := by omega
  have h2 : ((h * 4096 + t) * 64 + d) / 262144 % 16 = h := by omega
  have h3 : ((h * 4096 + t) * 64 + d) % 64 = d := by omega
  rw [h1, h2, h3]; omega

/-- Part 0 (the queries): entry (head `h`, position `t`, feature `d`) of the re-laid projection is the projection's
    row `t` at column `h · 64 + d`: the re-laying [4096, 3072] → [4096, 3, 16, 64] is row-major, so column
    `p · 1024 + h · 64 + d` goes to (p, h, d), and the transposition moves the position axis behind the head axis. -/
theorem part0_at (h : Fin 16) (t : Fin 4096) (d : Fin 64) :
    val_main_v7 (F := Ideal) a1 a2 a3 (ix3 h t d) = Cert.Spec.part a1 a2 a3 0 h t d := by
  have R := relay 0 h.val t.val d.val (by omega) h.isLt t.isLt d.isLt
  have e : idx_main_v4 (idx_main_v5 (idx_main_v6 (idx_main_v7 (ix3 h t d)))) = ix2 t (Cert.Spec.col 0 h d) :=
    funext fun a => Fin.ext (by
      have := h.isLt; have := t.isLt; have := d.isLt
      match a with
      | ⟨0, _⟩ =>
        show (((((h.val * 4096 + t.val) * 64 + d.val) / 64 % 4096 * 3 + 0) * 16 + ((h.val * 4096 + t.val) * 64 + d.val) / 262144 % 16) * 64 + ((h.val * 4096 + t.val) * 64 + d.val) % 64) / 3072 = t.val
        rw [R]; omega
      | ⟨1, _⟩ =>
        show (((((h.val * 4096 + t.val) * 64 + d.val) / 64 % 4096 * 3 + 0) * 16 + ((h.val * 4096 + t.val) * 64 + d.val) / 262144 % 16) * 64 + ((h.val * 4096 + t.val) * 64 + d.val) % 64) % 3072 = 0 * 1024 + h.val * 64 + d.val
        rw [R]; omega)
  rw [val_main_v7_apply, val_main_v6_apply, val_main_v5_apply, val_main_v4_apply, e, qkv_at]
  rfl

/-- Part 1 (the keys): the same reading one block of 1024 columns further. -/
theorem part1_at (h : Fin 16) (t : Fin 4096) (d : Fin 64) :
    val_main_v9 (F := Ideal) a1 a2 a3 (ix3 h t d) = Cert.Spec.part a1 a2 a3 1 h t d := by
  have R := relay 1 h.val t.val d.val (by omega) h.isLt t.isLt d.isLt
  have e : idx_main_v4 (idx_main_v5 (idx_main_v8 (idx_main_v9 (ix3 h t d)))) = ix2 t (Cert.Spec.col 1 h d) :=
    funext fun a => Fin.ext (by
      have := h.isLt; have := t.isLt; have := d.isLt
      match a with
      | ⟨0, _⟩ =>
        show (((((h.val * 4096 + t.val) * 64 + d.val) / 64 % 4096 * 3 + 1) * 16 + ((h.val * 4096 + t.val) * 64 + d.val) / 262144 % 16) * 64 + ((h.val * 4096 + t.val) * 64 + d.val) % 64) / 3072 = t.val
        rw [R]; omega
      | ⟨1, _⟩ =>
        show (((((h.val * 4096 + t.val) * 64 + d.val) / 64 % 4096 * 3 + 1) * 16 + ((h.val * 4096 + t.val) * 64 + d.val) / 262144 % 16) * 64 + ((h.val * 4096 + t.val) * 64 + d.val) % 64) % 3072 = 1 * 1024 + h.val * 64 + d.val
        rw [R]; omega)
  rw [val_main_v9_apply, val_main_v8_apply, val_main_v5_apply, val_main_v4_apply, e, qkv_at]
  rfl

/-- Part 2 (the values): two blocks of 1024 columns further. -/
theorem part2_at (h : Fin 16) (t : Fin 4096) (d : Fin 64) :
    val_main_v11 (F := Ideal) a1 a2 a3 (ix3 h t d) = Cert.Spec.part a1 a2 a3 2 h t d := by
  have R := relay 2 h.val t.val d.val (by omega) h.isLt t.isLt d.isLt
  have e : idx_main_v4 (idx_main_v5 (idx_main_v10 (idx_main_v11 (ix3 h t d)))) = ix2 t (Cert.Spec.col 2 h d) :=
    funext fun a => Fin.ext (by
      have := h.isLt; have := t.isLt; have := d.isLt
      match a with
      | ⟨0, _⟩ =>
        show (((((h.val * 4096 + t.val) * 64 + d.val) / 64 % 4096 * 3 + 2) * 16 + ((h.val * 4096 + t.val) * 64 + d.val) / 262144 % 16) * 64 + ((h.val * 4096 + t.val) * 64 + d.val) % 64) / 3072 = t.val
        rw [R]; omega
      | ⟨1, _⟩ =>
        show (((((h.val * 4096 + t.val) * 64 + d.val) / 64 % 4096 * 3 + 2) * 16 + ((h.val * 4096 + t.val) * 64 + d.val) / 262144 % 16) * 64 + ((h.val * 4096 + t.val) * 64 + d.val) % 64) % 3072 = 2 * 1024 + h.val * 64 + d.val
        rw [R]; omega)
  rw [val_main_v11_apply, val_main_v10_apply, val_main_v5_apply, val_main_v4_apply, e, qkv_at]
  rfl

/-! ## The causal mask -/

/-- The lower-triangle test on two positions below 4096, as 32-bit signed words: "row + 0 ≥ column" holds exactly
    when the column is at most the row. -/
theorem tril_bit (t s : Nat) (ht : t < 4096) (hs : s < 4096) :
    IntOp.cmpi .sge (IntOp.addi (BitVec.ofNat 32 t) 0#32) (BitVec.ofNat 32 s) = if s ≤ t then 1#1 else 0#1 := by
  have h0 : IntOp.addi (BitVec.ofNat 32 t) 0#32 = BitVec.ofNat 32 t := by simp [IntOp.addi]
  have toI : ∀ n : Nat, n < 4096 → (BitVec.ofNat 32 n).toInt = (n : Int) := fun n hn => by
    have hn' : (BitVec.ofNat 32 n).toNat = n := by rw [BitVec.toNat_ofNat]; omega
    rw [BitVec.toInt_eq_toNat_of_lt (by rw [hn']; omega), hn']
  rw [h0]
  by_cases h : s ≤ t
  · rw [if_pos h]
    exact IntOp.cmpi_sge.mpr (by rw [toI _ ht, toI _ hs]; exact_mod_cast h)
  · rw [if_neg h]
    refine eq_zero_of_ne_one fun hc => h ?_
    have := IntOp.cmpi_sge.mp hc
    rw [toI _ ht, toI _ hs] at this
    exact_mod_cast this

/-- A select on the mask's entry (row `t`, column `s`) is the `if` on `s ≤ t`. -/
theorem mask_at {α : Type} (t s : Fin 4096) (A B : α) :
    Scalar.select (val_main_v13 (F := Ideal) (ix2 t s)) A B = if s.val ≤ t.val then A else B := by
  rw [val_main_v13_apply, val_main_call0_v4_apply, val_main_call0_v2_apply, val_main_call0_v0_apply,
    val_main_call0_v1_apply, val_main_call0_c_apply, val_main_call0_v3_apply, val_main_v12_apply, val_main_c_apply,
    val_main_call0_v5_apply, val_main_call0_c_0_apply]
  show Scalar.select (Scalar.select (IntOp.cmpi .sge (IntOp.addi (BitVec.ofNat 32 t.val) 0#32) (BitVec.ofNat 32 s.val))
    1#1 0#1) A B = _
  rw [tril_bit t.val s.val t.isLt s.isLt]
  by_cases h : s.val ≤ t.val
  · rw [if_pos h, if_pos h, select_one, select_one]
  · rw [if_neg h, if_neg h, select_zero, select_zero]

/-! ## Scores, attention output, new state -/

/-- The masked score: the query row against the key row where the key position is not after the query position,
    the zero word (which is the real 0) elsewhere. -/
theorem score_at (h : Fin 16) (t s : Fin 4096) :
    val_main_v15 (F := Ideal) a1 a2 a3 (ix3 h t s) = Cert.Spec.score a1 a2 a3 h t s := by
  have em : idx_main_call1_v1 (ix3 h t s) = ix2 t s := funext fun a => by
    match a with | ⟨0, _⟩ => rfl | ⟨1, _⟩ => rfl
  have el : ∀ k : Fin 64, lidx_main_v14 (ix3 h t s) k = ix3 h t k := fun k => funext fun a => by
    match a with | ⟨0, _⟩ => rfl | ⟨1, _⟩ => rfl | ⟨2, _⟩ => rfl
  have er : ∀ k : Fin 64, ridx_main_v14 (ix3 h t s) k = ix3 h s k := fun k => funext fun a => by
    match a with | ⟨0, _⟩ => rfl | ⟨1, _⟩ => rfl | ⟨2, _⟩ => rfl
  rw [val_main_v15_apply, val_main_call1_v1_apply, val_main_call1_v2_apply, val_main_call1_v0_apply,
    val_main_cst_apply, val_main_v14_apply, em, mask_at]
  simp only [el, er, part0_at, part1_at, Ideal.ofBits_def, Ideal.ofBits_zero_f32]
  rfl

/-- The attention output: the masked scores against the values over every key position, plus the query row
    against the carried state. -/
theorem out_at (h : Fin 16) (t : Fin 4096) (e : Fin 64) :
    val_main_v18 (F := Ideal) a0 a1 a2 a3 (ix3 h t e) = Cert.Spec.out a0 a1 a2 a3 h t e := by
  have el : ∀ k : Fin 4096, lidx_main_v16 (ix3 h t e) k = ix3 h t k := fun k => funext fun a => by
    match a with | ⟨0, _⟩ => rfl | ⟨1, _⟩ => rfl | ⟨2, _⟩ => rfl
  have er : ∀ k : Fin 4096, ridx_main_v16 (ix3 h t e) k = ix3 h k e := fun k => funext fun a => by
    match a with | ⟨0, _⟩ => rfl | ⟨1, _⟩ => rfl | ⟨2, _⟩ => rfl
  have el' : ∀ k : Fin 64, lidx_main_v17 (ix3 h t e) k = ix3 h t k := fun k => funext fun a => by
    match a with | ⟨0, _⟩ => rfl | ⟨1, _⟩ => rfl | ⟨2, _⟩ => rfl
  have er' : ∀ k : Fin 64, ridx_main_v17 (ix3 h t e) k = ix3 h k e := fun k => funext fun a => by
    match a with | ⟨0, _⟩ => rfl | ⟨1, _⟩ => rfl | ⟨2, _⟩ => rfl
  rw [val_main_v18_apply, val_main_v16_apply, val_main_v17_apply]
  simp only [el, er, el', er', score_at, part2_at, part0_at, Ideal.addf_def]
  rfl

/-- The new state: the old entry plus the keys' feature `d` against the values' feature `e` over every position. -/
theorem newState_at (h : Fin 16) (d e : Fin 64) :
    val_main_v20 (F := Ideal) a0 a1 a2 a3 (ix3 h d e) = Cert.Spec.newState a0 a1 a2 a3 h d e := by
  have el : ∀ k : Fin 4096, lidx_main_v19 (ix3 h d e) k = ix3 h k d := fun k => funext fun a => by
    match a with | ⟨0, _⟩ => rfl | ⟨1, _⟩ => rfl | ⟨2, _⟩ => rfl
  have er : ∀ k : Fin 4096, ridx_main_v19 (ix3 h d e) k = ix3 h k e := fun k => funext fun a => by
    match a with | ⟨0, _⟩ => rfl | ⟨1, _⟩ => rfl | ⟨2, _⟩ => rfl
  rw [val_main_v20_apply, val_main_v19_apply]
  simp only [el, er, part1_at, part2_at, Ideal.addf_def]
  rfl

/-! ## The output projection -/

/-- The result at row `t`, column `n`. Column `j` of the re-laid attention output holds head `j / 64`, feature
    `j % 64` (the heads side by side), since [4096, 16, 64] → [4096, 1024] is row-major. -/
theorem y_at (t : Fin 4096) (n : Fin 1024) :
    val_main_v26 (F := Ideal) a0 a1 a2 a3 a4 a5 (ix2 t n) = Cert.Spec.y a0 a1 a2 a3 a4 a5 t n := by
  have el : ∀ k : Fin 1024, idx_main_v21 (idx_main_v22 (lidx_main_v23 (ix2 t n) k))
      = ix3 (Cert.Spec.headOf k) t (Cert.Spec.featOf k) := fun k => funext fun a => Fin.ext (by
    have := t.isLt; have := k.isLt
    match a with
    | ⟨0, _⟩ => show (t.val * 1024 + k.val) / 64 % 16 = k.val / 64; omega
    | ⟨1, _⟩ => show (t.val * 1024 + k.val) / 1024 = t.val; omega
    | ⟨2, _⟩ => show (t.val * 1024 + k.val) % 64 = k.val % 64; omega)
  have er : ∀ k : Fin 1024, ridx_main_v23 (ix2 t n) k = ix2 k n := fun k => funext fun a => by
    match a with | ⟨0, _⟩ => rfl | ⟨1, _⟩ => rfl
  have eb : idx_main_v24 (idx_main_v25 (ix2 t n)) = ix1 n := funext fun a => by
    match a with | ⟨0, _⟩ => rfl
  rw [val_main_v26_apply, val_main_v23_apply, val_main_v25_apply, val_main_v24_apply, eb]
  simp only [val_main_v22_apply, val_main_v21_apply, el, er, out_at, Ideal.addf_def]
  rfl

/-! ## The two results as whole arrays -/

/-- The reference's first result is the specification's new state. -/
theorem ref_newState :
    val_main_v20 (F := Ideal) a0 a1 a2 a3 = fun i => Cert.Spec.newState a0 a1 a2 a3 (i 0) (i 1) (i 2) := by
  funext i
  obtain ⟨h, d, e, rfl⟩ : ∃ (h : Fin 16) (d e : Fin 64), i = ix3 h d e := ⟨i 0, i 1, i 2, eq_ix3 i⟩
  exact newState_at a0 a1 a2 a3 h d e

/-- The reference's second result is the specification's output. -/
theorem ref_y :
    val_main_v26 (F := Ideal) a0 a1 a2 a3 a4 a5 = fun i => Cert.Spec.y a0 a1 a2 a3 a4 a5 (i 0) (i 1) := by
  funext i
  obtain ⟨t, n, rfl⟩ : ∃ (t : Fin 4096) (n : Fin 1024), i = ix2 t n := ⟨i 0, i 1, eq_ix2 i⟩
  exact y_at a0 a1 a2 a3 a4 a5 t n

end Cert.ReferenceIdeal.RefValue

end
-- ==== Proof.RefRun.lean ====
/-
  The reference's run, stated over the specification: from any memory, every weakly fair execution of the reference
  ends with its first result at the specification's new state and its second at the specification's output, both as
  functions of the six argument arrays as the run found them, and leaves those arguments unchanged. Dropping the two
  results gives the reference's frame.
-/
import proofs.«151280_j41747082117805_1_alg».proof.Defs
import proofs.«151280_j41747082117805_1_alg».proof.Proof.Gen.Pre_finite_inputs
import proofs.«151280_j41747082117805_1_alg».proof.Proof.RefValue

noncomputable section

open Idealize.ShloMosaic Idealize.ShloMosaic.TcCoe Idealize.SL.Sem

namespace Cert.ReferenceIdeal.RefValue

open Cert.ReferenceIdeal Cert.ReferenceIdeal.Gen

/-- The reference runs to the end, faults nowhere and leaves its six arguments as it found them. -/
theorem frame_ri : Cert.frame_ReferenceIdeal (hReferenceIdeal := Cert.ReferenceIdeal.Gen.facts)
    (hPre_finite_inputs := Cert.Pre_finite_inputs.Gen.facts) := fun m ρ _ =>
  (θ_run Cert.ReferenceIdeal.defs _ _).mono (fun _ h c => (h c).2.2) (Cert.ReferenceIdeal.Value.run (F := Ideal) m ρ)

/-- The reference's run with both results read as the specification of the arguments. -/
theorem run_spec (m' : (ℓ : Loc Cert.ReferenceIdeal.nD Cert.ReferenceIdeal.τ Cert.ReferenceIdeal.sig) → Buf (Elt Ideal) ℓ)
    (ρ' : Dev Cert.ReferenceIdeal.nD → PrngReg) :
    θ_run (Cert.ReferenceIdeal.defs (F := Ideal)) (onTc (τ := Cert.ReferenceIdeal.τ) (Cert.ReferenceIdeal.main (F := Ideal)))
      ⟨m', fun _ => 0, ρ'⟩ (fun r => ∀ c : Dev Cert.ReferenceIdeal.nD,
        r.2.mem ((c.tc : Thread Cert.ReferenceIdeal.nD Cert.ReferenceIdeal.τ).loc Cert.ReferenceIdeal.main_v20)
          = (fun i => Cert.Spec.newState
              (m' ((c.tc : Thread Cert.ReferenceIdeal.nD Cert.ReferenceIdeal.τ).loc Cert.ReferenceIdeal.main_arg0))
              (m' ((c.tc : Thread Cert.ReferenceIdeal.nD Cert.ReferenceIdeal.τ).loc Cert.ReferenceIdeal.main_arg1))
              (m' ((c.tc : Thread Cert.ReferenceIdeal.nD Cert.ReferenceIdeal.τ).loc Cert.ReferenceIdeal.main_arg2))
              (m' ((c.tc : Thread Cert.ReferenceIdeal.nD Cert.ReferenceIdeal.τ).loc Cert.ReferenceIdeal.main_arg3))
              (i 0) (i 1) (i 2))
        ∧ r.2.mem ((c.tc : Thread Cert.ReferenceIdeal.nD Cert.ReferenceIdeal.τ).loc Cert.ReferenceIdeal.main_v26)
          = (fun i => Cert.Spec.y
              (m' ((c.tc : Thread Cert.ReferenceIdeal.nD Cert.ReferenceIdeal.τ).loc Cert.ReferenceIdeal.main_arg0))
              (m' ((c.tc : Thread Cert.ReferenceIdeal.nD Cert.ReferenceIdeal.τ).loc Cert.ReferenceIdeal.main_arg1))
              (m' ((c.tc : Thread Cert.ReferenceIdeal.nD Cert.ReferenceIdeal.τ).loc Cert.ReferenceIdeal.main_arg2))
              (m' ((c.tc : Thread Cert.ReferenceIdeal.nD Cert.ReferenceIdeal.τ).loc Cert.ReferenceIdeal.main_arg3))
              (m' ((c.tc : Thread Cert.ReferenceIdeal.nD Cert.ReferenceIdeal.τ).loc Cert.ReferenceIdeal.main_arg4))
              (m' ((c.tc : Thread Cert.ReferenceIdeal.nD Cert.ReferenceIdeal.τ).loc Cert.ReferenceIdeal.main_arg5))
              (i 0) (i 1))
        ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
        ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
        ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
        ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
        ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
        ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)) :=
  (θ_run Cert.ReferenceIdeal.defs _ _).mono (fun _ h c =>
      ⟨(h c).1.trans ((Cert.ReferenceIdeal.Read.val_main_v20_eq _ _ _ _).trans (ref_newState _ _ _ _)),
       (h c).2.1.trans ((Cert.ReferenceIdeal.Read.val_main_v26_eq _ _ _ _ _ _).trans (ref_y _ _ _ _ _ _)),
       (h c).2.2⟩)
    (Cert.ReferenceIdeal.Value.run (F := Ideal) m' ρ')

end Cert.ReferenceIdeal.RefValue

end
-- ==== Proof.lean ====
/-
  The certificate's claims, assembled.

  The kernel runs three launches: a projection `qkv = x · Wqkv + bqkv`; causal attention with a carried state, tile by
  tile, keeping an output accumulator and a state accumulator across the grid; and an output projection
  `y = out · Wout + bout`. The reference computes the same quantities with whole-array operations. On the extended reals
  both are the functions of `Cert.Spec`: the kernel's tiles regroup the reference's sums (addition there is commutative
  and associative, and a masked score is `0`, which annihilates its term), so no entry needs to be finite.

  Each program's frame — it runs to the end, faults nowhere, leaves its arguments as launched — comes from its run over
  @main's six segments (three host stretches, three launches); the word-level program's is the same argument read at
  words. The ideal pass rewrote nothing, so there is nothing to preserve. The value claim puts the kernel's run and the
  reference's run side by side at the specification's two results.
-/
import proofs.«151280_j41747082117805_1_alg».proof.Defs
import proofs.«151280_j41747082117805_1_alg».proof.Proof.Bits.MainRun
import proofs.«151280_j41747082117805_1_alg».proof.Proof.KernelValue
import proofs.«151280_j41747082117805_1_alg».proof.Proof.RefRun
import Idealize.ShloMosaic.Adequacy
import Idealize.ShloMosaic.Init

noncomputable section

namespace Cert.Proof

open Idealize.ShloMosaic Idealize.SL.Sem

/-- The word-level program runs and leaves its arguments as launched. -/
theorem frame_k : Cert.frame_Kernel (hKernel := Cert.Kernel.Gen.facts) (hPre_finite_inputs := Cert.Pre_finite_inputs.Gen.facts) :=
  fun m ρ _ => Cert.Kernel.Hand.frame (F := Bits) m ρ

/-- So does the program read on the extended reals. -/
theorem frame_ki : Cert.frame_KernelIdeal (hKernelIdeal := Cert.KernelIdeal.Gen.facts) (hPre_finite_inputs := Cert.Pre_finite_inputs.Gen.facts) :=
  fun m ρ _ => Cert.KernelIdeal.Hand.frame (F := Ideal) m ρ

/-- Both programs end with the specification's new state and result of arguments that agree. -/
theorem algebraic : Cert.algebraic_KernelIdeal_ReferenceIdeal (hKernelIdeal := Cert.KernelIdeal.Gen.facts)
    (hReferenceIdeal := Cert.ReferenceIdeal.Gen.facts) (hPre_finite_inputs := Cert.Pre_finite_inputs.Gen.facts) := by
  intro m ρ m' ρ' _ hagree
  refine ⟨_, _, Cert.KernelIdeal.Hand.run_spec_kernel m ρ, ?_⟩
  refine (θ_run Cert.ReferenceIdeal.defs _ _).mono (fun _ h c => ?_) (Cert.ReferenceIdeal.RefValue.run_spec m' ρ')
  obtain ⟨h1, h2, h3⟩ := h c
  refine ⟨h1.trans ?_, h2.trans ?_, h3⟩
  · rw [(hagree c).1, (hagree c).2.1, (hagree c).2.2.1, (hagree c).2.2.2.1]; rfl
  · rw [(hagree c).1, (hagree c).2.1, (hagree c).2.2.1, (hagree c).2.2.2.1, (hagree c).2.2.2.2.1, (hagree c).2.2.2.2.2]; rfl

theorem claim : Cert.Claim := ⟨Cert.Kernel.Gen.facts, Cert.KernelIdeal.Gen.facts, Cert.ReferenceIdeal.Gen.facts, Cert.Pre_finite_inputs.Gen.facts,
  frame_k, frame_ki, Cert.ReferenceIdeal.RefValue.frame_ri, trivial, algebraic⟩

end Cert.Proof

end
